-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.blockN ⟨2, ![1024, 64]⟩ ⟨2, ![1024, 128]⟩ (Layout.meshBlock [2, 2, 2] ![[], [1]] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.blockN ⟨2, ![64, 1024]⟩ ⟨2, ![128, 1024]⟩ (Layout.meshBlock [2, 2, 2] ![[1], []] c) (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.blockN ⟨2, ![64, 1024]⟩ ⟨2, ![128, 1024]⟩ (Layout.meshBlock [2, 2, 2] ![[1], []] c) (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)
      ∧ m ((c.tc : Thread Cert.KernelIdeal.nD Cert.KernelIdeal.τ).loc Cert.KernelIdeal.main_arg5) = m' (((0 : Dev Cert.ReferenceIdeal.nD).tc : Thread Cert.ReferenceIdeal.nD Cert.ReferenceIdeal.τ).loc Cert.ReferenceIdeal.main_arg5)
      ∧ m ((c.tc : Thread Cert.KernelIdeal.nD Cert.KernelIdeal.τ).loc Cert.KernelIdeal.main_arg6) = m' (((0 : Dev Cert.ReferenceIdeal.nD).tc : Thread Cert.ReferenceIdeal.nD Cert.ReferenceIdeal.τ).loc Cert.ReferenceIdeal.main_arg6)
      ∧ m ((c.tc : Thread Cert.KernelIdeal.nD Cert.KernelIdeal.τ).loc Cert.KernelIdeal.main_arg7) = m' (((0 : Dev Cert.ReferenceIdeal.nD).tc : Thread Cert.ReferenceIdeal.nD Cert.ReferenceIdeal.τ).loc Cert.ReferenceIdeal.main_arg7)) →
    ∃ (v0 : Buf (Elt Ideal) (((0 : Dev Cert.ReferenceIdeal.nD).tc : Thread Cert.ReferenceIdeal.nD Cert.ReferenceIdeal.τ).loc Cert.ReferenceIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v29) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4)
          ∧ r.2.mem (((0 : Dev Cert.ReferenceIdeal.nD).tc : Thread Cert.ReferenceIdeal.nD Cert.ReferenceIdeal.τ).loc Cert.ReferenceIdeal.main_arg5) = m' (((0 : Dev Cert.ReferenceIdeal.nD).tc : Thread Cert.ReferenceIdeal.nD Cert.ReferenceIdeal.τ).loc Cert.ReferenceIdeal.main_arg5)
          ∧ r.2.mem (((0 : Dev Cert.ReferenceIdeal.nD).tc : Thread Cert.ReferenceIdeal.nD Cert.ReferenceIdeal.τ).loc Cert.ReferenceIdeal.main_arg6) = m' (((0 : Dev Cert.ReferenceIdeal.nD).tc : Thread Cert.ReferenceIdeal.nD Cert.ReferenceIdeal.τ).loc Cert.ReferenceIdeal.main_arg6)
          ∧ r.2.mem (((0 : Dev Cert.ReferenceIdeal.nD).tc : Thread Cert.ReferenceIdeal.nD Cert.ReferenceIdeal.τ).loc Cert.ReferenceIdeal.main_arg7) = m' (((0 : Dev Cert.ReferenceIdeal.nD).tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S2x256x1024 : Shape := ⟨3, ![2, 256, 1024]⟩
abbrev S1024x64 : Shape := ⟨2, ![1024, 64]⟩
abbrev S64x1024 : Shape := ⟨2, ![64, 1024]⟩
abbrev S1024x1024 : Shape := ⟨2, ![1024, 1024]⟩
abbrev S1024x512 : Shape := ⟨2, ![1024, 512]⟩
abbrev S1024x32 : Shape := ⟨2, ![1024, 32]⟩
abbrev S_ : Shape := ⟨0, ![]⟩

class Facts : Prop where
  bcast_S_S2x256x1024 : S_.BroadcastsInDim S2x256x1024 (![] : Fin 0 → Fin S2x256x1024.rank)
  reducesTo_S2x256x1024_S_d0_1_2 : S2x256x1024.ReducesTo [0, 1, 2] S_
  h_S_ : 0 < S_.numel
  bcast_S_S1024x64 : S_.BroadcastsInDim S1024x64 (![] : Fin 0 → Fin S1024x64.rank)
  reducesTo_S1024x64_S_d0_1 : S1024x64.ReducesTo [0, 1] S_
  bcast_S_S64x1024 : S_.BroadcastsInDim S64x1024 (![] : Fin 0 → Fin S64x1024.rank)
  reducesTo_S64x1024_S_d0_1 : S64x1024.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S1024x512 : S_.BroadcastsInDim S1024x512 (![] : Fin 0 → Fin S1024x512.rank)
  reducesTo_S1024x512_S_d0_1 : S1024x512.ReducesTo [0, 1] S_
  bcast_S_S1024x32 : S_.BroadcastsInDim S1024x32 (![] : Fin 0 → Fin S1024x32.rank)
  reducesTo_S1024x32_S_d0_1 : S1024x32.ReducesTo [0, 1] S_

variable [Facts]

def fn_part2 {F : FTy → Type} [FloatOps F] (main_arg7 : FVec F S1024x1024 .f32) (main_v33 : IVec S_ 1) : IVec S_ 1 :=
  let main_v34 : FVec F S1024x1024 .f32 := Host.absf main_arg7
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  main_v38

def fn_part1 {F : FTy → Type} [FloatOps F] (main_arg4 : FVec F S1024x1024 .f32) (main_arg5 : FVec F S1024x512 .f32) (main_arg6 : FVec F S1024x32 .f32) (main_arg7 : FVec F S1024x1024 .f32) (main_v13 : IVec S_ 1) (main_v16 : IVec S64x1024 1) : IVec S_ 1 :=
  let main_c_5 : IVec S_ 1 := constantI S_ 1 1#1
  let main_v17 : IVec S_ 1 := (fun x v => Host.reduce IntOp.andi x v reducesTo_S64x1024_S_d0_1 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024x512 .f32 := Host.absf main_arg5
  let main_cst_8 : FVec F S_ .f32 := constant S_ .f32 0x7F800000#32
  let main_v25 : FVec F S1024x512 .f32 := broadcastInDim S1024x512 ![] bcast_S_S1024x512 main_cst_8
  let main_v26 : IVec S1024x512 1 := cmpf .olt main_v24 main_v25
  let main_c_9 : IVec S_ 1 := constantI S_ 1 1#1
  let main_v27 : IVec S_ 1 := (fun x v => Host.reduce IntOp.andi x v reducesTo_S1024x512_S_d0_1 h_S_) main_v26 main_c_9
  let main_v28 : IVec S_ 1 := andi main_v23 main_v27
  let main_v29 : FVec F S1024x32 .f32 := Host.absf main_arg6
  let main_cst_10 : FVec F S_ .f32 := constant S_ .f32 0x7F800000#32
  let main_v30 : FVec F S1024x32 .f32 := broadcastInDim S1024x32 ![] bcast_S_S1024x32 main_cst_10
  let main_v31 : IVec S1024x32 1 := cmpf .olt main_v29 main_v30
  let main_c_11 : IVec S_ 1 := constantI S_ 1 1#1
  let main_v32 : IVec S_ 1 := (fun x v => Host.reduce IntOp.andi x v reducesTo_S1024x32_S_d0_1 h_S_) main_v31 main_c_11
  let main_v33 : IVec S_ 1 := andi main_v28 main_v32
  fn_part2 (F := F) main_arg7 main_v33

def fn {F : FTy → Type} [FloatOps F] (main_arg0 : FVec F S2x256x1024 .f32) (main_arg1 : FVec F S1024x64 .f32) (main_arg2 : FVec F S64x1024 .f32) (main_arg3 : FVec F S64x1024 .f32) (main_arg4 : FVec F S1024x1024 .f32) (main_arg5 : FVec F S1024x512 .f32) (main_arg6 : FVec F S1024x32 .f32) (main_arg7 : FVec F S1024x1024 .f32) : IVec S_ 1 :=
  let main_v0 : FVec F S2x256x1024 .f32 := Host.absf main_arg0
  let main_cst : FVec F S_ .f32 := constant S_ .f32 0x7F800000#32
  let main_v1 : FVec F S2x256x1024 .f32 := broadcastInDim S2x256x1024 ![] bcast_S_S2x256x1024 main_cst
  let main_v2 : IVec S2x256x1024 1 := cmpf .olt main_v0 main_v1
  let main_c : IVec S_ 1 := constantI S_ 1 1#1
  let main_v3 : IVec S_ 1 := (fun x v => Host.reduce IntOp.andi x v reducesTo_S2x256x1024_S_d0_1_2 h_S_) main_v2 main_c
  let main_v4 : FVec F S1024x64 .f32 := Host.absf main_arg1
  let main_cst_0 : FVec F S_ .f32 := constant S_ .f32 0x7F800000#32
  let main_v5 : FVec F S1024x64 .f32 := broadcastInDim S1024x64 ![] bcast_S_S1024x64 main_cst_0
  let main_v6 : IVec S1024x64 1 := cmpf .olt main_v4 main_v5
  let main_c_1 : IVec S_ 1 := constantI S_ 1 1#1
  let main_v7 : IVec S_ 1 := (fun x v => Host.reduce IntOp.andi x v reducesTo_S1024x64_S_d0_1 h_S_) main_v6 main_c_1
  let main_v8 : IVec S_ 1 := andi main_v3 main_v7
  let main_v9 : FVec F S64x1024 .f32 := Host.absf main_arg2
  let main_cst_2 : FVec F S_ .f32 := constant S_ .f32 0x7F800000#32
  let main_v10 : FVec F S64x1024 .f32 := broadcastInDim S64x1024 ![] bcast_S_S64x1024 main_cst_2
  let main_v11 : IVec S64x1024 1 := cmpf .olt main_v9 main_v10
  let main_c_3 : IVec S_ 1 := constantI S_ 1 1#1
  let main_v12 : IVec S_ 1 := (fun x v => Host.reduce IntOp.andi x v reducesTo_S64x1024_S_d0_1 h_S_) main_v11 main_c_3
  let main_v13 : IVec S_ 1 := andi main_v8 main_v12
  let main_v14 : FVec F S64x1024 .f32 := Host.absf main_arg3
  let main_cst_4 : FVec F S_ .f32 := constant S_ .f32 0x7F800000#32
  let main_v15 : FVec F S64x1024 .f32 := broadcastInDim S64x1024 ![] bcast_S_S64x1024 main_cst_4
  let main_v16 : IVec S64x1024 1 := cmpf .olt main_v14 main_v15
  fn_part1 (F := F) main_arg4 main_arg5 main_arg6 main_arg7 main_v13 main_v16
-- ==== Pre_finite_inputs_ReferenceIdeal.lean ====
abbrev S2x256x1024 : Shape := ⟨3, ![2, 256, 1024]⟩
abbrev S1024x128 : Shape := ⟨2, ![1024, 128]⟩
abbrev S128x1024 : Shape := ⟨2, ![128, 1024]⟩
abbrev S1024x1024 : Shape := ⟨2, ![1024, 1024]⟩
abbrev S1024x512 : Shape := ⟨2, ![1024, 512]⟩
abbrev S1024x32 : Shape := ⟨2, ![1024, 32]⟩
abbrev S_ : Shape := ⟨0, ![]⟩

class Facts : Prop where
  bcast_S_S2x256x1024 : S_.BroadcastsInDim S2x256x1024 (![] : Fin 0 → Fin S2x256x1024.rank)
  reducesTo_S2x256x1024_S_d0_1_2 : S2x256x1024.ReducesTo [0, 1, 2] S_
  h_S_ : 0 < S_.numel
  bcast_S_S1024x128 : S_.BroadcastsInDim S1024x128 (![] : Fin 0 → Fin S1024x128.rank)
  reducesTo_S1024x128_S_d0_1 : S1024x128.ReducesTo [0, 1] S_
  bcast_S_S128x1024 : S_.BroadcastsInDim S128x1024 (![] : Fin 0 → Fin S128x1024.rank)
  reducesTo_S128x1024_S_d0_1 : S128x1024.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S1024x512 : S_.BroadcastsInDim S1024x512 (![] : Fin 0 → Fin S1024x512.rank)
  reducesTo_S1024x512_S_d0_1 : S1024x512.ReducesTo [0, 1] S_
  bcast_S_S1024x32 : S_.BroadcastsInDim S1024x32 (![] : Fin 0 → Fin S1024x32.rank)
  reducesTo_S1024x32_S_d0_1 : S1024x32.ReducesTo [0, 1] S_

variable [Facts]

def fn_part2 {F : FTy → Type} [FloatOps F] (main_arg7 : FVec F S1024x1024 .f32) (main_v33 : IVec S_ 1) : IVec S_ 1 :=
  let main_v34 : FVec F S1024x1024 .f32 := Host.absf main_arg7
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  main_v38

def fn_part1 {F : FTy → Type} [FloatOps F] (main_arg4 : FVec F S1024x1024 .f32) (main_arg5 : FVec F S1024x512 .f32) (main_arg6 : FVec F S1024x32 .f32) (main_arg7 : FVec F S1024x1024 .f32) (main_v13 : IVec S_ 1) (main_v16 : IVec S128x1024 1) : IVec S_ 1 :=
  let main_c_5 : IVec S_ 1 := constantI S_ 1 1#1
  let main_v17 : IVec S_ 1 := (fun x v => Host.reduce IntOp.andi x v reducesTo_S128x1024_S_d0_1 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024x512 .f32 := Host.absf main_arg5
  let main_cst_8 : FVec F S_ .f32 := constant S_ .f32 0x7F800000#32
  let main_v25 : FVec F S1024x512 .f32 := broadcastInDim S1024x512 ![] bcast_S_S1024x512 main_cst_8
  let main_v26 : IVec S1024x512 1 := cmpf .olt main_v24 main_v25
  let main_c_9 : IVec S_ 1 := constantI S_ 1 1#1
  let main_v27 : IVec S_ 1 := (fun x v => Host.reduce IntOp.andi x v reducesTo_S1024x512_S_d0_1 h_S_) main_v26 main_c_9
  let main_v28 : IVec S_ 1 := andi main_v23 main_v27
  let main_v29 : FVec F S1024x32 .f32 := Host.absf main_arg6
  let main_cst_10 : FVec F S_ .f32 := constant S_ .f32 0x7F800000#32
  let main_v30 : FVec F S1024x32 .f32 := broadcastInDim S1024x32 ![] bcast_S_S1024x32 main_cst_10
  let main_v31 : IVec S1024x32 1 := cmpf .olt main_v29 main_v30
  let main_c_11 : IVec S_ 1 := constantI S_ 1 1#1
  let main_v32 : IVec S_ 1 := (fun x v => Host.reduce IntOp.andi x v reducesTo_S1024x32_S_d0_1 h_S_) main_v31 main_c_11
  let main_v33 : IVec S_ 1 := andi main_v28 main_v32
  fn_part2 (F := F) main_arg7 main_v33

def fn {F : FTy → Type} [FloatOps F] (main_arg0 : FVec F S2x256x1024 .f32) (main_arg1 : FVec F S1024x128 .f32) (main_arg2 : FVec F S128x1024 .f32) (main_arg3 : FVec F S128x1024 .f32) (main_arg4 : FVec F S1024x1024 .f32) (main_arg5 : FVec F S1024x512 .f32) (main_arg6 : FVec F S1024x32 .f32) (main_arg7 : FVec F S1024x1024 .f32) : IVec S_ 1 :=
  let main_v0 : FVec F S2x256x1024 .f32 := Host.absf main_arg0
  let main_cst : FVec F S_ .f32 := constant S_ .f32 0x7F800000#32
  let main_v1 : FVec F S2x256x1024 .f32 := broadcastInDim S2x256x1024 ![] bcast_S_S2x256x1024 main_cst
  let main_v2 : IVec S2x256x1024 1 := cmpf .olt main_v0 main_v1
  let main_c : IVec S_ 1 := constantI S_ 1 1#1
  let main_v3 : IVec S_ 1 := (fun x v => Host.reduce IntOp.andi x v reducesTo_S2x256x1024_S_d0_1_2 h_S_) main_v2 main_c
  let main_v4 : FVec F S1024x128 .f32 := Host.absf main_arg1
  let main_cst_0 : FVec F S_ .f32 := constant S_ .f32 0x7F800000#32
  let main_v5 : FVec F S1024x128 .f32 := broadcastInDim S1024x128 ![] bcast_S_S1024x128 main_cst_0
  let main_v6 : IVec S1024x128 1 := cmpf .olt main_v4 main_v5
  let main_c_1 : IVec S_ 1 := constantI S_ 1 1#1
  let main_v7 : IVec S_ 1 := (fun x v => Host.reduce IntOp.andi x v reducesTo_S1024x128_S_d0_1 h_S_) main_v6 main_c_1
  let main_v8 : IVec S_ 1 := andi main_v3 main_v7
  let main_v9 : FVec F S128x1024 .f32 := Host.absf main_arg2
  let main_cst_2 : FVec F S_ .f32 := constant S_ .f32 0x7F800000#32
  let main_v10 : FVec F S128x1024 .f32 := broadcastInDim S128x1024 ![] bcast_S_S128x1024 main_cst_2
  let main_v11 : IVec S128x1024 1 := cmpf .olt main_v9 main_v10
  let main_c_3 : IVec S_ 1 := constantI S_ 1 1#1
  let main_v12 : IVec S_ 1 := (fun x v => Host.reduce IntOp.andi x v reducesTo_S128x1024_S_d0_1 h_S_) main_v11 main_c_3
  let main_v13 : IVec S_ 1 := andi main_v8 main_v12
  let main_v14 : FVec F S128x1024 .f32 := Host.absf main_arg3
  let main_cst_4 : FVec F S_ .f32 := constant S_ .f32 0x7F800000#32
  let main_v15 : FVec F S128x1024 .f32 := broadcastInDim S128x1024 ![] bcast_S_S128x1024 main_cst_4
  let main_v16 : IVec S128x1024 1 := cmpf .olt main_v14 main_v15
  fn_part1 (F := F) main_arg4 main_arg5 main_arg6 main_arg7 main_v13 main_v16
-- ==== Kernel.lean ====
abbrev S2x256x1024 : Shape := ⟨3, ![2, 256, 1024]⟩
abbrev S1024x64 : Shape := ⟨2, ![1024, 64]⟩
abbrev S64x1024 : Shape := ⟨2, ![64, 1024]⟩
abbrev S1024x1024 : Shape := ⟨2, ![1024, 1024]⟩
abbrev S1024x512 : Shape := ⟨2, ![1024, 512]⟩
abbrev S1024x32 : Shape := ⟨2, ![1024, 32]⟩
abbrev S64x512 : Shape := ⟨2, ![64, 512]⟩
abbrev S64x2048 : Shape := ⟨2, ![64, 2048]⟩
abbrev S1024x1568 : Shape := ⟨2, ![1024, 1568]⟩
abbrev S2 : Shape := ⟨1, ![2]⟩
abbrev S_ : Shape := ⟨0, ![]⟩
abbrev S1 : Shape := ⟨1, ![1]⟩
abbrev S512x1024 : Shape := ⟨2, ![512, 1024]⟩
abbrev S1568x512 : Shape := ⟨2, ![1568, 512]⟩
abbrev S512x512 : Shape := ⟨2, ![512, 512]⟩
abbrev S32x512 : Shape := ⟨2, ![32, 512]⟩
abbrev S512x256 : Shape := ⟨2, ![512, 256]⟩
abbrev S16x32x256 : Shape := ⟨3, ![16, 32, 256]⟩
abbrev S32x256 : Shape := ⟨2, ![32, 256]⟩
abbrev S1x32x256 : Shape := ⟨3, ![1, 32, 256]⟩
abbrev S16x256x256 : Shape := ⟨3, ![16, 256, 256]⟩
abbrev S128x512 : Shape := ⟨2, ![128, 512]⟩
abbrev S128x2048 : Shape := ⟨2, ![128, 2048]⟩
abbrev S2048x512 : Shape := ⟨2, ![2048, 512]⟩
abbrev S1024x256 : Shape := ⟨2, ![1024, 256]⟩
abbrev S16x64x256 : Shape := ⟨3, ![16, 64, 256]⟩
abbrev S16x256 : Shape := ⟨2, ![16, 256]⟩
abbrev S16x1x256 : Shape := ⟨3, ![16, 1, 256]⟩

abbrev nBuf : Space → Nat
  | .hbm => 9
  | .vmem => 14
  | .smem => 0
  | _ => 0

abbrev bufTy : (tb : Table) → Fin (tcTables nBuf tb) → BufTy
  | .hbm, ⟨0, _⟩ => ⟨S2x256x1024, .f32⟩
  | .hbm, ⟨1, _⟩ => ⟨S1024x64, .f32⟩
  | .hbm, ⟨2, _⟩ => ⟨S64x1024, .f32⟩
  | .hbm, ⟨3, _⟩ => ⟨S64x1024, .f32⟩
  | .hbm, ⟨4, _⟩ => ⟨S1024x1024, .f32⟩
  | .hbm, ⟨5, _⟩ => ⟨S1024x512, .f32⟩
  | .hbm, ⟨6, _⟩ => ⟨S1024x32, .f32⟩
  | .hbm, ⟨7, _⟩ => ⟨S1024x1024, .f32⟩
  | .hbm, ⟨8, _⟩ => ⟨S2x256x1024, .f32⟩
  | .local _ .vmem, ⟨0, _⟩ => ⟨S2x256x1024, .f32⟩
  | .local _ .vmem, ⟨1, _⟩ => ⟨S1024x64, .f32⟩
  | .local _ .vmem, ⟨2, _⟩ => ⟨S64x1024, .f32⟩
  | .local _ .vmem, ⟨3, _⟩ => ⟨S64x1024, .f32⟩
  | .local _ .vmem, ⟨4, _⟩ => ⟨S1024x1024, .f32⟩
  | .local _ .vmem, ⟨5, _⟩ => ⟨S1024x512, .f32⟩
  | .local _ .vmem, ⟨6, _⟩ => ⟨S1024x32, .f32⟩
  | .local _ .vmem, ⟨7, _⟩ => ⟨S1024x1024, .f32⟩
  | .local _ .vmem, ⟨8, _⟩ => ⟨S2x256x1024, .f32⟩
  | .local _ .vmem, ⟨9, _⟩ => ⟨S64x512, .bf16⟩
  | .local _ .vmem, ⟨10, _⟩ => ⟨S64x512, .bf16⟩
  | .local _ .vmem, ⟨11, _⟩ => ⟨S64x2048, .bf16⟩
  | .local _ .vmem, ⟨12, _⟩ => ⟨S64x2048, .bf16⟩
  | .local _ .vmem, ⟨13, _⟩ => ⟨S1024x1568, .bf16⟩
  | _, _ => ⟨S2x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 1 → Bool
  | ⟨0, _⟩ => false
  | _ => false

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  { ofTc nBuf bufTy 1 13 bufScoped semScoped dmaSemScoped tileCredit tileCredit_eq_zero tileCredit_pos with
    barrierSem := RefSig.barrierTable [(0, 0)]
    barrierSem_unscoped := RefSig.barrierTable_unscoped [(0, 0)] semScoped rfl }

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v1 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_scratch3 : Ref sig .tc := ⟨.vmem, 12, rfl⟩
abbrev cc0_scratch4 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_5 : BitVec 32 := 4#32
  let v11 : BitVec 32 := Scalar.muli v2 c4_i32_5
  let v12 : BitVec 32 := Scalar.addi c0_i32 v11
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_6 : BitVec 32 := 2#32
  let v13 : BitVec 32 := Scalar.muli v9 c2_i32_6
  let v14 : BitVec 32 := Scalar.addi v12 v13
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_7 : BitVec 32 := 1#32
  let v15 : BitVec 32 := Scalar.muli v8 c1_i32_7
  let v16 : BitVec 32 := Scalar.addi v14 v15
  v16.toNat
def k0_dev2 (d0 : Dev nD) : Nat :=
  let c0_i32_18 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_17 : BitVec 32 := 4#32
  let v29 : BitVec 32 := Scalar.muli v2 c4_i32_17
  let v30 : BitVec 32 := Scalar.addi c0_i32_18 v29
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_19 : BitVec 32 := 2#32
  let v31 : BitVec 32 := Scalar.muli v9 c2_i32_19
  let v32 : BitVec 32 := Scalar.addi v30 v31
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_20 : BitVec 32 := 1#32
  let v33 : BitVec 32 := Scalar.muli v8 c1_i32_20
  let v34 : BitVec 32 := Scalar.addi v32 v33
  v34.toNat
def k0_dev3 (d0 : Dev nD) : Nat :=
  let c0_i32_31 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_30 : BitVec 32 := 4#32
  let v52 : BitVec 32 := Scalar.muli v2 c4_i32_30
  let v53 : BitVec 32 := Scalar.addi c0_i32_31 v52
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_32 : BitVec 32 := 2#32
  let v54 : BitVec 32 := Scalar.muli v9 c2_i32_32
  let v55 : BitVec 32 := Scalar.addi v53 v54
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_33 : BitVec 32 := 1#32
  let v56 : BitVec 32 := Scalar.muli v8 c1_i32_33
  let v57 : BitVec 32 := Scalar.addi v55 v56
  v57.toNat
abbrev stage0_0 : Fin 1 → Memref sig .tc .vmem S2x256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S64x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S64x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1024x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1024x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1024x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2x256x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

class Facts₀ : Prop where
  hamt_1 : (1#32 : BitVec 32).msb = false
  inb_S64x1024_S64x1024_0_0 : ∀ a, (![0, 0] : Fin 2 → Nat) a + S64x1024.size a ≤ S64x1024.size a
  h_S64x1024 : 0 < S64x1024.numel
  shapeCasts_S64x1024_S64x1024 : S64x1024.ShapeCasts S64x1024
  bitsLt_bf16_f32 : FTy.bits .bf16 < FTy.bits .f32
  inb_S64x2048_S64x1024_0_0 : ∀ a, (![0, 0] : Fin 2 → Nat) a + S64x1024.size a ≤ S64x2048.size a
  packedbf16_S64x2048_S64x1024_0_0 : (Rect.unit (s := S64x2048) ![0, 0] S64x1024.size inb_S64x2048_S64x1024_0_0).PackedRows (EltTy.packing .bf16)
  inb_S64x2048_S64x1024_0_1024 : ∀ a, (![0, 1024] : Fin 2 → Nat) a + S64x1024.size a ≤ S64x2048.size a
  packedbf16_S64x2048_S64x1024_0_1024 : (Rect.unit (s := S64x2048) ![0, 1024] S64x1024.size inb_S64x2048_S64x1024_0_1024).PackedRows (EltTy.packing .bf16)
  inb_S2_S1_1 : ∀ a, (![1] : Fin 1 → Nat) a + S1.size a ≤ S2.size a
  squeezes_S1_S_ : S1.Squeezes S_
  inb_S2x256x1024_S2x256x1024_0_0_0 : ∀ a, (![0, 0, 0] : Fin 3 → Nat) a + S2x256x1024.size a ≤ S2x256x1024.size a
  h_S2x256x1024 : 0 < S2x256x1024.numel
  shapeCasts_S2x256x1024_S2x256x1024 : S2x256x1024.ShapeCasts S2x256x1024
  shapeCasts_S2x256x1024_S512x1024 : S2x256x1024.ShapeCasts S512x1024
  transposes_S512x1024_p1_0_S1024x512 : S512x1024.Transposes [1, 0] S1024x512
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  inb_S64x512_S64x512_0_0 : ∀ a, (![0, 0] : Fin 2 → Nat) a + S64x512.size a ≤ S64x512.size a
  h_S64x512 : 0 < S64x512.numel
  shapeCasts_S64x512_S64x512 : S64x512.ShapeCasts S64x512
  packedbf16_S64x512_S64x512_0_0 : (Rect.unit (s := S64x512) ![0, 0] S64x512.size inb_S64x512_S64x512_0_0).PackedRows (EltTy.packing .bf16)
  inb_S2_S1_0 : ∀ a, (![0] : Fin 1 → Nat) a + S1.size a ≤ S2.size a
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x1568_S1024x1024_0_0 : ∀ a, (![0, 0] : Fin 2 → Nat) a + S1024x1024.size a ≤ S1024x1568.size a
  packedbf16_S1024x1568_S1024x1024_0_0 : (Rect.unit (s := S1024x1568) ![0, 0] S1024x1024.size inb_S1024x1568_S1024x1024_0_0).PackedRows (EltTy.packing .bf16)
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1024x1568_S1024x512_0_1024 : ∀ a, (![0, 1024] : Fin 2 → Nat) a + S1024x512.size a ≤ S1024x1568.size a
  packedbf16_S1024x1568_S1024x512_0_1024 : (Rect.unit (s := S1024x1568) ![0, 1024] S1024x512.size inb_S1024x1568_S1024x512_0_1024).PackedRows (EltTy.packing .bf16)
  inb_S1024x32_S1024x32_0_0 : ∀ a, (![0, 0] : Fin 2 → Nat) a + S1024x32.size a ≤ S1024x32.size a
  h_S1024x32 : 0 < S1024x32.numel
  shapeCasts_S1024x32_S1024x32 : S1024x32.ShapeCasts S1024x32
  inb_S1024x1568_S1024x32_0_1536 : ∀ a, (![0, 1536] : Fin 2 → Nat) a + S1024x32.size a ≤ S1024x1568.size a
  packedbf16_S1024x1568_S1024x32_0_1536 : (Rect.unit (s := S1024x1568) ![0, 1536] S1024x32.size inb_S1024x1568_S1024x32_0_1536).PackedRows (EltTy.packing .bf16)
  inb_S1024x1568_S1024x1568_0_0 : ∀ a, (![0, 0] : Fin 2 → Nat) a + S1024x1568.size a ≤ S1024x1568.size a
  h_S1024x1568 : 0 < S1024x1568.numel
  slices_S1568x512_o0_0_S1024x512 : S1568x512.Slices ![0, 0] S1024x512
  slices_S1568x512_o1024_0_S512x512 : S1568x512.Slices ![1024, 0] S512x512
  slices_S1568x512_o1536_0_S32x512 : S1568x512.Slices ![1536, 0] S32x512
  slices_S512x512_o0_0_S512x256 : S512x512.Slices ![0, 0] S512x256
  shapeCasts_S512x256_S16x32x256 : S512x256.ShapeCasts S16x32x256
  slices_S32x512_o0_0_S32x256 : S32x512.Slices ![0, 0] S32x256
  shapeCasts_S32x256_S1x32x256 : S32x256.ShapeCasts S1x32x256
  shapeCasts_S1x32x256_S1x32x256 : S1x32x256.ShapeCasts S1x32x256
  broadcasts_S1x32x256_S16x32x256 : S1x32x256.Broadcasts S16x32x256
  slices_S512x512_o0_256_S512x256 : S512x512.Slices ![0, 256] S512x256
  slices_S32x512_o0_256_S32x256 : S32x512.Slices ![0, 256] S32x256
  concatenates_S64x512_S64x512_S128x512_d0 : Shape.Concatenates [S64x512, S64x512] S128x512 0
  inb_S64x2048_S64x2048_0_0 : ∀ a, (![0, 0] : Fin 2 → Nat) a + S64x2048.size a ≤ S64x2048.size a
  h_S64x2048 : 0 < S64x2048.numel
  concatenates_S64x2048_S64x2048_S128x2048_d0 : Shape.Concatenates [S64x2048, S64x2048] S128x2048 0
  slices_S2048x512_o0_0_S1024x512 : S2048x512.Slices ![0, 0] S1024x512
  slices_S2048x512_o1024_0_S1024x512 : S2048x512.Slices ![1024, 0] S1024x512
  slices_S1024x512_o0_0_S1024x256 : S1024x512.Slices ![0, 0] S1024x256
  shapeCasts_S1024x256_S16x64x256 : S1024x256.ShapeCasts S16x64x256
  reduces_S16x256x256_S16x256 : S16x256x256.Reduces [2] S16x256
  shapeCasts_S16x256_S16x1x256 : S16x256.ShapeCasts S16x1x256
  broadcasts_S16x1x256_S16x64x256 : S16x1x256.Broadcasts S16x64x256
  shapeCasts_S16x64x256_S1024x256 : S16x64x256.ShapeCasts S1024x256
  slices_S1024x512_o0_256_S1024x256 : S1024x512.Slices ![0, 256] S1024x256
  concatenates_S1024x256_S1024x256_S1024x512_d1 : Shape.Concatenates [S1024x256, S1024x256] S1024x512 1
  shapeCasts_S512x1024_S2x256x1024 : S512x1024.ShapeCasts S2x256x1024
  dot_S1024x64_S1024x512_S64x512_0_0_1_1_n_n_wf : DotDims.WF S1024x64 S1024x512 S64x512 [0] [0] [1] [1] [] []
  dot_S1024x1568_S1024x512_S1568x512_0_0_1_1_n_n_wf : DotDims.WF S1024x1568 S1024x512 S1568x512 [0] [0] [1] [1] [] []
  dot_S16x32x256_S16x32x256_S16x256x256_1_1_2_2_0_0_wf : DotDims.WF S16x32x256 S16x32x256 S16x256x256 [1] [1] [2] [2] [0] [0]
  dot_S128x2048_S128x512_S2048x512_0_0_1_1_n_n_wf : DotDims.WF S128x2048 S128x512 S2048x512 [0] [0] [1] [1] [] []
  dot_S16x64x256_S16x64x256_S16x256x256_1_1_2_2_0_0_wf : DotDims.WF S16x64x256 S16x64x256 S16x256x256 [1] [1] [2] [2] [0] [0]
  dot_S16x64x256_S16x256x256_S16x64x256_2_2_1_1_0_0_wf : DotDims.WF S16x64x256 S16x256x256 S16x64x256 [2] [2] [1] [1] [0] [0]
  dot_S1024x512_S1024x1024_S512x1024_0_0_1_1_n_n_wf : DotDims.WF S1024x512 S1024x1024 S512x1024 [0] [0] [1] [1] [] []
  hcc0_scratch5 : 9 + S2.numel ≤ 13
  hcc0_scratch6 : 11 + S2.numel ≤ 13
  k0_dev1_lt : ∀ d0 : Dev nD, (k0_dev1 d0) < nD
  k0_dev2_lt : ∀ d0 : Dev nD, (k0_dev2 d0) < nD
  k0_dev3_lt : ∀ d0 : Dev nD, (k0_dev3 d0) < nD
  hstage0_0 : ∀ j, (stage0_0 j).IsWhole
  hstage0_1 : ∀ j, (stage0_1 j).IsWhole
  hstage0_2 : ∀ j, (stage0_2 j).IsWhole
  hstage0_3 : ∀ j, (stage0_3 j).IsWhole
  hstage0_4 : ∀ j, (stage0_4 j).IsWhole
  hstage0_5 : ∀ j, (stage0_5 j).IsWhole
  hstage0_6 : ∀ j, (stage0_6 j).IsWhole
  hstage0_7 : ∀ j, (stage0_7 j).IsWhole
  hstage0_8 : ∀ j, (stage0_8 j).IsWhole

variable [Facts₀]

abbrev cc0_scratch5 : DmaSems sig S2 := SemArray.consecutive 9 S2 hcc0_scratch5
abbrev cc0_scratch6 : DmaSems sig S2 := SemArray.consecutive 11 S2 hcc0_scratch6
def dot_S1024x64_S1024x512_S64x512_0_0_1_1_n_n : DotDims S1024x64 S1024x512 S64x512 where
  lhsContracting := [0]
  rhsContracting := [0]
  lhsNonContracting := [1]
  rhsNonContracting := [1]
  lhsBatch := []
  rhsBatch := []
  wf := dot_S1024x64_S1024x512_S64x512_0_0_1_1_n_n_wf
def dot_S1024x1568_S1024x512_S1568x512_0_0_1_1_n_n : DotDims S1024x1568 S1024x512 S1568x512 where
  lhsContracting := [0]
  rhsContracting := [0]
  lhsNonContracting := [1]
  rhsNonContracting := [1]
  lhsBatch := []
  rhsBatch := []
  wf := dot_S1024x1568_S1024x512_S1568x512_0_0_1_1_n_n_wf
def dot_S16x32x256_S16x32x256_S16x256x256_1_1_2_2_0_0 : DotDims S16x32x256 S16x32x256 S16x256x256 where
  lhsContracting := [1]
  rhsContracting := [1]
  lhsNonContracting := [2]
  rhsNonContracting := [2]
  lhsBatch := [0]
  rhsBatch := [0]
  wf := dot_S16x32x256_S16x32x256_S16x256x256_1_1_2_2_0_0_wf
def dot_S128x2048_S128x512_S2048x512_0_0_1_1_n_n : DotDims S128x2048 S128x512 S2048x512 where
  lhsContracting := [0]
  rhsContracting := [0]
  lhsNonContracting := [1]
  rhsNonContracting := [1]
  lhsBatch := []
  rhsBatch := []
  wf := dot_S128x2048_S128x512_S2048x512_0_0_1_1_n_n_wf
def dot_S16x64x256_S16x64x256_S16x256x256_1_1_2_2_0_0 : DotDims S16x64x256 S16x64x256 S16x256x256 where
  lhsContracting := [1]
  rhsContracting := [1]
  lhsNonContracting := [2]
  rhsNonContracting := [2]
  lhsBatch := [0]
  rhsBatch := [0]
  wf := dot_S16x64x256_S16x64x256_S16x256x256_1_1_2_2_0_0_wf
def dot_S16x64x256_S16x256x256_S16x64x256_2_2_1_1_0_0 : DotDims S16x64x256 S16x256x256 S16x64x256 where
  lhsContracting := [2]
  rhsContracting := [2]
  lhsNonContracting := [1]
  rhsNonContracting := [1]
  lhsBatch := [0]
  rhsBatch := [0]
  wf := dot_S16x64x256_S16x256x256_S16x64x256_2_2_1_1_0_0_wf
def dot_S1024x512_S1024x1024_S512x1024_0_0_1_1_n_n : DotDims S1024x512 S1024x1024 S512x1024 where
  lhsContracting := [0]
  rhsContracting := [0]
  lhsNonContracting := [1]
  rhsNonContracting := [1]
  lhsBatch := []
  rhsBatch := []
  wf := dot_S1024x512_S1024x1024_S512x1024_0_0_1_1_n_n_wf

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_arg1) false false (stage0_1 0) (sem0_1 0) (Memref.isWhole_whole _) (hstage0_1 0)

abbrev win0_2 : Pipeline.Window sig grid0 :=
  Pipeline.Window.whole (Memref.whole main_arg2) false false (stage0_2 0) (sem0_2 0) (Memref.isWhole_whole _) (hstage0_2 0)

abbrev win0_3 : Pipeline.Window sig grid0 :=
  Pipeline.Window.whole (Memref.whole main_arg3) false false (stage0_3 0) (sem0_3 0) (Memref.isWhole_whole _) (hstage0_3 0)

abbrev win0_4 : Pipeline.Window sig grid0 :=
  Pipeline.Window.whole (Memref.whole main_arg4) false false (stage0_4 0) (sem0_4 0) (Memref.isWhole_whole _) (hstage0_4 0)

abbrev win0_5 : Pipeline.Window sig grid0 :=
  Pipeline.Window.whole (Memref.whole main_arg5) false false (stage0_5 0) (sem0_5 0) (Memref.isWhole_whole _) (hstage0_5 0)

abbrev win0_6 : Pipeline.Window sig grid0 :=
  Pipeline.Window.whole (Memref.whole main_arg6) false false (stage0_6 0) (sem0_6 0) (Memref.isWhole_whole _) (hstage0_6 0)

abbrev win0_7 : Pipeline.Window sig grid0 :=
  Pipeline.Window.whole (Memref.whole main_arg7) false false (stage0_7 0) (sem0_7 0) (Memref.isWhole_whole _) (hstage0_7 0)

abbrev win0_8 : Pipeline.Window sig grid0 :=
  Pipeline.Window.whole (Memref.whole main_v1) true false (stage0_8 0) (sem0_8 0) (Memref.isWhole_whole _) (hstage0_8 0)

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S2x256x1024 : Shape := ⟨3, ![2, 256, 1024]⟩
abbrev S1024x128 : Shape := ⟨2, ![1024, 128]⟩
abbrev S128x1024 : Shape := ⟨2, ![128, 1024]⟩
abbrev S1024x1024 : Shape := ⟨2, ![1024, 1024]⟩
abbrev S1024x512 : Shape := ⟨2, ![1024, 512]⟩
abbrev S1024x32 : Shape := ⟨2, ![1024, 32]⟩
abbrev S2x256x128 : Shape := ⟨3, ![2, 256, 128]⟩
abbrev S2x256x16x64 : Shape := ⟨4, ![2, 256, 16, 64]⟩
abbrev S2x256x512 : Shape := ⟨3, ![2, 256, 512]⟩
abbrev S2x256x16x32 : Shape := ⟨4, ![2, 256, 16, 32]⟩
abbrev S2x256x32 : Shape := ⟨3, ![2, 256, 32]⟩
abbrev S2x256x1x32 : Shape := ⟨4, ![2, 256, 1, 32]⟩
abbrev S2x16x256x256 : Shape := ⟨4, ![2, 16, 256, 256]⟩
abbrev S_ : Shape := ⟨0, ![]⟩
abbrev S2x16x256 : Shape := ⟨3, ![2, 16, 256]⟩
abbrev S2x16x256x1 : Shape := ⟨4, ![2, 16, 256, 1]⟩
abbrev S2x16x64x256 : Shape := ⟨4, ![2, 16, 64, 256]⟩

abbrev nBuf : Space → Nat
  | .hbm => 41
  | .vmem => 0
  | .smem => 0
  | _ => 0

abbrev bufTy : (tb : Table) → Fin (tcTables nBuf tb) → BufTy
  | .hbm, ⟨0, _⟩ => ⟨S2x256x1024, .f32⟩
  | .hbm, ⟨1, _⟩ => ⟨S1024x128, .f32⟩
  | .hbm, ⟨2, _⟩ => ⟨S128x1024, .f32⟩
  | .hbm, ⟨3, _⟩ => ⟨S128x1024, .f32⟩
  | .hbm, ⟨4, _⟩ => ⟨S1024x1024, .f32⟩
  | .hbm, ⟨5, _⟩ => ⟨S1024x512, .f32⟩
  | .hbm, ⟨6, _⟩ => ⟨S1024x32, .f32⟩
  | .hbm, ⟨7, _⟩ => ⟨S1024x1024, .f32⟩
  | .hbm, ⟨8, _⟩ => ⟨S2x256x128, .f32⟩
  | .hbm, ⟨9, _⟩ => ⟨S2x256x1024, .f32⟩
  | .hbm, ⟨10, _⟩ => ⟨S2x256x16x64, .f32⟩
  | .hbm, ⟨11, _⟩ => ⟨S2x256x1024, .f32⟩
  | .hbm, ⟨12, _⟩ => ⟨S2x256x16x64, .f32⟩
  | .hbm, ⟨13, _⟩ => ⟨S2x256x1024, .f32⟩
  | .hbm, ⟨14, _⟩ => ⟨S2x256x16x64, .f32⟩
  | .hbm, ⟨15, _⟩ => ⟨S2x256x512, .f32⟩
  | .hbm, ⟨16, _⟩ => ⟨S2x256x16x32, .f32⟩
  | .hbm, ⟨17, _⟩ => ⟨S2x256x32, .f32⟩
  | .hbm, ⟨18, _⟩ => ⟨S2x256x1x32, .f32⟩
  | .hbm, ⟨19, _⟩ => ⟨S2x16x256x256, .f32⟩
  | .hbm, ⟨20, _⟩ => ⟨S2x256x16x32, .f32⟩
  | .hbm, ⟨21, _⟩ => ⟨S2x16x256x256, .f32⟩
  | .hbm, ⟨22, _⟩ => ⟨S2x16x256x256, .f32⟩
  | .hbm, ⟨23, _⟩ => ⟨S_, .f32⟩
  | .hbm, ⟨24, _⟩ => ⟨S2x16x256x256, .f32⟩
  | .hbm, ⟨25, _⟩ => ⟨S2x16x256x256, .f32⟩
  | .hbm, ⟨26, _⟩ => ⟨S_, .f32⟩
  | .hbm, ⟨27, _⟩ => ⟨S2x16x256, .f32⟩
  | .hbm, ⟨28, _⟩ => ⟨S2x16x256x1, .f32⟩
  | .hbm, ⟨29, _⟩ => ⟨S2x16x256x256, .f32⟩
  | .hbm, ⟨30, _⟩ => ⟨S2x16x256x256, .f32⟩
  | .hbm, ⟨31, _⟩ => ⟨S2x16x256x256, .f32⟩
  | .hbm, ⟨32, _⟩ => ⟨S_, .f32⟩
  | .hbm, ⟨33, _⟩ => ⟨S2x16x256, .f32⟩
  | .hbm, ⟨34, _⟩ => ⟨S2x16x256x1, .f32⟩
  | .hbm, ⟨35, _⟩ => ⟨S2x16x256x256, .f32⟩
  | .hbm, ⟨36, _⟩ => ⟨S2x16x256x256, .f32⟩
  | .hbm, ⟨37, _⟩ => ⟨S2x16x64x256, .f32⟩
  | .hbm, ⟨38, _⟩ => ⟨S2x256x16x64, .f32⟩
  | .hbm, ⟨39, _⟩ => ⟨S2x256x1024, .f32⟩
  | .hbm, ⟨40, _⟩ => ⟨S2x256x1024, .f32⟩
  | _, _ => ⟨S2x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst : Ref sig .tc := ⟨.hbm, 23, rfl⟩
abbrev main_v15 : Ref sig .tc := ⟨.hbm, 24, rfl⟩
abbrev main_v16 : Ref sig .tc := ⟨.hbm, 25, rfl⟩
abbrev main_cst_0 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_1 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩

abbrev nD : Nat := 1
abbrev τ : Topo := Topo.v7x

variable {F : FTy → Type} [FloatOps F]

class Facts₀ : Prop where
  shapeCasts_S2x256x1024_S2x256x16x64 : S2x256x1024.ShapeCasts S2x256x16x64
  shapeCasts_S2x256x512_S2x256x16x32 : S2x256x512.ShapeCasts S2x256x16x32
  shapeCasts_S2x256x32_S2x256x1x32 : S2x256x32.ShapeCasts S2x256x1x32
  bcast_S2x256x1x32_S2x256x16x32_0_1_2_3 : S2x256x1x32.BroadcastsInDim S2x256x16x32 (![0, 1, 2, 3] : Fin 4 → Fin S2x256x16x32.rank)
  bcast_S_S2x16x256x256 : S_.BroadcastsInDim S2x16x256x256 (![] : Fin 0 → Fin S2x16x256x256.rank)
  reducesTo_S2x16x256x256_S2x16x256_d3 : S2x16x256x256.ReducesTo [3] S2x16x256
  h_S_ : 0 < S_.numel
  bcast_S2x16x256_S2x16x256x1_0_1_2 : S2x16x256.BroadcastsInDim S2x16x256x1 (![0, 1, 2] : Fin 3 → Fin S2x16x256x1.rank)
  bcast_S2x16x256x1_S2x16x256x256_0_1_2_3 : S2x16x256x1.BroadcastsInDim S2x16x256x256 (![0, 1, 2, 3] : Fin 4 → Fin S2x16x256x256.rank)
  transposes_S2x16x64x256_S2x256x16x64_0_3_1_2 : S2x16x64x256.Transposes [0, 3, 1, 2] S2x256x16x64
  shapeCasts_S2x256x16x64_S2x256x1024 : S2x256x16x64.ShapeCasts S2x256x1024
  dot_S2x256x1024_S1024x128_S2x256x128_2_0_01_1_n_n_wf : DotDims.WF S2x256x1024 S1024x128 S2x256x128 [2] [0] [0, 1] [1] [] []
  dot_S2x256x128_S128x1024_S2x256x1024_2_0_01_1_n_n_wf : DotDims.WF S2x256x128 S128x1024 S2x256x1024 [2] [0] [0, 1] [1] [] []
  dot_S2x256x1024_S1024x1024_S2x256x1024_2_0_01_1_n_n_wf : DotDims.WF S2x256x1024 S1024x1024 S2x256x1024 [2] [0] [0, 1] [1] [] []
  dot_S2x256x1024_S1024x512_S2x256x512_2_0_01_1_n_n_wf : DotDims.WF S2x256x1024 S1024x512 S2x256x512 [2] [0] [0, 1] [1] [] []
  dot_S2x256x1024_S1024x32_S2x256x32_2_0_01_1_n_n_wf : DotDims.WF S2x256x1024 S1024x32 S2x256x32 [2] [0] [0, 1] [1] [] []
  dot_S2x256x16x64_S2x256x16x64_S2x16x256x256_3_3_1_1_02_02_wf : DotDims.WF S2x256x16x64 S2x256x16x64 S2x16x256x256 [3] [3] [1] [1] [0, 2] [0, 2]
  dot_S2x256x16x32_S2x256x16x32_S2x16x256x256_3_3_1_1_02_02_wf : DotDims.WF S2x256x16x32 S2x256x16x32 S2x16x256x256 [3] [3] [1] [1] [0, 2] [0, 2]
  dot_S2x256x16x64_S2x16x256x256_S2x16x64x256_1_3_3_2_02_01_wf : DotDims.WF S2x256x16x64 S2x16x256x256 S2x16x64x256 [1] [3] [3] [2] [0, 2] [0, 1]

variable [Facts₀]

def dot_S2x256x1024_S1024x128_S2x256x128_2_0_01_1_n_n : DotDims S2x256x1024 S1024x128 S2x256x128 where
  lhsContracting := [2]
  rhsContracting := [0]
  lhsNonContracting := [0, 1]
  rhsNonContracting := [1]
  lhsBatch := []
  rhsBatch := []
  wf := dot_S2x256x1024_S1024x128_S2x256x128_2_0_01_1_n_n_wf
def dot_S2x256x128_S128x1024_S2x256x1024_2_0_01_1_n_n : DotDims S2x256x128 S128x1024 S2x256x1024 where
  lhsContracting := [2]
  rhsContracting := [0]
  lhsNonContracting := [0, 1]
  rhsNonContracting := [1]
  lhsBatch := []
  rhsBatch := []
  wf := dot_S2x256x128_S128x1024_S2x256x1024_2_0_01_1_n_n_wf
def dot_S2x256x1024_S1024x1024_S2x256x1024_2_0_01_1_n_n : DotDims S2x256x1024 S1024x1024 S2x256x1024 where
  lhsContracting := [2]
  rhsContracting := [0]
  lhsNonContracting := [0, 1]
  rhsNonContracting := [1]
  lhsBatch := []
  rhsBatch := []
  wf := dot_S2x256x1024_S1024x1024_S2x256x1024_2_0_01_1_n_n_wf
def dot_S2x256x1024_S1024x512_S2x256x512_2_0_01_1_n_n : DotDims S2x256x1024 S1024x512 S2x256x512 where
  lhsContracting := [2]
  rhsContracting := [0]
  lhsNonContracting := [0, 1]
  rhsNonContracting := [1]
  lhsBatch := []
  rhsBatch := []
  wf := dot_S2x256x1024_S1024x512_S2x256x512_2_0_01_1_n_n_wf
def dot_S2x256x1024_S1024x32_S2x256x32_2_0_01_1_n_n : DotDims S2x256x1024 S1024x32 S2x256x32 where
  lhsContracting := [2]
  rhsContracting := [0]
  lhsNonContracting := [0, 1]
  rhsNonContracting := [1]
  lhsBatch := []
  rhsBatch := []
  wf := dot_S2x256x1024_S1024x32_S2x256x32_2_0_01_1_n_n_wf
def dot_S2x256x16x64_S2x256x16x64_S2x16x256x256_3_3_1_1_02_02 : DotDims S2x256x16x64 S2x256x16x64 S2x16x256x256 where
  lhsContracting := [3]
  rhsContracting := [3]
  lhsNonContracting := [1]
  rhsNonContracting := [1]
  lhsBatch := [0, 2]
  rhsBatch := [0, 2]
  wf := dot_S2x256x16x64_S2x256x16x64_S2x16x256x256_3_3_1_1_02_02_wf
def dot_S2x256x16x32_S2x256x16x32_S2x16x256x256_3_3_1_1_02_02 : DotDims S2x256x16x32 S2x256x16x32 S2x16x256x256 where
  lhsContracting := [3]
  rhsContracting := [3]
  lhsNonContracting := [1]
  rhsNonContracting := [1]
  lhsBatch := [0, 2]
  rhsBatch := [0, 2]
  wf := dot_S2x256x16x32_S2x256x16x32_S2x16x256x256_3_3_1_1_02_02_wf
def dot_S2x256x16x64_S2x16x256x256_S2x16x64x256_1_3_3_2_02_01 : DotDims S2x256x16x64 S2x16x256x256 S2x16x64x256 where
  lhsContracting := [1]
  rhsContracting := [3]
  lhsNonContracting := [3]
  rhsNonContracting := [2]
  lhsBatch := [0, 2]
  rhsBatch := [0, 1]
  wf := dot_S2x256x16x64_S2x16x256x256_S2x16x64x256_1_3_3_2_02_01_wf

class Facts : Prop extends Facts₀ where

variable [Facts]
-- ==== Proof.KOut.lean ====
/-
  What one device's kernel leaves in its result block, as ONE pure term of what the body reads: its own argument
  blocks and the two buffers that arrive from its peer (the peer's half latent and the peer's up-projection rows).

  The up-projection rows a device sends are its Wuk block and its Wuv block side by side (`wcat`); the projection
  operand is Wq, Wqr and Wkr side by side (`projw`) — each the block the stores leave, later store first.
-/
import proofs.«900377_g7700000000000378_dist_mla_v7x_xyz2x2x2_y_b2_s256_d1024_dc64_bf16_1_alg».proof.Proof.Gen.KernelIdeal.Skeleton
import Idealize.ShloMosaic.Lib.Pipeline.Value

noncomputable section

namespace Cert.KernelIdeal.KOut

open Cert.KernelIdeal Cert.KernelIdeal.Gen Idealize.ShloMosaic

variable {F : FTy → Type} [FloatOps F]

/-- [Wuk | Wuv], 64 × 2048: columns below 1024 from the Wuk block, the others from the Wuv block. -/
def wcat (wuk wuv : Vec F S64x1024 .f32) : Vec F S64x2048 .bf16 :=
  View.canon [(⟨Rect.unit (s := S64x2048) ![0, 1024] S64x1024.size inb_S64x2048_S64x1024_0_1024, k0_pay2 wuv⟩ : View.Piece (Elt F) S64x2048 .bf16),
    ⟨Rect.unit (s := S64x2048) ![0, 0] S64x1024.size inb_S64x2048_S64x1024_0_0, k0_pay1 wuk⟩]

/-- [Wq | Wqr | Wkr], 1024 × 1568: columns below 1024 from Wq, below 1536 from Wqr, the last 32 from Wkr. -/
def projw (wq : Vec F S1024x1024 .f32) (wqr : Vec F S1024x512 .f32) (wkr : Vec F S1024x32 .f32) : Vec F S1024x1568 .bf16 :=
  View.canon [(⟨Rect.unit (s := S1024x1568) ![0, 1536] S1024x32.size inb_S1024x1568_S1024x32_0_1536, k0_pay8 wkr⟩ : View.Piece (Elt F) S1024x1568 .bf16),
    ⟨Rect.unit (s := S1024x1568) ![0, 1024] S1024x512.size inb_S1024x1568_S1024x512_0_1024, k0_pay7 wqr⟩,
    ⟨Rect.unit (s := S1024x1568) ![0, 0] S1024x1024.size inb_S1024x1568_S1024x1024_0_0, k0_pay6 (k0_pay5 wq)⟩]

/-- The result block of a device holding `x`, its blocks `wdkv`, `wuk`, `wuv`, and `wq`, `wqr`, `wkr`, `wo`, once
    `crecv` (the peer's half latent) and `wrecv` (the peer's [Wuk | Wuv]) have arrived. -/
def kout (x : Vec F S2x256x1024 .f32) (wdkv : Vec F S1024x64 .f32) (wuk wuv : Vec F S64x1024 .f32)
    (wq : Vec F S1024x1024 .f32) (wqr : Vec F S1024x512 .f32) (wkr : Vec F S1024x32 .f32) (wo : Vec F S1024x1024 .f32)
    (crecv : Vec F S64x512 .bf16) (wrecv : Vec F S64x2048 .bf16) : FVec F S2x256x1024 .f32 :=
  k0_pay18 (k0_pay10 (k0_pay3 x) (projw wq wqr wkr)) (k0_pay13 (k0_pay3 x) (projw wq wqr wkr)) (k0_pay14 (k0_pay3 x) (projw wq wqr wkr))
    (k0_pay16 (k0_pay4 x wdkv) crecv (wcat wuk wuv) wrecv) (k0_pay17 (k0_pay4 x wdkv) crecv (wcat wuk wuv) wrecv) wo

end Cert.KernelIdeal.KOut

end
-- ==== Proof.Proto1.lean ====
/-
  The exchange between a device and its peer — the device that differs from it in the middle mesh coordinate —
  as rounds of semaphore cells. Each device has five cells, each with one round of one duty:
  its barrier cell (one unit, paid by the peer's entry signal, which hands over the peer's two landing buffers and
  the word that the peer's two receive cells are at round 0), and, for each of the two copies (the half latent,
  and the up-projection rows), a send cell (paid by the device's own copy once its source is read; the source
  buffer comes back) and a receive cell (paid by the peer's copy once it has landed; the landing buffer comes
  back holding the peer's rows).
-/
import proofs.«900377_g7700000000000378_dist_mla_v7x_xyz2x2x2_y_b2_s256_d1024_dc64_bf16_1_alg».proof.Proof.Gen.KernelIdeal
import proofs.«900377_g7700000000000378_dist_mla_v7x_xyz2x2x2_y_b2_s256_d1024_dc64_bf16_1_alg».proof.Proof.Gen.KernelIdeal.Skeleton
import proofs.«900377_g7700000000000378_dist_mla_v7x_xyz2x2x2_y_b2_s256_d1024_dc64_bf16_1_alg».proof.Proof.Gen.KernelIdeal.Launch
import proofs.«900377_g7700000000000378_dist_mla_v7x_xyz2x2x2_y_b2_s256_d1024_dc64_bf16_1_alg».proof.Proof.Gen.KernelIdeal.Points
import proofs.«900377_g7700000000000378_dist_mla_v7x_xyz2x2x2_y_b2_s256_d1024_dc64_bf16_1_alg».proof.Proof.Gen.KernelIdeal.Frame
import proofs.«900377_g7700000000000378_dist_mla_v7x_xyz2x2x2_y_b2_s256_d1024_dc64_bf16_1_alg».proof.Proof.KOut
import Idealize.ShloMosaic.Lib.Pipeline.Launch
import Idealize.ShloMosaic.Lib.Pipeline.Kit
import Idealize.ShloMosaic.Lib.Tactic

set_option maxRecDepth 16384

noncomputable section

namespace Cert.KernelIdeal.Proto

open Cert.KernelIdeal Cert.KernelIdeal.Gen Cert.KernelIdeal.KOut

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy and the exchange's -/

abbrev UB : Type := URounds (GSem nD τ sig) Unit
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The peer -/

/-- The device with the other middle coordinate: `c` is at (c / 4, c / 2 % 2, c % 2). -/
def peer (c : Dev nD) : Dev nD := ⟨(4 * (c.val / 4) + (c.val % 2) + 2) - 2 * ((c.val / 2) % 2), by have h : c.val < 8 := c.isLt; show _ < 8; omega⟩

theorem peer_peer (c : Dev nD) : peer (peer c) = c := by revert c; decide
theorem peer_ne (c : Dev nD) : peer c ≠ c := by revert c; decide

theorem dev1_eq (c : Dev nD) : (⟨k0_dev1 c, k0_dev1_lt c⟩ : Dev nD) = peer c := Fin.ext (k0_dev1_eq c)
theorem dev2_eq (c : Dev nD) : (⟨k0_dev2 c, k0_dev2_lt c⟩ : Dev nD) = peer c := Fin.ext (k0_dev2_eq c)
theorem dev3_eq (c : Dev nD) : (⟨k0_dev3 c, k0_dev3_lt c⟩ : Dev nD) = peer c := Fin.ext (k0_dev3_eq c)

def swap : Dev nD ≃ Dev nD := ⟨peer, peer, peer_peer, peer_peer⟩

/-! ## The memrefs and cells -/

abbrev csM : Memref sig .tc .vmem S64x512 .bf16 := Memref.whole cc0_scratch0
abbrev crM : Memref sig .tc .vmem S64x512 .bf16 := Memref.whole cc0_scratch1
abbrev wsM : Memref sig .tc .vmem S64x2048 .bf16 := Memref.whole cc0_scratch2
abbrev wrM : Memref sig .tc .vmem S64x2048 .bf16 := Memref.whole cc0_scratch3
abbrev pwM : Memref sig .tc .vmem S1024x1568 .bf16 := Memref.whole cc0_scratch4

abbrev barS : Sem sig := (SemArray.scalar (sig.barrier 0 rfl) : Sems sig S_).sem
abbrev sS0 : DmaSem sig := ((cc0_scratch5.slice (Rect.unit (s := S2) ![0] S1.size inb_S2_S1_0)).squeeze S_ squeezes_S1_S_).sem
abbrev sS1 : DmaSem sig := ((cc0_scratch5.slice (Rect.unit (s := S2) ![1] S1.size inb_S2_S1_1)).squeeze S_ squeezes_S1_S_).sem
abbrev sR0 : DmaSem sig := ((cc0_scratch6.slice (Rect.unit (s := S2) ![0] S1.size inb_S2_S1_0)).squeeze S_ squeezes_S1_S_).sem
abbrev sR1 : DmaSem sig := ((cc0_scratch6.slice (Rect.unit (s := S2) ![1] S1.size inb_S2_S1_1)).squeeze S_ squeezes_S1_S_).sem

theorem sS0_eq : sS0 = (9 : DmaSem sig) := by decide
theorem sS1_eq : sS1 = (10 : DmaSem sig) := by decide
theorem sR0_eq : sR0 = (11 : DmaSem sig) := by decide
theorem sR1_eq : sR1 = (12 : DmaSem sig) := by decide

/-- All five of a device's cells, as this proof indexes them: barrier, send 0, receive 0, send 1, receive 1. -/
abbrev csem : Fin 5 → SemLoc sig := fun | 0 => .reg barS | 1 => .dma sS0 | 2 => .dma sR0 | 3 => .dma sS1 | 4 => .dma sR1
/-- The kernel's own (scoped) semaphores, as the launch theorem indexes them. -/
abbrev osem : Fin 4 → SemLoc sig := fun | 0 => .dma sS0 | 1 => .dma sR0 | 2 => .dma sS1 | 3 => .dma sR1
abbrev kcell (ck : Dev nD × Fin 5) : GSem nD τ sig := ((ck.1 : Thread nD τ), csem ck.2)

abbrev barCell (c : Dev nD) : GSem nD τ sig := ((c : Thread nD τ), .reg barS)
abbrev snd0Cell (c : Dev nD) : GSem nD τ sig := ((c : Thread nD τ), .dma sS0)
abbrev rcv0Cell (c : Dev nD) : GSem nD τ sig := ((c : Thread nD τ), .dma sR0)
abbrev snd1Cell (c : Dev nD) : GSem nD τ sig := ((c : Thread nD τ), .dma sS1)
abbrev rcv1Cell (c : Dev nD) : GSem nD τ sig := ((c : Thread nD τ), .dma sR1)

abbrev N0 : ℕ := (crM : Memref sig .tc .vmem S64x512 .bf16).view.dmaCredit
abbrev N1 : ℕ := (wrM : Memref sig .tc .vmem S64x2048 .bf16).view.dmaCredit
theorem N0_pos : 0 < N0 := View.dmaCredit_pos _ (by decide)
theorem N1_pos : 0 < N1 := View.dmaCredit_pos _ (by decide)

theorem csem_injective : Function.Injective csem := by decide

end Cert.KernelIdeal.Proto

end
-- ==== Proof.Proto2.lean ====
/-
  The exchange's schedule: what each of a device's five cells is paid, by whom, and what the payment hands the
  device; what a device owes its peer at launch; and the levels that order the waits (a barrier cell below the
  receive cells, everything else at the bottom), so that no wait can be part of a cycle.
-/
import proofs.«900377_g7700000000000378_dist_mla_v7x_xyz2x2x2_y_b2_s256_d1024_dc64_bf16_1_alg».proof.Proof.Proto1

set_option maxRecDepth 16384

noncomputable section

namespace Cert.KernelIdeal.Proto

open Cert.KernelIdeal Cert.KernelIdeal.Gen Cert.KernelIdeal.KOut

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Contents: a device's argument blocks as it finds them staged, and what it sends -/

def xB (c : Dev nD) : Vec F S2x256x1024 .f32 := (win0_0.blk (0 : Fin 1)).view.read (Elt F) (m ((c : Thread nD τ).loc main_arg0))
def wdB (c : Dev nD) : Vec F S1024x64 .f32 := (win0_1.blk (0 : Fin 1)).view.read (Elt F) (m ((c : Thread nD τ).loc main_arg1))
def wukB (c : Dev nD) : Vec F S64x1024 .f32 := (win0_2.blk (0 : Fin 1)).view.read (Elt F) (m ((c : Thread nD τ).loc main_arg2))
def wuvB (c : Dev nD) : Vec F S64x1024 .f32 := (win0_3.blk (0 : Fin 1)).view.read (Elt F) (m ((c : Thread nD τ).loc main_arg3))
def wqB (c : Dev nD) : Vec F S1024x1024 .f32 := (win0_4.blk (0 : Fin 1)).view.read (Elt F) (m ((c : Thread nD τ).loc main_arg4))
def wqrB (c : Dev nD) : Vec F S1024x512 .f32 := (win0_5.blk (0 : Fin 1)).view.read (Elt F) (m ((c : Thread nD τ).loc main_arg5))
def wkrB (c : Dev nD) : Vec F S1024x32 .f32 := (win0_6.blk (0 : Fin 1)).view.read (Elt F) (m ((c : Thread nD τ).loc main_arg6))
def woB (c : Dev nD) : Vec F S1024x1024 .f32 := (win0_7.blk (0 : Fin 1)).view.read (Elt F) (m ((c : Thread nD τ).loc main_arg7))

/-- The half latent device `c` computes and sends. -/
def csOf (c : Dev nD) : Vec F S64x512 .bf16 := k0_pay4 (xB m c) (wdB m c)
/-- The up-projection rows device `c` holds and sends: its Wuk block and its Wuv block side by side. -/
def wsOf (c : Dev nD) : Vec F S64x2048 .bf16 := wcat (wukB m c) (wuvB m c)
/-- The result block device `c` ends with. -/
def outOf (c : Dev nD) : Vec F S2x256x1024 .f32 :=
  kout (xB m c) (wdB m c) (wukB m c) (wuvB m c) (wqB m c) (wqrB m c) (wkrB m c) (woB m c) (csOf m (peer c)) (wsOf m (peer c))

/-! ## Ownership of the four exchanged buffers -/

def csPts (c : Dev nD) (f : Buf (Elt F) ((csM : Memref sig .tc .vmem S64x512 .bf16).view.loc (c : Thread nD τ))) : sProp 𝕄 :=
  (csM : Memref sig .tc .vmem S64x512 .bf16).view.loc (c : Thread nD τ) ↦[(csM : Memref sig .tc .vmem S64x512 .bf16).view.set]{fullShare} f
def crPts (c : Dev nD) (f : Buf (Elt F) ((crM : Memref sig .tc .vmem S64x512 .bf16).view.loc (c : Thread nD τ))) : sProp 𝕄 :=
  (crM : Memref sig .tc .vmem S64x512 .bf16).view.loc (c : Thread nD τ) ↦[(crM : Memref sig .tc .vmem S64x512 .bf16).view.set]{fullShare} f
def wsPts (c : Dev nD) (f : Buf (Elt F) ((wsM : Memref sig .tc .vmem S64x2048 .bf16).view.loc (c : Thread nD τ))) : sProp 𝕄 :=
  (wsM : Memref sig .tc .vmem S64x2048 .bf16).view.loc (c : Thread nD τ) ↦[(wsM : Memref sig .tc .vmem S64x2048 .bf16).view.set]{fullShare} f
def wrPts (c : Dev nD) (f : Buf (Elt F) ((wrM : Memref sig .tc .vmem S64x2048 .bf16).view.loc (c : Thread nD τ))) : sProp 𝕄 :=
  (wrM : Memref sig .tc .vmem S64x2048 .bf16).view.loc (c : Thread nD τ) ↦[(wrM : Memref sig .tc .vmem S64x2048 .bf16).view.set]{fullShare} f

instance csPts_storable (c : Dev nD) (f) : BI.Storable (upEmb : UEmb _ 𝕄) (csPts (F := F) c f) := by unfold csPts; infer_instance
instance crPts_storable (c : Dev nD) (f) : BI.Storable (upEmb : UEmb _ 𝕄) (crPts (F := F) c f) := by unfold crPts; infer_instance
instance wsPts_storable (c : Dev nD) (f) : BI.Storable (upEmb : UEmb _ 𝕄) (wsPts (F := F) c f) := by unfold wsPts; infer_instance
instance wrPts_storable (c : Dev nD) (f) : BI.Storable (upEmb : UEmb _ 𝕄) (wrPts (F := F) c f) := by unfold wrPts; infer_instance

theorem csPts_eq (c : Dev nD) (f : Buf (Elt F) ((c : Thread nD τ).loc cc0_scratch0)) : csPts c f = (((c : Thread nD τ).loc cc0_scratch0) ↦{fullShare} f : sProp 𝕄) := by unfold csPts; rw [View.set_whole]
theorem crPts_eq (c : Dev nD) (f : Buf (Elt F) ((c : Thread nD τ).loc cc0_scratch1)) : crPts c f = (((c : Thread nD τ).loc cc0_scratch1) ↦{fullShare} f : sProp 𝕄) := by unfold crPts; rw [View.set_whole]
theorem wsPts_eq (c : Dev nD) (f : Buf (Elt F) ((c : Thread nD τ).loc cc0_scratch2)) : wsPts c f = (((c : Thread nD τ).loc cc0_scratch2) ↦{fullShare} f : sProp 𝕄) := by unfold wsPts; rw [View.set_whole]
theorem wrPts_eq (c : Dev nD) (f : Buf (Elt F) ((c : Thread nD τ).loc cc0_scratch3)) : wrPts c f = (((c : Thread nD τ).loc cc0_scratch3) ↦{fullShare} f : sProp 𝕄) := by unfold wrPts; rw [View.set_whole]

/-! ## The schedule -/

/-- What the peer's entry signal hands device `c`: the peer's two landing buffers, and that the peer's two receive
    cells are at round 0 — what the two copies into the peer need. -/
def barPay (c : Dev nD) : sProp 𝕄 :=
  iprop((∃ f, crPts (peer c) f) ∗ (∃ f, wrPts (peer c) f) ∗ reached ER (rcv0Cell (peer c)) 0 ∗ reached ER (rcv1Cell (peer c)) 0)

abbrev IsEx (g : GSem nD τ sig) : Prop :=
  g.1.2 = .tc ∧ (g.2 = .reg barS ∨ g.2 = .dma sS0 ∨ g.2 = .dma sR0 ∨ g.2 = .dma sS1 ∨ g.2 = .dma sR1)

/-- One round, round 0, one duty per cell. -/
def ex : Rounds.Schedule (GSem nD τ sig) Unit 𝕄 where
  duties g r := if r = 0 ∧ IsEx g then {()} else ∅
  unitless _ := False
  amount g _ _ := if g.2 = .reg barS then 1 else if (g.2 = .dma sS0 ∨ g.2 = .dma sR0) then N0 else N1
  payload g _ _ :=
    if g.2 = .reg barS then barPay g.1.1
    else if g.2 = .dma sS0 then csPts g.1.1 (csOf m g.1.1)
    else if g.2 = .dma sR0 then crPts g.1.1 (csOf m (peer g.1.1))
    else if g.2 = .dma sS1 then wsPts g.1.1 (wsOf m g.1.1)
    else if g.2 = .dma sR1 then wrPts g.1.1 (wsOf m (peer g.1.1))
    else iprop(emp)
  amount_pos g _ _ _ := by
    by_cases h : g.2 = .reg barS
    · rw [if_pos h]; exact Nat.one_pos
    · rw [if_neg h]; split
      · exact N0_pos
      · exact N1_pos

instance ex_payload_storable (g : GSem nD τ sig) (r : ℕ) (d : Unit) :
    BI.Storable (upEmb : UEmb _ 𝕄) ((ex (F := F) m).payload g r d) := by
  show BI.Storable upEmb (if g.2 = .reg barS then barPay g.1.1
    else if g.2 = .dma sS0 then csPts g.1.1 (csOf m g.1.1)
    else if g.2 = .dma sR0 then crPts g.1.1 (csOf m (peer g.1.1))
    else if g.2 = .dma sS1 then wsPts g.1.1 (wsOf m g.1.1)
    else if g.2 = .dma sR1 then wrPts g.1.1 (wsOf m (peer g.1.1))
    else iprop(emp))
  unfold barPay
  (repeat' split) <;> infer_instance

section Sched
variable (c : Dev nD)

theorem s0_ne_bar : (SemLoc.dma sS0 : SemLoc sig) ≠ .reg barS := fun h => by cases h
theorem r0_ne_bar : (SemLoc.dma sR0 : SemLoc sig) ≠ .reg barS := fun h => by cases h
theorem s1_ne_bar : (SemLoc.dma sS1 : SemLoc sig) ≠ .reg barS := fun h => by cases h
theorem r1_ne_bar : (SemLoc.dma sR1 : SemLoc sig) ≠ .reg barS := fun h => by cases h
theorem r0_ne_s0 : (SemLoc.dma sR0 : SemLoc sig) ≠ .dma sS0 := by decide
theorem s1_ne_s0 : (SemLoc.dma sS1 : SemLoc sig) ≠ .dma sS0 := by decide
theorem r1_ne_s0 : (SemLoc.dma sR1 : SemLoc sig) ≠ .dma sS0 := by decide
theorem s1_ne_r0 : (SemLoc.dma sS1 : SemLoc sig) ≠ .dma sR0 := by decide
theorem r1_ne_r0 : (SemLoc.dma sR1 : SemLoc sig) ≠ .dma sR0 := by decide
theorem r1_ne_s1 : (SemLoc.dma sR1 : SemLoc sig) ≠ .dma sS1 := by decide

theorem duties_cell (k : Fin 5) : (ex (F := F) m).duties (kcell (c, k)) 0 = {()} := by
  dsimp only [ex]; refine if_pos ⟨rfl, rfl, ?_⟩
  fin_cases k
  · exact .inl rfl
  · exact .inr (.inl rfl)
  · exact .inr (.inr (.inl rfl))
  · exact .inr (.inr (.inr (.inl rfl)))
  · exact .inr (.inr (.inr (.inr rfl)))
theorem duties_bar : (ex (F := F) m).duties (barCell c) 0 = {()} := duties_cell m c 0
theorem duties_snd0 : (ex (F := F) m).duties (snd0Cell c) 0 = {()} := duties_cell m c 1
theorem duties_rcv0 : (ex (F := F) m).duties (rcv0Cell c) 0 = {()} := duties_cell m c 2
theorem duties_snd1 : (ex (F := F) m).duties (snd1Cell c) 0 = {()} := duties_cell m c 3
theorem duties_rcv1 : (ex (F := F) m).duties (rcv1Cell c) 0 = {()} := duties_cell m c 4
theorem duties_later (g : GSem nD τ sig) : ∀ r, 1 ≤ r → (ex (F := F) m).duties g r = ∅ :=
  fun r hr => by dsimp only [ex]; rw [if_neg fun h => by omega]

theorem amount_bar (d : Unit) : (ex (F := F) m).amount (barCell c) 0 d = 1 := by dsimp only [ex]; exact if_pos rfl
theorem amount_snd0 (d : Unit) : (ex (F := F) m).amount (snd0Cell c) 0 d = N0 := by
  dsimp only [ex]; rw [if_neg s0_ne_bar]; exact if_pos (.inl rfl)
theorem amount_rcv0 (d : Unit) : (ex (F := F) m).amount (rcv0Cell c) 0 d = N0 := by
  dsimp only [ex]; rw [if_neg r0_ne_bar]; exact if_pos (.inr rfl)
theorem amount_snd1 (d : Unit) : (ex (F := F) m).amount (snd1Cell c) 0 d = N1 := by
  dsimp only [ex]; rw [if_neg s1_ne_bar]; exact if_neg (fun h => h.elim s1_ne_s0 s1_ne_r0)
theorem amount_rcv1 (d : Unit) : (ex (F := F) m).amount (rcv1Cell c) 0 d = N1 := by
  dsimp only [ex]; rw [if_neg r1_ne_bar]; exact if_neg (fun h => h.elim r1_ne_s0 r1_ne_r0)

theorem expect_bar : (ex (F := F) m).expect (barCell c) 0 = 1 := by
  unfold Schedule.expect Schedule.amountOf; rw [duties_bar, Finset.sum_singleton, amount_bar]
theorem expect_snd0 : (ex (F := F) m).expect (snd0Cell c) 0 = N0 := by
  unfold Schedule.expect Schedule.amountOf; rw [duties_snd0, Finset.sum_singleton, amount_snd0]
theorem expect_rcv0 : (ex (F := F) m).expect (rcv0Cell c) 0 = N0 := by
  unfold Schedule.expect Schedule.amountOf; rw [duties_rcv0, Finset.sum_singleton, amount_rcv0]
theorem expect_snd1 : (ex (F := F) m).expect (snd1Cell c) 0 = N1 := by
  unfold Schedule.expect Schedule.amountOf; rw [duties_snd1, Finset.sum_singleton, amount_snd1]
theorem expect_rcv1 : (ex (F := F) m).expect (rcv1Cell c) 0 = N1 := by
  unfold Schedule.expect Schedule.amountOf; rw [duties_rcv1, Finset.sum_singleton, amount_rcv1]

theorem payload_bar (d : Unit) : (ex (F := F) m).payload (barCell c) 0 d = barPay c := by dsimp only [ex]; rw [if_pos rfl]
theorem payload_snd0 (d : Unit) : (ex (F := F) m).payload (snd0Cell c) 0 d = csPts c (csOf m c) := by
  dsimp only [ex]; rw [if_neg s0_ne_bar, if_pos rfl]
theorem payload_rcv0 (d : Unit) : (ex (F := F) m).payload (rcv0Cell c) 0 d = crPts c (csOf m (peer c)) := by
  dsimp only [ex]; rw [if_neg r0_ne_bar, if_neg r0_ne_s0, if_pos rfl]
theorem payload_snd1 (d : Unit) : (ex (F := F) m).payload (snd1Cell c) 0 d = wsPts c (wsOf m c) := by
  dsimp only [ex]; rw [if_neg s1_ne_bar, if_neg s1_ne_s0, if_neg s1_ne_r0, if_pos rfl]
theorem payload_rcv1 (d : Unit) : (ex (F := F) m).payload (rcv1Cell c) 0 d = wrPts c (wsOf m (peer c)) := by
  dsimp only [ex]; rw [if_neg r1_ne_bar, if_neg r1_ne_s0, if_neg r1_ne_r0, if_neg r1_ne_s1, if_pos rfl]

theorem rest_bar : bigSep ((ex (F := F) m).duties (barCell c) 0 \ ∅) (fun d => (ex (F := F) m).payload (barCell c) 0 d) = barPay c := by
  rw [Finset.sdiff_empty, duties_bar, bigSep_singleton, payload_bar]
theorem rest_snd0 : bigSep ((ex (F := F) m).duties (snd0Cell c) 0 \ ∅) (fun d => (ex (F := F) m).payload (snd0Cell c) 0 d) = csPts c (csOf m c) := by
  rw [Finset.sdiff_empty, duties_snd0, bigSep_singleton, payload_snd0]
theorem rest_rcv0 : bigSep ((ex (F := F) m).duties (rcv0Cell c) 0 \ ∅) (fun d => (ex (F := F) m).payload (rcv0Cell c) 0 d) = crPts c (csOf m (peer c)) := by
  rw [Finset.sdiff_empty, duties_rcv0, bigSep_singleton, payload_rcv0]
theorem rest_snd1 : bigSep ((ex (F := F) m).duties (snd1Cell c) 0 \ ∅) (fun d => (ex (F := F) m).payload (snd1Cell c) 0 d) = wsPts c (wsOf m c) := by
  rw [Finset.sdiff_empty, duties_snd1, bigSep_singleton, payload_snd1]
theorem rest_rcv1 : bigSep ((ex (F := F) m).duties (rcv1Cell c) 0 \ ∅) (fun d => (ex (F := F) m).payload (rcv1Cell c) 0 d) = wrPts c (wsOf m (peer c)) := by
  rw [Finset.sdiff_empty, duties_rcv1, bigSep_singleton, payload_rcv1]

end Sched

/-! ## What each device owes at launch; the levels -/

/-- After its entry signal a device still owes its peer's two receive cells their copies' credit. -/
def O₁ (c : Dev nD) : CellTallies nD τ sig Unit := tallyAt (rcv0Cell (peer c)) () N0 + tallyAt (rcv1Cell (peer c)) () N1
/-- At launch it owes the peer's barrier cell one unit besides. -/
def O₀ (c : Dev nD) : CellTallies nD τ sig Unit := O₁ c + tallyAt (barCell (peer c)) () 1

def L (g : GSem nD τ sig) : Finset Unit := if g.1.2 = .tc then {()} else ∅
/-- Barrier cells at 1, receive cells at 2, everything else (staging, send) at 0. -/
def lv (g : GSem nD τ sig) (_ : Unit) : ℕ := if g.2 = .reg barS then 1 else if (g.2 = .dma sR0 ∨ g.2 = .dma sR1) then 2 else 0

theorem L_of_ne (g : GSem nD τ sig) (h : g.1.2 ≠ .tc) : L g = ∅ := if_neg h
theorem L_tc (c : Dev nD) (sm : SemLoc sig) : L ((c : Thread nD τ), sm) = {()} := if_pos rfl

theorem O₁_pos {c : Dev nD} {g : GSem nD τ sig} {u : Unit} (h : 0 < O₁ c g u) :
    g = rcv0Cell (peer c) ∨ g = rcv1Cell (peer c) := by
  unfold O₁ at h
  rw [Pi.add_apply, Finsupp.add_apply, tallyAt_apply, tallyAt_apply] at h
  by_contra hn
  rw [not_or] at hn
  rw [if_neg (fun h' => hn.1 h'.1), if_neg (fun h' => hn.2 h'.1)] at h
  exact Nat.lt_irrefl 0 h

theorem O₀_pos {c : Dev nD} {g : GSem nD τ sig} {u : Unit} (h : 0 < O₀ c g u) :
    g = rcv0Cell (peer c) ∨ g = rcv1Cell (peer c) ∨ g = barCell (peer c) := by
  unfold O₀ at h
  rw [Pi.add_apply, Finsupp.add_apply, tallyAt_apply] at h
  by_cases hb : g = barCell (peer c) ∧ u = ()
  · exact .inr (.inr hb.1)
  · rw [if_neg hb, Nat.add_zero] at h
    rcases O₁_pos h with h | h
    · exact .inl h
    · exact .inr (.inl h)

theorem lv_rcv0 (c : Dev nD) (u : Unit) : lv (rcv0Cell c) u = 2 := by dsimp only [lv]; rw [if_neg r0_ne_bar, if_pos (.inl rfl)]
theorem lv_rcv1 (c : Dev nD) (u : Unit) : lv (rcv1Cell c) u = 2 := by dsimp only [lv]; rw [if_neg r1_ne_bar, if_pos (.inr rfl)]
theorem lv_bar (c : Dev nD) (u : Unit) : lv (barCell c) u = 1 := by dsimp only [lv]; rw [if_pos rfl]

/-- A wait on a staging, send or other bottom-level DMA cell, owing everything or nothing. -/
theorem mayWait_low (c : Dev nD) (q : DmaSem sig) (hq0 : SemLoc.dma q ≠ .dma sR0) (hq1 : SemLoc.dma q ≠ .dma sR1) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with rfl | rfl | rfl <;> exact Finset.mem_singleton_self _)
      (fun p hp => by rw [Finset.mem_singleton.mp hp]; dsimp only [lv]; rw [if_neg (fun h => by cases h), if_neg (fun h => h.elim hq0 hq1)])
      (fun g u hg => by
        rcases O₀_pos hg with rfl | rfl | rfl
        · rw [lv_rcv0]; decide
        · rw [lv_rcv1]; decide
        · rw [lv_bar]; decide)
  · rw [MayWait_zero]; iintro -; iempintro

/-- At its barrier wait a device owes its peer's receive credit only: receive cells, above its barrier cell. -/
theorem mayWait_bar (c : Dev nD) :
    (levAts L lv : sProp 𝕄) ⊢ MayWait (c : Thread nD τ) (.reg barS) () (O₁ c) :=
  MayOwe.of_cut (L := L) (lev := lv) 1 (fun p hp => by rw [Finset.mem_singleton.mp hp, L_tc]; exact Finset.mem_singleton_self _)
    (fun g u hg => by rcases O₁_pos hg with rfl | rfl <;> exact Finset.mem_singleton_self _)
    (fun p hp => by rw [Finset.mem_singleton.mp hp]; exact le_of_eq (lv_bar c _))
    (fun g u hg => by
      rcases O₁_pos hg with rfl | rfl
      · rw [lv_rcv0]; decide
      · rw [lv_rcv1]; decide)

end Cert.KernelIdeal.Proto

end
-- ==== Proof.Spec.lean ====
/-
  Multi-head latent attention over the extended reals, written twice as plain functions of Fin-indexed arrays.

  The reference arrangement (`rOut`): latent c = x·Wdkv over all 128 latent lanes, keys and values c·Wuk, c·Wuv,
  queries x·Wq, rotary queries x·Wqr, rotary keys x·Wkr, scores (Q·K + Qr·Kr)·σ, the row maximum subtracted before
  the exponential, the weights normalised by their row sum, values averaged with them, the result times Wo.

  The two-halves arrangement (`kOut`): the latent axis is cut in two halves of 64 lanes held by two devices; a
  device contracts its own half first and its peer's half second, scales the queries by σ before the score products,
  takes the exponential of the scores with no maximum subtracted, and multiplies the averaged values by the
  reciprocal of the row sum afterwards.

  For finite inputs the two are one function (softmax is invariant under a shift, σ distributes over the finite
  sums, the reciprocal of a finite positive row sum factors out); that is proved elsewhere.
  Position e = 64·h + d of a row of width 1024 is head h, lane d; position 32·h + d of width 512 likewise.
-/
import Idealize.ShloMosaic.PureOps.Ideal

noncomputable section

open scoped BigOperators

namespace Cert.Attn

open Idealize.ShloMosaic

/-- Head `h`, lane `d` of a row of sixteen heads of sixty-four lanes. -/
def hd64 (h : Fin 16) (d : Fin 64) : Fin 1024 := ⟨h.val * 64 + d.val, by have := h.isLt; have := d.isLt; omega⟩
/-- Head `h`, lane `d` of a row of sixteen heads of thirty-two lanes. -/
def hd32 (h : Fin 16) (d : Fin 32) : Fin 512 := ⟨h.val * 32 + d.val, by have := h.isLt; have := d.isLt; omega⟩
/-- The head of position `e` of a row of width 1024, and its lane. -/
def headOf (e : Fin 1024) : Fin 16 := ⟨e.val / 64, by have := e.isLt; omega⟩
def laneOf (e : Fin 1024) : Fin 64 := ⟨e.val % 64, by omega⟩
/-- Lane `j` of half `y` of the 128 latent lanes. -/
def half (y : Fin 2) (j : Fin 64) : Fin 128 := ⟨64 * y.val + j.val, by have := y.isLt; have := j.isLt; omega⟩

section Reference

variable (x : Fin 2 → Fin 256 → Fin 1024 → EReal)
  (wdkv : Fin 1024 → Fin 128 → EReal) (wuk wuv : Fin 128 → Fin 1024 → EReal)
  (wq : Fin 1024 → Fin 1024 → EReal) (wqr : Fin 1024 → Fin 512 → EReal) (wkr : Fin 1024 → Fin 32 → EReal)
  (wo : Fin 1024 → Fin 1024 → EReal) (σ : EReal)

def rLat (b : Fin 2) (s : Fin 256) (j : Fin 128) : EReal := ∑ k : Fin 1024, x b s k * wdkv k j
def rKey (b : Fin 2) (s : Fin 256) (e : Fin 1024) : EReal := ∑ j : Fin 128, rLat x wdkv b s j * wuk j e
def rVal (b : Fin 2) (s : Fin 256) (e : Fin 1024) : EReal := ∑ j : Fin 128, rLat x wdkv b s j * wuv j e
def rQ (b : Fin 2) (s : Fin 256) (e : Fin 1024) : EReal := ∑ k : Fin 1024, x b s k * wq k e
def rQr (b : Fin 2) (s : Fin 256) (f : Fin 512) : EReal := ∑ k : Fin 1024, x b s k * wqr k f
def rKr (b : Fin 2) (s : Fin 256) (d : Fin 32) : EReal := ∑ k : Fin 1024, x b s k * wkr k d
def rScore (b : Fin 2) (h : Fin 16) (s t : Fin 256) : EReal :=
  (∑ d : Fin 64, rQ x wq b s (hd64 h d) * rKey x wdkv wuk b t (hd64 h d)
    + ∑ d : Fin 32, rQr x wqr b s (hd32 h d) * rKr x wkr b t d) * σ
def rMax (b : Fin 2) (h : Fin 16) (s : Fin 256) : EReal :=
  Finset.univ.sup fun t : Fin 256 => rScore x wdkv wuk wq wqr wkr σ b h s t
def rExp (b : Fin 2) (h : Fin 16) (s t : Fin 256) : EReal :=
  Ideal.exp (rScore x wdkv wuk wq wqr wkr σ b h s t - rMax x wdkv wuk wq wqr wkr σ b h s)
def rWgt (b : Fin 2) (h : Fin 16) (s t : Fin 256) : EReal :=
  Ideal.div (rExp x wdkv wuk wq wqr wkr σ b h s t) (∑ t' : Fin 256, rExp x wdkv wuk wq wqr wkr σ b h s t')
def rAtt (b : Fin 2) (s : Fin 256) (h : Fin 16) (d : Fin 64) : EReal :=
  ∑ t : Fin 256, rVal x wdkv wuv b t (hd64 h d) * rWgt x wdkv wuk wq wqr wkr σ b h s t
def rOut (b : Fin 2) (s : Fin 256) (e' : Fin 1024) : EReal :=
  ∑ e : Fin 1024, rAtt x wdkv wuk wuv wq wqr wkr σ b s (headOf e) (laneOf e) * wo e e'

end Reference

section TwoHalves

variable (x : Fin 2 → Fin 256 → Fin 1024 → EReal)
  (wd0 wd1 : Fin 1024 → Fin 64 → EReal) (wk0 wk1 wv0 wv1 : Fin 64 → Fin 1024 → EReal)
  (wq : Fin 1024 → Fin 1024 → EReal) (wqr : Fin 1024 → Fin 512 → EReal) (wkr : Fin 1024 → Fin 32 → EReal)
  (wo : Fin 1024 → Fin 1024 → EReal) (σ : EReal)

/-- One half of the latent, transposed: lane `j` of the half whose down-projection block is `wd`. -/
def kLat (wd : Fin 1024 → Fin 64 → EReal) (j : Fin 64) (b : Fin 2) (s : Fin 256) : EReal := ∑ k : Fin 1024, wd k j * x b s k
/-- An up-projection over both halves, own half first (`w0`, `wd0`) then the peer's (`w1`, `wd1`). -/
def kUp (w0 w1 : Fin 64 → Fin 1024 → EReal) (e : Fin 1024) (b : Fin 2) (s : Fin 256) : EReal :=
  ∑ j : Fin 64, w0 j e * kLat x wd0 j b s + ∑ j : Fin 64, w1 j e * kLat x wd1 j b s
def kQ (e : Fin 1024) (b : Fin 2) (s : Fin 256) : EReal := (∑ k : Fin 1024, wq k e * x b s k) * σ
def kQr (f : Fin 512) (b : Fin 2) (s : Fin 256) : EReal := (∑ k : Fin 1024, wqr k f * x b s k) * σ
def kKr (d : Fin 32) (b : Fin 2) (s : Fin 256) : EReal := ∑ k : Fin 1024, wkr k d * x b s k
def kScore (b : Fin 2) (h : Fin 16) (s t : Fin 256) : EReal :=
  ∑ d : Fin 64, kQ x wq σ (hd64 h d) b s * kUp x wd0 wd1 wk0 wk1 (hd64 h d) b t
    + ∑ d : Fin 32, kQr x wqr σ (hd32 h d) b s * kKr x wkr d b t
def kExp (b : Fin 2) (h : Fin 16) (s t : Fin 256) : EReal := Ideal.exp (kScore x wd0 wd1 wk0 wk1 wq wqr wkr σ b h s t)
def kInv (b : Fin 2) (h : Fin 16) (s : Fin 256) : EReal :=
  Ideal.div 1 (∑ t : Fin 256, kExp x wd0 wd1 wk0 wk1 wq wqr wkr σ b h s t)
def kAtt (b : Fin 2) (h : Fin 16) (d : Fin 64) (s : Fin 256) : EReal :=
  (∑ t : Fin 256, kUp x wd0 wd1 wv0 wv1 (hd64 h d) b t * kExp x wd0 wd1 wk0 wk1 wq wqr wkr σ b h s t)
    * kInv x wd0 wd1 wk0 wk1 wq wqr wkr σ b h s
def kOut (b : Fin 2) (s : Fin 256) (e' : Fin 1024) : EReal :=
  ∑ e : Fin 1024, kAtt x wd0 wd1 wk0 wk1 wv0 wv1 wq wqr wkr σ b (headOf e) (laneOf e) s * wo e e'

end TwoHalves

end Cert.Attn

end
-- ==== Proof.Glue.lean ====
/-
  How the eight devices' argument blocks sit inside the whole arrays. The mesh is 2 × 2 × 2, numbered row-major, so
  device c has middle coordinate (c / 2) mod 2; the down-projection is cut along its 128 columns, the two
  up-projections along their 128 rows, each into two halves of 64 along that middle axis. Lane j of the half a
  device holds is lane 64·y + j of the whole. A device's peer differs from it in exactly that coordinate, so the two
  hold the two different halves. The scale literal is a finite number.
-/
import proofs.«900377_g7700000000000378_dist_mla_v7x_xyz2x2x2_y_b2_s256_d1024_dc64_bf16_1_alg».proof.Proof.Spec
import proofs.«900377_g7700000000000378_dist_mla_v7x_xyz2x2x2_y_b2_s256_d1024_dc64_bf16_1_alg».proof.Proof.Proto1
import Idealize.ShloMosaic.Lib.Layout
import Idealize.ShloMosaic.Lib.ValueIdx

noncomputable section

namespace Cert.Glue

open Idealize.ShloMosaic Idealize.ShloMosaic.ValueIdx

/-- The middle mesh coordinate of device c. -/
def ycoord (c : Dev 8) : Fin 2 := ⟨c.val / 2 % 2, by omega⟩

/-- A device and its peer have different middle coordinates. -/
theorem ycoord_peer (c : Dev 8) : ycoord c ≠ ycoord (Cert.KernelIdeal.Proto.peer c) := by
  revert c; decide

/-- Two rank-2 indices with equal coordinates are equal. -/
theorem idx2_ext {n0 n1 : Nat} (p q : (⟨2, ![n0, n1]⟩ : Shape).Idx) (h0 : (p 0).val = (q 0).val)
    (h1 : (p 1).val = (q 1).val) : p = q := by
  funext a; apply Fin.ext
  match a with
  | ⟨0, _⟩ => exact h0
  | ⟨1, _⟩ => exact h1

/-- Column j of a device's down-projection block is column 64·y + j of the whole matrix. -/
theorem blk_cols (c : Dev 8) (WD : Vec Ideal ⟨2, ![1024, 128]⟩ .f32) (k : Fin 1024) (j : Fin 64) :
    (Layout.blockN ⟨2, ![1024, 64]⟩ ⟨2, ![1024, 128]⟩ (Layout.meshBlock [2, 2, 2] ![[], [1]] c) WD) (ix2 k j)
      = WD (ix2 k (Cert.Attn.half (ycoord c) j)) := by
  rw [Layout.blockN_apply]
  refine congrArg WD (idx2_ext _ _ ?_ ?_)
  · show 0 * 1024 + k.val = k.val; omega
  · show (c.val / 2 % 2 * 1 + 0) * 64 + j.val = 64 * (c.val / 2 % 2) + j.val; omega

/-- Row j of a device's up-projection block is row 64·y + j of the whole matrix. -/
theorem blk_rows (c : Dev 8) (WK : Vec Ideal ⟨2, ![128, 1024]⟩ .f32) (j : Fin 64) (e : Fin 1024) :
    (Layout.blockN ⟨2, ![64, 1024]⟩ ⟨2, ![128, 1024]⟩ (Layout.meshBlock [2, 2, 2] ![[1], []] c) WK) (ix2 j e)
      = WK (ix2 (Cert.Attn.half (ycoord c) j) e) := by
  rw [Layout.blockN_apply]
  refine congrArg WK (idx2_ext _ _ ?_ ?_)
  · show (c.val / 2 % 2 * 1 + 0) * 64 + j.val = 64 * (c.val / 2 % 2) + j.val; omega
  · show 0 * 1024 + e.val = e.val; omega

/-- The scale literal denotes a real number. -/
theorem sigma_fin : ∃ r : ℝ, Ideal.ofBits .f32 0x3DD105EC#32 = (r : EReal) := by
  have h : Ideal.ofBits .f32 0x3DD105EC#32 = Ideal.ieee 8 23 (0x3DD105EC#32 : BitVec 32) := rfl
  rw [h]
  unfold Ideal.ieee
  dsimp only
  rw [if_neg (by decide), if_neg (by decide)]
  exact ⟨_, rfl⟩

end Cert.Glue

end
-- ==== Proof.GlueFin.lean ====
/-
  From the precondition to real numbers. The precondition says, of each of a device's eight argument blocks, that
  the conjunction over all its entries of "the absolute value is below plus infinity" is true. An extended real whose
  absolute value max(x, −x) is strictly below the top element is neither infinity, hence a real number; so every
  entry of every argument block of every device is a real.
-/
import proofs.«900377_g7700000000000378_dist_mla_v7x_xyz2x2x2_y_b2_s256_d1024_dc64_bf16_1_alg».proof.Defs
import proofs.«900377_g7700000000000378_dist_mla_v7x_xyz2x2x2_y_b2_s256_d1024_dc64_bf16_1_alg».proof.Proof.Gen.Pre_finite_inputs_Kernel
import proofs.«900377_g7700000000000378_dist_mla_v7x_xyz2x2x2_y_b2_s256_d1024_dc64_bf16_1_alg».proof.Proof.Gen.KernelIdeal
import Idealize.ShloMosaic.Lib.ReduceAll
import Idealize.ShloMosaic.Lib.Pipeline.Value
import Idealize.ShloMosaic.Lib.ValueIdx
import Idealize.ShloMosaic.PureOps.Ideal.Laws

noncomputable section

namespace Cert.Glue

open Idealize.ShloMosaic Idealize.ShloMosaic.ValueIdx Idealize.SL.Sem

/-- The scalar shape has one index. -/
instance : Subsingleton (⟨0, ![]⟩ : Shape).Idx := ⟨fun a b => funext fun d => d.elim0⟩

/-- The word of f32's plus infinity denotes the top extended real. -/
theorem posInf_eq_top : Ideal.ofBits .f32 0x7F800000#32 = (⊤ : EReal) := by
  simp [Ideal.ofBits, Ideal.ieee]

/-- An extended real whose absolute value compares strictly below plus infinity is a real number. -/
theorem real_of_abs_lt (x : EReal)
    (h : FloatOps.cmpf (F := Ideal) (φ := .f32) .olt (FloatOps.hostAbsf (F := Ideal) (φ := .f32) x)
      (Ideal.ofBits .f32 0x7F800000#32) = 1#1) : ∃ r : ℝ, x = (r : EReal) := by
  rw [Ideal.cmpf_def, Ideal.hostAbsf_def, Ideal.absf_def, posInf_eq_top] at h
  induction x using EReal.rec with
  | bot => simp [Ideal.cmp] at h
  | top => simp [Ideal.cmp] at h
  | coe r => exact ⟨r, rfl⟩

/-- One array: if the conjunction over all entries of "absolute value below plus infinity" is true, every entry is
    a real number. -/
theorem all_fin {S : Shape} {axes : List (Fin S.rank)} (A : FVec Ideal S .f32)
    (hb : (⟨0, ![]⟩ : Shape).BroadcastsInDim S (![] : Fin 0 → Fin S.rank)) (hr : S.ReducesTo axes ⟨0, ![]⟩)
    (hu : 0 < (⟨0, ![]⟩ : Shape).numel)
    (e : Host.reduce IntOp.andi (cmpf .olt (Host.absf A) (broadcastInDim S ![] hb (constant (F := Ideal) ⟨0, ![]⟩ .f32 0x7F800000#32)))
      (constantI ⟨0, ![]⟩ 1 1#1) hr hu ix0 = 1#1) (i : S.Idx) : ∃ r : ℝ, A i = (r : EReal) := by
  have h1 := Host.reduce_andi_all _ _ hr hu ix0 e i
  have h2 : broadcastInDim S ![] hb (constant (F := Ideal) ⟨0, ![]⟩ .f32 0x7F800000#32) i = Ideal.ofBits .f32 0x7F800000#32 :=
    broadcastInDim_apply _ hb _ i ix0 (fun a => a.elim0)
  exact real_of_abs_lt (A i) (by rw [← h2]; exact h1)

/-- A conjunction of one-bit arrays read at an index. -/
theorem andi_at {S : Shape} {w : Nat} (x y : IVec S w) (i : S.Idx) : andi x y i = IntOp.andi (x i) (y i) := rfl

/-- Under the precondition every entry of each of a device's eight argument blocks is a real number. -/
theorem fin_of_pre (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, ∃ r : ℝ, m ((c.tc : Thread Cert.KernelIdeal.nD Cert.KernelIdeal.τ).loc Cert.KernelIdeal.main_arg0) i = (r : EReal))
    ∧ (∀ i, ∃ r : ℝ, m ((c.tc : Thread Cert.KernelIdeal.nD Cert.KernelIdeal.τ).loc Cert.KernelIdeal.main_arg1) i = (r : EReal))
    ∧ (∀ i, ∃ r : ℝ, m ((c.tc : Thread Cert.KernelIdeal.nD Cert.KernelIdeal.τ).loc Cert.KernelIdeal.main_arg2) i = (r : EReal))
    ∧ (∀ i, ∃ r : ℝ, m ((c.tc : Thread Cert.KernelIdeal.nD Cert.KernelIdeal.τ).loc Cert.KernelIdeal.main_arg3) i = (r : EReal))
    ∧ (∀ i, ∃ r : ℝ, m ((c.tc : Thread Cert.KernelIdeal.nD Cert.KernelIdeal.τ).loc Cert.KernelIdeal.main_arg4) i = (r : EReal))
    ∧ (∀ i, ∃ r : ℝ, m ((c.tc : Thread Cert.KernelIdeal.nD Cert.KernelIdeal.τ).loc Cert.KernelIdeal.main_arg5) i = (r : EReal))
    ∧ (∀ i, ∃ r : ℝ, m ((c.tc : Thread Cert.KernelIdeal.nD Cert.KernelIdeal.τ).loc Cert.KernelIdeal.main_arg6) i = (r : EReal))
    ∧ (∀ i, ∃ r : ℝ, m ((c.tc : Thread Cert.KernelIdeal.nD Cert.KernelIdeal.τ).loc Cert.KernelIdeal.main_arg7) i = (r : EReal)) := by
  have h0 := congrFun (h c) ix0
  dsimp only [Cert.Pre_finite_inputs_Kernel.fn, Cert.Pre_finite_inputs_Kernel.fn_part1, Cert.Pre_finite_inputs_Kernel.fn_part2] at h0
  simp only [andi_at, IntOp.andi_eq_one] at h0
  obtain ⟨⟨⟨⟨⟨⟨⟨e0, e1⟩, e2⟩, e3⟩, e4⟩, e5⟩, e6⟩, e7⟩ := h0
  exact ⟨all_fin _ _ _ _ e0, all_fin _ _ _ _ e1, all_fin _ _ _ _ e2, all_fin _ _ _ _ e3, all_fin _ _ _ _ e4,
    all_fin _ _ _ _ e5, all_fin _ _ _ _ e6, all_fin _ _ _ _ e7⟩

end Cert.Glue

end
-- ==== Proof.RefProj.lean ====
/-
  The reference's six projections read at an index: the latent x·Wdkv, keys and values (latent times the two
  up-projections), queries x·Wq, rotary queries x·Wqr and rotary keys x·Wkr are each one sum over the contracted
  axis; the reshapes that split a row of width 1024 (or 512) into sixteen heads only rename the position
  e = 64·h + d (or 32·h + d), and the broadcast of the single rotary key head over the sixteen heads forgets h.
-/
import proofs.«900377_g7700000000000378_dist_mla_v7x_xyz2x2x2_y_b2_s256_d1024_dc64_bf16_1_alg».proof.Proof.Gen.ReferenceIdeal.Read
import proofs.«900377_g7700000000000378_dist_mla_v7x_xyz2x2x2_y_b2_s256_d1024_dc64_bf16_1_alg».proof.Proof.Spec

noncomputable section

open scoped BigOperators

namespace Cert.ReferenceIdeal.RefValue

open Cert.ReferenceIdeal Cert.ReferenceIdeal.Read Idealize.ShloMosaic Idealize.ShloMosaic.ValueIdx Cert.Attn

/-- Two rank-3 indices with equal coordinates are equal. -/
theorem idx3_ext {n0 n1 n2 : Nat} (p q : (⟨3, ![n0, n1, n2]⟩ : Shape).Idx) (h0 : (p 0).val = (q 0).val)
    (h1 : (p 1).val = (q 1).val) (h2 : (p 2).val = (q 2).val) : p = q := by
  funext a; apply Fin.ext
  match a with
  | ⟨0, _⟩ => exact h0
  | ⟨1, _⟩ => exact h1
  | ⟨2, _⟩ => exact h2

/-- Two rank-2 indices with equal coordinates are equal. -/
theorem idx2_ext {n0 n1 : Nat} (p q : (⟨2, ![n0, n1]⟩ : Shape).Idx) (h0 : (p 0).val = (q 0).val)
    (h1 : (p 1).val = (q 1).val) : p = q := by
  funext a; apply Fin.ext
  match a with
  | ⟨0, _⟩ => exact h0
  | ⟨1, _⟩ => exact h1

/-- Two rank-4 indices with equal coordinates are equal. -/
theorem idx4_ext {n0 n1 n2 n3 : Nat} (p q : (⟨4, ![n0, n1, n2, n3]⟩ : Shape).Idx) (h0 : (p 0).val = (q 0).val)
    (h1 : (p 1).val = (q 1).val) (h2 : (p 2).val = (q 2).val) (h3 : (p 3).val = (q 3).val) : p = q := by
  funext a; apply Fin.ext
  match a with
  | ⟨0, _⟩ => exact h0
  | ⟨1, _⟩ => exact h1
  | ⟨2, _⟩ => exact h2
  | ⟨3, _⟩ => exact h3

/-- A rank-3 array as a function of its three coordinates, a rank-2 array of its two. -/
abbrev f3 {n0 n1 n2 : Nat} (A : Vec Ideal ⟨3, ![n0, n1, n2]⟩ .f32) : Fin n0 → Fin n1 → Fin n2 → EReal :=
  fun a b c => A (ix3 a b c)
abbrev f2 {n0 n1 : Nat} (A : Vec Ideal ⟨2, ![n0, n1]⟩ .f32) : Fin n0 → Fin n1 → EReal :=
  fun a b => A (ix2 a b)

variable (X : Vec Ideal S2x256x1024 .f32) (WD : Vec Ideal S1024x128 .f32) (WK WV : Vec Ideal S128x1024 .f32)
  (WQ : Vec Ideal S1024x1024 .f32) (WQR : Vec Ideal S1024x512 .f32) (WKR : Vec Ideal S1024x32 .f32)

/-- The latent at (b, s, j): row (b, s) of x against column j of Wdkv. -/
theorem lat_at (b : Fin 2) (s : Fin 256) (j : Fin 128) :
    val_main_v0 (F := Ideal) X WD (ix3 b s j) = rLat (f3 X) (f2 WD) b s j := by
  rw [val_main_v0_apply]
  unfold rLat
  refine Finset.sum_congr rfl fun k _ => ?_
  rw [show lidx_main_v0 (ix3 b s j) k = ix3 b s k from idx3_ext _ _ rfl rfl rfl,
    show ridx_main_v0 (ix3 b s j) k = ix2 k j from idx2_ext _ _ rfl rfl]

/-- The keys at (b, s, e): the latent row against column e of Wuk. -/
theorem key_at (b : Fin 2) (s : Fin 256) (e : Fin 1024) :
    val_main_v1 (F := Ideal) X WD WK (ix3 b s e) = rKey (f3 X) (f2 WD) (f2 WK) b s e := by
  rw [val_main_v1_apply]
  unfold rKey
  refine Finset.sum_congr rfl fun k _ => ?_
  rw [show lidx_main_v1 (ix3 b s e) k = ix3 b s k from idx3_ext _ _ rfl rfl rfl,
    show ridx_main_v1 (ix3 b s e) k = ix2 k e from idx2_ext _ _ rfl rfl, lat_at]

/-- The values at (b, s, e): the latent row against column e of Wuv. -/
theorem val_at (b : Fin 2) (s : Fin 256) (e : Fin 1024) :
    val_main_v3 (F := Ideal) X WD WV (ix3 b s e) = rVal (f3 X) (f2 WD) (f2 WV) b s e := by
  rw [val_main_v3_apply]
  unfold rVal
  refine Finset.sum_congr rfl fun k _ => ?_
  rw [show lidx_main_v3 (ix3 b s e) k = ix3 b s k from idx3_ext _ _ rfl rfl rfl,
    show ridx_main_v3 (ix3 b s e) k = ix2 k e from idx2_ext _ _ rfl rfl, lat_at]

/-- The queries at (b, s, e). -/
theorem q_at (b : Fin 2) (s : Fin 256) (e : Fin 1024) :
    val_main_v5 (F := Ideal) X WQ (ix3 b s e) = rQ (f3 X) (f2 WQ) b s e := by
  rw [val_main_v5_apply]
  unfold rQ
  refine Finset.sum_congr rfl fun k _ => ?_
  rw [show lidx_main_v5 (ix3 b s e) k = ix3 b s k from idx3_ext _ _ rfl rfl rfl,
    show ridx_main_v5 (ix3 b s e) k = ix2 k e from idx2_ext _ _ rfl rfl]

/-- The rotary queries at (b, s, f). -/
theorem qr_at (b : Fin 2) (s : Fin 256) (f : Fin 512) :
    val_main_v7 (F := Ideal) X WQR (ix3 b s f) = rQr (f3 X) (f2 WQR) b s f := by
  rw [val_main_v7_apply]
  unfold rQr
  refine Finset.sum_congr rfl fun k _ => ?_
  rw [show lidx_main_v7 (ix3 b s f) k = ix3 b s k from idx3_ext _ _ rfl rfl rfl,
    show ridx_main_v7 (ix3 b s f) k = ix2 k f from idx2_ext _ _ rfl rfl]

/-- The rotary keys at (b, s, d). -/
theorem kr_at (b : Fin 2) (s : Fin 256) (d : Fin 32) :
    val_main_v9 (F := Ideal) X WKR (ix3 b s d) = rKr (f3 X) (f2 WKR) b s d := by
  rw [val_main_v9_apply]
  unfold rKr
  refine Finset.sum_congr rfl fun k _ => ?_
  rw [show lidx_main_v9 (ix3 b s d) k = ix3 b s k from idx3_ext _ _ rfl rfl rfl,
    show ridx_main_v9 (ix3 b s d) k = ix2 k d from idx2_ext _ _ rfl rfl]

/-- Splitting a row of width 1024 into sixteen heads of 64 lanes: (b, t, h, d) is position 64·h + d of row (b, t). -/
theorem split64 (b : Fin 2) (t : Fin 256) (h : Fin 16) (d : Fin 64) :
    idx_main_v2 (ix4 b t h d) = ix3 b t (hd64 h d) := by
  have hb := b.isLt; have ht := t.isLt; have hh := h.isLt; have hd := d.isLt
  refine idx3_ext _ _ ?_ ?_ ?_
  · show (((b.val * 256 + t.val) * 16 + h.val) * 64 + d.val) / 262144 = b.val; omega
  · show (((b.val * 256 + t.val) * 16 + h.val) * 64 + d.val) / 1024 % 256 = t.val; omega
  · show (((b.val * 256 + t.val) * 16 + h.val) * 64 + d.val) % 1024 = h.val * 64 + d.val; omega

/-- Splitting a row of width 512 into sixteen heads of 32 lanes. -/
theorem split32 (b : Fin 2) (t : Fin 256) (h : Fin 16) (d : Fin 32) :
    idx_main_v8 (ix4 b t h d) = ix3 b t (hd32 h d) := by
  have hb := b.isLt; have ht := t.isLt; have hh := h.isLt; have hd := d.isLt
  refine idx3_ext _ _ ?_ ?_ ?_
  · show (((b.val * 256 + t.val) * 16 + h.val) * 32 + d.val) / 131072 = b.val; omega
  · show (((b.val * 256 + t.val) * 16 + h.val) * 32 + d.val) / 512 % 256 = t.val; omega
  · show (((b.val * 256 + t.val) * 16 + h.val) * 32 + d.val) % 512 = h.val * 32 + d.val; omega

/-- The keys by head. -/
theorem keyh_at (b : Fin 2) (t : Fin 256) (h : Fin 16) (d : Fin 64) :
    val_main_v2 (F := Ideal) X WD WK (ix4 b t h d) = rKey (f3 X) (f2 WD) (f2 WK) b t (hd64 h d) := by
  rw [val_main_v2_apply, show idx_main_v2 (ix4 b t h d) = ix3 b t (hd64 h d) from split64 b t h d, key_at]

/-- The values by head. -/
theorem valh_at (b : Fin 2) (t : Fin 256) (h : Fin 16) (d : Fin 64) :
    val_main_v4 (F := Ideal) X WD WV (ix4 b t h d) = rVal (f3 X) (f2 WD) (f2 WV) b t (hd64 h d) := by
  rw [val_main_v4_apply, show idx_main_v4 (ix4 b t h d) = ix3 b t (hd64 h d) from split64 b t h d, val_at]

/-- The queries by head. -/
theorem qh_at (b : Fin 2) (s : Fin 256) (h : Fin 16) (d : Fin 64) :
    val_main_v6 (F := Ideal) X WQ (ix4 b s h d) = rQ (f3 X) (f2 WQ) b s (hd64 h d) := by
  rw [val_main_v6_apply, show idx_main_v6 (ix4 b s h d) = ix3 b s (hd64 h d) from split64 b s h d, q_at]

/-- The rotary queries by head. -/
theorem qrh_at (b : Fin 2) (s : Fin 256) (h : Fin 16) (d : Fin 32) :
    val_main_v8 (F := Ideal) X WQR (ix4 b s h d) = rQr (f3 X) (f2 WQR) b s (hd32 h d) := by
  rw [val_main_v8_apply, split32, qr_at]

/-- The rotary keys have one head, shared by all sixteen: at (b, t, h, d) they are the rotary key (b, t, d). -/
theorem krh_at (b : Fin 2) (t : Fin 256) (h : Fin 16) (d : Fin 32) :
    val_main_v12 (F := Ideal) X WKR (ix4 b t h d) = rKr (f3 X) (f2 WKR) b t d := by
  have hb := b.isLt; have ht := t.isLt; have hd := d.isLt
  rw [val_main_v12_apply, val_main_v10_apply,
    show idx_main_v10 (idx_main_v12 (ix4 b t h d)) = ix3 b t d from idx3_ext _ _
      (by show (((b.val * 256 + t.val) * 1 + 0) * 32 + d.val) / 8192 = b.val; omega)
      (by show (((b.val * 256 + t.val) * 1 + 0) * 32 + d.val) / 32 % 256 = t.val; omega)
      (by show (((b.val * 256 + t.val) * 1 + 0) * 32 + d.val) % 32 = d.val; omega), kr_at]

end Cert.ReferenceIdeal.RefValue

end
-- ==== Proof.RefScore.lean ====
/-
  The reference's attention weights read at an index. The score of query row s against key row t in head h is the
  sum over the head's 64 lanes of query times key plus the sum over the 32 rotary lanes of rotary query times rotary
  key, all times the scale; the row maximum is the supremum over t (the reduction starts from minus infinity, the
  bottom element); the exponential of score minus maximum is summed over t starting from zero, and each exponential
  is divided by that row sum.
-/
import proofs.«900377_g7700000000000378_dist_mla_v7x_xyz2x2x2_y_b2_s256_d1024_dc64_bf16_1_alg».proof.Proof.RefProj

noncomputable section

open scoped BigOperators

namespace Cert.ReferenceIdeal.RefValue

open Cert.ReferenceIdeal Cert.ReferenceIdeal.Gen Cert.ReferenceIdeal.Read Idealize.ShloMosaic Idealize.ShloMosaic.ValueIdx Cert.Attn

variable (X : Vec Ideal S2x256x1024 .f32) (WD : Vec Ideal S1024x128 .f32) (WK WV : Vec Ideal S128x1024 .f32)
  (WQ : Vec Ideal S1024x1024 .f32) (WQR : Vec Ideal S1024x512 .f32) (WKR : Vec Ideal S1024x32 .f32)

/-- Query times key over the 64 lanes of head h. -/
theorem qk_at (b : Fin 2) (h : Fin 16) (s t : Fin 256) :
    val_main_v11 (F := Ideal) X WD WK WQ (ix4 b h s t)
      = ∑ d : Fin 64, rQ (f3 X) (f2 WQ) b s (hd64 h d) * rKey (f3 X) (f2 WD) (f2 WK) b t (hd64 h d) := by
  rw [val_main_v11_apply]
  refine Finset.sum_congr rfl fun k _ => ?_
  rw [show lidx_main_v11 (ix4 b h s t) k = ix4 b s h k from idx4_ext _ _ rfl rfl rfl rfl,
    show ridx_main_v11 (ix4 b h s t) k = ix4 b t h k from idx4_ext _ _ rfl rfl rfl rfl, qh_at, keyh_at]

/-- Rotary query times rotary key over the 32 rotary lanes. -/
theorem qrkr_at (b : Fin 2) (h : Fin 16) (s t : Fin 256) :
    val_main_v13 (F := Ideal) X WQR WKR (ix4 b h s t)
      = ∑ d : Fin 32, rQr (f3 X) (f2 WQR) b s (hd32 h d) * rKr (f3 X) (f2 WKR) b t d := by
  rw [val_main_v13_apply]
  refine Finset.sum_congr rfl fun k _ => ?_
  rw [show lidx_main_v13 (ix4 b h s t) k = ix4 b s h k from idx4_ext _ _ rfl rfl rfl rfl,
    show ridx_main_v13 (ix4 b h s t) k = ix4 b t h k from idx4_ext _ _ rfl rfl rfl rfl, qrh_at, krh_at]

/-- The scaled score. -/
theorem score_at (b : Fin 2) (h : Fin 16) (s t : Fin 256) :
    val_main_v16 (F := Ideal) X WD WK WQ WQR WKR (ix4 b h s t)
      = rScore (f3 X) (f2 WD) (f2 WK) (f2 WQ) (f2 WQR) (f2 WKR) (Ideal.ofBits .f32 0x3DD105EC#32) b h s t := by
  rw [val_main_v16_apply, val_main_v14_apply, qk_at, qrkr_at, val_main_v15_apply, val_main_cst_apply]
  rfl

/-- The word of f32's minus infinity denotes the bottom extended real. -/
theorem negInf_eq_bot : Ideal.ofBits .f32 0xFF800000#32 = (⊥ : EReal) := by
  simp [Ideal.ofBits, Ideal.ieee]

/-- Row (b, h, s) of the scores with column k put back is entry (b, h, s, k). -/
theorem lift_row (hr : S2x16x256x256.Reduces [3] S2x16x256) (b : Fin 2) (h : Fin 16) (s : Fin 256)
    (k : Fin (S2x16x256x256.size 3)) : hr.lift (ix3 b h s) k = ix4 b h s (⟨k.val, k.isLt⟩ : Fin 256) := by
  funext c; apply Fin.ext
  match c with
  | ⟨0, _⟩ => rfl
  | ⟨1, _⟩ => rfl
  | ⟨2, _⟩ => rfl
  | ⟨3, _⟩ => rfl

/-- The row maximum: the supremum of the row's scores. -/
theorem max_at (b : Fin 2) (h : Fin 16) (s : Fin 256) :
    val_main_v17 (F := Ideal) X WD WK WQ WQR WKR (ix3 b h s)
      = rMax (f3 X) (f2 WD) (f2 WK) (f2 WQ) (f2 WQR) (f2 WKR) (Ideal.ofBits .f32 0x3DD105EC#32) b h s := by
  have hsc := score_at X WD WK WQ WQR WKR b h s
  unfold val_main_v17
  generalize val_main_v16 (F := Ideal) X WD WK WQ WQR WKR = y at hsc ⊢
  have hr : S2x16x256x256.Reduces [3] S2x16x256 := by decide
  refine Eq.trans (Host.reduce_eq_fold_single _ y _ reducesTo_S2x16x256x256_S2x16x256_d3 hr h_S_ (ix3 b h s)) ?_
  have hf : (y ∘ hr.lift (ix3 b h s))
      = fun t : Fin 256 => rScore (f3 X) (f2 WD) (f2 WK) (f2 WQ) (f2 WQR) (f2 WKR) (Ideal.ofBits .f32 0x3DD105EC#32) b h s t :=
    funext fun k => (congrArg y (lift_row hr b h s k)).trans (hsc ⟨k.val, k.isLt⟩)
  refine Eq.trans (congrArg (fun f => Finset.fold (max : EReal → EReal → EReal) (Ideal.ofBits .f32 0xFF800000#32) f
    (Finset.univ : Finset (Fin 256))) hf) ?_
  rw [negInf_eq_bot]
  rfl

/-- The exponential of score minus row maximum. -/
theorem exp_at (b : Fin 2) (h : Fin 16) (s t : Fin 256) :
    val_main_v21 (F := Ideal) X WD WK WQ WQR WKR (ix4 b h s t)
      = rExp (f3 X) (f2 WD) (f2 WK) (f2 WQ) (f2 WQR) (f2 WKR) (Ideal.ofBits .f32 0x3DD105EC#32) b h s t := by
  rw [val_main_v21_apply, val_main_v20_apply, val_main_v19_apply, val_main_v18_apply, score_at,
    show idx_main_v18 (idx_main_v19 (ix4 b h s t)) = ix3 b h s from idx3_ext _ _ rfl rfl rfl, max_at]
  rfl

/-- The row sum of the exponentials (the reduction starts from zero). -/
theorem sum_at (b : Fin 2) (h : Fin 16) (s : Fin 256) :
    val_main_v22 (F := Ideal) X WD WK WQ WQR WKR (ix3 b h s)
      = ∑ t : Fin 256, rExp (f3 X) (f2 WD) (f2 WK) (f2 WQ) (f2 WQR) (f2 WKR) (Ideal.ofBits .f32 0x3DD105EC#32) b h s t := by
  rw [val_main_v22_apply, val_main_cst_1_apply, Ideal.ofBits_def, Ideal.ofBits_zero_f32, zero_add]
  refine Finset.sum_congr rfl fun k _ => ?_
  rw [show idx_main_v22 (ix3 b h s) k = ix4 b h s k from idx4_ext _ _ rfl rfl rfl rfl, exp_at]

/-- The attention weight: the exponential over its row sum. -/
theorem wgt_at (b : Fin 2) (h : Fin 16) (s t : Fin 256) :
    val_main_v25 (F := Ideal) X WD WK WQ WQR WKR (ix4 b h s t)
      = rWgt (f3 X) (f2 WD) (f2 WK) (f2 WQ) (f2 WQR) (f2 WKR) (Ideal.ofBits .f32 0x3DD105EC#32) b h s t := by
  rw [val_main_v25_apply, val_main_v24_apply, val_main_v23_apply, exp_at,
    show idx_main_v23 (idx_main_v24 (ix4 b h s t)) = ix3 b h s from idx3_ext _ _ rfl rfl rfl, sum_at]
  rfl

end Cert.ReferenceIdeal.RefValue

end
-- ==== Proof.RefSide.lean ====
/-
  The reference's result read at an index. The averaged values of head h, lane d at query row (b, s) are the sum
  over the key rows t of value times attention weight; the transpose and the reshape that put the sixteen heads back
  side by side only rename position e = 64·h + d of a row of width 1024; the result is that row against column e'
  of the output projection.
-/
import proofs.«900377_g7700000000000378_dist_mla_v7x_xyz2x2x2_y_b2_s256_d1024_dc64_bf16_1_alg».proof.Proof.RefScore

noncomputable section

open scoped BigOperators

namespace Cert.ReferenceIdeal.RefValue

open Cert.ReferenceIdeal Cert.ReferenceIdeal.Gen Cert.ReferenceIdeal.Read Idealize.ShloMosaic Idealize.ShloMosaic.ValueIdx Cert.Attn

/-- The averaged values at (b, s, h, d). -/
theorem att_at (X : Vec Ideal S2x256x1024 .f32) (WD : Vec Ideal S1024x128 .f32) (WK WV : Vec Ideal S128x1024 .f32)
    (WQ : Vec Ideal S1024x1024 .f32) (WQR : Vec Ideal S1024x512 .f32) (WKR : Vec Ideal S1024x32 .f32)
    (b : Fin 2) (s : Fin 256) (h : Fin 16) (d : Fin 64) :
    val_main_v27 (F := Ideal) X WD WK WV WQ WQR WKR (ix4 b s h d)
      = rAtt (f3 X) (f2 WD) (f2 WK) (f2 WV) (f2 WQ) (f2 WQR) (f2 WKR) (Ideal.ofBits .f32 0x3DD105EC#32) b s h d := by
  rw [val_main_v27_apply, show idx_main_v27 (ix4 b s h d) = ix4 b h d s from idx4_ext _ _ rfl rfl rfl rfl,
    val_main_v26_apply]
  unfold rAtt
  refine Finset.sum_congr rfl fun k _ => ?_
  rw [show lidx_main_v26 (ix4 b h d s) k = ix4 b k h d from idx4_ext _ _ rfl rfl rfl rfl,
    show ridx_main_v26 (ix4 b h d s) k = ix4 b h s k from idx4_ext _ _ rfl rfl rfl rfl, valh_at, wgt_at]

/-- Position e of a row of width 1024 is lane e mod 64 of head e div 64. -/
theorem merge64 (b : Fin 2) (s : Fin 256) (e : Fin 1024) :
    idx_main_v28 (ix3 b s e) = ix4 b s (headOf e) (laneOf e) := by
  have hb := b.isLt; have hs := s.isLt; have he := e.isLt
  refine idx4_ext _ _ ?_ ?_ ?_ ?_
  · show ((b.val * 256 + s.val) * 1024 + e.val) / 262144 = b.val; omega
  · show ((b.val * 256 + s.val) * 1024 + e.val) / 1024 % 256 = s.val; omega
  · show ((b.val * 256 + s.val) * 1024 + e.val) / 64 % 16 = e.val / 64; omega
  · show ((b.val * 256 + s.val) * 1024 + e.val) % 64 = e.val % 64; omega

/-- The one-device reference's result at (b, s, e') is the reference arrangement of multi-head latent attention. -/
theorem ref_eq (X : Vec Ideal S2x256x1024 .f32) (WD : Vec Ideal S1024x128 .f32) (WK WV : Vec Ideal S128x1024 .f32)
    (WQ : Vec Ideal S1024x1024 .f32) (WQR : Vec Ideal S1024x512 .f32) (WKR : Vec Ideal S1024x32 .f32)
    (WO : Vec Ideal S1024x1024 .f32) (b : Fin 2) (s : Fin 256) (e' : Fin 1024) :
    Cert.ReferenceIdeal.Read.val_main_v29 (F := Ideal) X WD WK WV WQ WQR WKR WO (ix3 b s e')
      = Cert.Attn.rOut (fun b s k => X (ix3 b s k)) (fun k j => WD (ix2 k j)) (fun j e => WK (ix2 j e))
          (fun j e => WV (ix2 j e)) (fun k e => WQ (ix2 k e)) (fun k f => WQR (ix2 k f)) (fun k d => WKR (ix2 k d))
          (fun e e' => WO (ix2 e e')) (Ideal.ofBits .f32 0x3DD105EC#32) b s e' := by
  rw [val_main_v29_apply]
  unfold rOut
  refine Finset.sum_congr rfl fun k _ => ?_
  rw [show lidx_main_v29 (ix3 b s e') k = ix3 b s k from idx3_ext _ _ rfl rfl rfl,
    show ridx_main_v29 (ix3 b s e') k = ix2 k e' from idx2_ext _ _ rfl rfl, val_main_v28_apply, merge64, att_at]

end Cert.ReferenceIdeal.RefValue

end
-- ==== Proof.AttnMath.lean ====
/-
  The two arrangements of multi-head latent attention are one function on finite inputs.

  An extended real is finite when it is the image of a real number.  Finite values are closed under sums and
  products, a finite sum of finite values is the image of the real sum, the supremum of finitely many finite values
  over a nonempty index set is finite, and the exponential of a finite value is a positive real.

  Three laws join the two arrangements.  The contraction over the 128 latent lanes is the sum over one half of 64
  lanes plus the sum over the other half, in either order: a rearrangement of a finite sum, true of all extended
  reals.  The scale factor distributes over the finite score sums: true of finite values.  The normalised
  exponential weights do not change when a common finite shift (the row maximum) is subtracted from every score, so
  the weighted average of the values can be taken with the unshifted exponentials and multiplied by the reciprocal
  of their positive finite sum afterwards: true of finite scores.
-/
import proofs.«900377_g7700000000000378_dist_mla_v7x_xyz2x2x2_y_b2_s256_d1024_dc64_bf16_1_alg».proof.Proof.Spec

noncomputable section

open scoped BigOperators

namespace Cert.Attn

open Idealize.ShloMosaic

/-- A finite sum of images of reals is the image of the real sum. -/
theorem coe_sum {ι : Type*} (s : Finset ι) (f : ι → ℝ) :
    ∑ i ∈ s, (f i : EReal) = ((∑ i ∈ s, f i : ℝ) : EReal) := by
  classical
  refine Finset.induction_on s ?_ ?_
  · rw [Finset.sum_empty, Finset.sum_empty, EReal.coe_zero]
  · intro a s ha ih
    rw [Finset.sum_insert ha, Finset.sum_insert ha, ih, EReal.coe_add]

theorem fin_add {a b : EReal} (ha : ∃ r : ℝ, a = (r : EReal)) (hb : ∃ r : ℝ, b = (r : EReal)) :
    ∃ r : ℝ, a + b = (r : EReal) := by
  obtain ⟨p, rfl⟩ := ha
  obtain ⟨q, rfl⟩ := hb
  exact ⟨p + q, (EReal.coe_add p q).symm⟩

theorem fin_mul {a b : EReal} (ha : ∃ r : ℝ, a = (r : EReal)) (hb : ∃ r : ℝ, b = (r : EReal)) :
    ∃ r : ℝ, a * b = (r : EReal) := by
  obtain ⟨p, rfl⟩ := ha
  obtain ⟨q, rfl⟩ := hb
  exact ⟨p * q, (EReal.coe_mul p q).symm⟩

theorem fin_sum {ι : Type*} (s : Finset ι) {f : ι → EReal} (h : ∀ i, ∃ r : ℝ, f i = (r : EReal)) :
    ∃ r : ℝ, ∑ i ∈ s, f i = (r : EReal) := by
  choose g hg using h
  refine ⟨∑ i ∈ s, g i, ?_⟩
  rw [← coe_sum]
  exact Finset.sum_congr rfl (fun i _ => hg i)

/-- The supremum of finitely many finite values, over a nonempty set, is finite. -/
theorem sup_coe {ι : Type*} (s : Finset ι) (a : ι → ℝ) (hs : s.Nonempty) :
    ∃ m : ℝ, s.sup (fun u => (a u : EReal)) = (m : EReal) := by
  classical
  revert hs
  refine Finset.induction_on s ?_ ?_
  · intro hs
    exact absurd hs Finset.not_nonempty_empty
  · intro i s _ ih _
    rw [Finset.sup_insert]
    rcases s.eq_empty_or_nonempty with rfl | hne
    · exact ⟨a i, by rw [Finset.sup_empty, sup_bot_eq]⟩
    · obtain ⟨m, hm⟩ := ih hne
      rw [hm]
      rcases le_total (a i) m with h | h
      · exact ⟨m, sup_eq_right.mpr (EReal.coe_le_coe_iff.mpr h)⟩
      · exact ⟨a i, sup_eq_left.mpr (EReal.coe_le_coe_iff.mpr h)⟩

/-- The scale factor distributes over the two score sums when everything is finite. -/
theorem score_scale {ι κ : Type*} [Fintype ι] [Fintype κ] (q k : ι → ℝ) (qr kr : κ → ℝ) (σ : ℝ) :
    ∑ d, ((q d : EReal) * (σ : EReal)) * (k d : EReal) + ∑ d, ((qr d : EReal) * (σ : EReal)) * (kr d : EReal)
      = (∑ d, (q d : EReal) * (k d : EReal) + ∑ d, (qr d : EReal) * (kr d : EReal)) * (σ : EReal) := by
  simp only [← EReal.coe_mul, coe_sum, ← EReal.coe_add]
  rw [EReal.coe_eq_coe_iff, add_mul, Finset.sum_mul, Finset.sum_mul]
  congr 1 <;> exact Finset.sum_congr rfl (fun d _ => by ring)

/-- The real identity behind the softmax: subtracting a common shift from every score leaves the normalised
    weights unchanged, so the weighted average is the unshifted weighted sum times the reciprocal of the
    unshifted row sum. -/
theorem softmax_real {ι : Type*} [Fintype ι] [Nonempty ι] (a v : ι → ℝ) (m : ℝ) :
    ∑ t, v t * (Real.exp (a t - m) * (1 / ∑ t', Real.exp (a t' - m)))
      = (∑ t, v t * Real.exp (a t)) * (1 / ∑ t, Real.exp (a t)) := by
  have hM : Real.exp m ≠ 0 := (Real.exp_pos m).ne'
  have hS : (∑ t, Real.exp (a t)) ≠ 0 :=
    (Finset.sum_pos (fun t _ => Real.exp_pos (a t)) Finset.univ_nonempty).ne'
  have e1 : ∀ t, Real.exp (a t - m) = Real.exp (a t) / Real.exp m := fun t => Real.exp_sub (a t) m
  simp only [e1]
  rw [← Finset.sum_div, Finset.sum_mul]
  refine Finset.sum_congr rfl (fun t _ => ?_)
  rw [one_div_div, div_mul_div_comm, mul_comm (Real.exp (a t)) (Real.exp m), mul_div_mul_left _ _ hM,
    mul_assoc, div_eq_mul_one_div]

/-- Softmax over finite scores, in the extended reals: the maximum-shifted, normalised form equals the unshifted
    weighted sum times the reciprocal of the unshifted row sum. -/
theorem softmax_shift {ι : Type*} [Fintype ι] [Nonempty ι] (a v : ι → ℝ) :
    ∑ t, (v t : EReal) * Ideal.div (Ideal.exp ((a t : EReal) - Finset.univ.sup fun u => (a u : EReal)))
        (∑ t', Ideal.exp ((a t' : EReal) - Finset.univ.sup fun u => (a u : EReal)))
      = (∑ t, (v t : EReal) * Ideal.exp (a t : EReal)) * Ideal.div 1 (∑ t, Ideal.exp (a t : EReal)) := by
  obtain ⟨m, hm⟩ := sup_coe Finset.univ a Finset.univ_nonempty
  have hS : (∑ t, Real.exp (a t - m)) ≠ 0 :=
    (Finset.sum_pos (fun t _ => Real.exp_pos (a t - m)) Finset.univ_nonempty).ne'
  have hS' : (∑ t, Real.exp (a t)) ≠ 0 :=
    (Finset.sum_pos (fun t _ => Real.exp_pos (a t)) Finset.univ_nonempty).ne'
  rw [hm]
  simp only [← EReal.coe_sub, Ideal.exp_coe, coe_sum]
  rw [Ideal.div_coe hS' 1, one_mul]
  simp only [Ideal.div_coe hS, ← EReal.coe_mul, coe_sum]
  rw [EReal.coe_eq_coe_iff]
  exact softmax_real a v m

/-! ## The two arrangements of the latent axis -/

/-- The 128 latent lanes are the 64 lanes of one half followed by the 64 lanes of the other, in either order:
    a sum over all of them is the sum over one half plus the sum over the other half. -/
theorem sum_halves {M : Type*} [AddCommMonoid M] (f : Fin 128 → M) (y y' : Fin 2) (h : y ≠ y') :
    ∑ l : Fin 128, f l = ∑ j : Fin 64, f (half y j) + ∑ j : Fin 64, f (half y' j) := by
  have key : ∑ l : Fin 128, f l = ∑ j : Fin 64, f (half 0 j) + ∑ j : Fin 64, f (half 1 j) := by
    have e := @Fin.sum_univ_add M _ 64 64 f
    have h0 : ∀ j : Fin 64, half 0 j = Fin.castAdd 64 j := fun j => Fin.ext (by simp [half])
    have h1 : ∀ j : Fin 64, half 1 j = Fin.natAdd 64 j := fun j => Fin.ext (by simp [half]; omega)
    simp only [h0, h1]
    exact e
  match y, y', h with
  | ⟨0, _⟩, ⟨0, _⟩, h => exact absurd rfl h
  | ⟨0, _⟩, ⟨1, _⟩, _ => exact key
  | ⟨1, _⟩, ⟨0, _⟩, _ => exact key.trans (add_comm _ _)
  | ⟨1, _⟩, ⟨1, _⟩, h => exact absurd rfl h

/-- What ties a device's blocks to the whole weight arrays: its own half of the latent lanes and the other half. -/
structure Halves (wdkv : Fin 1024 → Fin 128 → EReal) (wuk wuv : Fin 128 → Fin 1024 → EReal)
    (wd0 wd1 : Fin 1024 → Fin 64 → EReal) (wk0 wk1 wv0 wv1 : Fin 64 → Fin 1024 → EReal) (y y' : Fin 2) : Prop where
  hyy : y ≠ y'
  hd0 : ∀ k j, wd0 k j = wdkv k (half y j)
  hd1 : ∀ k j, wd1 k j = wdkv k (half y' j)
  hk0 : ∀ j e, wk0 j e = wuk (half y j) e
  hk1 : ∀ j e, wk1 j e = wuk (half y' j) e
  hv0 : ∀ j e, wv0 j e = wuv (half y j) e
  hv1 : ∀ j e, wv1 j e = wuv (half y' j) e

/-- Every input that enters the scores or the values is finite. -/
structure FiniteIn (x : Fin 2 → Fin 256 → Fin 1024 → EReal) (wd0 wd1 : Fin 1024 → Fin 64 → EReal)
    (wk0 wk1 wv0 wv1 : Fin 64 → Fin 1024 → EReal) (wq : Fin 1024 → Fin 1024 → EReal)
    (wqr : Fin 1024 → Fin 512 → EReal) (wkr : Fin 1024 → Fin 32 → EReal) (σ : EReal) : Prop where
  fx : ∀ b s k, ∃ r : ℝ, x b s k = (r : EReal)
  fd0 : ∀ k j, ∃ r : ℝ, wd0 k j = (r : EReal)
  fd1 : ∀ k j, ∃ r : ℝ, wd1 k j = (r : EReal)
  fk0 : ∀ j e, ∃ r : ℝ, wk0 j e = (r : EReal)
  fk1 : ∀ j e, ∃ r : ℝ, wk1 j e = (r : EReal)
  fv0 : ∀ j e, ∃ r : ℝ, wv0 j e = (r : EReal)
  fv1 : ∀ j e, ∃ r : ℝ, wv1 j e = (r : EReal)
  fq : ∀ k e, ∃ r : ℝ, wq k e = (r : EReal)
  fqr : ∀ k f, ∃ r : ℝ, wqr k f = (r : EReal)
  fkr : ∀ k d, ∃ r : ℝ, wkr k d = (r : EReal)
  fσ : ∃ r : ℝ, σ = (r : EReal)

section Join

variable {x : Fin 2 → Fin 256 → Fin 1024 → EReal}
  {wdkv : Fin 1024 → Fin 128 → EReal} {wuk wuv : Fin 128 → Fin 1024 → EReal}
  {wq : Fin 1024 → Fin 1024 → EReal} {wqr : Fin 1024 → Fin 512 → EReal} {wkr : Fin 1024 → Fin 32 → EReal}
  {σ : EReal}
  {wd0 wd1 : Fin 1024 → Fin 64 → EReal} {wk0 wk1 wv0 wv1 : Fin 64 → Fin 1024 → EReal} {y y' : Fin 2}

/-- A lane of one half of the reference latent is that half's own latent (the products commuted). -/
theorem rLat_half (x : Fin 2 → Fin 256 → Fin 1024 → EReal) {wd : Fin 1024 → Fin 64 → EReal} {z : Fin 2}
    (hd : ∀ k j, wd k j = wdkv k (half z j)) (b : Fin 2) (s : Fin 256) (j : Fin 64) :
    rLat x wdkv b s (half z j) = kLat x wd j b s := by
  unfold rLat kLat
  exact Finset.sum_congr rfl (fun k _ => by rw [hd k j, mul_comm])

/-- An up-projection of the whole latent is the sum of the up-projections of the two halves: the contraction over
    the 128 latent lanes is only rearranged, so no finiteness is needed. -/
theorem up_join (x : Fin 2 → Fin 256 → Fin 1024 → EReal) {w : Fin 128 → Fin 1024 → EReal}
    {w0 w1 : Fin 64 → Fin 1024 → EReal} (hyy : y ≠ y')
    (hd0 : ∀ k j, wd0 k j = wdkv k (half y j)) (hd1 : ∀ k j, wd1 k j = wdkv k (half y' j))
    (hw0 : ∀ j e, w0 j e = w (half y j) e) (hw1 : ∀ j e, w1 j e = w (half y' j) e)
    (b : Fin 2) (s : Fin 256) (e : Fin 1024) :
    ∑ j : Fin 128, rLat x wdkv b s j * w j e = kUp x wd0 wd1 w0 w1 e b s := by
  unfold kUp
  rw [sum_halves (fun j => rLat x wdkv b s j * w j e) y y' hyy]
  congr 1
  · exact Finset.sum_congr rfl (fun j _ => by
      show rLat x wdkv b s (half y j) * w (half y j) e = _
      rw [rLat_half x hd0, hw0 j e, mul_comm])
  · exact Finset.sum_congr rfl (fun j _ => by
      show rLat x wdkv b s (half y' j) * w (half y' j) e = _
      rw [rLat_half x hd1, hw1 j e, mul_comm])

theorem rKey_eq (x : Fin 2 → Fin 256 → Fin 1024 → EReal)
    (H : Halves wdkv wuk wuv wd0 wd1 wk0 wk1 wv0 wv1 y y') (b : Fin 2) (s : Fin 256) (e : Fin 1024) :
    rKey x wdkv wuk b s e = kUp x wd0 wd1 wk0 wk1 e b s :=
  up_join x H.hyy H.hd0 H.hd1 H.hk0 H.hk1 b s e

theorem rVal_eq (x : Fin 2 → Fin 256 → Fin 1024 → EReal)
    (H : Halves wdkv wuk wuv wd0 wd1 wk0 wk1 wv0 wv1 y y') (b : Fin 2) (s : Fin 256) (e : Fin 1024) :
    rVal x wdkv wuv b s e = kUp x wd0 wd1 wv0 wv1 e b s :=
  up_join x H.hyy H.hd0 H.hd1 H.hv0 H.hv1 b s e

/-! ## Finiteness of the intermediate arrays -/

theorem kLat_fin (F : FiniteIn x wd0 wd1 wk0 wk1 wv0 wv1 wq wqr wkr σ) {wd : Fin 1024 → Fin 64 → EReal}
    (fd : ∀ k j, ∃ r : ℝ, wd k j = (r : EReal)) (j : Fin 64) (b : Fin 2) (s : Fin 256) :
    ∃ r : ℝ, kLat x wd j b s = (r : EReal) := by
  unfold kLat
  exact fin_sum _ (fun k => fin_mul (fd k j) (F.fx b s k))

theorem kUp_fin (F : FiniteIn x wd0 wd1 wk0 wk1 wv0 wv1 wq wqr wkr σ) {w0 w1 : Fin 64 → Fin 1024 → EReal}
    (f0 : ∀ j e, ∃ r : ℝ, w0 j e = (r : EReal)) (f1 : ∀ j e, ∃ r : ℝ, w1 j e = (r : EReal))
    (e : Fin 1024) (b : Fin 2) (s : Fin 256) :
    ∃ r : ℝ, kUp x wd0 wd1 w0 w1 e b s = (r : EReal) := by
  unfold kUp
  exact fin_add (fin_sum _ (fun j => fin_mul (f0 j e) (kLat_fin F F.fd0 j b s)))
    (fin_sum _ (fun j => fin_mul (f1 j e) (kLat_fin F F.fd1 j b s)))

theorem rKey_fin (H : Halves wdkv wuk wuv wd0 wd1 wk0 wk1 wv0 wv1 y y')
    (F : FiniteIn x wd0 wd1 wk0 wk1 wv0 wv1 wq wqr wkr σ) (b : Fin 2) (s : Fin 256) (e : Fin 1024) :
    ∃ r : ℝ, rKey x wdkv wuk b s e = (r : EReal) := by
  rw [rKey_eq x H]
  exact kUp_fin F F.fk0 F.fk1 e b s

theorem rVal_fin (H : Halves wdkv wuk wuv wd0 wd1 wk0 wk1 wv0 wv1 y y')
    (F : FiniteIn x wd0 wd1 wk0 wk1 wv0 wv1 wq wqr wkr σ) (b : Fin 2) (s : Fin 256) (e : Fin 1024) :
    ∃ r : ℝ, rVal x wdkv wuv b s e = (r : EReal) := by
  rw [rVal_eq x H]
  exact kUp_fin F F.fv0 F.fv1 e b s

theorem rQ_fin (F : FiniteIn x wd0 wd1 wk0 wk1 wv0 wv1 wq wqr wkr σ) (b : Fin 2) (s : Fin 256) (e : Fin 1024) :
    ∃ r : ℝ, rQ x wq b s e = (r : EReal) := by
  unfold rQ
  exact fin_sum _ (fun k => fin_mul (F.fx b s k) (F.fq k e))

theorem rQr_fin (F : FiniteIn x wd0 wd1 wk0 wk1 wv0 wv1 wq wqr wkr σ) (b : Fin 2) (s : Fin 256) (f : Fin 512) :
    ∃ r : ℝ, rQr x wqr b s f = (r : EReal) := by
  unfold rQr
  exact fin_sum _ (fun k => fin_mul (F.fx b s k) (F.fqr k f))

theorem rKr_fin (F : FiniteIn x wd0 wd1 wk0 wk1 wv0 wv1 wq wqr wkr σ) (b : Fin 2) (s : Fin 256) (d : Fin 32) :
    ∃ r : ℝ, rKr x wkr b s d = (r : EReal) := by
  unfold rKr
  exact fin_sum _ (fun k => fin_mul (F.fx b s k) (F.fkr k d))

theorem rScore_fin (H : Halves wdkv wuk wuv wd0 wd1 wk0 wk1 wv0 wv1 y y')
    (F : FiniteIn x wd0 wd1 wk0 wk1 wv0 wv1 wq wqr wkr σ) (b : Fin 2) (h : Fin 16) (s t : Fin 256) :
    ∃ r : ℝ, rScore x wdkv wuk wq wqr wkr σ b h s t = (r : EReal) := by
  unfold rScore
  exact fin_mul
    (fin_add (fin_sum _ (fun d => fin_mul (rQ_fin F b s (hd64 h d)) (rKey_fin H F b t (hd64 h d))))
      (fin_sum _ (fun d => fin_mul (rQr_fin F b s (hd32 h d)) (rKr_fin F b t d))))
    F.fσ

/-! ## Scores, weights, the result -/

/-- The scores of the two arrangements agree: the queries scaled before the products against the sum scaled
    afterwards, which is distributivity over finite sums of finite values. -/
theorem kScore_eq_rScore (H : Halves wdkv wuk wuv wd0 wd1 wk0 wk1 wv0 wv1 y y')
    (F : FiniteIn x wd0 wd1 wk0 wk1 wv0 wv1 wq wqr wkr σ) (b : Fin 2) (h : Fin 16) (s t : Fin 256) :
    kScore x wd0 wd1 wk0 wk1 wq wqr wkr σ b h s t = rScore x wdkv wuk wq wqr wkr σ b h s t := by
  choose q hq using fun d : Fin 64 => rQ_fin F b s (hd64 h d)
  choose k hk using fun d : Fin 64 => rKey_fin H F b t (hd64 h d)
  choose qr hqr using fun d : Fin 32 => rQr_fin F b s (hd32 h d)
  choose kr hkr using fun d : Fin 32 => rKr_fin F b t d
  obtain ⟨σ', hσ⟩ := F.fσ
  have e1 : ∀ e, kQ x wq σ e b s = rQ x wq b s e * σ := fun e => by
    unfold kQ rQ
    exact congrArg (· * σ) (Finset.sum_congr rfl (fun k _ => mul_comm _ _))
  have e2 : ∀ f, kQr x wqr σ f b s = rQr x wqr b s f * σ := fun f => by
    unfold kQr rQr
    exact congrArg (· * σ) (Finset.sum_congr rfl (fun k _ => mul_comm _ _))
  have e3 : ∀ d, kKr x wkr d b t = rKr x wkr b t d := fun d => by
    unfold kKr rKr
    exact Finset.sum_congr rfl (fun k _ => mul_comm _ _)
  have e4 : ∀ e, kUp x wd0 wd1 wk0 wk1 e b t = rKey x wdkv wuk b t e := fun e => (rKey_eq x H b t e).symm
  unfold kScore rScore
  simp only [e1, e2, e3, e4, hq, hk, hqr, hkr]
  rw [hσ]
  exact score_scale q k qr kr σ'

/-- One head's averaged values agree: the reference subtracts the row maximum and normalises the weights; the
    two-halves arrangement takes the plain exponentials and multiplies by the reciprocal of their sum afterwards. -/
theorem kAtt_eq_rAtt (H : Halves wdkv wuk wuv wd0 wd1 wk0 wk1 wv0 wv1 y y')
    (F : FiniteIn x wd0 wd1 wk0 wk1 wv0 wv1 wq wqr wkr σ) (b : Fin 2) (h : Fin 16) (d : Fin 64) (s : Fin 256) :
    kAtt x wd0 wd1 wk0 wk1 wv0 wv1 wq wqr wkr σ b h d s = rAtt x wdkv wuk wuv wq wqr wkr σ b s h d := by
  choose a ha using fun t : Fin 256 => rScore_fin H F b h s t
  choose v hv using fun t : Fin 256 => rVal_fin H F b t (hd64 h d)
  have eS : ∀ t, kScore x wd0 wd1 wk0 wk1 wq wqr wkr σ b h s t = (a t : EReal) :=
    fun t => (kScore_eq_rScore H F b h s t).trans (ha t)
  have eV : ∀ t, kUp x wd0 wd1 wv0 wv1 (hd64 h d) b t = (v t : EReal) :=
    fun t => (rVal_eq x H b t (hd64 h d)).symm.trans (hv t)
  unfold kAtt kInv kExp rAtt rWgt rExp rMax
  simp only [eS, eV, ha, hv]
  exact (softmax_shift a v).symm

end Join

/-- For finite inputs the two-halves arrangement and the reference arrangement of latent attention are one
    function: the contraction over the latent lanes is rearranged, the scale distributes over the finite score
    sums, and the softmax is invariant under the subtraction of the row maximum.  The last factor is never
    opened, so it may be anything. -/
theorem kOut_eq_rOut (x : Fin 2 → Fin 256 → Fin 1024 → EReal) (wdkv : Fin 1024 → Fin 128 → EReal) (wuk wuv : Fin 128 → Fin 1024 → EReal) (wq : Fin 1024 → Fin 1024 → EReal) (wqr : Fin 1024 → Fin 512 → EReal) (wkr : Fin 1024 → Fin 32 → EReal) (wo : Fin 1024 → Fin 1024 → EReal) (σ : EReal)
    (wd0 wd1 : Fin 1024 → Fin 64 → EReal) (wk0 wk1 wv0 wv1 : Fin 64 → Fin 1024 → EReal) (y y' : Fin 2) (hyy : y ≠ y')
    (hd0 : ∀ k j, wd0 k j = wdkv k (half y j)) (hd1 : ∀ k j, wd1 k j = wdkv k (half y' j))
    (hk0 : ∀ j e, wk0 j e = wuk (half y j) e) (hk1 : ∀ j e, wk1 j e = wuk (half y' j) e)
    (hv0 : ∀ j e, wv0 j e = wuv (half y j) e) (hv1 : ∀ j e, wv1 j e = wuv (half y' j) e)
    (fx : ∀ b s k, ∃ r : ℝ, x b s k = (r : EReal)) (fd0 : ∀ k j, ∃ r : ℝ, wd0 k j = (r : EReal)) (fd1 : ∀ k j, ∃ r : ℝ, wd1 k j = (r : EReal))
    (fk0 : ∀ j e, ∃ r : ℝ, wk0 j e = (r : EReal)) (fk1 : ∀ j e, ∃ r : ℝ, wk1 j e = (r : EReal)) (fv0 : ∀ j e, ∃ r : ℝ, wv0 j e = (r : EReal)) (fv1 : ∀ j e, ∃ r : ℝ, wv1 j e = (r : EReal))
    (fq : ∀ k e, ∃ r : ℝ, wq k e = (r : EReal)) (fqr : ∀ k f, ∃ r : ℝ, wqr k f = (r : EReal)) (fkr : ∀ k d, ∃ r : ℝ, wkr k d = (r : EReal)) (fo : ∀ e e', ∃ r : ℝ, wo e e' = (r : EReal)) (fσ : ∃ r : ℝ, σ = (r : EReal))
    (b : Fin 2) (s : Fin 256) (e' : Fin 1024) :
    kOut x wd0 wd1 wk0 wk1 wv0 wv1 wq wqr wkr wo σ b s e' = rOut x wdkv wuk wuv wq wqr wkr wo σ b s e' := by
  have H : Halves wdkv wuk wuv wd0 wd1 wk0 wk1 wv0 wv1 y y' := ⟨hyy, hd0, hd1, hk0, hk1, hv0, hv1⟩
  have F : FiniteIn x wd0 wd1 wk0 wk1 wv0 wv1 wq wqr wkr σ :=
    ⟨fx, fd0, fd1, fk0, fk1, fv0, fv1, fq, fqr, fkr, fσ⟩
  unfold kOut rOut
  exact Finset.sum_congr rfl (fun e _ => by rw [kAtt_eq_rAtt H F])

end Cert.Attn

end
-- ==== Proof.Assemble.lean ====
/-
  The five conjuncts assembled from the runs of the three programs.

  Every device's result block is one term of its own argument blocks and of the two buffers its peer sends; read
  at an index that term is the two-halves arrangement of latent attention; on finite inputs the two-halves
  arrangement is the reference arrangement; and the reference arrangement is what the one-device reference
  computes.  A device holds the whole of x, Wq, Wqr, Wkr and Wo, and the half of the latent lanes of Wdkv, Wuk and
  Wuv that its middle mesh coordinate names; its peer holds the other half, and the same x.  The frames are the
  runs with the values dropped.
-/
import proofs.«900377_g7700000000000378_dist_mla_v7x_xyz2x2x2_y_b2_s256_d1024_dc64_bf16_1_alg».proof.Defs
import proofs.«900377_g7700000000000378_dist_mla_v7x_xyz2x2x2_y_b2_s256_d1024_dc64_bf16_1_alg».proof.Proof.Gen.Kernel
import proofs.«900377_g7700000000000378_dist_mla_v7x_xyz2x2x2_y_b2_s256_d1024_dc64_bf16_1_alg».proof.Proof.Gen.KernelIdeal
import proofs.«900377_g7700000000000378_dist_mla_v7x_xyz2x2x2_y_b2_s256_d1024_dc64_bf16_1_alg».proof.Proof.Gen.ReferenceIdeal
import proofs.«900377_g7700000000000378_dist_mla_v7x_xyz2x2x2_y_b2_s256_d1024_dc64_bf16_1_alg».proof.Proof.Gen.ReferenceIdeal.Run
import proofs.«900377_g7700000000000378_dist_mla_v7x_xyz2x2x2_y_b2_s256_d1024_dc64_bf16_1_alg».proof.Proof.Gen.ReferenceIdeal.Read
import proofs.«900377_g7700000000000378_dist_mla_v7x_xyz2x2x2_y_b2_s256_d1024_dc64_bf16_1_alg».proof.Proof.Gen.Pre_finite_inputs_Kernel
import proofs.«900377_g7700000000000378_dist_mla_v7x_xyz2x2x2_y_b2_s256_d1024_dc64_bf16_1_alg».proof.Proof.Gen.Pre_finite_inputs_ReferenceIdeal
import proofs.«900377_g7700000000000378_dist_mla_v7x_xyz2x2x2_y_b2_s256_d1024_dc64_bf16_1_alg».proof.Proof.Proto2
import proofs.«900377_g7700000000000378_dist_mla_v7x_xyz2x2x2_y_b2_s256_d1024_dc64_bf16_1_alg».proof.Proof.Glue
import proofs.«900377_g7700000000000378_dist_mla_v7x_xyz2x2x2_y_b2_s256_d1024_dc64_bf16_1_alg».proof.Proof.GlueFin
import proofs.«900377_g7700000000000378_dist_mla_v7x_xyz2x2x2_y_b2_s256_d1024_dc64_bf16_1_alg».proof.Proof.RefSide
import proofs.«900377_g7700000000000378_dist_mla_v7x_xyz2x2x2_y_b2_s256_d1024_dc64_bf16_1_alg».proof.Proof.AttnMath

set_option maxRecDepth 16384

noncomputable section

namespace Cert.Proof.Assemble

open Idealize.ShloMosaic Idealize.ShloMosaic.ValueIdx Idealize.ShloMosaic.TcCoe Idealize.SL.Sem

/-! ## A device's argument blocks are its argument arrays

Each window of the kernel stages the whole of its array at block index 0, so the block read through the window
is the array itself. -/

section Blocks

open Cert.KernelIdeal Cert.KernelIdeal.Gen Cert.KernelIdeal.KOut Cert.KernelIdeal.Proto

variable {F : FTy → Type} [FloatOps F] (m : (ℓ : Loc nD τ sig) → Buf (Elt F) ℓ) (c : Dev nD)

theorem xB_eq : xB m c = m ((c : Thread nD τ).loc main_arg0) := by
  unfold xB
  have hz : (fun a => win0_0.index (0 : Fin 1) a * main_arg0.ty.shape.size a) = fun _ => 0 := funext fun a => Nat.zero_mul _
  exact Memref.read_access_unit_zero (Elt F) main_arg0 hz (fun a => by rw [congrFun hz a]; simp) _

theorem wdB_eq : wdB m c = m ((c : Thread nD τ).loc main_arg1) := by
  unfold wdB
  have hz : (fun a => win0_1.index (0 : Fin 1) a * main_arg1.ty.shape.size a) = fun _ => 0 := funext fun a => Nat.zero_mul _
  exact Memref.read_access_unit_zero (Elt F) main_arg1 hz (fun a => by rw [congrFun hz a]; simp) _

theorem wukB_eq : wukB m c = m ((c : Thread nD τ).loc main_arg2) := by
  unfold wukB
  have hz : (fun a => win0_2.index (0 : Fin 1) a * main_arg2.ty.shape.size a) = fun _ => 0 := funext fun a => Nat.zero_mul _
  exact Memref.read_access_unit_zero (Elt F) main_arg2 hz (fun a => by rw [congrFun hz a]; simp) _

theorem wuvB_eq : wuvB m c = m ((c : Thread nD τ).loc main_arg3) := by
  unfold wuvB
  have hz : (fun a => win0_3.index (0 : Fin 1) a * main_arg3.ty.shape.size a) = fun _ => 0 := funext fun a => Nat.zero_mul _
  exact Memref.read_access_unit_zero (Elt F) main_arg3 hz (fun a => by rw [congrFun hz a]; simp) _

theorem wqB_eq : wqB m c = m ((c : Thread nD τ).loc main_arg4) := by
  unfold wqB
  have hz : (fun a => win0_4.index (0 : Fin 1) a * main_arg4.ty.shape.size a) = fun _ => 0 := funext fun a => Nat.zero_mul _
  exact Memref.read_access_unit_zero (Elt F) main_arg4 hz (fun a => by rw [congrFun hz a]; simp) _

theorem wqrB_eq : wqrB m c = m ((c : Thread nD τ).loc main_arg5) := by
  unfold wqrB
  have hz : (fun a => win0_5.index (0 : Fin 1) a * main_arg5.ty.shape.size a) = fun _ => 0 := funext fun a => Nat.zero_mul _
  exact Memref.read_access_unit_zero (Elt F) main_arg5 hz (fun a => by rw [congrFun hz a]; simp) _

theorem wkrB_eq : wkrB m c = m ((c : Thread nD τ).loc main_arg6) := by
  unfold wkrB
  have hz : (fun a => win0_6.index (0 : Fin 1) a * main_arg6.ty.shape.size a) = fun _ => 0 := funext fun a => Nat.zero_mul _
  exact Memref.read_access_unit_zero (Elt F) main_arg6 hz (fun a => by rw [congrFun hz a]; simp) _

theorem woB_eq : woB m c = m ((c : Thread nD τ).loc main_arg7) := by
  unfold woB
  have hz : (fun a => win0_7.index (0 : Fin 1) a * main_arg7.ty.shape.size a) = fun _ => 0 := funext fun a => Nat.zero_mul _
  exact Memref.read_access_unit_zero (Elt F) main_arg7 hz (fun a => by rw [congrFun hz a]; simp) _

end Blocks

/-! ## The hypotheses: the runs, and the kernel's result block read at an index -/

/-- The idealized kernel's run: every device ends with its result block the term outOf of the launch memory, and
    its eight argument arrays unchanged. -/
abbrev RunKI : Prop :=
  ∀ (m : (ℓ : Loc Cert.KernelIdeal.nD Cert.KernelIdeal.τ Cert.KernelIdeal.sig) → Buf (Elt Ideal) ℓ) (ρ : Dev Cert.KernelIdeal.nD → PrngReg),
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD,
        r.2.mem ((c.tc : Thread Cert.KernelIdeal.nD Cert.KernelIdeal.τ).loc Cert.KernelIdeal.main_v1) = Cert.KernelIdeal.Proto.outOf m c
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
        ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
        ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
        ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

/-- The word-level kernel's run, with whatever it says of the result block. -/
abbrev RunK (out : ((ℓ : Loc Cert.Kernel.nD Cert.Kernel.τ Cert.Kernel.sig) → Buf (Elt Bits) ℓ) → (c : Dev Cert.Kernel.nD) →
    Buf (Elt Bits) ((c.tc : Thread Cert.Kernel.nD Cert.Kernel.τ).loc Cert.Kernel.main_v1)) : Prop :=
  ∀ (m : (ℓ : Loc Cert.Kernel.nD Cert.Kernel.τ Cert.Kernel.sig) → Buf (Elt Bits) ℓ) (ρ : Dev Cert.Kernel.nD → PrngReg),
    θ_run (Cert.Kernel.defs (F := Bits)) (onTc (τ := Cert.Kernel.τ) (Cert.Kernel.main (F := Bits))) ⟨m, fun _ => 0, ρ⟩
      (fun r => ∀ c : Dev Cert.Kernel.nD,
        r.2.mem ((c.tc : Thread Cert.Kernel.nD Cert.Kernel.τ).loc Cert.Kernel.main_v1) = out m c
        ∧ r.2.mem ((c.tc : Thread Cert.Kernel.nD Cert.Kernel.τ).loc Cert.Kernel.main_arg0) = m ((c.tc : Thread Cert.Kernel.nD Cert.Kernel.τ).loc Cert.Kernel.main_arg0)
        ∧ r.2.mem ((c.tc : Thread Cert.Kernel.nD Cert.Kernel.τ).loc Cert.Kernel.main_arg1) = m ((c.tc : Thread Cert.Kernel.nD Cert.Kernel.τ).loc Cert.Kernel.main_arg1)
        ∧ r.2.mem ((c.tc : Thread Cert.Kernel.nD Cert.Kernel.τ).loc Cert.Kernel.main_arg2) = m ((c.tc : Thread Cert.Kernel.nD Cert.Kernel.τ).loc Cert.Kernel.main_arg2)
        ∧ r.2.mem ((c.tc : Thread Cert.Kernel.nD Cert.Kernel.τ).loc Cert.Kernel.main_arg3) = m ((c.tc : Thread Cert.Kernel.nD Cert.Kernel.τ).loc Cert.Kernel.main_arg3)
        ∧ r.2.mem ((c.tc : Thread Cert.Kernel.nD Cert.Kernel.τ).loc Cert.Kernel.main_arg4) = m ((c.tc : Thread Cert.Kernel.nD Cert.Kernel.τ).loc Cert.Kernel.main_arg4)
        ∧ r.2.mem ((c.tc : Thread Cert.Kernel.nD Cert.Kernel.τ).loc Cert.Kernel.main_arg5) = m ((c.tc : Thread Cert.Kernel.nD Cert.Kernel.τ).loc Cert.Kernel.main_arg5)
        ∧ r.2.mem ((c.tc : Thread Cert.Kernel.nD Cert.Kernel.τ).loc Cert.Kernel.main_arg6) = m ((c.tc : Thread Cert.Kernel.nD Cert.Kernel.τ).loc Cert.Kernel.main_arg6)
        ∧ r.2.mem ((c.tc : Thread Cert.Kernel.nD Cert.Kernel.τ).loc Cert.Kernel.main_arg7) = m ((c.tc : Thread Cert.Kernel.nD Cert.Kernel.τ).loc Cert.Kernel.main_arg7))

section KerEqDef
open Cert.KernelIdeal Cert.KernelIdeal.Gen Cert.KernelIdeal.KOut

/-- The kernel's result block at (b, s, e') is the two-halves arrangement of its blocks and its peer's blocks. -/
abbrev KerEq : Prop :=
  ∀ (X : Vec Ideal S2x256x1024 .f32) (wd wd' : Vec Ideal S1024x64 .f32) (wk wv wk' wv' : Vec Ideal S64x1024 .f32) (WQ : Vec Ideal S1024x1024 .f32) (WQR : Vec Ideal S1024x512 .f32) (WKR : Vec Ideal S1024x32 .f32) (WO : Vec Ideal S1024x1024 .f32) (b : Fin 2) (s : Fin 256) (e' : Fin 1024),
    kout (F := Ideal) X wd wk wv WQ WQR WKR WO (k0_pay4 X wd') (wcat wk' wv') (ix3 b s e')
      = Cert.Attn.kOut (fun b s k => X (ix3 b s k)) (fun k j => wd (ix2 k j)) (fun k j => wd' (ix2 k j)) (fun j e => wk (ix2 j e)) (fun j e => wk' (ix2 j e)) (fun j e => wv (ix2 j e)) (fun j e => wv' (ix2 j e)) (fun k e => WQ (ix2 k e)) (fun k f => WQR (ix2 k f)) (fun k d => WKR (ix2 k d)) (fun e e' => WO (ix2 e e')) (Ideal.ofBits .f32 0x3DD105EC#32) b s e'

end KerEqDef

/-! ## The value: a device's result block is the reference's result -/

section Value

open Cert.KernelIdeal Cert.KernelIdeal.Gen Cert.KernelIdeal.KOut Cert.KernelIdeal.Proto

/-- Device c's block of the down-projection: its half of the 128 columns. -/
abbrev blkD (c : Dev 8) (W : Vec Ideal ⟨2, ![1024, 128]⟩ .f32) : Vec Ideal ⟨2, ![1024, 64]⟩ .f32 :=
  Layout.blockN ⟨2, ![1024, 64]⟩ ⟨2, ![1024, 128]⟩ (Layout.meshBlock [2, 2, 2] ![[], [1]] c) W
/-- Device c's block of an up-projection: its half of the 128 rows. -/
abbrev blkU (c : Dev 8) (W : Vec Ideal ⟨2, ![128, 1024]⟩ .f32) : Vec Ideal ⟨2, ![64, 1024]⟩ .f32 :=
  Layout.blockN ⟨2, ![64, 1024]⟩ ⟨2, ![128, 1024]⟩ (Layout.meshBlock [2, 2, 2] ![[1], []] c) W

/-- With the whole arrays finite, the result block of the device holding block c, fed its peer's half latent and
    up-projection rows, is the reference's result, index by index. -/
theorem point_eq (hker : KerEq) (c : Dev 8)
    (X : Vec Ideal ⟨3, ![2, 256, 1024]⟩ .f32) (WD : Vec Ideal ⟨2, ![1024, 128]⟩ .f32) (WK WV : Vec Ideal ⟨2, ![128, 1024]⟩ .f32)
    (WQ : Vec Ideal ⟨2, ![1024, 1024]⟩ .f32) (WQR : Vec Ideal ⟨2, ![1024, 512]⟩ .f32) (WKR : Vec Ideal ⟨2, ![1024, 32]⟩ .f32)
    (WO : Vec Ideal ⟨2, ![1024, 1024]⟩ .f32)
    (fX : ∀ i, ∃ r : ℝ, X i = (r : EReal))
    (fD : ∀ i, ∃ r : ℝ, blkD c WD i = (r : EReal)) (fD' : ∀ i, ∃ r : ℝ, blkD (peer c) WD i = (r : EReal))
    (fK : ∀ i, ∃ r : ℝ, blkU c WK i = (r : EReal)) (fK' : ∀ i, ∃ r : ℝ, blkU (peer c) WK i = (r : EReal))
    (fV : ∀ i, ∃ r : ℝ, blkU c WV i = (r : EReal)) (fV' : ∀ i, ∃ r : ℝ, blkU (peer c) WV i = (r : EReal))
    (fQ : ∀ i, ∃ r : ℝ, WQ i = (r : EReal)) (fQR : ∀ i, ∃ r : ℝ, WQR i = (r : EReal))
    (fKR : ∀ i, ∃ r : ℝ, WKR i = (r : EReal)) (fO : ∀ i, ∃ r : ℝ, WO i = (r : EReal))
    (b : Fin 2) (s : Fin 256) (e' : Fin 1024) :
    kout (F := Ideal) X (blkD c WD) (blkU c WK) (blkU c WV) WQ WQR WKR WO (k0_pay4 X (blkD (peer c) WD))
        (wcat (blkU (peer c) WK) (blkU (peer c) WV)) (ix3 b s e')
      = Cert.ReferenceIdeal.Read.val_main_v29 (F := Ideal) X WD WK WV WQ WQR WKR WO (ix3 b s e') := by
  rw [hker, Cert.ReferenceIdeal.RefValue.ref_eq]
  exact Cert.Attn.kOut_eq_rOut _ _ _ _ _ _ _ _ _ _ _ _ _ _ _ (Cert.Glue.ycoord c) (Cert.Glue.ycoord (peer c))
    (Cert.Glue.ycoord_peer c)
    (fun k j => Cert.Glue.blk_cols c WD k j) (fun k j => Cert.Glue.blk_cols (peer c) WD k j)
    (fun j e => Cert.Glue.blk_rows c WK j e) (fun j e => Cert.Glue.blk_rows (peer c) WK j e)
    (fun j e => Cert.Glue.blk_rows c WV j e) (fun j e => Cert.Glue.blk_rows (peer c) WV j e)
    (fun b s k => fX _) (fun k j => fD _) (fun k j => fD' _) (fun j e => fK _) (fun j e => fK' _)
    (fun j e => fV _) (fun j e => fV' _) (fun k e => fQ _) (fun k f => fQR _) (fun k d => fKR _) (fun e e' => fO _)
    Cert.Glue.sigma_fin b s e'

end Value

/-! ## The claims -/

section Claims

open Cert.KernelIdeal.Proto (peer)

/-- Each device's argument buffers hold their part of the reference's whole arrays: the hypothesis of the
    algebraic conjunct. -/
abbrev Agree (m : (ℓ : Loc Cert.KernelIdeal.nD Cert.KernelIdeal.τ Cert.KernelIdeal.sig) → Buf (Elt Ideal) ℓ) (m' : (ℓ : Loc Cert.ReferenceIdeal.nD Cert.ReferenceIdeal.τ Cert.ReferenceIdeal.sig) → Buf (Elt Ideal) ℓ) : Prop :=
  (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.blockN ⟨2, ![1024, 64]⟩ ⟨2, ![1024, 128]⟩ (Layout.meshBlock [2, 2, 2] ![[], [1]] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.blockN ⟨2, ![64, 1024]⟩ ⟨2, ![128, 1024]⟩ (Layout.meshBlock [2, 2, 2] ![[1], []] c) (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.blockN ⟨2, ![64, 1024]⟩ ⟨2, ![128, 1024]⟩ (Layout.meshBlock [2, 2, 2] ![[1], []] c) (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)
      ∧ m ((c.tc : Thread Cert.KernelIdeal.nD Cert.KernelIdeal.τ).loc Cert.KernelIdeal.main_arg5) = m' (((0 : Dev Cert.ReferenceIdeal.nD).tc : Thread Cert.ReferenceIdeal.nD Cert.ReferenceIdeal.τ).loc Cert.ReferenceIdeal.main_arg5)
      ∧ m ((c.tc : Thread Cert.KernelIdeal.nD Cert.KernelIdeal.τ).loc Cert.KernelIdeal.main_arg6) = m' (((0 : Dev Cert.ReferenceIdeal.nD).tc : Thread Cert.ReferenceIdeal.nD Cert.ReferenceIdeal.τ).loc Cert.ReferenceIdeal.main_arg6)
      ∧ m ((c.tc : Thread Cert.KernelIdeal.nD Cert.KernelIdeal.τ).loc Cert.KernelIdeal.main_arg7) = m' (((0 : Dev Cert.ReferenceIdeal.nD).tc : Thread Cert.ReferenceIdeal.nD Cert.ReferenceIdeal.τ).loc Cert.ReferenceIdeal.main_arg7))

/-- Under the precondition, from memories that agree, every device's result block is the reference's result. -/
theorem out_eq (hker : KerEq) (m : (ℓ : Loc Cert.KernelIdeal.nD Cert.KernelIdeal.τ Cert.KernelIdeal.sig) → Buf (Elt Ideal) ℓ) (m' : (ℓ : Loc Cert.ReferenceIdeal.nD Cert.ReferenceIdeal.τ Cert.ReferenceIdeal.sig) → Buf (Elt Ideal) ℓ)
    (hpre : Cert.Pre_KernelIdeal m) (hagree : Agree m m') (c : Dev Cert.KernelIdeal.nD) :
    Cert.KernelIdeal.Proto.outOf m c = Cert.ReferenceIdeal.Value.res_main_v29 m' 0 := by
  rw [Cert.ReferenceIdeal.Read.val_main_v29_eq]
  obtain ⟨h0, h1, h2, h3, h4, h5, h6, h7⟩ := hagree c
  obtain ⟨p0, p1, p2, p3, -⟩ := hagree (peer c)
  obtain ⟨f0, f1, f2, f3, f4, f5, f6, f7⟩ := Cert.Glue.fin_of_pre m hpre c
  obtain ⟨-, g1, g2, g3, -⟩ := Cert.Glue.fin_of_pre m hpre (peer c)
  rw [h0] at f0; rw [h1] at f1; rw [h2] at f2; rw [h3] at f3; rw [h4] at f4; rw [h5] at f5; rw [h6] at f6
  rw [h7] at f7; rw [p1] at g1; rw [p2] at g2; rw [p3] at g3
  funext i
  obtain ⟨b, s, e', rfl⟩ : ∃ (b : Fin 2) (s : Fin 256) (e' : Fin 1024), i = ix3 b s e' := ⟨i 0, i 1, i 2, eq_ix3 i⟩
  unfold Cert.KernelIdeal.Proto.outOf Cert.KernelIdeal.Proto.csOf Cert.KernelIdeal.Proto.wsOf
  simp only [xB_eq, wdB_eq, wukB_eq, wuvB_eq, wqB_eq, wqrB_eq, wkrB_eq, woB_eq]
  rw [h0, h1, h2, h3, h4, h5, h6, h7, p0, p1, p2, p3]
  exact point_eq hker c _ _ _ _ _ _ _ _ f0 f1 g1 f2 g2 f3 g3 f4 f5 f6 f7 b s e'

/-- The algebraic conjunct from the idealized kernel's run and its result block read at an index. -/
theorem algebraic_of_run (hrun : RunKI) (hker : KerEq) : Cert.algebraic_KernelIdeal_ReferenceIdeal := by
  intro m ρ m' ρ' hpre hagree
  refine ⟨Cert.ReferenceIdeal.Value.res_main_v29 m' 0, ?_, ?_⟩
  · exact (θ_run _ _ _).mono (fun r h c => ⟨(h c).1.trans (out_eq hker m m' hpre hagree c), (h c).2⟩) (hrun m ρ)
  · exact (θ_run _ _ _).mono (fun r h => h 0) (Cert.ReferenceIdeal.Value.run (F := Ideal) m' ρ')

theorem frame_KI_of_run (hrun : RunKI) : Cert.frame_KernelIdeal :=
  fun m ρ _ => (θ_run _ _ _).mono (fun _ h c => (h c).2) (hrun m ρ)

theorem frame_K_of_run {out : ((ℓ : Loc Cert.Kernel.nD Cert.Kernel.τ Cert.Kernel.sig) → Buf (Elt Bits) ℓ) → (c : Dev Cert.Kernel.nD) →
    Buf (Elt Bits) ((c.tc : Thread Cert.Kernel.nD Cert.Kernel.τ).loc Cert.Kernel.main_v1)} (hrun : RunK out) : Cert.frame_Kernel :=
  fun m ρ _ => (θ_run _ _ _).mono (fun _ h c => (h c).2) (hrun m ρ)

theorem frame_RI : Cert.frame_ReferenceIdeal :=
  fun m ρ _ => (θ_run Cert.ReferenceIdeal.defs _ _).mono (fun _ h c => (h c).2) (Cert.ReferenceIdeal.Value.run (F := Ideal) m ρ)

theorem preserves : Cert.preserves_Kernel_KernelIdeal := trivial

/-- The certificate's claim from the two kernels' runs and the idealized kernel's result block read at an index. -/
theorem claim_of_runs {out : ((ℓ : Loc Cert.Kernel.nD Cert.Kernel.τ Cert.Kernel.sig) → Buf (Elt Bits) ℓ) → (c : Dev Cert.Kernel.nD) →
    Buf (Elt Bits) ((c.tc : Thread Cert.Kernel.nD Cert.Kernel.τ).loc Cert.Kernel.main_v1)} (hK : RunK out) (hKI : RunKI) (hker : KerEq) : Cert.Claim :=
  ⟨Cert.Kernel.Gen.facts, Cert.KernelIdeal.Gen.facts, Cert.ReferenceIdeal.Gen.facts, Cert.Pre_finite_inputs_Kernel.Gen.facts,
    Cert.Pre_finite_inputs_ReferenceIdeal.Gen.facts, frame_K_of_run hK, frame_KI_of_run hKI, frame_RI, preserves,
    algebraic_of_run hKI hker⟩

end Claims

end Cert.Proof.Assemble

end
-- ==== Proof.KerDots.lean ====
/-
  The kernel's seven matrix products read at one entry.

  Each product accumulates into zero, so an entry is the plain sum, over the one contracted axis, of the products of
  the two operands' entries. The four two-dimensional products contract the ROWS of both operands (out[p, q] is the
  sum over k of A[k, p] · B[k, q]); the batched ones carry the head axis through and contract the lane axis or the
  key-position axis.
-/
import proofs.«900377_g7700000000000378_dist_mla_v7x_xyz2x2x2_y_b2_s256_d1024_dc64_bf16_1_alg».proof.Proof.Gen.KernelIdeal.Skeleton
import Idealize.ShloMosaic.Lib.ValueIdx
import Idealize.ShloMosaic.PureOps.Ideal.Laws

noncomputable section

open scoped BigOperators

namespace Cert.KernelIdeal.KerValue

open Cert.KernelIdeal Cert.KernelIdeal.Gen Idealize.ShloMosaic Idealize.ShloMosaic.ValueIdx

theorem dotLat_apply_lhs0 (i : S64x512.Idx) (q : dot_S1024x64_S1024x512_S64x512_0_0_1_1_n_n.contr.Idx) :
    (dot_S1024x64_S1024x512_S64x512_0_0_1_1_n_n.lhsIdx i q 0).val = (q ⟨0, by decide⟩).val :=
  dot_S1024x64_S1024x512_S64x512_0_0_1_1_n_n.lhsIdx_val_of_single rfl i q
theorem dotLat_apply_lhs1 (i : S64x512.Idx) (q : dot_S1024x64_S1024x512_S64x512_0_0_1_1_n_n.contr.Idx) :
    (dot_S1024x64_S1024x512_S64x512_0_0_1_1_n_n.lhsIdx i q 1).val = (i 0).val := by
  unfold DotDims.lhsIdx
  rw [dif_neg (show ¬(1 : Fin S1024x64.rank) ∈ dot_S1024x64_S1024x512_S64x512_0_0_1_1_n_n.lhsBatch by decide), dif_pos (show (1 : Fin S1024x64.rank) ∈ dot_S1024x64_S1024x512_S64x512_0_0_1_1_n_n.lhsNonContracting by decide)]
  rfl
theorem dotLat_apply_rhs0 (i : S64x512.Idx) (q : dot_S1024x64_S1024x512_S64x512_0_0_1_1_n_n.contr.Idx) :
    (dot_S1024x64_S1024x512_S64x512_0_0_1_1_n_n.rhsIdx i q 0).val = (q ⟨0, by decide⟩).val :=
  dot_S1024x64_S1024x512_S64x512_0_0_1_1_n_n.rhsIdx_val_of_single rfl i q
theorem dotLat_apply_rhs1 (i : S64x512.Idx) (q : dot_S1024x64_S1024x512_S64x512_0_0_1_1_n_n.contr.Idx) :
    (dot_S1024x64_S1024x512_S64x512_0_0_1_1_n_n.rhsIdx i q 1).val = (i 1).val := by
  unfold DotDims.rhsIdx
  rw [dif_neg (show ¬(1 : Fin S1024x512.rank) ∈ dot_S1024x64_S1024x512_S64x512_0_0_1_1_n_n.rhsBatch by decide), dif_pos (show (1 : Fin S1024x512.rank) ∈ dot_S1024x64_S1024x512_S64x512_0_0_1_1_n_n.rhsNonContracting by decide)]
  rfl
/-- The half latent: lane p, column q sums the model axis. -/
theorem dotLat_apply {φ₁ φ₂ : FTy} (A : FVec Ideal S1024x64 φ₁) (B : FVec Ideal S1024x512 φ₂) (p : Fin 64) (q : Fin 512) :
    matmul dot_S1024x64_S1024x512_S64x512_0_0_1_1_n_n none A B (constant (F := Ideal) S64x512 .f32 0x00000000#32) (ix2 p q)
      = ∑ k : Fin 1024, A (ix2 k p) * B (ix2 k q) := by
  simp only [matmul]
  rw [Ideal.matmul_constant_zero_apply, ← Equiv.sum_comp (contrEquiv1 dot_S1024x64_S1024x512_S64x512_0_0_1_1_n_n 1024 rfl rfl).symm]
  refine Finset.sum_congr rfl fun k _ => ?_
  have hk := contrEquiv1_symm_val dot_S1024x64_S1024x512_S64x512_0_0_1_1_n_n 1024 rfl rfl k
  have el : dot_S1024x64_S1024x512_S64x512_0_0_1_1_n_n.lhsIdx (ix2 p q) ((contrEquiv1 dot_S1024x64_S1024x512_S64x512_0_0_1_1_n_n 1024 rfl rfl).symm k) = ix2 k p := funext fun a => Fin.ext (by
    match a with
    | ⟨0, _⟩ => exact (dotLat_apply_lhs0 _ _).trans hk
    | ⟨1, _⟩ => exact dotLat_apply_lhs1 _ _)
  have er : dot_S1024x64_S1024x512_S64x512_0_0_1_1_n_n.rhsIdx (ix2 p q) ((contrEquiv1 dot_S1024x64_S1024x512_S64x512_0_0_1_1_n_n 1024 rfl rfl).symm k) = ix2 k q := funext fun a => Fin.ext (by
    match a with
    | ⟨0, _⟩ => exact (dotLat_apply_rhs0 _ _).trans hk
    | ⟨1, _⟩ => exact dotLat_apply_rhs1 _ _)
  rw [el, er]

theorem dotProj_apply_lhs0 (i : S1568x512.Idx) (q : dot_S1024x1568_S1024x512_S1568x512_0_0_1_1_n_n.contr.Idx) :
    (dot_S1024x1568_S1024x512_S1568x512_0_0_1_1_n_n.lhsIdx i q 0).val = (q ⟨0, by decide⟩).val :=
  dot_S1024x1568_S1024x512_S1568x512_0_0_1_1_n_n.lhsIdx_val_of_single rfl i q
theorem dotProj_apply_lhs1 (i : S1568x512.Idx) (q : dot_S1024x1568_S1024x512_S1568x512_0_0_1_1_n_n.contr.Idx) :
    (dot_S1024x1568_S1024x512_S1568x512_0_0_1_1_n_n.lhsIdx i q 1).val = (i 0).val := by
  unfold DotDims.lhsIdx
  rw [dif_neg (show ¬(1 : Fin S1024x1568.rank) ∈ dot_S1024x1568_S1024x512_S1568x512_0_0_1_1_n_n.lhsBatch by decide), dif_pos (show (1 : Fin S1024x1568.rank) ∈ dot_S1024x1568_S1024x512_S1568x512_0_0_1_1_n_n.lhsNonContracting by decide)]
  rfl
theorem dotProj_apply_rhs0 (i : S1568x512.Idx) (q : dot_S1024x1568_S1024x512_S1568x512_0_0_1_1_n_n.contr.Idx) :
    (dot_S1024x1568_S1024x512_S1568x512_0_0_1_1_n_n.rhsIdx i q 0).val = (q ⟨0, by decide⟩).val :=
  dot_S1024x1568_S1024x512_S1568x512_0_0_1_1_n_n.rhsIdx_val_of_single rfl i q
theorem dotProj_apply_rhs1 (i : S1568x512.Idx) (q : dot_S1024x1568_S1024x512_S1568x512_0_0_1_1_n_n.contr.Idx) :
    (dot_S1024x1568_S1024x512_S1568x512_0_0_1_1_n_n.rhsIdx i q 1).val = (i 1).val := by
  unfold DotDims.rhsIdx
  rw [dif_neg (show ¬(1 : Fin S1024x512.rank) ∈ dot_S1024x1568_S1024x512_S1568x512_0_0_1_1_n_n.rhsBatch by decide), dif_pos (show (1 : Fin S1024x512.rank) ∈ dot_S1024x1568_S1024x512_S1568x512_0_0_1_1_n_n.rhsNonContracting by decide)]
  rfl
/-- The joint query / rotary projection: row p, column q sums the model axis. -/
theorem dotProj_apply {φ₁ φ₂ : FTy} (A : FVec Ideal S1024x1568 φ₁) (B : FVec Ideal S1024x512 φ₂) (p : Fin 1568) (q : Fin 512) :
    matmul dot_S1024x1568_S1024x512_S1568x512_0_0_1_1_n_n none A B (constant (F := Ideal) S1568x512 .f32 0x00000000#32) (ix2 p q)
      = ∑ k : Fin 1024, A (ix2 k p) * B (ix2 k q) := by
  simp only [matmul]
  rw [Ideal.matmul_constant_zero_apply, ← Equiv.sum_comp (contrEquiv1 dot_S1024x1568_S1024x512_S1568x512_0_0_1_1_n_n 1024 rfl rfl).symm]
  refine Finset.sum_congr rfl fun k _ => ?_
  have hk := contrEquiv1_symm_val dot_S1024x1568_S1024x512_S1568x512_0_0_1_1_n_n 1024 rfl rfl k
  have el : dot_S1024x1568_S1024x512_S1568x512_0_0_1_1_n_n.lhsIdx (ix2 p q) ((contrEquiv1 dot_S1024x1568_S1024x512_S1568x512_0_0_1_1_n_n 1024 rfl rfl).symm k) = ix2 k p := funext fun a => Fin.ext (by
    match a with
    | ⟨0, _⟩ => exact (dotProj_apply_lhs0 _ _).trans hk
    | ⟨1, _⟩ => exact dotProj_apply_lhs1 _ _)
  have er : dot_S1024x1568_S1024x512_S1568x512_0_0_1_1_n_n.rhsIdx (ix2 p q) ((contrEquiv1 dot_S1024x1568_S1024x512_S1568x512_0_0_1_1_n_n 1024 rfl rfl).symm k) = ix2 k q := funext fun a => Fin.ext (by
    match a with
    | ⟨0, _⟩ => exact (dotProj_apply_rhs0 _ _).trans hk
    | ⟨1, _⟩ => exact dotProj_apply_rhs1 _ _)
  rw [el, er]

theorem dotUp_apply_lhs0 (i : S2048x512.Idx) (q : dot_S128x2048_S128x512_S2048x512_0_0_1_1_n_n.contr.Idx) :
    (dot_S128x2048_S128x512_S2048x512_0_0_1_1_n_n.lhsIdx i q 0).val = (q ⟨0, by decide⟩).val :=
  dot_S128x2048_S128x512_S2048x512_0_0_1_1_n_n.lhsIdx_val_of_single rfl i q
theorem dotUp_apply_lhs1 (i : S2048x512.Idx) (q : dot_S128x2048_S128x512_S2048x512_0_0_1_1_n_n.contr.Idx) :
    (dot_S128x2048_S128x512_S2048x512_0_0_1_1_n_n.lhsIdx i q 1).val = (i 0).val := by
  unfold DotDims.lhsIdx
  rw [dif_neg (show ¬(1 : Fin S128x2048.rank) ∈ dot_S128x2048_S128x512_S2048x512_0_0_1_1_n_n.lhsBatch by decide), dif_pos (show (1 : Fin S128x2048.rank) ∈ dot_S128x2048_S128x512_S2048x512_0_0_1_1_n_n.lhsNonContracting by decide)]
  rfl
theorem dotUp_apply_rhs0 (i : S2048x512.Idx) (q : dot_S128x2048_S128x512_S2048x512_0_0_1_1_n_n.contr.Idx) :
    (dot_S128x2048_S128x512_S2048x512_0_0_1_1_n_n.rhsIdx i q 0).val = (q ⟨0, by decide⟩).val :=
  dot_S128x2048_S128x512_S2048x512_0_0_1_1_n_n.rhsIdx_val_of_single rfl i q
theorem dotUp_apply_rhs1 (i : S2048x512.Idx) (q : dot_S128x2048_S128x512_S2048x512_0_0_1_1_n_n.contr.Idx) :
    (dot_S128x2048_S128x512_S2048x512_0_0_1_1_n_n.rhsIdx i q 1).val = (i 1).val := by
  unfold DotDims.rhsIdx
  rw [dif_neg (show ¬(1 : Fin S128x512.rank) ∈ dot_S128x2048_S128x512_S2048x512_0_0_1_1_n_n.rhsBatch by decide), dif_pos (show (1 : Fin S128x512.rank) ∈ dot_S128x2048_S128x512_S2048x512_0_0_1_1_n_n.rhsNonContracting by decide)]
  rfl
/-- The joint key / value up-projection: row p, column q sums the 128 latent lanes. -/
theorem dotUp_apply {φ₁ φ₂ : FTy} (A : FVec Ideal S128x2048 φ₁) (B : FVec Ideal S128x512 φ₂) (p : Fin 2048) (q : Fin 512) :
    matmul dot_S128x2048_S128x512_S2048x512_0_0_1_1_n_n none A B (constant (F := Ideal) S2048x512 .f32 0x00000000#32) (ix2 p q)
      = ∑ k : Fin 128, A (ix2 k p) * B (ix2 k q) := by
  simp only [matmul]
  rw [Ideal.matmul_constant_zero_apply, ← Equiv.sum_comp (contrEquiv1 dot_S128x2048_S128x512_S2048x512_0_0_1_1_n_n 128 rfl rfl).symm]
  refine Finset.sum_congr rfl fun k _ => ?_
  have hk := contrEquiv1_symm_val dot_S128x2048_S128x512_S2048x512_0_0_1_1_n_n 128 rfl rfl k
  have el : dot_S128x2048_S128x512_S2048x512_0_0_1_1_n_n.lhsIdx (ix2 p q) ((contrEquiv1 dot_S128x2048_S128x512_S2048x512_0_0_1_1_n_n 128 rfl rfl).symm k) = ix2 k p := funext fun a => Fin.ext (by
    match a with
    | ⟨0, _⟩ => exact (dotUp_apply_lhs0 _ _).trans hk
    | ⟨1, _⟩ => exact dotUp_apply_lhs1 _ _)
  have er : dot_S128x2048_S128x512_S2048x512_0_0_1_1_n_n.rhsIdx (ix2 p q) ((contrEquiv1 dot_S128x2048_S128x512_S2048x512_0_0_1_1_n_n 128 rfl rfl).symm k) = ix2 k q := funext fun a => Fin.ext (by
    match a with
    | ⟨0, _⟩ => exact (dotUp_apply_rhs0 _ _).trans hk
    | ⟨1, _⟩ => exact dotUp_apply_rhs1 _ _)
  rw [el, er]

theorem dotOut_apply_lhs0 (i : S512x1024.Idx) (q : dot_S1024x512_S1024x1024_S512x1024_0_0_1_1_n_n.contr.Idx) :
    (dot_S1024x512_S1024x1024_S512x1024_0_0_1_1_n_n.lhsIdx i q 0).val = (q ⟨0, by decide⟩).val :=
  dot_S1024x512_S1024x1024_S512x1024_0_0_1_1_n_n.lhsIdx_val_of_single rfl i q
theorem dotOut_apply_lhs1 (i : S512x1024.Idx) (q : dot_S1024x512_S1024x1024_S512x1024_0_0_1_1_n_n.contr.Idx) :
    (dot_S1024x512_S1024x1024_S512x1024_0_0_1_1_n_n.lhsIdx i q 1).val = (i 0).val := by
  unfold DotDims.lhsIdx
  rw [dif_neg (show ¬(1 : Fin S1024x512.rank) ∈ dot_S1024x512_S1024x1024_S512x1024_0_0_1_1_n_n.lhsBatch by decide), dif_pos (show (1 : Fin S1024x512.rank) ∈ dot_S1024x512_S1024x1024_S512x1024_0_0_1_1_n_n.lhsNonContracting by decide)]
  rfl
theorem dotOut_apply_rhs0 (i : S512x1024.Idx) (q : dot_S1024x512_S1024x1024_S512x1024_0_0_1_1_n_n.contr.Idx) :
    (dot_S1024x512_S1024x1024_S512x1024_0_0_1_1_n_n.rhsIdx i q 0).val = (q ⟨0, by decide⟩).val :=
  dot_S1024x512_S1024x1024_S512x1024_0_0_1_1_n_n.rhsIdx_val_of_single rfl i q
theorem dotOut_apply_rhs1 (i : S512x1024.Idx) (q : dot_S1024x512_S1024x1024_S512x1024_0_0_1_1_n_n.contr.Idx) :
    (dot_S1024x512_S1024x1024_S512x1024_0_0_1_1_n_n.rhsIdx i q 1).val = (i 1).val := by
  unfold DotDims.rhsIdx
  rw [dif_neg (show ¬(1 : Fin S1024x1024.rank) ∈ dot_S1024x512_S1024x1024_S512x1024_0_0_1_1_n_n.rhsBatch by decide), dif_pos (show (1 : Fin S1024x1024.rank) ∈ dot_S1024x512_S1024x1024_S512x1024_0_0_1_1_n_n.rhsNonContracting by decide)]
  rfl
/-- The output projection: position p, feature q sums the 1024 attention features. -/
theorem dotOut_apply {φ₁ φ₂ : FTy} (A : FVec Ideal S1024x512 φ₁) (B : FVec Ideal S1024x1024 φ₂) (p : Fin 512) (q : Fin 1024) :
    matmul dot_S1024x512_S1024x1024_S512x1024_0_0_1_1_n_n none A B (constant (F := Ideal) S512x1024 .f32 0x00000000#32) (ix2 p q)
      = ∑ k : Fin 1024, A (ix2 k p) * B (ix2 k q) := by
  simp only [matmul]
  rw [Ideal.matmul_constant_zero_apply, ← Equiv.sum_comp (contrEquiv1 dot_S1024x512_S1024x1024_S512x1024_0_0_1_1_n_n 1024 rfl rfl).symm]
  refine Finset.sum_congr rfl fun k _ => ?_
  have hk := contrEquiv1_symm_val dot_S1024x512_S1024x1024_S512x1024_0_0_1_1_n_n 1024 rfl rfl k
  have el : dot_S1024x512_S1024x1024_S512x1024_0_0_1_1_n_n.lhsIdx (ix2 p q) ((contrEquiv1 dot_S1024x512_S1024x1024_S512x1024_0_0_1_1_n_n 1024 rfl rfl).symm k) = ix2 k p := funext fun a => Fin.ext (by
    match a with
    | ⟨0, _⟩ => exact (dotOut_apply_lhs0 _ _).trans hk
    | ⟨1, _⟩ => exact dotOut_apply_lhs1 _ _)
  have er : dot_S1024x512_S1024x1024_S512x1024_0_0_1_1_n_n.rhsIdx (ix2 p q) ((contrEquiv1 dot_S1024x512_S1024x1024_S512x1024_0_0_1_1_n_n 1024 rfl rfl).symm k) = ix2 k q := funext fun a => Fin.ext (by
    match a with
    | ⟨0, _⟩ => exact (dotOut_apply_rhs0 _ _).trans hk
    | ⟨1, _⟩ => exact dotOut_apply_rhs1 _ _)
  rw [el, er]

theorem dotRot_apply_lhs0 (i : S16x256x256.Idx) (q : dot_S16x32x256_S16x32x256_S16x256x256_1_1_2_2_0_0.contr.Idx) :
    (dot_S16x32x256_S16x32x256_S16x256x256_1_1_2_2_0_0.lhsIdx i q 0).val = (i 0).val := by
  unfold DotDims.lhsIdx
  rw [dif_pos (show (0 : Fin S16x32x256.rank) ∈ dot_S16x32x256_S16x32x256_S16x256x256_1_1_2_2_0_0.lhsBatch by decide)]
  rfl
theorem dotRot_apply_lhs1 (i : S16x256x256.Idx) (q : dot_S16x32x256_S16x32x256_S16x256x256_1_1_2_2_0_0.contr.Idx) :
    (dot_S16x32x256_S16x32x256_S16x256x256_1_1_2_2_0_0.lhsIdx i q 1).val = (q ⟨0, by decide⟩).val :=
  dot_S16x32x256_S16x32x256_S16x256x256_1_1_2_2_0_0.lhsIdx_val_of_single rfl i q
theorem dotRot_apply_lhs2 (i : S16x256x256.Idx) (q : dot_S16x32x256_S16x32x256_S16x256x256_1_1_2_2_0_0.contr.Idx) :
    (dot_S16x32x256_S16x32x256_S16x256x256_1_1_2_2_0_0.lhsIdx i q 2).val = (i 1).val := by
  unfold DotDims.lhsIdx
  rw [dif_neg (show ¬(2 : Fin S16x32x256.rank) ∈ dot_S16x32x256_S16x32x256_S16x256x256_1_1_2_2_0_0.lhsBatch by decide), dif_pos (show (2 : Fin S16x32x256.rank) ∈ dot_S16x32x256_S16x32x256_S16x256x256_1_1_2_2_0_0.lhsNonContracting by decide)]
  rfl
theorem dotRot_apply_rhs0 (i : S16x256x256.Idx) (q : dot_S16x32x256_S16x32x256_S16x256x256_1_1_2_2_0_0.contr.Idx) :
    (dot_S16x32x256_S16x32x256_S16x256x256_1_1_2_2_0_0.rhsIdx i q 0).val = (i 0).val := by
  unfold DotDims.rhsIdx
  rw [dif_pos (show (0 : Fin S16x32x256.rank) ∈ dot_S16x32x256_S16x32x256_S16x256x256_1_1_2_2_0_0.rhsBatch by decide)]
  rfl
theorem dotRot_apply_rhs1 (i : S16x256x256.Idx) (q : dot_S16x32x256_S16x32x256_S16x256x256_1_1_2_2_0_0.contr.Idx) :
    (dot_S16x32x256_S16x32x256_S16x256x256_1_1_2_2_0_0.rhsIdx i q 1).val = (q ⟨0, by decide⟩).val :=
  dot_S16x32x256_S16x32x256_S16x256x256_1_1_2_2_0_0.rhsIdx_val_of_single rfl i q
theorem dotRot_apply_rhs2 (i : S16x256x256.Idx) (q : dot_S16x32x256_S16x32x256_S16x256x256_1_1_2_2_0_0.contr.Idx) :
    (dot_S16x32x256_S16x32x256_S16x256x256_1_1_2_2_0_0.rhsIdx i q 2).val = (i 2).val := by
  unfold DotDims.rhsIdx
  rw [dif_neg (show ¬(2 : Fin S16x32x256.rank) ∈ dot_S16x32x256_S16x32x256_S16x256x256_1_1_2_2_0_0.rhsBatch by decide), dif_pos (show (2 : Fin S16x32x256.rank) ∈ dot_S16x32x256_S16x32x256_S16x256x256_1_1_2_2_0_0.rhsNonContracting by decide)]
  rfl
/-- The rotary scores of head h: query position s against key position t, summed over the 32 rotary lanes. -/
theorem dotRot_apply {φ₁ φ₂ : FTy} (A : FVec Ideal S16x32x256 φ₁) (B : FVec Ideal S16x32x256 φ₂) (h : Fin 16) (s t : Fin 256) :
    matmul dot_S16x32x256_S16x32x256_S16x256x256_1_1_2_2_0_0 none A B (constant (F := Ideal) S16x256x256 .f32 0x00000000#32) (ix3 h s t)
      = ∑ k : Fin 32, A (ix3 h k s) * B (ix3 h k t) := by
  simp only [matmul]
  rw [Ideal.matmul_constant_zero_apply, ← Equiv.sum_comp (contrEquiv1 dot_S16x32x256_S16x32x256_S16x256x256_1_1_2_2_0_0 32 rfl rfl).symm]
  refine Finset.sum_congr rfl fun k _ => ?_
  have hk := contrEquiv1_symm_val dot_S16x32x256_S16x32x256_S16x256x256_1_1_2_2_0_0 32 rfl rfl k
  have el : dot_S16x32x256_S16x32x256_S16x256x256_1_1_2_2_0_0.lhsIdx (ix3 h s t) ((contrEquiv1 dot_S16x32x256_S16x32x256_S16x256x256_1_1_2_2_0_0 32 rfl rfl).symm k) = ix3 h k s := funext fun a => Fin.ext (by
    match a with
    | ⟨0, _⟩ => exact dotRot_apply_lhs0 _ _
    | ⟨1, _⟩ => exact (dotRot_apply_lhs1 _ _).trans hk
    | ⟨2, _⟩ => exact dotRot_apply_lhs2 _ _)
  have er : dot_S16x32x256_S16x32x256_S16x256x256_1_1_2_2_0_0.rhsIdx (ix3 h s t) ((contrEquiv1 dot_S16x32x256_S16x32x256_S16x256x256_1_1_2_2_0_0 32 rfl rfl).symm k) = ix3 h k t := funext fun a => Fin.ext (by
    match a with
    | ⟨0, _⟩ => exact dotRot_apply_rhs0 _ _
    | ⟨1, _⟩ => exact (dotRot_apply_rhs1 _ _).trans hk
    | ⟨2, _⟩ => exact dotRot_apply_rhs2 _ _)
  rw [el, er]

theorem dotQK_apply_lhs0 (i : S16x256x256.Idx) (q : dot_S16x64x256_S16x64x256_S16x256x256_1_1_2_2_0_0.contr.Idx) :
    (dot_S16x64x256_S16x64x256_S16x256x256_1_1_2_2_0_0.lhsIdx i q 0).val = (i 0).val := by
  unfold DotDims.lhsIdx
  rw [dif_pos (show (0 : Fin S16x64x256.rank) ∈ dot_S16x64x256_S16x64x256_S16x256x256_1_1_2_2_0_0.lhsBatch by decide)]
  rfl
theorem dotQK_apply_lhs1 (i : S16x256x256.Idx) (q : dot_S16x64x256_S16x64x256_S16x256x256_1_1_2_2_0_0.contr.Idx) :
    (dot_S16x64x256_S16x64x256_S16x256x256_1_1_2_2_0_0.lhsIdx i q 1).val = (q ⟨0, by decide⟩).val :=
  dot_S16x64x256_S16x64x256_S16x256x256_1_1_2_2_0_0.lhsIdx_val_of_single rfl i q
theorem dotQK_apply_lhs2 (i : S16x256x256.Idx) (q : dot_S16x64x256_S16x64x256_S16x256x256_1_1_2_2_0_0.contr.Idx) :
    (dot_S16x64x256_S16x64x256_S16x256x256_1_1_2_2_0_0.lhsIdx i q 2).val = (i 1).val := by
  unfold DotDims.lhsIdx
  rw [dif_neg (show ¬(2 : Fin S16x64x256.rank) ∈ dot_S16x64x256_S16x64x256_S16x256x256_1_1_2_2_0_0.lhsBatch by decide), dif_pos (show (2 : Fin S16x64x256.rank) ∈ dot_S16x64x256_S16x64x256_S16x256x256_1_1_2_2_0_0.lhsNonContracting by decide)]
  rfl
theorem dotQK_apply_rhs0 (i : S16x256x256.Idx) (q : dot_S16x64x256_S16x64x256_S16x256x256_1_1_2_2_0_0.contr.Idx) :
    (dot_S16x64x256_S16x64x256_S16x256x256_1_1_2_2_0_0.rhsIdx i q 0).val = (i 0).val := by
  unfold DotDims.rhsIdx
  rw [dif_pos (show (0 : Fin S16x64x256.rank) ∈ dot_S16x64x256_S16x64x256_S16x256x256_1_1_2_2_0_0.rhsBatch by decide)]
  rfl
theorem dotQK_apply_rhs1 (i : S16x256x256.Idx) (q : dot_S16x64x256_S16x64x256_S16x256x256_1_1_2_2_0_0.contr.Idx) :
    (dot_S16x64x256_S16x64x256_S16x256x256_1_1_2_2_0_0.rhsIdx i q 1).val = (q ⟨0, by decide⟩).val :=
  dot_S16x64x256_S16x64x256_S16x256x256_1_1_2_2_0_0.rhsIdx_val_of_single rfl i q
theorem dotQK_apply_rhs2 (i : S16x256x256.Idx) (q : dot_S16x64x256_S16x64x256_S16x256x256_1_1_2_2_0_0.contr.Idx) :
    (dot_S16x64x256_S16x64x256_S16x256x256_1_1_2_2_0_0.rhsIdx i q 2).val = (i 2).val := by
  unfold DotDims.rhsIdx
  rw [dif_neg (show ¬(2 : Fin S16x64x256.rank) ∈ dot_S16x64x256_S16x64x256_S16x256x256_1_1_2_2_0_0.rhsBatch by decide), dif_pos (show (2 : Fin S16x64x256.rank) ∈ dot_S16x64x256_S16x64x256_S16x256x256_1_1_2_2_0_0.rhsNonContracting by decide)]
  rfl
/-- The content scores of head h: query position s against key position t, summed over the 64 lanes. -/
theorem dotQK_apply {φ₁ φ₂ : FTy} (A : FVec Ideal S16x64x256 φ₁) (B : FVec Ideal S16x64x256 φ₂) (h : Fin 16) (s t : Fin 256) :
    matmul dot_S16x64x256_S16x64x256_S16x256x256_1_1_2_2_0_0 none A B (constant (F := Ideal) S16x256x256 .f32 0x00000000#32) (ix3 h s t)
      = ∑ k : Fin 64, A (ix3 h k s) * B (ix3 h k t) := by
  simp only [matmul]
  rw [Ideal.matmul_constant_zero_apply, ← Equiv.sum_comp (contrEquiv1 dot_S16x64x256_S16x64x256_S16x256x256_1_1_2_2_0_0 64 rfl rfl).symm]
  refine Finset.sum_congr rfl fun k _ => ?_
  have hk := contrEquiv1_symm_val dot_S16x64x256_S16x64x256_S16x256x256_1_1_2_2_0_0 64 rfl rfl k
  have el : dot_S16x64x256_S16x64x256_S16x256x256_1_1_2_2_0_0.lhsIdx (ix3 h s t) ((contrEquiv1 dot_S16x64x256_S16x64x256_S16x256x256_1_1_2_2_0_0 64 rfl rfl).symm k) = ix3 h k s := funext fun a => Fin.ext (by
    match a with
    | ⟨0, _⟩ => exact dotQK_apply_lhs0 _ _
    | ⟨1, _⟩ => exact (dotQK_apply_lhs1 _ _).trans hk
    | ⟨2, _⟩ => exact dotQK_apply_lhs2 _ _)
  have er : dot_S16x64x256_S16x64x256_S16x256x256_1_1_2_2_0_0.rhsIdx (ix3 h s t) ((contrEquiv1 dot_S16x64x256_S16x64x256_S16x256x256_1_1_2_2_0_0 64 rfl rfl).symm k) = ix3 h k t := funext fun a => Fin.ext (by
    match a with
    | ⟨0, _⟩ => exact dotQK_apply_rhs0 _ _
    | ⟨1, _⟩ => exact (dotQK_apply_rhs1 _ _).trans hk
    | ⟨2, _⟩ => exact dotQK_apply_rhs2 _ _)
  rw [el, er]

theorem dotPV_apply_lhs0 (i : S16x64x256.Idx) (q : dot_S16x64x256_S16x256x256_S16x64x256_2_2_1_1_0_0.contr.Idx) :
    (dot_S16x64x256_S16x256x256_S16x64x256_2_2_1_1_0_0.lhsIdx i q 0).val = (i 0).val := by
  unfold DotDims.lhsIdx
  rw [dif_pos (show (0 : Fin S16x64x256.rank) ∈ dot_S16x64x256_S16x256x256_S16x64x256_2_2_1_1_0_0.lhsBatch by decide)]
  rfl
theorem dotPV_apply_lhs1 (i : S16x64x256.Idx) (q : dot_S16x64x256_S16x256x256_S16x64x256_2_2_1_1_0_0.contr.Idx) :
    (dot_S16x64x256_S16x256x256_S16x64x256_2_2_1_1_0_0.lhsIdx i q 1).val = (i 1).val := by
  unfold DotDims.lhsIdx
  rw [dif_neg (show ¬(1 : Fin S16x64x256.rank) ∈ dot_S16x64x256_S16x256x256_S16x64x256_2_2_1_1_0_0.lhsBatch by decide), dif_pos (show (1 : Fin S16x64x256.rank) ∈ dot_S16x64x256_S16x256x256_S16x64x256_2_2_1_1_0_0.lhsNonContracting by decide)]
  rfl
theorem dotPV_apply_lhs2 (i : S16x64x256.Idx) (q : dot_S16x64x256_S16x256x256_S16x64x256_2_2_1_1_0_0.contr.Idx) :
    (dot_S16x64x256_S16x256x256_S16x64x256_2_2_1_1_0_0.lhsIdx i q 2).val = (q ⟨0, by decide⟩).val :=
  dot_S16x64x256_S16x256x256_S16x64x256_2_2_1_1_0_0.lhsIdx_val_of_single rfl i q
theorem dotPV_apply_rhs0 (i : S16x64x256.Idx) (q : dot_S16x64x256_S16x256x256_S16x64x256_2_2_1_1_0_0.contr.Idx) :
    (dot_S16x64x256_S16x256x256_S16x64x256_2_2_1_1_0_0.rhsIdx i q 0).val = (i 0).val := by
  unfold DotDims.rhsIdx
  rw [dif_pos (show (0 : Fin S16x256x256.rank) ∈ dot_S16x64x256_S16x256x256_S16x64x256_2_2_1_1_0_0.rhsBatch by decide)]
  rfl
theorem dotPV_apply_rhs1 (i : S16x64x256.Idx) (q : dot_S16x64x256_S16x256x256_S16x64x256_2_2_1_1_0_0.contr.Idx) :
    (dot_S16x64x256_S16x256x256_S16x64x256_2_2_1_1_0_0.rhsIdx i q 1).val = (i 2).val := by
  unfold DotDims.rhsIdx
  rw [dif_neg (show ¬(1 : Fin S16x256x256.rank) ∈ dot_S16x64x256_S16x256x256_S16x64x256_2_2_1_1_0_0.rhsBatch by decide), dif_pos (show (1 : Fin S16x256x256.rank) ∈ dot_S16x64x256_S16x256x256_S16x64x256_2_2_1_1_0_0.rhsNonContracting by decide)]
  rfl
theorem dotPV_apply_rhs2 (i : S16x64x256.Idx) (q : dot_S16x64x256_S16x256x256_S16x64x256_2_2_1_1_0_0.contr.Idx) :
    (dot_S16x64x256_S16x256x256_S16x64x256_2_2_1_1_0_0.rhsIdx i q 2).val = (q ⟨0, by decide⟩).val :=
  dot_S16x64x256_S16x256x256_S16x64x256_2_2_1_1_0_0.rhsIdx_val_of_single rfl i q
/-- The weighted values of head h: lane d at query position s sums the key positions. -/
theorem dotPV_apply {φ₁ φ₂ : FTy} (A : FVec Ideal S16x64x256 φ₁) (B : FVec Ideal S16x256x256 φ₂) (h : Fin 16) (d : Fin 64) (s : Fin 256) :
    matmul dot_S16x64x256_S16x256x256_S16x64x256_2_2_1_1_0_0 none A B (constant (F := Ideal) S16x64x256 .f32 0x00000000#32) (ix3 h d s)
      = ∑ k : Fin 256, A (ix3 h d k) * B (ix3 h s k) := by
  simp only [matmul]
  rw [Ideal.matmul_constant_zero_apply, ← Equiv.sum_comp (contrEquiv1 dot_S16x64x256_S16x256x256_S16x64x256_2_2_1_1_0_0 256 rfl rfl).symm]
  refine Finset.sum_congr rfl fun k _ => ?_
  have hk := contrEquiv1_symm_val dot_S16x64x256_S16x256x256_S16x64x256_2_2_1_1_0_0 256 rfl rfl k
  have el : dot_S16x64x256_S16x256x256_S16x64x256_2_2_1_1_0_0.lhsIdx (ix3 h d s) ((contrEquiv1 dot_S16x64x256_S16x256x256_S16x64x256_2_2_1_1_0_0 256 rfl rfl).symm k) = ix3 h d k := funext fun a => Fin.ext (by
    match a with
    | ⟨0, _⟩ => exact dotPV_apply_lhs0 _ _
    | ⟨1, _⟩ => exact dotPV_apply_lhs1 _ _
    | ⟨2, _⟩ => exact (dotPV_apply_lhs2 _ _).trans hk)
  have er : dot_S16x64x256_S16x256x256_S16x64x256_2_2_1_1_0_0.rhsIdx (ix3 h d s) ((contrEquiv1 dot_S16x64x256_S16x256x256_S16x64x256_2_2_1_1_0_0 256 rfl rfl).symm k) = ix3 h s k := funext fun a => Fin.ext (by
    match a with
    | ⟨0, _⟩ => exact dotPV_apply_rhs0 _ _
    | ⟨1, _⟩ => exact dotPV_apply_rhs1 _ _
    | ⟨2, _⟩ => exact (dotPV_apply_rhs2 _ _).trans hk)
  rw [el, er]

end Cert.KernelIdeal.KerValue

end
-- ==== Proof.KerBase.lean ====
/-
  The kernel's data movement read at one entry.

  The activations arrive as [2, 256, 1024] and are used transposed and flattened: entry (k, 256·b + s) of the
  [1024, 512] operand is x[b, s, k]. The two side-by-side operands the body assembles by several stores are read
  column range by column range: [Wuk | Wuv] is Wuk on columns below 1024 and Wuv, shifted by 1024, above;
  [Wq | Wqr | Wkr] is Wq below 1024, Wqr below 1536 and Wkr on the last 32 columns. A change of float format is
  the identity on extended reals, so none of these reads changes a value.
-/
import proofs.«900377_g7700000000000378_dist_mla_v7x_xyz2x2x2_y_b2_s256_d1024_dc64_bf16_1_alg».proof.Proof.KOut
import Idealize.ShloMosaic.Lib.ValueLayout

noncomputable section

namespace Cert.KernelIdeal.KerValue

open Cert.KernelIdeal Cert.KernelIdeal.Gen Cert.KernelIdeal.KOut Idealize.ShloMosaic Idealize.ShloMosaic.ValueIdx

/-- Column `256·b + s` of the 512 flattened positions: position `s` of batch `b`. -/
def col (b : Fin 2) (s : Fin 256) : Fin 512 := ⟨256 * b.val + s.val, by have := b.isLt; have := s.isLt; omega⟩

theorem col_val (b : Fin 2) (s : Fin 256) : (col b s).val = 256 * b.val + s.val := rfl

/-- Flattening [2, 256, 1024] to [512, 1024]: row n = 256·b + s is (b, s). -/
theorem flat_apply {α : Type} (V : S2x256x1024.Idx → α) (h : S2x256x1024.ShapeCasts S512x1024) (k : Fin 1024) (b : Fin 2)
    (s : Fin 256) (n : Fin 512) (hn : n.val = 256 * b.val + s.val) :
    shapeCast S512x1024 V h (ix2 n k) = V (ix3 b s k) := by
  refine shapeCast_apply V h _ _ ?_
  rw [Shape.rowMajor_val_three, Shape.rowMajor_val_two]
  show (b.val * 256 + s.val) * 1024 + k.val = n.val * 1024 + k.val
  omega

/-- The transposed, flattened activations at (k, n), n = 256·b + s, are x[b, s, k]. -/
theorem xT_apply (X : Vec Ideal S2x256x1024 .f32) (k : Fin 1024) (b : Fin 2) (s : Fin 256) (n : Fin 512)
    (hn : n.val = 256 * b.val + s.val) : k0_pay3 (F := Ideal) X (ix2 k n) = X (ix3 b s k) := by
  unfold k0_pay3
  rw [transpose_ix2_apply]
  rw [truncf_apply, flat_apply _ _ k b s n hn, shapeCast_self]

/-- [Wuk | Wuv] on a column below 1024 is Wuk there. -/
theorem wcat_left (wk wv : Vec Ideal S64x1024 .f32) (j : Fin 64) (e : Fin 1024) (c : Fin 2048) (hc : c.val = e.val) :
    wcat (F := Ideal) wk wv (ix2 j c) = wk (ix2 j e) := by
  unfold wcat
  rw [View.canon_cons_of_not_mem _ _ (by
    rw [Rect.mem_set_unit]
    intro h
    have := (h 1).1
    have he := e.isLt
    change 1024 ≤ c.val at this
    omega)]
  have hy : (ix2 j c : S64x2048.Idx)
      = (Rect.unit (s := S64x2048) ![0, 0] S64x1024.size inb_S64x2048_S64x1024_0_0).emb (ix2 j e) :=
    funext fun a => Fin.ext (by
      match a with
      | ⟨0, _⟩ => show j.val = 0 + 1 * j.val; omega
      | ⟨1, _⟩ => show c.val = 0 + 1 * e.val; omega)
  rw [hy, View.canon_cons_emb]
  unfold k0_pay1
  rw [shapeCast_self, shapeCast_self]
  rfl

/-- [Wuk | Wuv] on column 1024 + e is Wuv at e. -/
theorem wcat_right (wk wv : Vec Ideal S64x1024 .f32) (j : Fin 64) (e : Fin 1024) (c : Fin 2048) (hc : c.val = 1024 + e.val) :
    wcat (F := Ideal) wk wv (ix2 j c) = wv (ix2 j e) := by
  unfold wcat
  have hy : (ix2 j c : S64x2048.Idx)
      = (Rect.unit (s := S64x2048) ![0, 1024] S64x1024.size inb_S64x2048_S64x1024_0_1024).emb (ix2 j e) :=
    funext fun a => Fin.ext (by
      match a with
      | ⟨0, _⟩ => show j.val = 0 + 1 * j.val; omega
      | ⟨1, _⟩ => show c.val = 1024 + 1 * e.val; omega)
  rw [hy, View.canon_cons_emb]
  unfold k0_pay2
  rw [shapeCast_self, shapeCast_self]
  rfl

/-- [Wq | Wqr | Wkr] on a column below 1024 is Wq there. -/
theorem projw_q (wq : Vec Ideal S1024x1024 .f32) (wqr : Vec Ideal S1024x512 .f32) (wkr : Vec Ideal S1024x32 .f32)
    (k : Fin 1024) (e : Fin 1024) (c : Fin 1568) (hc : c.val = e.val) :
    projw (F := Ideal) wq wqr wkr (ix2 k c) = wq (ix2 k e) := by
  unfold projw
  rw [View.canon_cons_of_not_mem _ _ (by
    rw [Rect.mem_set_unit]
    intro h
    have := (h 1).1
    have he := e.isLt
    change 1536 ≤ c.val at this
    omega)]
  rw [View.canon_cons_of_not_mem _ _ (by
    rw [Rect.mem_set_unit]
    intro h
    have := (h 1).1
    have he := e.isLt
    change 1024 ≤ c.val at this
    omega)]
  have hy : (ix2 k c : S1024x1568.Idx)
      = (Rect.unit (s := S1024x1568) ![0, 0] S1024x1024.size inb_S1024x1568_S1024x1024_0_0).emb (ix2 k e) :=
    funext fun a => Fin.ext (by
      match a with
      | ⟨0, _⟩ => show k.val = 0 + 1 * k.val; omega
      | ⟨1, _⟩ => show c.val = 0 + 1 * e.val; omega)
  rw [hy, View.canon_cons_emb]
  unfold k0_pay6 k0_pay5
  rw [shapeCast_self, shapeCast_self]
  rfl

/-- [Wq | Wqr | Wkr] on column 1024 + f is Wqr at f. -/
theorem projw_qr (wq : Vec Ideal S1024x1024 .f32) (wqr : Vec Ideal S1024x512 .f32) (wkr : Vec Ideal S1024x32 .f32)
    (k : Fin 1024) (f : Fin 512) (c : Fin 1568) (hc : c.val = 1024 + f.val) :
    projw (F := Ideal) wq wqr wkr (ix2 k c) = wqr (ix2 k f) := by
  unfold projw
  rw [View.canon_cons_of_not_mem _ _ (by
    rw [Rect.mem_set_unit]
    intro h
    have := (h 1).1
    have hf := f.isLt
    change 1536 ≤ c.val at this
    omega)]
  have hy : (ix2 k c : S1024x1568.Idx)
      = (Rect.unit (s := S1024x1568) ![0, 1024] S1024x512.size inb_S1024x1568_S1024x512_0_1024).emb (ix2 k f) :=
    funext fun a => Fin.ext (by
      match a with
      | ⟨0, _⟩ => show k.val = 0 + 1 * k.val; omega
      | ⟨1, _⟩ => show c.val = 1024 + 1 * f.val; omega)
  rw [hy, View.canon_cons_emb]
  unfold k0_pay7
  rw [shapeCast_self, shapeCast_self]
  rfl

/-- [Wq | Wqr | Wkr] on column 1536 + d is Wkr at d. -/
theorem projw_kr (wq : Vec Ideal S1024x1024 .f32) (wqr : Vec Ideal S1024x512 .f32) (wkr : Vec Ideal S1024x32 .f32)
    (k : Fin 1024) (d : Fin 32) (c : Fin 1568) (hc : c.val = 1536 + d.val) :
    projw (F := Ideal) wq wqr wkr (ix2 k c) = wkr (ix2 k d) := by
  unfold projw
  have hy : (ix2 k c : S1024x1568.Idx)
      = (Rect.unit (s := S1024x1568) ![0, 1536] S1024x32.size inb_S1024x1568_S1024x32_0_1536).emb (ix2 k d) :=
    funext fun a => Fin.ext (by
      match a with
      | ⟨0, _⟩ => show k.val = 0 + 1 * k.val; omega
      | ⟨1, _⟩ => show c.val = 1536 + 1 * d.val; omega)
  rw [hy, View.canon_cons_emb]
  unfold k0_pay8
  rw [shapeCast_self, shapeCast_self]
  rfl

end Cert.KernelIdeal.KerValue

end
-- ==== Proof.KerProj.lean ====
/-
  The kernel's projections read at one entry: the half latent, the scaled queries, the scaled rotary queries and the
  rotary keys, each a sum over the 1024 model features of a weight entry times an activation entry.

  All three query-side products come out of ONE matrix product with [Wq | Wqr | Wkr]: rows below 1024 are the
  queries, rows 1024 … 1535 the rotary queries, the last 32 rows the rotary keys; the first two are multiplied by
  the scale afterwards.
-/
import proofs.«900377_g7700000000000378_dist_mla_v7x_xyz2x2x2_y_b2_s256_d1024_dc64_bf16_1_alg».proof.Proof.KerDots
import proofs.«900377_g7700000000000378_dist_mla_v7x_xyz2x2x2_y_b2_s256_d1024_dc64_bf16_1_alg».proof.Proof.KerBase
import proofs.«900377_g7700000000000378_dist_mla_v7x_xyz2x2x2_y_b2_s256_d1024_dc64_bf16_1_alg».proof.Proof.Spec

noncomputable section

open scoped BigOperators

namespace Cert.KernelIdeal.KerValue

open Cert.KernelIdeal Cert.KernelIdeal.Gen Cert.KernelIdeal.KOut Idealize.ShloMosaic Idealize.ShloMosaic.ValueIdx

/-- A float literal read at the extended reals is the extended real its word encodes (the word is never evaluated). -/
theorem scalar_ofBits_ideal (w : BitVec 32) : (Scalar.ofBits .f32 w : Ideal .f32) = Ideal.ofBits .f32 w := rfl

/-- The half latent at lane j, column n = 256·b + s. -/
theorem lat_apply (X : Vec Ideal S2x256x1024 .f32) (wd : Vec Ideal S1024x64 .f32) (j : Fin 64) (b : Fin 2) (s : Fin 256)
    (n : Fin 512) (hn : n.val = 256 * b.val + s.val) :
    k0_pay4 (F := Ideal) X wd (ix2 j n) = Cert.Attn.kLat (fun b s k => X (ix3 b s k)) (fun a c => wd (ix2 a c)) j b s := by
  unfold k0_pay4 Cert.Attn.kLat
  rw [shapeCast_self, truncf_apply, dotLat_apply]
  refine Finset.sum_congr rfl fun k _ => ?_
  rw [xT_apply X k b s n hn, truncf_apply, shapeCast_self]

/-- The joint projection at row r, column n. -/
theorem proj_apply (xT : FVec Ideal S1024x512 .bf16) (PW : Vec Ideal S1024x1568 .bf16) (r : Fin 1568) (n : Fin 512) :
    k0_pay9 (F := Ideal) xT PW (ix2 r n) = ∑ k : Fin 1024, PW (ix2 k r) * xT (ix2 k n) := by
  unfold k0_pay9
  rw [dotProj_apply]

/-- The scaled queries at feature e, column n = 256·b + s. -/
theorem q_apply (X : Vec Ideal S2x256x1024 .f32) (WQ : Vec Ideal S1024x1024 .f32) (WQR : Vec Ideal S1024x512 .f32)
    (WKR : Vec Ideal S1024x32 .f32) (e : Fin 1024) (b : Fin 2) (s : Fin 256) (n : Fin 512) (hn : n.val = 256 * b.val + s.val) :
    k0_pay10 (F := Ideal) (k0_pay3 X) (projw WQ WQR WKR) (ix2 e n)
      = Cert.Attn.kQ (fun b s k => X (ix3 b s k)) (fun a c => WQ (ix2 a c)) (Ideal.ofBits .f32 0x3DD105EC#32) e b s := by
  unfold k0_pay10 Cert.Attn.kQ
  rw [truncf_apply, mulf_apply, broadcast_apply, slice2_axis0_eq, proj_apply, scalar_ofBits_ideal]
  refine congrArg (· * _) ?_
  refine Finset.sum_congr rfl fun k _ => ?_
  rw [projw_q WQ WQR WKR k e _ (Nat.zero_add _), xT_apply X k b s n hn]

/-- The scaled rotary queries at feature f, column n = 256·b + s. -/
theorem qr_apply (X : Vec Ideal S2x256x1024 .f32) (WQ : Vec Ideal S1024x1024 .f32) (WQR : Vec Ideal S1024x512 .f32)
    (WKR : Vec Ideal S1024x32 .f32) (f : Fin 512) (b : Fin 2) (s : Fin 256) (n : Fin 512) (hn : n.val = 256 * b.val + s.val) :
    k0_pay11 (F := Ideal) (k0_pay3 X) (projw WQ WQR WKR) (ix2 f n)
      = Cert.Attn.kQr (fun b s k => X (ix3 b s k)) (fun a c => WQR (ix2 a c)) (Ideal.ofBits .f32 0x3DD105EC#32) f b s := by
  unfold k0_pay11 Cert.Attn.kQr
  rw [truncf_apply, mulf_apply, broadcast_apply, slice2_axis0_eq, proj_apply, scalar_ofBits_ideal]
  refine congrArg (· * _) ?_
  refine Finset.sum_congr rfl fun k _ => ?_
  rw [projw_qr WQ WQR WKR k f _ rfl, xT_apply X k b s n hn]

/-- The rotary keys at lane d, column n = 256·b + s. -/
theorem kr_apply (X : Vec Ideal S2x256x1024 .f32) (WQ : Vec Ideal S1024x1024 .f32) (WQR : Vec Ideal S1024x512 .f32)
    (WKR : Vec Ideal S1024x32 .f32) (d : Fin 32) (b : Fin 2) (s : Fin 256) (n : Fin 512) (hn : n.val = 256 * b.val + s.val) :
    k0_pay12 (F := Ideal) (k0_pay3 X) (projw WQ WQR WKR) (ix2 d n)
      = Cert.Attn.kKr (fun b s k => X (ix3 b s k)) (fun a c => WKR (ix2 a c)) d b s := by
  unfold k0_pay12 Cert.Attn.kKr
  rw [truncf_apply, slice2_axis0_eq, proj_apply]
  refine Finset.sum_congr rfl fun k _ => ?_
  rw [projw_kr WQ WQR WKR k d _ rfl, xT_apply X k b s n hn]

end Cert.KernelIdeal.KerValue

end
-- ==== Proof.KerRot.lean ====
/-
  The rotary scores read at one entry.

  For batch b the kernel takes columns 256·b … 256·b + 255 of the scaled rotary queries, splits the 512 rows into
  sixteen heads of thirty-two lanes, takes the same columns of the rotary keys, shares them among the sixteen heads,
  and contracts the lanes: entry (h, s, t) is the sum over the 32 lanes d of the scaled rotary query of head h, lane d
  at position s times the rotary key of lane d at position t.
-/
import proofs.«900377_g7700000000000378_dist_mla_v7x_xyz2x2x2_y_b2_s256_d1024_dc64_bf16_1_alg».proof.Proof.KerProj

noncomputable section

open scoped BigOperators

namespace Cert.KernelIdeal.KerValue

open Cert.KernelIdeal Cert.KernelIdeal.Gen Cert.KernelIdeal.KOut Idealize.ShloMosaic Idealize.ShloMosaic.ValueIdx

variable {α : Type}

/-- 512 rows seen as sixteen heads of thirty-two lanes: (h, d, s) is row 32·h + d. -/
theorem split32_apply (V : S512x256.Idx → α) (hc : S512x256.ShapeCasts S16x32x256) (h : Fin 16) (d : Fin 32) (s : Fin 256) :
    shapeCast S16x32x256 V hc (ix3 h d s) = V (ix2 (Cert.Attn.hd32 h d) s) := by
  refine shapeCast_apply V hc _ _ ?_
  rw [Shape.rowMajor_val_two, Shape.rowMajor_val_three]
  rfl

/-- One [32, 256] block shared among sixteen heads. -/
theorem share32_apply (V : S1x32x256.Idx → α) (hb : S1x32x256.Broadcasts S16x32x256) (h : Fin 16) (d : Fin 32) (t : Fin 256) :
    broadcastTo S16x32x256 V hb (ix3 h d t) = V (ix3 (0 : Fin 1) d t) := by
  refine broadcastTo_apply V hb _ _ fun ax => ?_
  match ax with
  | ⟨0, _⟩ => rfl
  | ⟨1, _⟩ => rfl
  | ⟨2, _⟩ => rfl

/-- The rotary scores of batch 0. -/
theorem rot0_apply (X : Vec Ideal S2x256x1024 .f32) (WQ : Vec Ideal S1024x1024 .f32) (WQR : Vec Ideal S1024x512 .f32)
    (WKR : Vec Ideal S1024x32 .f32) (h : Fin 16) (s t : Fin 256) :
    k0_pay13 (F := Ideal) (k0_pay3 X) (projw WQ WQR WKR) (ix3 h s t)
      = ∑ d : Fin 32, Cert.Attn.kQr (fun b s k => X (ix3 b s k)) (fun a c => WQR (ix2 a c)) (Ideal.ofBits .f32 0x3DD105EC#32) (Cert.Attn.hd32 h d) 0 s * Cert.Attn.kKr (fun b s k => X (ix3 b s k)) (fun a c => WKR (ix2 a c)) d 0 t := by
  unfold k0_pay13
  rw [dotRot_apply]
  refine Finset.sum_congr rfl fun d _ => ?_
  rw [split32_apply, slice2_axis1_eq,
    qr_apply X WQ WQR WKR (Cert.Attn.hd32 h d) 0 s _ (by show 0 + s.val = 256 * 0 + s.val; omega)]
  rw [share32_apply, shapeCast_self, shapeCast_ab_1ab_apply, slice2_axis1_eq,
    kr_apply X WQ WQR WKR d 0 t _ (by show 0 + t.val = 256 * 0 + t.val; omega)]

/-- The rotary scores of batch 1. -/
theorem rot1_apply (X : Vec Ideal S2x256x1024 .f32) (WQ : Vec Ideal S1024x1024 .f32) (WQR : Vec Ideal S1024x512 .f32)
    (WKR : Vec Ideal S1024x32 .f32) (h : Fin 16) (s t : Fin 256) :
    k0_pay14 (F := Ideal) (k0_pay3 X) (projw WQ WQR WKR) (ix3 h s t)
      = ∑ d : Fin 32, Cert.Attn.kQr (fun b s k => X (ix3 b s k)) (fun a c => WQR (ix2 a c)) (Ideal.ofBits .f32 0x3DD105EC#32) (Cert.Attn.hd32 h d) 1 s * Cert.Attn.kKr (fun b s k => X (ix3 b s k)) (fun a c => WKR (ix2 a c)) d 1 t := by
  unfold k0_pay14
  rw [dotRot_apply]
  refine Finset.sum_congr rfl fun d _ => ?_
  rw [split32_apply, slice2_axis1_eq,
    qr_apply X WQ WQR WKR (Cert.Attn.hd32 h d) 1 s _ (by show 256 + s.val = 256 * 1 + s.val; omega)]
  rw [share32_apply, shapeCast_self, shapeCast_ab_1ab_apply, slice2_axis1_eq,
    kr_apply X WQ WQR WKR d 1 t _ (by show 256 + t.val = 256 * 1 + t.val; omega)]

end Cert.KernelIdeal.KerValue

end
-- ==== Proof.KerUp.lean ====
/-
  The joint key / value up-projection read at one entry.

  Both operands are two blocks of 64 latent lanes stacked, own block first and the peer's second, so the sum over
  the 128 stacked lanes is the sum over the own 64 plus the sum over the peer's 64. Rows below 1024 of the product
  are the keys (the Wuk columns of [Wuk | Wuv]), rows 1024 … 2047 the values (the Wuv columns).
-/
import proofs.«900377_g7700000000000378_dist_mla_v7x_xyz2x2x2_y_b2_s256_d1024_dc64_bf16_1_alg».proof.Proof.KerProj

noncomputable section

open scoped BigOperators

namespace Cert.KernelIdeal.KerValue

open Cert.KernelIdeal Cert.KernelIdeal.Gen Cert.KernelIdeal.KOut Idealize.ShloMosaic Idealize.ShloMosaic.ValueIdx

variable {α : Type}

/-- Two [64, N] blocks stacked along the rows: a row below 64 reads the first block. -/
theorem stack_left {N : Nat} (x₁ x₂ : (⟨2, ![64, N]⟩ : Shape).Idx → α)
    (h : Shape.Concatenates [(⟨2, ![64, N]⟩ : Shape), ⟨2, ![64, N]⟩] ⟨2, ![128, N]⟩ 0) (j : Fin 64) (r : Fin N) (l : Fin 128)
    (hl : l.val = j.val) :
    concatenate ⟨2, ![128, N]⟩ 0 [⟨⟨2, ![64, N]⟩, x₁⟩, ⟨⟨2, ![64, N]⟩, x₂⟩] h (ix2 l r) = x₁ (ix2 j r) :=
  concatenate_pair_apply_left 0 x₁ x₂ h (ix2 l r) rfl (ix2 j r) (fun b => by
    match b with
    | ⟨0, _⟩ => exact hl.symm
    | ⟨1, _⟩ => rfl)

/-- Row 64 + j reads the second block at row j. -/
theorem stack_right {N : Nat} (x₁ x₂ : (⟨2, ![64, N]⟩ : Shape).Idx → α)
    (h : Shape.Concatenates [(⟨2, ![64, N]⟩ : Shape), ⟨2, ![64, N]⟩] ⟨2, ![128, N]⟩ 0) (j : Fin 64) (r : Fin N) (l : Fin 128)
    (hl : l.val = 64 + j.val) :
    concatenate ⟨2, ![128, N]⟩ 0 [⟨⟨2, ![64, N]⟩, x₁⟩, ⟨⟨2, ![64, N]⟩, x₂⟩] h (ix2 l r) = x₂ (ix2 j r) :=
  concatenate_pair_apply_right 0 x₁ x₂ h (ix2 l r) rfl rfl (ix2 j r) (fun b hb => by
    match b with
    | ⟨0, _⟩ => exact absurd rfl hb
    | ⟨1, _⟩ => rfl) (by show j.val + 64 = l.val; omega)

/-- The joint up-projection at row r, column n: own half then peer's half. -/
theorem up_apply (c0 c1 : Vec Ideal S64x512 .bf16) (w0 w1 : Vec Ideal S64x2048 .bf16) (r : Fin 2048) (n : Fin 512) :
    k0_pay15 (F := Ideal) c0 c1 w0 w1 (ix2 r n)
      = ∑ j : Fin 64, w0 (ix2 j r) * c0 (ix2 j n) + ∑ j : Fin 64, w1 (ix2 j r) * c1 (ix2 j n) := by
  unfold k0_pay15
  rw [dotUp_apply]
  refine (Fin.sum_univ_add (a := 64) (b := 64) _).trans ?_
  refine congrArg₂ (· + ·) ?_ ?_
  · refine Finset.sum_congr rfl fun j _ => ?_
    rw [stack_left w0 w1 _ j r (Fin.castAdd 64 j) rfl, stack_left c0 c1 _ j n (Fin.castAdd 64 j) rfl]
  · refine Finset.sum_congr rfl fun j _ => ?_
    rw [stack_right w0 w1 _ j r (Fin.natAdd 64 j) rfl, stack_right c0 c1 _ j n (Fin.natAdd 64 j) rfl]

/-- The keys at feature e, column n = 256·b + s: Wuk's two halves against the two half latents. -/
theorem key_apply (X : Vec Ideal S2x256x1024 .f32) (wd wd' : Vec Ideal S1024x64 .f32) (wk wv wk' wv' : Vec Ideal S64x1024 .f32)
    (e : Fin 1024) (b : Fin 2) (s : Fin 256) (n : Fin 512) (hn : n.val = 256 * b.val + s.val) :
    k0_pay16 (F := Ideal) (k0_pay4 X wd) (k0_pay4 X wd') (wcat wk wv) (wcat wk' wv') (ix2 e n)
      = Cert.Attn.kUp (fun b s k => X (ix3 b s k)) (fun a c => wd (ix2 a c)) (fun a c => wd' (ix2 a c)) (fun a c => wk (ix2 a c)) (fun a c => wk' (ix2 a c)) e b s := by
  unfold k0_pay16 Cert.Attn.kUp
  rw [truncf_apply, slice2_axis0_eq, up_apply]
  refine congrArg₂ (· + ·) ?_ ?_
  · refine Finset.sum_congr rfl fun j _ => ?_
    rw [wcat_left wk wv j e _ (Nat.zero_add _), lat_apply X wd j b s n hn]
  · refine Finset.sum_congr rfl fun j _ => ?_
    rw [wcat_left wk' wv' j e _ (Nat.zero_add _), lat_apply X wd' j b s n hn]

/-- The values at feature e, column n = 256·b + s: Wuv's two halves against the two half latents. -/
theorem val_apply (X : Vec Ideal S2x256x1024 .f32) (wd wd' : Vec Ideal S1024x64 .f32) (wk wv wk' wv' : Vec Ideal S64x1024 .f32)
    (e : Fin 1024) (b : Fin 2) (s : Fin 256) (n : Fin 512) (hn : n.val = 256 * b.val + s.val) :
    k0_pay17 (F := Ideal) (k0_pay4 X wd) (k0_pay4 X wd') (wcat wk wv) (wcat wk' wv') (ix2 e n)
      = Cert.Attn.kUp (fun b s k => X (ix3 b s k)) (fun a c => wd (ix2 a c)) (fun a c => wd' (ix2 a c)) (fun a c => wv (ix2 a c)) (fun a c => wv' (ix2 a c)) e b s := by
  unfold k0_pay17 Cert.Attn.kUp
  rw [truncf_apply, slice2_axis0_eq, up_apply]
  refine congrArg₂ (· + ·) ?_ ?_
  · refine Finset.sum_congr rfl fun j _ => ?_
    rw [wcat_right wk wv j e _ rfl, lat_apply X wd j b s n hn]
  · refine Finset.sum_congr rfl fun j _ => ?_
    rw [wcat_right wk' wv' j e _ rfl, lat_apply X wd' j b s n hn]

end Cert.KernelIdeal.KerValue

end
-- ==== Proof.KerAttn.lean ====
/-
  One batch's attention block, and the output projection, read at one entry.

  For the batch whose 256 positions are columns o … o + 255 of the [1024, 512] operands, the kernel cuts those
  columns out of the scaled queries, the keys and the values, views the 1024 rows as sixteen heads of sixty-four
  lanes, forms the scores (content products plus the rotary scores), exponentiates them, sums each row, multiplies
  the exponential-weighted values by the reciprocal of the row sum, and views the result as 1024 rows again. The two
  batches' blocks stand side by side as one [1024, 512] operand whose product with Wo, flattened position by
  position, is the result. The kernel's result is exactly these two blocks under that product: by unfolding.
-/
import proofs.«900377_g7700000000000378_dist_mla_v7x_xyz2x2x2_y_b2_s256_d1024_dc64_bf16_1_alg».proof.Proof.KerDots
import proofs.«900377_g7700000000000378_dist_mla_v7x_xyz2x2x2_y_b2_s256_d1024_dc64_bf16_1_alg».proof.Proof.KerBase
import proofs.«900377_g7700000000000378_dist_mla_v7x_xyz2x2x2_y_b2_s256_d1024_dc64_bf16_1_alg».proof.Proof.Spec

noncomputable section

open scoped BigOperators

namespace Cert.KernelIdeal.KerValue

open Cert.KernelIdeal Cert.KernelIdeal.Gen Cert.KernelIdeal.KOut Idealize.ShloMosaic Idealize.ShloMosaic.ValueIdx

section Layout

variable {α : Type}

/-- 1024 rows seen as sixteen heads of sixty-four lanes: (h, d, s) is row 64·h + d. -/
theorem split64_apply (V : S1024x256.Idx → α) (hc : S1024x256.ShapeCasts S16x64x256) (h : Fin 16) (d : Fin 64) (s : Fin 256) :
    shapeCast S16x64x256 V hc (ix3 h d s) = V (ix2 (Cert.Attn.hd64 h d) s) := by
  refine shapeCast_apply V hc _ _ ?_
  rw [Shape.rowMajor_val_two, Shape.rowMajor_val_three]
  rfl

/-- Sixteen heads of sixty-four lanes seen as 1024 rows: row e is head e / 64, lane e % 64. -/
theorem merge64_apply (V : S16x64x256.Idx → α) (hc : S16x64x256.ShapeCasts S1024x256) (e : Fin 1024) (s : Fin 256) :
    shapeCast S1024x256 V hc (ix2 e s) = V (ix3 (Cert.Attn.headOf e) (Cert.Attn.laneOf e) s) := by
  refine shapeCast_apply V hc _ _ ?_
  rw [Shape.rowMajor_val_two, Shape.rowMajor_val_three]
  show (e.val / 64 * 64 + e.val % 64) * 256 + s.val = e.val * 256 + s.val
  omega

/-- One value per (head, position) shared among the sixty-four lanes. -/
theorem spread64_apply (V : S16x1x256.Idx → α) (hb : S16x1x256.Broadcasts S16x64x256) (h : Fin 16) (d : Fin 64) (s : Fin 256) :
    broadcastTo S16x64x256 V hb (ix3 h d s) = V (ix3 h (0 : Fin 1) s) := by
  refine broadcastTo_apply V hb _ _ fun ax => ?_
  match ax with
  | ⟨0, _⟩ => rfl
  | ⟨1, _⟩ => rfl
  | ⟨2, _⟩ => rfl

/-- A [16, 256] array given a unit middle axis. -/
theorem unit_apply (V : S16x256.Idx → α) (hc : S16x256.ShapeCasts S16x1x256) (h : Fin 16) (s : Fin 256) :
    shapeCast S16x1x256 V hc (ix3 h (0 : Fin 1) s) = V (ix2 h s) := by
  refine shapeCast_apply V hc _ _ ?_
  rw [Shape.rowMajor_val_two, Shape.rowMajor_val_three]
  show h.val * 256 + s.val = (h.val * 1 + 0) * 256 + s.val
  omega

/-- Two [1024, 256] blocks side by side: a column below 256 reads the first block. -/
theorem beside_left (x₁ x₂ : S1024x256.Idx → α) (hc : Shape.Concatenates [S1024x256, S1024x256] S1024x512 1) (e : Fin 1024)
    (s : Fin 256) (n : Fin 512) (hn : n.val = s.val) :
    concatenate S1024x512 1 [⟨S1024x256, x₁⟩, ⟨S1024x256, x₂⟩] hc (ix2 e n) = x₁ (ix2 e s) :=
  concatenate_pair_apply_left 1 x₁ x₂ hc (ix2 e n) rfl (ix2 e s) (fun b => by
    match b with
    | ⟨0, _⟩ => rfl
    | ⟨1, _⟩ => exact hn.symm)

/-- Column 256 + s reads the second block at column s. -/
theorem beside_right (x₁ x₂ : S1024x256.Idx → α) (hc : Shape.Concatenates [S1024x256, S1024x256] S1024x512 1) (e : Fin 1024)
    (s : Fin 256) (n : Fin 512) (hn : n.val = 256 + s.val) :
    concatenate S1024x512 1 [⟨S1024x256, x₁⟩, ⟨S1024x256, x₂⟩] hc (ix2 e n) = x₂ (ix2 e s) :=
  concatenate_pair_apply_right 1 x₁ x₂ hc (ix2 e n) rfl rfl (ix2 e s) (fun b hb => by
    match b with
    | ⟨0, _⟩ => rfl
    | ⟨1, _⟩ => exact absurd rfl hb) (by show s.val + 256 = n.val; omega)

/-- [512, 1024] seen as [2, 256, 1024]: (b, s) is row 256·b + s. -/
theorem unflat_apply (V : S512x1024.Idx → α) (hc : S512x1024.ShapeCasts S2x256x1024) (b : Fin 2) (s : Fin 256) (e : Fin 1024) :
    shapeCast S2x256x1024 V hc (ix3 b s e) = V (ix2 (col b s) e) := by
  refine shapeCast_apply V hc _ _ ?_
  rw [Shape.rowMajor_val_two, Shape.rowMajor_val_three]
  show (256 * b.val + s.val) * 1024 + e.val = (b.val * 256 + s.val) * 1024 + e.val
  omega

end Layout

/-- A sum over the last axis of a [16, 256, 256] array, read at (h, s): the sum over t of the entries (h, s, t). -/
theorem rowsum_apply (V : FVec Ideal S16x256x256 .f32) (hr : S16x256x256.Reduces [2] S16x256) (hφ : FKind.Formats .f32)
    (hacc : (0x00000000#32 : BitVec 32) = 0x00000000#32) (h : Fin 16) (s : Fin 256) :
    multiReduction .add [2] S16x256 V 0x00000000#32 hr hφ hacc (ix2 h s) = ∑ t : Fin 256, V (ix3 h s t) := by
  refine (Ideal.multiReduction_add_single V 0x00000000#32 hr hφ hacc (ix2 h s)).trans ?_
  refine Finset.sum_congr rfl fun t _ => congrArg V (funext fun a => Fin.ext ?_)
  match a with
  | ⟨0, _⟩ => rfl
  | ⟨1, _⟩ => rfl
  | ⟨2, _⟩ => rfl

/-- The word 0x3F800000 is the number one. -/
theorem one_f32 : (Scalar.ofBits .f32 0x3F800000#32 : Ideal .f32) = 1 := IdealRules.sign_bit.ideal_onePat .f32

/-- The scores of the batch at columns o … o + 255: content products plus the given rotary scores. -/
def scores (o : Nat) (hs : S1024x512.Slices ![0, o] S1024x256) (Qt Kt : FVec Ideal S1024x512 .bf16)
    (SR : FVec Ideal S16x256x256 .f32) : FVec Ideal S16x256x256 .f32 :=
  addf (matmul dot_S16x64x256_S16x64x256_S16x256x256_1_1_2_2_0_0 none
      (shapeCast S16x64x256 (extractStridedSlice S1024x256 ![0, o] Qt hs) shapeCasts_S1024x256_S16x64x256)
      (shapeCast S16x64x256 (extractStridedSlice S1024x256 ![0, o] Kt hs) shapeCasts_S1024x256_S16x64x256)
      (constant S16x256x256 .f32 0x00000000#32)) SR

/-- That batch's attention block: exponential-weighted values times the reciprocal row sum, as 1024 rows. -/
def blk (o : Nat) (hs : S1024x512.Slices ![0, o] S1024x256) (Qt Kt Vt : FVec Ideal S1024x512 .bf16)
    (SR : FVec Ideal S16x256x256 .f32) : FVec Ideal S1024x256 .bf16 :=
  truncf .bf16 (shapeCast S1024x256 (mulf
      (matmul dot_S16x64x256_S16x256x256_S16x64x256_2_2_1_1_0_0 none
        (shapeCast S16x64x256 (extractStridedSlice S1024x256 ![0, o] Vt hs) shapeCasts_S1024x256_S16x64x256)
        (truncf .bf16 (exp (scores o hs Qt Kt SR)) bitsLt_bf16_f32) (constant S16x64x256 .f32 0x00000000#32))
      (broadcastTo S16x64x256 (shapeCast S16x1x256
        (divf (broadcast S16x256 (Scalar.ofBits .f32 0x3F800000#32))
          (multiReduction .add [2] S16x256 (exp (scores o hs Qt Kt SR)) 0x00000000#32 reduces_S16x256x256_S16x256 (.inl rfl) rfl))
        shapeCasts_S16x256_S16x1x256) broadcasts_S16x1x256_S16x64x256))
    shapeCasts_S16x64x256_S1024x256) bitsLt_bf16_f32

/-- The kernel's result is the two batches' blocks side by side, times Wo, flattened back to [2, 256, 1024]. -/
theorem pay18_eq (Qt : FVec Ideal S1024x512 .bf16) (SR0 SR1 : FVec Ideal S16x256x256 .f32) (Kt Vt : FVec Ideal S1024x512 .bf16)
    (WO : Vec Ideal S1024x1024 .f32) :
    k0_pay18 (F := Ideal) Qt SR0 SR1 Kt Vt WO
      = shapeCast S2x256x1024 (matmul dot_S1024x512_S1024x1024_S512x1024_0_0_1_1_n_n none
          (concatenate S1024x512 1 [⟨S1024x256, blk 0 slices_S1024x512_o0_0_S1024x256 Qt Kt Vt SR0⟩,
            ⟨S1024x256, blk 256 slices_S1024x512_o0_256_S1024x256 Qt Kt Vt SR1⟩] concatenates_S1024x256_S1024x256_S1024x512_d1)
          (truncf .bf16 (shapeCast S1024x1024 WO shapeCasts_S1024x1024_S1024x1024) bitsLt_bf16_f32)
          (constant S512x1024 .f32 0x00000000#32)) shapeCasts_S512x1024_S2x256x1024 := rfl

/-- Attention of one head, lane and position as a function of that batch's scaled queries `q`, keys `k`, values `v`
    (by feature and position) and rotary scores `r`. -/
def attOf (q k v : Fin 1024 → Fin 256 → EReal) (r : Fin 16 → Fin 256 → Fin 256 → EReal) (h : Fin 16) (d : Fin 64)
    (s : Fin 256) : EReal :=
  (∑ t : Fin 256, v (Cert.Attn.hd64 h d) t
      * Ideal.exp (∑ d' : Fin 64, q (Cert.Attn.hd64 h d') s * k (Cert.Attn.hd64 h d') t + r h s t))
    * Ideal.div 1 (∑ t : Fin 256, Ideal.exp (∑ d' : Fin 64, q (Cert.Attn.hd64 h d') s * k (Cert.Attn.hd64 h d') t + r h s t))

section Block

variable (o : Nat) (hs : S1024x512.Slices ![0, o] S1024x256) (Qt Kt Vt : FVec Ideal S1024x512 .bf16)
  (SR : FVec Ideal S16x256x256 .f32) (q k v : Fin 1024 → Fin 256 → EReal) (r : Fin 16 → Fin 256 → Fin 256 → EReal)

/-- The scores at (h, s, t). -/
theorem scores_apply (hQ : ∀ (e : Fin 1024) (s : Fin 256) (n : Fin 512), n.val = o + s.val → Qt (ix2 e n) = q e s)
    (hK : ∀ (e : Fin 1024) (s : Fin 256) (n : Fin 512), n.val = o + s.val → Kt (ix2 e n) = k e s)
    (hR : ∀ h s t, SR (ix3 h s t) = r h s t) (h : Fin 16) (s t : Fin 256) :
    scores o hs Qt Kt SR (ix3 h s t)
      = ∑ d' : Fin 64, q (Cert.Attn.hd64 h d') s * k (Cert.Attn.hd64 h d') t + r h s t := by
  unfold scores
  rw [addf_apply, dotQK_apply, hR]
  refine congrArg (· + _) ?_
  refine Finset.sum_congr rfl fun d' _ => ?_
  rw [split64_apply, split64_apply, slice2_axis1_eq, slice2_axis1_eq, hQ _ s _ rfl, hK _ t _ rfl]

/-- The block at (e, s): the attention of head e / 64, lane e % 64 at position s. -/
theorem blk_apply (hQ : ∀ (e : Fin 1024) (s : Fin 256) (n : Fin 512), n.val = o + s.val → Qt (ix2 e n) = q e s)
    (hK : ∀ (e : Fin 1024) (s : Fin 256) (n : Fin 512), n.val = o + s.val → Kt (ix2 e n) = k e s)
    (hV : ∀ (e : Fin 1024) (s : Fin 256) (n : Fin 512), n.val = o + s.val → Vt (ix2 e n) = v e s)
    (hR : ∀ h s t, SR (ix3 h s t) = r h s t) (e : Fin 1024) (s : Fin 256) :
    blk o hs Qt Kt Vt SR (ix2 e s) = attOf q k v r (Cert.Attn.headOf e) (Cert.Attn.laneOf e) s := by
  have hP : ∀ h s t, exp (scores o hs Qt Kt SR) (ix3 h s t)
      = Ideal.exp (∑ d' : Fin 64, q (Cert.Attn.hd64 h d') s * k (Cert.Attn.hd64 h d') t + r h s t) := fun h s t => by
    show Ideal.exp (scores o hs Qt Kt SR (ix3 h s t)) = _
    rw [scores_apply o hs Qt Kt SR q k r hQ hK hR]
  unfold blk attOf
  rw [truncf_apply, merge64_apply, mulf_apply]
  refine congrArg₂ (· * ·) ?_ ?_
  · rw [dotPV_apply]
    refine Finset.sum_congr rfl fun t _ => ?_
    rw [truncf_apply, hP, split64_apply, slice2_axis1_eq, hV _ t _ rfl]
  · rw [spread64_apply, unit_apply, divf_apply, broadcast_apply, one_f32]
    refine congrArg (Ideal.div 1) ?_
    refine (rowsum_apply _ _ _ _ (Cert.Attn.headOf e) s).trans ?_
    exact Finset.sum_congr rfl fun t _ => hP _ s t

end Block

end Cert.KernelIdeal.KerValue

end
-- ==== Proof.KerSide.lean ====
/-
  The kernel's result block is the two-halves arrangement of multi-head latent attention, entry by entry.

  Each operand of the final attention block is one of the quantities read in the earlier modules — the scaled
  queries, the keys and values contracted over own half then peer's half of the latent, the rotary scores — taken
  on the columns of the entry's batch; the block's entry is then the two-halves attention of that head, lane and
  position by definition, and the output projection sums it against Wo.
-/
import proofs.«900377_g7700000000000378_dist_mla_v7x_xyz2x2x2_y_b2_s256_d1024_dc64_bf16_1_alg».proof.Proof.KerRot
import proofs.«900377_g7700000000000378_dist_mla_v7x_xyz2x2x2_y_b2_s256_d1024_dc64_bf16_1_alg».proof.Proof.KerUp
import proofs.«900377_g7700000000000378_dist_mla_v7x_xyz2x2x2_y_b2_s256_d1024_dc64_bf16_1_alg».proof.Proof.KerAttn

noncomputable section

open scoped BigOperators

namespace Cert.KernelIdeal.KerValue

open Cert.KernelIdeal Cert.KernelIdeal.Gen Cert.KernelIdeal.KOut Idealize.ShloMosaic Idealize.ShloMosaic.ValueIdx

/-- The two-halves attention of batch b is `attOf` of that batch's queries, keys, values and rotary scores. -/
theorem kAtt_eq_attOf (X : Vec Ideal S2x256x1024 .f32) (wd wd' : Vec Ideal S1024x64 .f32) (wk wv wk' wv' : Vec Ideal S64x1024 .f32)
    (WQ : Vec Ideal S1024x1024 .f32) (WQR : Vec Ideal S1024x512 .f32) (WKR : Vec Ideal S1024x32 .f32) (b : Fin 2) (h : Fin 16) (d : Fin 64) (s : Fin 256) :
    Cert.Attn.kAtt (fun b s k => X (ix3 b s k)) (fun a c => wd (ix2 a c)) (fun a c => wd' (ix2 a c)) (fun a c => wk (ix2 a c)) (fun a c => wk' (ix2 a c)) (fun a c => wv (ix2 a c)) (fun a c => wv' (ix2 a c)) (fun a c => WQ (ix2 a c)) (fun a c => WQR (ix2 a c)) (fun a c => WKR (ix2 a c)) (Ideal.ofBits .f32 0x3DD105EC#32) b h d s
      = attOf (fun e s => Cert.Attn.kQ (fun b s k => X (ix3 b s k)) (fun a c => WQ (ix2 a c)) (Ideal.ofBits .f32 0x3DD105EC#32) e b s) (fun e t => Cert.Attn.kUp (fun b s k => X (ix3 b s k)) (fun a c => wd (ix2 a c)) (fun a c => wd' (ix2 a c)) (fun a c => wk (ix2 a c)) (fun a c => wk' (ix2 a c)) e b t) (fun e t => Cert.Attn.kUp (fun b s k => X (ix3 b s k)) (fun a c => wd (ix2 a c)) (fun a c => wd' (ix2 a c)) (fun a c => wv (ix2 a c)) (fun a c => wv' (ix2 a c)) e b t)
          (fun h s t => ∑ d : Fin 32, Cert.Attn.kQr (fun b s k => X (ix3 b s k)) (fun a c => WQR (ix2 a c)) (Ideal.ofBits .f32 0x3DD105EC#32) (Cert.Attn.hd32 h d) b s * Cert.Attn.kKr (fun b s k => X (ix3 b s k)) (fun a c => WKR (ix2 a c)) d b t) h d s := rfl

/-- One batch's block of the kernel's operands, at the batch's column offset, is that batch's two-halves attention. -/
theorem blk_kernel (X : Vec Ideal S2x256x1024 .f32) (wd wd' : Vec Ideal S1024x64 .f32) (wk wv wk' wv' : Vec Ideal S64x1024 .f32)
    (WQ : Vec Ideal S1024x1024 .f32) (WQR : Vec Ideal S1024x512 .f32) (WKR : Vec Ideal S1024x32 .f32) (b : Fin 2) (o : Nat) (ho : o = 256 * b.val) (hs : S1024x512.Slices ![0, o] S1024x256)
    (SR : FVec Ideal S16x256x256 .f32)
    (hR : ∀ h s t, SR (ix3 h s t) = ∑ d : Fin 32, Cert.Attn.kQr (fun b s k => X (ix3 b s k)) (fun a c => WQR (ix2 a c)) (Ideal.ofBits .f32 0x3DD105EC#32) (Cert.Attn.hd32 h d) b s * Cert.Attn.kKr (fun b s k => X (ix3 b s k)) (fun a c => WKR (ix2 a c)) d b t)
    (e : Fin 1024) (s : Fin 256) :
    blk o hs (k0_pay10 (k0_pay3 X) (projw WQ WQR WKR))
        (k0_pay16 (k0_pay4 X wd) (k0_pay4 X wd') (wcat wk wv) (wcat wk' wv'))
        (k0_pay17 (k0_pay4 X wd) (k0_pay4 X wd') (wcat wk wv) (wcat wk' wv')) SR (ix2 e s)
      = Cert.Attn.kAtt (fun b s k => X (ix3 b s k)) (fun a c => wd (ix2 a c)) (fun a c => wd' (ix2 a c)) (fun a c => wk (ix2 a c)) (fun a c => wk' (ix2 a c)) (fun a c => wv (ix2 a c)) (fun a c => wv' (ix2 a c)) (fun a c => WQ (ix2 a c)) (fun a c => WQR (ix2 a c)) (fun a c => WKR (ix2 a c)) (Ideal.ofBits .f32 0x3DD105EC#32) b (Cert.Attn.headOf e) (Cert.Attn.laneOf e) s := by
  rw [kAtt_eq_attOf]
  exact blk_apply o hs _ _ _ SR _ _ _ _
    (fun e s n hn => q_apply X WQ WQR WKR e b s n (by omega))
    (fun e s n hn => key_apply X wd wd' wk wv wk' wv' e b s n (by omega))
    (fun e s n hn => val_apply X wd wd' wk wv wk' wv' e b s n (by omega))
    hR e s

/-- THE KERNEL SIDE: the device's result block at (b, s, e') is the two-halves arrangement there. -/
theorem ker_eq (X : Vec Ideal S2x256x1024 .f32) (wd wd' : Vec Ideal S1024x64 .f32) (wk wv wk' wv' : Vec Ideal S64x1024 .f32)
    (WQ : Vec Ideal S1024x1024 .f32) (WQR : Vec Ideal S1024x512 .f32) (WKR : Vec Ideal S1024x32 .f32)
    (WO : Vec Ideal S1024x1024 .f32) (b : Fin 2) (s : Fin 256) (e' : Fin 1024) :
    kout (F := Ideal) X wd wk wv WQ WQR WKR WO (k0_pay4 X wd') (wcat wk' wv') (ix3 b s e')
      = Cert.Attn.kOut (fun b s k => X (ix3 b s k)) (fun a c => wd (ix2 a c)) (fun a c => wd' (ix2 a c)) (fun a c => wk (ix2 a c)) (fun a c => wk' (ix2 a c)) (fun a c => wv (ix2 a c)) (fun a c => wv' (ix2 a c)) (fun a c => WQ (ix2 a c)) (fun a c => WQR (ix2 a c)) (fun a c => WKR (ix2 a c)) (fun a c => WO (ix2 a c)) (Ideal.ofBits .f32 0x3DD105EC#32) b s e' := by
  unfold kout Cert.Attn.kOut
  rw [pay18_eq, unflat_apply, dotOut_apply]
  refine Finset.sum_congr rfl fun e _ => ?_
  rw [truncf_apply, shapeCast_self]
  refine congrArg (· * _) ?_
  have hb : b = 0 ∨ b = 1 := by
    rcases b with ⟨bv, hbv⟩
    have : bv = 0 ∨ bv = 1 := by omega
    rcases this with rfl | rfl
    · exact Or.inl rfl
    · exact Or.inr rfl
  rcases hb with rfl | rfl
  · rw [beside_left _ _ _ e s (col 0 s) (by show 256 * 0 + s.val = s.val; omega)]
    exact blk_kernel X wd wd' wk wv wk' wv' WQ WQR WKR 0 0 rfl _ _ (rot0_apply X WQ WQR WKR) e s
  · rw [beside_right _ _ _ e s (col 1 s) (by show 256 * 1 + s.val = 256 + s.val; omega)]
    exact blk_kernel X wd wd' wk wv wk' wv' WQ WQR WKR 1 256 rfl _ _ (rot1_apply X WQ WQR WKR) e s

end Cert.KernelIdeal.KerValue

end
-- ==== Proof.Proto3.lean ====
/-
  The proof data of the one grid point: what each staging buffer holds after the body, the invariant before and
  after the point (the ghost state of the exchange, the five scratch buffers, the four own semaphores), and
  what the device owes before (everything) and after (nothing).
-/
import proofs.«900377_g7700000000000378_dist_mla_v7x_xyz2x2x2_y_b2_s256_d1024_dc64_bf16_1_alg».proof.Proof.Proto2

set_option maxRecDepth 16384

noncomputable section

namespace Cert.KernelIdeal.Proto

open Cert.KernelIdeal Cert.KernelIdeal.Gen Cert.KernelIdeal.KOut

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

def pwPts (c : Dev nD) (f : Buf (Elt F) ((pwM : Memref sig .tc .vmem S1024x1568 .bf16).view.loc (c : Thread nD τ))) : sProp 𝕄 :=
  (pwM : Memref sig .tc .vmem S1024x1568 .bf16).view.loc (c : Thread nD τ) ↦[(pwM : Memref sig .tc .vmem S1024x1568 .bf16).view.set]{fullShare} f
theorem pwPts_eq (c : Dev nD) (f : Buf (Elt F) ((c : Thread nD τ).loc cc0_scratch4)) : pwPts c f = (((c : Thread nD τ).loc cc0_scratch4) ↦{fullShare} f : sProp 𝕄) := by unfold pwPts; rw [View.set_whole]

/-- The cells' invariants device `c`'s body opens, under the names `K` the launch allocated them at: its own five,
    and its peer's barrier and two receive cells. -/
def invs (K : Dev nD × Fin 5 → ℕ) (c : Dev nD) : sProp 𝕄 :=
  iprop(cellInv ER (ex m) (K (c, 0)) (barCell c) ∗ cellInv ER (ex m) (K (c, 1)) (snd0Cell c) ∗ cellInv ER (ex m) (K (c, 2)) (rcv0Cell c)
    ∗ cellInv ER (ex m) (K (c, 3)) (snd1Cell c) ∗ cellInv ER (ex m) (K (c, 4)) (rcv1Cell c)
    ∗ cellInv ER (ex m) (K (peer c, 0)) (barCell (peer c)) ∗ cellInv ER (ex m) (K (peer c, 2)) (rcv0Cell (peer c))
    ∗ cellInv ER (ex m) (K (peer c, 4)) (rcv1Cell (peer c)))

instance invs_persistent (K : Dev nD × Fin 5 → ℕ) (c : Dev nD) : BI.Persistent (invs m K c) := by unfold invs; infer_instance

/-- The exchange's ghost state device `c` starts from: the invariants; its positions at round 0 of its five cells;
    the reached-marks of the cells it pays and of its own send and receive cells; the five duty tokens it pays with. -/
def ghost (K : Dev nD × Fin 5 → ℕ) (c : Dev nD) : sProp 𝕄 :=
  iprop(invs m K c
    ∗ atPos ER (barCell c) 0 ∅ 0 ∗ atPos ER (snd0Cell c) 0 ∅ 0 ∗ atPos ER (rcv0Cell c) 0 ∅ 0 ∗ atPos ER (snd1Cell c) 0 ∅ 0 ∗ atPos ER (rcv1Cell c) 0 ∅ 0
    ∗ reached ER (barCell (peer c)) 0 ∗ reached ER (rcv0Cell (peer c)) 0 ∗ reached ER (rcv1Cell (peer c)) 0
    ∗ reached ER (snd0Cell c) 0 ∗ reached ER (rcv0Cell c) 0 ∗ reached ER (snd1Cell c) 0 ∗ reached ER (rcv1Cell c) 0
    ∗ dutyTok ER (barCell (peer c)) 0 () ∗ dutyTok ER (rcv0Cell (peer c)) 0 () ∗ dutyTok ER (rcv1Cell (peer c)) 0 ()
    ∗ dutyTok ER (snd0Cell c) 0 () ∗ dutyTok ER (snd1Cell c) 0 ())

/-- What device `c`'s body starts from: that at some names, its three credit tokens and the level facts. -/
def start (c : Dev nD) : sProp 𝕄 :=
  iprop((∃ K, ghost m K c) ∗ cred (tallyAt (barCell c) () 1) ∗ cred (tallyAt (rcv0Cell c) () N0) ∗ cred (tallyAt (rcv1Cell c) () N1) ∗ levAts L lv)

def scratch (c : Dev nD) : sProp 𝕄 :=
  iprop((∃ f, csPts c f) ∗ (∃ f, crPts c f) ∗ (∃ f, wsPts c f) ∗ (∃ f, wrPts c f) ∗ (∃ f, pwPts c f))

def Φ₀ (c : Dev nD) : sProp 𝕄 := iprop(start m c ∗ scratch c)
/-- After the point: the scratch buffers, and the four own cells at zero, closed. -/
def Φ₁ (c : Dev nD) : sProp 𝕄 :=
  iprop(scratch c ∗ semVal (snd0Cell c) 0 ∗ semVal (rcv0Cell c) 0 ∗ semVal (snd1Cell c) 0 ∗ semVal (rcv1Cell c) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xB m c
    | ⟨1, _⟩ => wdB m c
    | ⟨2, _⟩ => wukB m c
    | ⟨3, _⟩ => wuvB m c
    | ⟨4, _⟩ => wqB m c
    | ⟨5, _⟩ => wqrB m c
    | ⟨6, _⟩ => wkrB m c
    | ⟨7, _⟩ => woB m c
    | ⟨8, _⟩ => outOf m c
  Φ t := match t with
    | ⟨0, _⟩ => Φ₀ m c
    | ⟨_ + 1, _⟩ => Φ₁ c
  q _ := fullShare
  owed t := match t with
    | ⟨0, _⟩ => O₀ c
    | ⟨_ + 1, _⟩ => 0

abbrev 𝒱₀ : Variants := Variants.none

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

end Cert.KernelIdeal.Proto

end
-- ==== Proof.BodyStmt.lean ====
/-
  What the body of the one grid point is proved to do, stated once: from the exchange's ghost state, the launch
  credit, the five scratch buffers at any contents, everything still owed, and the nine staged blocks, it runs
  to the scratch buffers at some contents, the four own semaphores back at zero, nothing owed, the eight input
  blocks as they were and the result block holding the device's result.
-/
import proofs.«900377_g7700000000000378_dist_mla_v7x_xyz2x2x2_y_b2_s256_d1024_dc64_bf16_1_alg».proof.Proof.Proto3

set_option maxRecDepth 16384

noncomputable section

namespace Cert.KernelIdeal.Proto

open Cert.KernelIdeal Cert.KernelIdeal.Gen Cert.KernelIdeal.KOut

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

def BodyPre (K : Dev nD × Fin 5 → ℕ) (c : Dev nD) (W : Waits sig Unit)
    (f0 : Buf (Elt F) ((c : Thread nD τ).loc cc0_scratch0)) (f1 : Buf (Elt F) ((c : Thread nD τ).loc cc0_scratch1))
    (f2 : Buf (Elt F) ((c : Thread nD τ).loc cc0_scratch2)) (f3 : Buf (Elt F) ((c : Thread nD τ).loc cc0_scratch3))
    (f4 : Buf (Elt F) ((c : Thread nD τ).loc cc0_scratch4)) (g8 : Buf (Elt F) ((c : Thread nD τ).loc cc0_stg8_0)) : sProp 𝕄 :=
  iprop(ghost m K c ∗ cred (tallyAt (barCell c) () 1) ∗ cred (tallyAt (rcv0Cell c) () N0) ∗ cred (tallyAt (rcv1Cell c) () N1) ∗ levAts L lv
        ∗ csPts c f0 ∗ crPts c f1 ∗ wsPts c f2 ∗ wrPts c f3 ∗ pwPts c f4
        ∗ owes (c : Thread nD τ) (O₀ c) W
        ∗ ((Memref.whole cc0_stg0_0 : Memref sig .tc .vmem S2x256x1024 .f32).view.loc (c : Thread nD τ) ↦[(Memref.whole cc0_stg0_0 : Memref sig .tc .vmem S2x256x1024 .f32).view.set]{fullShare} xB m c)
        ∗ ((Memref.whole cc0_stg1_0 : Memref sig .tc .vmem S1024x64 .f32).view.loc (c : Thread nD τ) ↦[(Memref.whole cc0_stg1_0 : Memref sig .tc .vmem S1024x64 .f32).view.set]{fullShare} wdB m c)
        ∗ ((Memref.whole cc0_stg2_0 : Memref sig .tc .vmem S64x1024 .f32).view.loc (c : Thread nD τ) ↦[(Memref.whole cc0_stg2_0 : Memref sig .tc .vmem S64x1024 .f32).view.set]{fullShare} wukB m c)
        ∗ ((Memref.whole cc0_stg3_0 : Memref sig .tc .vmem S64x1024 .f32).view.loc (c : Thread nD τ) ↦[(Memref.whole cc0_stg3_0 : Memref sig .tc .vmem S64x1024 .f32).view.set]{fullShare} wuvB m c)
        ∗ ((Memref.whole cc0_stg4_0 : Memref sig .tc .vmem S1024x1024 .f32).view.loc (c : Thread nD τ) ↦[(Memref.whole cc0_stg4_0 : Memref sig .tc .vmem S1024x1024 .f32).view.set]{fullShare} wqB m c)
        ∗ ((Memref.whole cc0_stg5_0 : Memref sig .tc .vmem S1024x512 .f32).view.loc (c : Thread nD τ) ↦[(Memref.whole cc0_stg5_0 : Memref sig .tc .vmem S1024x512 .f32).view.set]{fullShare} wqrB m c)
        ∗ ((Memref.whole cc0_stg6_0 : Memref sig .tc .vmem S1024x32 .f32).view.loc (c : Thread nD τ) ↦[(Memref.whole cc0_stg6_0 : Memref sig .tc .vmem S1024x32 .f32).view.set]{fullShare} wkrB m c)
        ∗ ((Memref.whole cc0_stg7_0 : Memref sig .tc .vmem S1024x1024 .f32).view.loc (c : Thread nD τ) ↦[(Memref.whole cc0_stg7_0 : Memref sig .tc .vmem S1024x1024 .f32).view.set]{fullShare} woB m c)
        ∗ ((Memref.whole cc0_stg8_0 : Memref sig .tc .vmem S2x256x1024 .f32).view.loc (c : Thread nD τ) ↦[(Memref.whole cc0_stg8_0 : Memref sig .tc .vmem S2x256x1024 .f32).view.set]{fullShare} g8))

def BodyPost (c : Dev nD) : sProp 𝕄 :=
  iprop(scratch c ∗ semVal (snd0Cell c) 0 ∗ semVal (rcv0Cell c) 0 ∗ semVal (snd1Cell c) 0 ∗ semVal (rcv1Cell c) 0
        ∗ (∃ W' : Waits sig Unit, owes (c : Thread nD τ) 0 W')
        ∗ ((Memref.whole cc0_stg0_0 : Memref sig .tc .vmem S2x256x1024 .f32).view.loc (c : Thread nD τ) ↦[(Memref.whole cc0_stg0_0 : Memref sig .tc .vmem S2x256x1024 .f32).view.set]{fullShare} xB m c)
        ∗ ((Memref.whole cc0_stg1_0 : Memref sig .tc .vmem S1024x64 .f32).view.loc (c : Thread nD τ) ↦[(Memref.whole cc0_stg1_0 : Memref sig .tc .vmem S1024x64 .f32).view.set]{fullShare} wdB m c)
        ∗ ((Memref.whole cc0_stg2_0 : Memref sig .tc .vmem S64x1024 .f32).view.loc (c : Thread nD τ) ↦[(Memref.whole cc0_stg2_0 : Memref sig .tc .vmem S64x1024 .f32).view.set]{fullShare} wukB m c)
        ∗ ((Memref.whole cc0_stg3_0 : Memref sig .tc .vmem S64x1024 .f32).view.loc (c : Thread nD τ) ↦[(Memref.whole cc0_stg3_0 : Memref sig .tc .vmem S64x1024 .f32).view.set]{fullShare} wuvB m c)
        ∗ ((Memref.whole cc0_stg4_0 : Memref sig .tc .vmem S1024x1024 .f32).view.loc (c : Thread nD τ) ↦[(Memref.whole cc0_stg4_0 : Memref sig .tc .vmem S1024x1024 .f32).view.set]{fullShare} wqB m c)
        ∗ ((Memref.whole cc0_stg5_0 : Memref sig .tc .vmem S1024x512 .f32).view.loc (c : Thread nD τ) ↦[(Memref.whole cc0_stg5_0 : Memref sig .tc .vmem S1024x512 .f32).view.set]{fullShare} wqrB m c)
        ∗ ((Memref.whole cc0_stg6_0 : Memref sig .tc .vmem S1024x32 .f32).view.loc (c : Thread nD τ) ↦[(Memref.whole cc0_stg6_0 : Memref sig .tc .vmem S1024x32 .f32).view.set]{fullShare} wkrB m c)
        ∗ ((Memref.whole cc0_stg7_0 : Memref sig .tc .vmem S1024x1024 .f32).view.loc (c : Thread nD τ) ↦[(Memref.whole cc0_stg7_0 : Memref sig .tc .vmem S1024x1024 .f32).view.set]{fullShare} woB m c)
        ∗ ((Memref.whole cc0_stg8_0 : Memref sig .tc .vmem S2x256x1024 .f32).view.loc (c : Thread nD τ) ↦[(Memref.whole cc0_stg8_0 : Memref sig .tc .vmem S2x256x1024 .f32).view.set]{fullShare} outOf m c))

def SoundBody : Prop :=
  ∀ (K : Dev nD × Fin 5 → ℕ) (c : Dev nD) (W : Waits sig Unit)
    (f0 : Buf (Elt F) ((c : Thread nD τ).loc cc0_scratch0)) (f1 : Buf (Elt F) ((c : Thread nD τ).loc cc0_scratch1))
    (f2 : Buf (Elt F) ((c : Thread nD τ).loc cc0_scratch2)) (f3 : Buf (Elt F) ((c : Thread nD τ).loc cc0_scratch3))
    (f4 : Buf (Elt F) ((c : Thread nD τ).loc cc0_scratch4)) (g8 : Buf (Elt F) ((c : Thread nD τ).loc cc0_stg8_0)),
    BodyPre m K c W f0 f1 f2 f3 f4 g8
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_stg4_0) (Memref.isWhole_whole _) (Memref.whole cc0_stg5_0) (Memref.isWhole_whole _)
            (Memref.whole cc0_stg6_0) (Memref.isWhole_whole _) (Memref.whole cc0_stg7_0) (Memref.isWhole_whole _)
            (Memref.whole cc0_stg8_0) (Memref.isWhole_whole _)
            (Memref.whole cc0_scratch0) (Memref.isWhole_whole _) (Memref.whole cc0_scratch1) (Memref.isWhole_whole _)
            (Memref.whole cc0_scratch2) (Memref.isWhole_whole _) (Memref.whole cc0_scratch3) (Memref.isWhole_whole _)
            (Memref.whole cc0_scratch4) (Memref.isWhole_whole _) cc0_scratch5 cc0_scratch6) (fun _ => BodyPost m c)

end Cert.KernelIdeal.Proto

end
-- ==== Proof.Body.lean ====
/-
  The body of the one grid point, run once at a symbolic device `c` with peer `p`:
  the entry signal to p's barrier cell (handing p the device's two landing buffers) and the wait on its own (p's
  landing buffers come with it); [Wuk | Wuv] stored into the send rows and copied into p's landing rows; the half
  latent Wdkv_cᵀ xᵀ stored and copied into p's landing buffer; [Wq | Wqr | Wkr] staged; the four waits — each send
  cell gives the source buffer back, each receive cell the landing buffer holding p's rows —; then the attention
  itself over own-then-peer halves, stored into the result block. What the stores leave in a buffer is read off
  their rectangles: two column halves tile the send rows, three column bands tile the projection operand, one store
  fills each of the others.
-/
import proofs.«900377_g7700000000000378_dist_mla_v7x_xyz2x2x2_y_b2_s256_d1024_dc64_bf16_1_alg».proof.Proof.BodyStmt

set_option maxRecDepth 16384

noncomputable section

namespace Cert.KernelIdeal.Proto

open Cert.KernelIdeal Cert.KernelIdeal.Gen Cert.KernelIdeal.KOut

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The schedule's tables, spelt through the buffers' views -/

theorem payX_bar (c : Dev nD) (d : Unit) : (ex (F := F) m).payload (barCell c) 0 d
    = iprop((∃ f, ((crM : Memref sig .tc .vmem S64x512 .bf16).view.loc (peer c : Thread nD τ) ↦[(crM : Memref sig .tc .vmem S64x512 .bf16).view.set]{fullShare} f)) ∗ (∃ f, ((wrM : Memref sig .tc .vmem S64x2048 .bf16).view.loc (peer c : Thread nD τ) ↦[(wrM : Memref sig .tc .vmem S64x2048 .bf16).view.set]{fullShare} f))
        ∗ reached ER (rcv0Cell (peer c)) 0 ∗ reached ER (rcv1Cell (peer c)) 0) := by rw [payload_bar]; rfl
theorem payX_barP (c : Dev nD) (d : Unit) : (ex (F := F) m).payload (barCell (peer c)) 0 d
    = iprop((∃ f, ((crM : Memref sig .tc .vmem S64x512 .bf16).view.loc (c : Thread nD τ) ↦[(crM : Memref sig .tc .vmem S64x512 .bf16).view.set]{fullShare} f)) ∗ (∃ f, ((wrM : Memref sig .tc .vmem S64x2048 .bf16).view.loc (c : Thread nD τ) ↦[(wrM : Memref sig .tc .vmem S64x2048 .bf16).view.set]{fullShare} f))
        ∗ reached ER (rcv0Cell c) 0 ∗ reached ER (rcv1Cell c) 0) := by rw [payload_bar]; unfold barPay crPts wrPts; rw [peer_peer]
theorem payX_snd0 (c : Dev nD) (d : Unit) : (ex (F := F) m).payload (snd0Cell c) 0 d = ((csM : Memref sig .tc .vmem S64x512 .bf16).view.loc (c : Thread nD τ) ↦[(csM : Memref sig .tc .vmem S64x512 .bf16).view.set]{fullShare} csOf m c) := by rw [payload_snd0]; rfl
theorem payX_rcv0 (c : Dev nD) (d : Unit) : (ex (F := F) m).payload (rcv0Cell c) 0 d = ((crM : Memref sig .tc .vmem S64x512 .bf16).view.loc (c : Thread nD τ) ↦[(crM : Memref sig .tc .vmem S64x512 .bf16).view.set]{fullShare} csOf m (peer c)) := by rw [payload_rcv0]; rfl
theorem payX_rcv0P (c : Dev nD) (d : Unit) : (ex (F := F) m).payload (rcv0Cell (peer c)) 0 d = ((crM : Memref sig .tc .vmem S64x512 .bf16).view.loc (peer c : Thread nD τ) ↦[(crM : Memref sig .tc .vmem S64x512 .bf16).view.set]{fullShare} csOf m c) := by rw [payload_rcv0, peer_peer]; rfl
theorem payX_snd1 (c : Dev nD) (d : Unit) : (ex (F := F) m).payload (snd1Cell c) 0 d = ((wsM : Memref sig .tc .vmem S64x2048 .bf16).view.loc (c : Thread nD τ) ↦[(wsM : Memref sig .tc .vmem S64x2048 .bf16).view.set]{fullShare} wsOf m c) := by rw [payload_snd1]; rfl
theorem payX_rcv1 (c : Dev nD) (d : Unit) : (ex (F := F) m).payload (rcv1Cell c) 0 d = ((wrM : Memref sig .tc .vmem S64x2048 .bf16).view.loc (c : Thread nD τ) ↦[(wrM : Memref sig .tc .vmem S64x2048 .bf16).view.set]{fullShare} wsOf m (peer c)) := by rw [payload_rcv1]; rfl
theorem payX_rcv1P (c : Dev nD) (d : Unit) : (ex (F := F) m).payload (rcv1Cell (peer c)) 0 d = ((wrM : Memref sig .tc .vmem S64x2048 .bf16).view.loc (peer c : Thread nD τ) ↦[(wrM : Memref sig .tc .vmem S64x2048 .bf16).view.set]{fullShare} wsOf m c) := by rw [payload_rcv1, peer_peer]; rfl

/-! ## What the stores leave in the two staged operands -/

theorem hz2 : (![0, 0] : Fin 2 → Nat) = fun _ => 0 := funext fun a => by fin_cases a <;> rfl
theorem hz3 : (![0, 0, 0] : Fin 3 → Nat) = fun _ => 0 := funext fun a => by fin_cases a <;> rfl

/-- The two stores into the send rows leave [Wuk | Wuv], whatever the buffer held. -/
theorem ws_eq (c : Dev nD) (f2 : Buf (Elt F) ((c : Thread nD τ).loc cc0_scratch2)) :
    (wsM : Memref sig .tc .vmem S64x2048 .bf16).view.writes (Elt F) f2
      [⟨Rect.unit (s := S64x2048) ![0, 1024] S64x1024.size inb_S64x2048_S64x1024_0_1024,
          k0_pay2 (View.readAt (Elt F) (Memref.whole cc0_stg3_0 : Memref sig .tc .vmem S64x1024 .f32).view
              (Rect.unit (s := S64x1024) ![0, 0] S64x1024.size inb_S64x1024_S64x1024_0_0).toLoadRect (wuvB m c))⟩,
        ⟨Rect.unit (s := S64x2048) ![0, 0] S64x1024.size inb_S64x2048_S64x1024_0_0,
          k0_pay1 (View.readAt (Elt F) (Memref.whole cc0_stg2_0 : Memref sig .tc .vmem S64x1024 .f32).view
              (Rect.unit (s := S64x1024) ![0, 0] S64x1024.size inb_S64x1024_S64x1024_0_0).toLoadRect (wukB m c))⟩]
      = wsOf m c := by
  have h1 : View.readAt (Elt F) (Memref.whole cc0_stg3_0 : Memref sig .tc .vmem S64x1024 .f32).view
      (Rect.unit (s := S64x1024) ![0, 0] S64x1024.size inb_S64x1024_S64x1024_0_0).toLoadRect (wuvB m c) = wuvB m c :=
    Memref.readAt_unit_zero (Elt F) cc0_stg3_0 hz2 _ (wuvB m c)
  have h2 : View.readAt (Elt F) (Memref.whole cc0_stg2_0 : Memref sig .tc .vmem S64x1024 .f32).view
      (Rect.unit (s := S64x1024) ![0, 0] S64x1024.size inb_S64x1024_S64x1024_0_0).toLoadRect (wukB m c) = wukB m c :=
    Memref.readAt_unit_zero (Elt F) cc0_stg2_0 hz2 _ (wukB m c)
  rw [h1, h2]
  have h := View.read_writes_eq_canon (Val := Elt F) (wsM : Memref sig .tc .vmem S64x2048 .bf16).view f2
    [⟨Rect.unit (s := S64x2048) ![0, 1024] S64x1024.size inb_S64x2048_S64x1024_0_1024, k0_pay2 (wuvB m c)⟩,
      ⟨Rect.unit (s := S64x2048) ![0, 0] S64x1024.size inb_S64x2048_S64x1024_0_0, k0_pay1 (wukB m c)⟩]
    (View.cover_of_tiled _ S64x1024.size rfl)
  unfold wsOf wcat
  exact (View.read_whole (Val := Elt F) cc0_scratch2 _).symm.trans h

omit [FloatOps F] in
/-- A whole buffer written with a whole buffer's contents holds those contents. -/
theorem landed_w (c' : Dev nD) (fd : Buf (Elt F) ((wrM : Memref sig .tc .vmem S64x2048 .bf16).view.loc (c' : Thread nD τ))) (fs : (cc0_scratch2 : Ref sig .tc).ty.Contents (Elt F)) :
    (wrM : Memref sig .tc .vmem S64x2048 .bf16).view.write (Elt F) fd ((wsM : Memref sig .tc .vmem S64x2048 .bf16).view.read (Elt F) fs) Finset.univ = fs := by
  show (View.whole cc0_scratch3).write (Elt F) fd ((View.whole cc0_scratch2).read (Elt F) fs) Finset.univ = fs
  rw [View.read_whole]
  exact View.write_whole_univ _ _ _
omit [FloatOps F] in
theorem landed_c (c' : Dev nD) (fd : Buf (Elt F) ((crM : Memref sig .tc .vmem S64x512 .bf16).view.loc (c' : Thread nD τ))) (fs : (cc0_scratch0 : Ref sig .tc).ty.Contents (Elt F)) :
    (crM : Memref sig .tc .vmem S64x512 .bf16).view.write (Elt F) fd ((csM : Memref sig .tc .vmem S64x512 .bf16).view.read (Elt F) fs) Finset.univ = fs := by
  show (View.whole cc0_scratch1).write (Elt F) fd ((View.whole cc0_scratch0).read (Elt F) fs) Finset.univ = fs
  rw [View.read_whole]
  exact View.write_whole_univ _ _ _

/-- The store into the half-latent send buffer leaves the device's half latent, whatever the buffer held. -/
theorem cs_eq (c : Dev nD) (f0 : Buf (Elt F) ((c : Thread nD τ).loc cc0_scratch0)) :
    (csM : Memref sig .tc .vmem S64x512 .bf16).view.writes (Elt F) f0
      [⟨Rect.unit (s := S64x512) ![0, 0] S64x512.size inb_S64x512_S64x512_0_0,
          k0_pay4 (View.readAt (Elt F) (Memref.whole cc0_stg0_0 : Memref sig .tc .vmem S2x256x1024 .f32).view
              (Rect.unit (s := S2x256x1024) ![0, 0, 0] S2x256x1024.size inb_S2x256x1024_S2x256x1024_0_0_0).toLoadRect (xB m c))
            (View.readAt (Elt F) (Memref.whole cc0_stg1_0 : Memref sig .tc .vmem S1024x64 .f32).view
              (Rect.unit (s := S1024x64) ![0, 0] S1024x64.size inb_S1024x64_S1024x64_0_0).toLoadRect (wdB m c))⟩]
      = csOf m c := by
  have h1 : View.readAt (Elt F) (Memref.whole cc0_stg0_0 : Memref sig .tc .vmem S2x256x1024 .f32).view
      (Rect.unit (s := S2x256x1024) ![0, 0, 0] S2x256x1024.size inb_S2x256x1024_S2x256x1024_0_0_0).toLoadRect (xB m c) = xB m c :=
    Memref.readAt_unit_zero (Elt F) cc0_stg0_0 hz3 _ (xB m c)
  have h2 : View.readAt (Elt F) (Memref.whole cc0_stg1_0 : Memref sig .tc .vmem S1024x64 .f32).view
      (Rect.unit (s := S1024x64) ![0, 0] S1024x64.size inb_S1024x64_S1024x64_0_0).toLoadRect (wdB m c) = wdB m c :=
    Memref.readAt_unit_zero (Elt F) cc0_stg1_0 hz2 _ (wdB m c)
  rw [h1, h2]
  have h := View.read_writes_eq_canon (Val := Elt F) (csM : Memref sig .tc .vmem S64x512 .bf16).view f0
    [⟨Rect.unit (s := S64x512) ![0, 0] S64x512.size inb_S64x512_S64x512_0_0, k0_pay4 (xB m c) (wdB m c)⟩]
    (View.cover_of_tiled _ S64x512.size rfl)
  rw [View.canon_unit_zero hz2] at h
  unfold csOf
  exact (View.read_whole (Val := Elt F) cc0_scratch0 _).symm.trans h

/-- The result block's one store, over the values the body has read by then, is the device's result. -/
theorem out_assemble (c : Dev nD) (g8 : Buf (Elt F) ((c : Thread nD τ).loc cc0_stg8_0))
    (R : FVec F S1024x512 .bf16) (V80 : Vec F S1024x1568 .bf16) (A B : Vec F S64x512 .bf16) (C D : Vec F S64x2048 .bf16) (WO : Vec F S1024x1024 .f32)
    (hR : R = k0_pay3 (xB m c)) (hV : V80 = projw (wqB m c) (wqrB m c) (wkrB m c)) (hA : A = csOf m c) (hB : B = csOf m (peer c))
    (hC : C = wsOf m c) (hD : D = wsOf m (peer c)) (hW : WO = woB m c) :
    (Memref.whole cc0_stg8_0 : Memref sig .tc .vmem S2x256x1024 .f32).view.writes (Elt F) g8
      [⟨Rect.unit (s := S2x256x1024) ![0, 0, 0] S2x256x1024.size inb_S2x256x1024_S2x256x1024_0_0_0,
          k0_pay18 (k0_pay10 R V80) (k0_pay13 R V80) (k0_pay14 R V80) (k0_pay16 A B C D) (k0_pay17 A B C D) WO⟩]
      = outOf m c := by
  subst hR hV hA hB hC hD hW
  have h := View.read_writes_eq_canon (Val := Elt F) (Memref.whole cc0_stg8_0 : Memref sig .tc .vmem S2x256x1024 .f32).view g8
    [⟨Rect.unit (s := S2x256x1024) ![0, 0, 0] S2x256x1024.size inb_S2x256x1024_S2x256x1024_0_0_0,
      k0_pay18 (k0_pay10 (k0_pay3 (xB m c)) (projw (wqB m c) (wqrB m c) (wkrB m c))) (k0_pay13 (k0_pay3 (xB m c)) (projw (wqB m c) (wqrB m c) (wkrB m c)))
        (k0_pay14 (k0_pay3 (xB m c)) (projw (wqB m c) (wqrB m c) (wkrB m c))) (k0_pay16 (csOf m c) (csOf m (peer c)) (wsOf m c) (wsOf m (peer c)))
        (k0_pay17 (csOf m c) (csOf m (peer c)) (wsOf m c) (wsOf m (peer c))) (woB m c)⟩]
    (View.cover_of_tiled _ S2x256x1024.size rfl)
  unfold outOf kout
  unfold csOf wsOf at h ⊢
  exact ((View.read_whole (Val := Elt F) cc0_stg8_0 _).symm.trans h).trans (View.canon_unit_zero (Val := Elt F) hz3 inb_S2x256x1024_S2x256x1024_0_0_0 _)

/-- The three stores into the projection operand leave [Wq | Wqr | Wkr]; the load of the whole operand reads it. -/
theorem pw_read (c : Dev nD) :
    (pwM : Memref sig .tc .vmem S1024x1568 .bf16).view.readCov
      [⟨Rect.unit (s := S1024x1568) ![0, 1536] S1024x32.size inb_S1024x1568_S1024x32_0_1536,
          k0_pay8 (View.readAt (Elt F) (Memref.whole cc0_stg6_0 : Memref sig .tc .vmem S1024x32 .f32).view
              (Rect.unit (s := S1024x32) ![0, 0] S1024x32.size inb_S1024x32_S1024x32_0_0).toLoadRect (wkrB m c))⟩,
        ⟨Rect.unit (s := S1024x1568) ![0, 1024] S1024x512.size inb_S1024x1568_S1024x512_0_1024,
          k0_pay7 (View.readAt (Elt F) (Memref.whole cc0_stg5_0 : Memref sig .tc .vmem S1024x512 .f32).view
              (Rect.unit (s := S1024x512) ![0, 0] S1024x512.size inb_S1024x512_S1024x512_0_0).toLoadRect (wqrB m c))⟩,
        ⟨Rect.unit (s := S1024x1568) ![0, 0] S1024x1024.size inb_S1024x1568_S1024x1024_0_0,
          k0_pay6 (k0_pay5 (View.readAt (Elt F) (Memref.whole cc0_stg4_0 : Memref sig .tc .vmem S1024x1024 .f32).view
              (Rect.unit (s := S1024x1024) ![0, 0] S1024x1024.size inb_S1024x1024_S1024x1024_0_0).toLoadRect (wqB m c)))⟩]
      (Rect.unit (s := S1024x1568) ![0, 0] S1024x1568.size inb_S1024x1568_S1024x1568_0_0).toLoadRect
      = projw (wqB m c) (wqrB m c) (wkrB m c) := by
  have h1 : View.readAt (Elt F) (Memref.whole cc0_stg6_0 : Memref sig .tc .vmem S1024x32 .f32).view
      (Rect.unit (s := S1024x32) ![0, 0] S1024x32.size inb_S1024x32_S1024x32_0_0).toLoadRect (wkrB m c) = wkrB m c :=
    Memref.readAt_unit_zero (Elt F) cc0_stg6_0 hz2 _ (wkrB m c)
  have h2 : View.readAt (Elt F) (Memref.whole cc0_stg5_0 : Memref sig .tc .vmem S1024x512 .f32).view
      (Rect.unit (s := S1024x512) ![0, 0] S1024x512.size inb_S1024x512_S1024x512_0_0).toLoadRect (wqrB m c) = wqrB m c :=
    Memref.readAt_unit_zero (Elt F) cc0_stg5_0 hz2 _ (wqrB m c)
  have h3 : View.readAt (Elt F) (Memref.whole cc0_stg4_0 : Memref sig .tc .vmem S1024x1024 .f32).view
      (Rect.unit (s := S1024x1024) ![0, 0] S1024x1024.size inb_S1024x1024_S1024x1024_0_0).toLoadRect (wqB m c) = wqB m c :=
    Memref.readAt_unit_zero (Elt F) cc0_stg4_0 hz2 _ (wqB m c)
  rw [h1, h2, h3]
  have h := View.readCov_eq_canon_ld (Val := Elt F) (pwM : Memref sig .tc .vmem S1024x1568 .bf16).view
    [⟨Rect.unit (s := S1024x1568) ![0, 1536] S1024x32.size inb_S1024x1568_S1024x32_0_1536, k0_pay8 (wkrB m c)⟩,
      ⟨Rect.unit (s := S1024x1568) ![0, 1024] S1024x512.size inb_S1024x1568_S1024x512_0_1024, k0_pay7 (wqrB m c)⟩,
      ⟨Rect.unit (s := S1024x1568) ![0, 0] S1024x1024.size inb_S1024x1568_S1024x1024_0_0, k0_pay6 (k0_pay5 (wqB m c))⟩]
    (Rect.unit (s := S1024x1568) ![0, 0] S1024x1568.size inb_S1024x1568_S1024x1568_0_0)
    (View.cover_of_tiledBy _ ![1024, 32] (by sl_kernel_rfl))
  unfold projw
  exact h.trans (View.ld_unit_zero (Val := Elt F) hz2 inb_S1024x1568_S1024x1568_0_0 _)

attribute [local sl_rounds] duties_bar duties_snd0 duties_rcv0 duties_snd1 duties_rcv1 amount_bar amount_snd0 amount_rcv0 amount_snd1 amount_rcv1
  expect_bar expect_snd0 expect_rcv0 expect_snd1 expect_rcv1 payX_bar payX_snd0 payX_rcv0 payX_snd1 payX_rcv1
attribute [local sl_rounds high] payX_barP payX_rcv0P payX_rcv1P

/-- An assertion set aside under a name: the token of the half-latent copy's receive duty, until that copy. -/
def hid0 (P : sProp 𝕄) : sProp 𝕄 := P
/-- The same for the token of the up-projection rows' receive duty. -/
def hid1 (P : sProp 𝕄) : sProp 𝕄 := P

set_option maxHeartbeats 4000000 in
theorem sound_body : SoundBody (F := F) m := by
  intro K c W f0 f1 f2 f3 f4 g8
  unfold BodyPre ghost invs csPts crPts wsPts wrPts pwPts O₀ O₁
  rw [show (dutyTok ER (rcv1Cell (peer c)) 0 () : sProp 𝕄) = hid1 (dutyTok ER (rcv1Cell (peer c)) 0 ()) from rfl, show (dutyTok ER (rcv0Cell (peer c)) 0 () : sProp 𝕄) = hid0 (dutyTok ER (rcv0Cell (peer c)) 0 ()) from rfl]
  iintro ⟨⟨⟨#HIbar, #HIs0, #HIr0, #HIs1, #HIr1, #HIbarP, #HIr0P, #HIr1P⟩, HatB, HatS0, HatR0, HatS1, HatR1, #HrBP, #HrR0P, #HrR1P, #HrS0, #HrR0, #HrS1, #HrR1, HtBP, HtR0P, HtR1P, HtS0, HtS1⟩,
    HcB, HcR0, HcR1, #Hlev, Hcs, Hcr, Hws, Hwr, Hpw, HO, Hx, Hwd, Hwuk, Hwuv, Hwq, Hwqr, Hwkr, Hwo, Hout⟩
  have hd1 := dev1_eq c
  have hd2 := dev2_eq c
  have hd3 := dev3_eq c
  have hmw : (levAts L lv : sProp 𝕄) ⊢ MayWait (c : Thread nD τ) (.reg barS) () (tallyAt (rcv0Cell (peer c)) () N0 + tallyAt (rcv1Cell (peer c)) () N1) := mayWait_bar c
  sl_exec
  -- the copy of the up-projection rows into the peer's landing buffer
  rw [ws_eq m c f2]
  unfold hid1
  iapply (Rounds.wp_send_pointsTo 𝒱₀ ER (ex m) (c : Thread nD τ) none (c' := (peer c : Thread nD τ))
      (src := (wsM : Memref sig .tc .vmem S64x2048 .bf16)) (dst := (wrM : Memref sig .tc .vmem S64x2048 .bf16)) (q := fullShare)
      (fs := wsOf m c) (fd := HatB_pay2_v) (κ₁ := K (c, 3)) (κ₂ := K (peer c, 4)) (r₁ := 0) (r₂ := 0) (d₁ := ()) (d₂ := ())
      (by rw [duties_snd1]; exact Finset.mem_singleton_self _) (by rw [duties_rcv1]; exact Finset.mem_singleton_self _)
      () () N1 rfl (amount_snd1 m c ()) (amount_rcv1 m (peer c) ()) (tallyAt (rcv0Cell (peer c)) () N0) rfl
      (by rw [payX_snd1])
      (by rw [payX_rcv1P, landed_w])) $$ [Hws HatB_pay2 HO HtS1 HtR1P]
  · isplitr; · iexact HIs1
    isplitr; · iexact HIr1P
    isplitl [Hws]; · iexact Hws
    isplitl [HatB_pay2]; · iexact HatB_pay2
    isplitl [HO]; · iexact HO
    isplitl [HtS1]; · iexact HtS1
    isplitr; · iexact HrS1
    isplitl [HtR1P]; · iexact HtR1P
    iexact HrR1P
  iintro ⟨HcS1, HO⟩
  sl_exec
  -- the copy of the half latent into the peer's landing buffer
  rw [cs_eq m c f0]
  unfold hid0
  iapply (Rounds.wp_send_pointsTo 𝒱₀ ER (ex m) (c : Thread nD τ) none (c' := (peer c : Thread nD τ))
      (src := (csM : Memref sig .tc .vmem S64x512 .bf16)) (dst := (crM : Memref sig .tc .vmem S64x512 .bf16)) (q := fullShare)
      (fs := csOf m c) (fd := HatB_pay1_v) (κ₁ := K (c, 1)) (κ₂ := K (peer c, 2)) (r₁ := 0) (r₂ := 0) (d₁ := ()) (d₂ := ())
      (by rw [duties_snd0]; exact Finset.mem_singleton_self _) (by rw [duties_rcv0]; exact Finset.mem_singleton_self _)
      () () N0 rfl (amount_snd0 m c ()) (amount_rcv0 m (peer c) ()) 0 (zero_add _).symm
      (by rw [payX_snd0])
      (by rw [payX_rcv0P, landed_c])) $$ [Hcs HatB_pay1 HO HtS0 HtR0P]
  · isplitr; · iexact HIs0
    isplitr; · iexact HIr0P
    isplitl [Hcs]; · iexact Hcs
    isplitl [HatB_pay1]; · iexact HatB_pay1
    isplitl [HO]; · iexact HO
    isplitl [HtS0]; · iexact HtS0
    isplitr; · iexact HrS0
    isplitl [HtR0P]; · iexact HtR0P
    iexact HrR0P
  iintro ⟨HcS0, HO⟩
  sl_exec
  -- the four own cells close: their counters at zero are the device's again
  imod (Rounds.cell_close ER (ex m) (Set.mem_univ (K (c, 1))) (fun h => h) (R := 1) (duties_later m (snd0Cell c))) $$ [HatS0] with HzS0
  · isplitr; · iexact HIs0
    iexact HatS0
  imod (Rounds.cell_close ER (ex m) (Set.mem_univ (K (c, 2))) (fun h => h) (R := 1) (duties_later m (rcv0Cell c))) $$ [HatR0] with HzR0
  · isplitr; · iexact HIr0
    iexact HatR0
  imod (Rounds.cell_close ER (ex m) (Set.mem_univ (K (c, 3))) (fun h => h) (R := 1) (duties_later m (snd1Cell c))) $$ [HatS1] with HzS1
  · isplitr; · iexact HIs1
    iexact HatS1
  imod (Rounds.cell_close ER (ex m) (Set.mem_univ (K (c, 4))) (fun h => h) (R := 1) (duties_later m (rcv1Cell c))) $$ [HatR1] with HzR1
  · isplitr; · iexact HIr1
    iexact HatR1
  rw [wp_ret]; imodintro
  unfold BodyPost scratch csPts crPts wsPts wrPts pwPts
  isplitl [HatS0_pay1 HatR0_pay1 HatS1_pay1 HatR1_pay1 Hpw]
  · isplitl [HatS0_pay1]; · iexists _; iexact HatS0_pay1
    isplitl [HatR0_pay1]; · iexists _; iexact HatR0_pay1
    isplitl [HatS1_pay1]; · iexists _; iexact HatS1_pay1
    isplitl [HatR1_pay1]; · iexists _; iexact HatR1_pay1
    iexists _; iexact Hpw
  isplitl [HzS0]; · iexact HzS0
  isplitl [HzR0]; · iexact HzR0
  isplitl [HzS1]; · iexact HzS1
  isplitl [HzR1]; · iexact HzR1
  isplitl [HO]; · iexists _; iexact HO
  isplitl [Hx]; · iexact Hx
  isplitl [Hwd]; · iexact Hwd
  isplitl [Hwuk]; · iexact Hwuk
  isplitl [Hwuv]; · iexact Hwuv
  isplitl [Hwq]; · iexact Hwq
  isplitl [Hwqr]; · iexact Hwqr
  isplitl [Hwkr]; · iexact Hwkr
  isplitl [Hwo]; · iexact Hwo
  have hR : sound_body.sl.r m c = k0_pay3 (xB m c) := by
    unfold sound_body.sl.r
    exact congrArg k0_pay3 (Memref.readAt_unit_zero (Elt F) cc0_stg0_0 hz3 _ (xB m c))
  have hV : sound_body.sl.v80 m c = projw (wqB m c) (wqrB m c) (wkrB m c) := by
    unfold sound_body.sl.v80 sound_body.sl.Hpw_3 sound_body.sl.r_1
    exact pw_read m c
  have hA : View.readAt (Elt F) (csM : Memref sig .tc .vmem S64x512 .bf16).view (Rect.unit (s := S64x512) ![0, 0] S64x512.size inb_S64x512_S64x512_0_0).toLoadRect (csOf m c) = csOf m c :=
    Memref.readAt_unit_zero (Elt F) cc0_scratch0 hz2 _ (csOf m c)
  have hB : View.readAt (Elt F) (crM : Memref sig .tc .vmem S64x512 .bf16).view (Rect.unit (s := S64x512) ![0, 0] S64x512.size inb_S64x512_S64x512_0_0).toLoadRect (csOf m (peer c)) = csOf m (peer c) :=
    Memref.readAt_unit_zero (Elt F) cc0_scratch1 hz2 _ (csOf m (peer c))
  have hC : View.readAt (Elt F) (wsM : Memref sig .tc .vmem S64x2048 .bf16).view (Rect.unit (s := S64x2048) ![0, 0] S64x2048.size inb_S64x2048_S64x2048_0_0).toLoadRect (wsOf m c) = wsOf m c :=
    Memref.readAt_unit_zero (Elt F) cc0_scratch2 hz2 _ (wsOf m c)
  have hD : View.readAt (Elt F) (wrM : Memref sig .tc .vmem S64x2048 .bf16).view (Rect.unit (s := S64x2048) ![0, 0] S64x2048.size inb_S64x2048_S64x2048_0_0).toLoadRect (wsOf m (peer c)) = wsOf m (peer c) :=
    Memref.readAt_unit_zero (Elt F) cc0_scratch3 hz2 _ (wsOf m (peer c))
  have hW : View.readAt (Elt F) (Memref.whole cc0_stg7_0 : Memref sig .tc .vmem S1024x1024 .f32).view (Rect.unit (s := S1024x1024) ![0, 0] S1024x1024.size inb_S1024x1024_S1024x1024_0_0).toLoadRect (woB m c) = woB m c :=
    Memref.readAt_unit_zero (Elt F) cc0_stg7_0 hz2 _ (woB m c)
  unfold sound_body.sl.r_3 sound_body.sl.r_4 sound_body.sl.r_5 sound_body.sl.r_6 sound_body.sl.r_7
  rw [out_assemble m c g8 _ _ _ _ _ _ _ hR hV hA hB hC hD hW]
  iexact Hout

end Cert.KernelIdeal.Proto

end
-- ==== Proof.LaunchCred.lean ====
/-
  The credit a device holds at launch. Each device owes three things, all to its peer: one unit to the peer's
  barrier cell and a copy's worth of credit to each of the peer's two receive cells. Since the peer relation is an
  involution, exactly one device — its peer — owes each of a device's three cells, so the launch deals the device
  one unit of credit on its barrier cell and one copy's worth on each receive cell.
-/
import proofs.«900377_g7700000000000378_dist_mla_v7x_xyz2x2x2_y_b2_s256_d1024_dc64_bf16_1_alg».proof.Proof.Proto2

set_option maxRecDepth 16384

noncomputable section

namespace Cert.KernelIdeal.Proto

open Cert.KernelIdeal Cert.KernelIdeal.Gen Cert.KernelIdeal.KOut

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- Two devices' barrier cells are the same cell only if the devices are the same; likewise their receive cells. -/
theorem bar_eq_iff {a b : Dev nD} : Iff (barCell a = barCell b) (a = b) :=
  ⟨fun h => Fin.ext (congrArg (fun g : GSem nD τ sig => g.1.1.val) h), fun h => h ▸ rfl⟩
theorem rcv0_eq_iff {a b : Dev nD} : Iff (rcv0Cell a = rcv0Cell b) (a = b) :=
  ⟨fun h => Fin.ext (congrArg (fun g : GSem nD τ sig => g.1.1.val) h), fun h => h ▸ rfl⟩
theorem rcv1_eq_iff {a b : Dev nD} : Iff (rcv1Cell a = rcv1Cell b) (a = b) :=
  ⟨fun h => Fin.ext (congrArg (fun g : GSem nD τ sig => g.1.1.val) h), fun h => h ▸ rfl⟩

/-- What device d owes device c's barrier cell: one unit exactly when d is c's peer. -/
theorem owed_bar (d c : Dev nD) : O₀ d (barCell c) () = if d = peer c then 1 else 0 := by
  unfold O₀ O₁
  rw [Pi.add_apply, Finsupp.add_apply, Pi.add_apply, Finsupp.add_apply,
    tallyAt_ne_cell (fun h => r0_ne_bar (congrArg Prod.snd h).symm),
    tallyAt_ne_cell (fun h => r1_ne_bar (congrArg Prod.snd h).symm), tallyAt_apply, Finsupp.zero_apply,
    Nat.zero_add, Nat.zero_add]
  by_cases h : d = peer c
  · subst h; rw [peer_peer, if_pos ⟨rfl, rfl⟩, if_pos rfl]
  · rw [if_neg (fun ⟨h1, _⟩ => h (by rw [← peer_peer d]; exact congrArg peer (bar_eq_iff.mp h1).symm)), if_neg h]

/-- What device d owes device c's first receive cell: that copy's credit exactly when d is c's peer. -/
theorem owed_rcv0 (d c : Dev nD) : O₀ d (rcv0Cell c) () = if d = peer c then N0 else 0 := by
  unfold O₀ O₁
  rw [Pi.add_apply, Finsupp.add_apply, Pi.add_apply, Finsupp.add_apply,
    tallyAt_ne_cell (g := rcv1Cell (peer d)) (g' := rcv0Cell c) (fun h => r1_ne_r0 (congrArg Prod.snd h).symm),
    tallyAt_ne_cell (g := barCell (peer d)) (g' := rcv0Cell c) (fun h => r0_ne_bar (congrArg Prod.snd h)), tallyAt_apply, Finsupp.zero_apply,
    Nat.add_zero, Nat.add_zero]
  by_cases h : d = peer c
  · subst h; rw [peer_peer, if_pos ⟨rfl, rfl⟩, if_pos rfl]
  · rw [if_neg (fun ⟨h1, _⟩ => h (by rw [← peer_peer d]; exact congrArg peer (rcv0_eq_iff.mp h1).symm)), if_neg h]

/-- What device d owes device c's second receive cell: that copy's credit exactly when d is c's peer. -/
theorem owed_rcv1 (d c : Dev nD) : O₀ d (rcv1Cell c) () = if d = peer c then N1 else 0 := by
  unfold O₀ O₁
  rw [Pi.add_apply, Finsupp.add_apply, Pi.add_apply, Finsupp.add_apply,
    tallyAt_ne_cell (g := rcv0Cell (peer d)) (g' := rcv1Cell c) (fun h => r1_ne_r0 (congrArg Prod.snd h)),
    tallyAt_ne_cell (g := barCell (peer d)) (g' := rcv1Cell c) (fun h => r1_ne_bar (congrArg Prod.snd h)), tallyAt_apply, Finsupp.zero_apply,
    Nat.zero_add, Nat.add_zero]
  by_cases h : d = peer c
  · subst h; rw [peer_peer, if_pos ⟨rfl, rfl⟩, if_pos rfl]
  · rw [if_neg (fun ⟨h1, _⟩ => h (by rw [← peer_peer d]; exact congrArg peer (rcv1_eq_iff.mp h1).symm)), if_neg h]

/-- Summed over all devices, a device's barrier cell is owed one unit. -/
theorem launch_bar (c : Dev nD) :
    tallyOn (barCell c) (launchCredit (Pipeline.owing O₀) 0 (barCell c)) = (tallyAt (barCell c) () 1 : CellTallies nD τ sig Unit) := by
  unfold tallyAt; refine congrArg _ (Finsupp.ext fun u => ?_); cases u
  rw [Pipeline.launchCredit_owing, Finsupp.single_eq_same, Finset.sum_congr rfl fun d _ => owed_bar d c,
    Finset.sum_ite_eq' Finset.univ (peer c) fun _ => 1, if_pos (Finset.mem_univ _)]

/-- Summed over all devices, a device's first receive cell is owed one copy's credit. -/
theorem launch_rcv0 (c : Dev nD) :
    tallyOn (rcv0Cell c) (launchCredit (Pipeline.owing O₀) 0 (rcv0Cell c)) = (tallyAt (rcv0Cell c) () N0 : CellTallies nD τ sig Unit) := by
  unfold tallyAt; refine congrArg _ (Finsupp.ext fun u => ?_); cases u
  rw [Pipeline.launchCredit_owing, Finsupp.single_eq_same, Finset.sum_congr rfl fun d _ => owed_rcv0 d c,
    Finset.sum_ite_eq' Finset.univ (peer c) fun _ => N0, if_pos (Finset.mem_univ _)]

/-- Summed over all devices, a device's second receive cell is owed one copy's credit. -/
theorem launch_rcv1 (c : Dev nD) :
    tallyOn (rcv1Cell c) (launchCredit (Pipeline.owing O₀) 0 (rcv1Cell c)) = (tallyAt (rcv1Cell c) () N1 : CellTallies nD τ sig Unit) := by
  unfold tallyAt; refine congrArg _ (Finsupp.ext fun u => ?_); cases u
  rw [Pipeline.launchCredit_owing, Finsupp.single_eq_same, Finset.sum_congr rfl fun d _ => owed_rcv1 d c,
    Finset.sum_ite_eq' Finset.univ (peer c) fun _ => N1, if_pos (Finset.mem_univ _)]

omit [FloatOps F] in
/-- Of all the credit the launch deals a device, keep the three tokens on its barrier cell and its two receive cells. -/
theorem creds (c : Dev nD) :
    (Pipeline.launchCred O₀ c : sProp 𝕄)
      ⊢ iprop(cred (tallyAt (barCell c) () 1) ∗ cred (tallyAt (rcv0Cell c) () N0) ∗ cred (tallyAt (rcv1Cell c) () N1)) := by
  unfold Pipeline.launchCred
  refine (bigSep_subset (t := ({SemLoc.reg barS, SemLoc.dma sR0, SemLoc.dma sR1} : Finset (SemLoc sig))) (Finset.subset_univ _)).trans ?_
  rw [bigSep_insert (fun h => by
      rcases Finset.mem_insert.mp h with h | h
      · exact r0_ne_bar h.symm
      · exact r1_ne_bar (Finset.mem_singleton.mp h).symm),
    bigSep_insert (fun h => r1_ne_r0 (Finset.mem_singleton.mp h).symm), bigSep_singleton,
    launch_bar, launch_rcv0, launch_rcv1]
  exact .refl _

end Cert.KernelIdeal.Proto

end
-- ==== Proof.Launch1.lean ====
/-
  The launch: the exchange's ghost state minted once for all devices, each device's five cells allocated from its
  semaphores at zero, the duty tokens dealt to the devices that pay them (a device's barrier and receive tokens go
  to its peer), the launch credit counted, and the launch theorem applied.
-/
import proofs.«900377_g7700000000000378_dist_mla_v7x_xyz2x2x2_y_b2_s256_d1024_dc64_bf16_1_alg».proof.Proof.Proto3
import proofs.«900377_g7700000000000378_dist_mla_v7x_xyz2x2x2_y_b2_s256_d1024_dc64_bf16_1_alg».proof.Proof.LaunchCred

set_option maxRecDepth 16384

noncomputable section

namespace Cert.KernelIdeal.Proto

open Cert.KernelIdeal Cert.KernelIdeal.Gen Cert.KernelIdeal.KOut

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem ownSemFacts : Pipeline.OwnSemFacts cfg0.spec osem := by decide

theorem share_eq (c : Dev nD) (w : Fin cfg0.W) : (dats m ρ 0 c).share w = fullShare := by unfold Dat.share; split <;> rfl

theorem kcell_injective : Function.Injective (kcell : Dev nD × Fin 5 → GSem nD τ sig) := by
  rintro ⟨c, k⟩ ⟨c', k'⟩ h
  have h1 : c = c' := by have := congrArg (fun g : GSem nD τ sig => g.1.1) h; exact this
  subst h1
  have h2 : csem k = csem k' := congrArg Prod.snd h
  have : k = k' := csem_injective h2
  subst this; rfl
def exCells : Finset (GSem nD τ sig) := Finset.univ.map ⟨kcell, kcell_injective⟩

abbrev tokOf (ck : Dev nD × Fin 5) : GSem nD τ sig × ℕ × Unit := (kcell ck, 0, ())
theorem tokOf_injective : Function.Injective (tokOf : Dev nD × Fin 5 → GSem nD τ sig × ℕ × Unit) :=
  fun a b h => kcell_injective (congrArg (fun x : GSem nD τ sig × ℕ × Unit => x.1) h)
def exToks : Finset (GSem nD τ sig × ℕ × Unit) := Finset.univ.map ⟨tokOf, tokOf_injective⟩

def u₀ : UU :=
  (initOf (Pipeline.cells cfgs cellOf_inj) (Pipeline.launchToks cfgs cellOf_inj), initOf exCells exToks)

/-- The duty tokens of device `c`'s own cells. -/
def toks (c : Dev nD) : sProp 𝕄 :=
  iprop(dutyTok ER (barCell c) 0 () ∗ dutyTok ER (snd0Cell c) 0 () ∗ dutyTok ER (rcv0Cell c) 0 () ∗ dutyTok ER (snd1Cell c) 0 () ∗ dutyTok ER (rcv1Cell c) 0 ())

/-- What the launch element deals device `c`. -/
def G (c : Dev nD) : sProp 𝕄 :=
  iprop((bigSep Finset.univ fun k : Fin 5 => roundState ER (ex m) (kcell (c, k)) 0)
    ∗ (bigSep Finset.univ fun k : Fin 5 => iprop(atPos ER (kcell (c, k)) 0 ∅ 0 ∗ reached ER (kcell (c, k)) 0)) ∗ toks c)

/-- What the global step makes of it. -/
def G' (c : Dev nD) : sProp 𝕄 := iprop(∃ K, ghost m K c)

omit [FloatOps F] in
theorem bigSep_fin5 (Φ : Fin 5 → sProp 𝕄) : bigSep Finset.univ Φ = iprop(Φ 0 ∗ Φ 1 ∗ Φ 2 ∗ Φ 3 ∗ Φ 4) := bigSep_univ_eq_bigSepL [0, 1, 2, 3, 4] (by decide) (by decide) Φ

theorem fund_ex : BI.own (ER (initOf exCells exToks)) ⊢ (|==> bigSep Finset.univ (G m) : sProp 𝕄) := by
  have hX (Φ : GSem nD τ sig → sProp 𝕄) : bigSep exCells Φ = bigSep Finset.univ fun c : Dev nD => bigSep Finset.univ fun k : Fin 5 => Φ (kcell (c, k)) := by
    unfold exCells; rw [bigSep_map, bigSep_univ_prod]; rfl
  have hT : bigSep exToks (fun x => (dutyTok ER x.1 x.2.1 x.2.2 : sProp 𝕄)) = bigSep Finset.univ fun c : Dev nD => toks c := by
    unfold exToks; rw [bigSep_map, bigSep_univ_prod]
    exact bigSep_congr fun c _ => by unfold toks; rw [bigSep_fin5]; rfl
  iintro HX
  imod (Rounds.fund ER (ex m) exCells exToks) $$ HX with ⟨Hst, Hr, Hat, Htok⟩
  imodintro
  ihave Hst' := (Entails.of_eq (hX fun g => roundState ER (ex m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
theorem ownSems0_eq (c : Dev nD) : (Pipeline.ownSems0 (Ix := Unit) (Name := ℕ) (U := UU) (Lvl := ℕ) (Val := Elt F) (τ := τ) osem c : sProp 𝕄)
    = iprop(semVal (snd0Cell c) 0 ∗ semVal (rcv0Cell c) 0 ∗ semVal (snd1Cell c) 0 ∗ semVal (rcv1Cell c) 0) := by
  rw [Pipeline.ownSems0_eq_of_list c osem [0, 1, 2, 3] (by decide) (by decide)]; rfl
omit [FloatOps F] in
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 5 => semVal (kcell (c, k)) 0 : sProp 𝕄) := by
  rw [ownSems0_eq, unscopedSems0_eq, bigSep_fin5]
  iintro ⟨⟨HS0, HR0, HS1, HR1⟩, HB⟩
  isplitl [HB]; · iexact HB
  isplitl [HS0]; · iexact HS0
  isplitl [HR0]; · iexact HR0
  isplitl [HS1] <;> iassumption

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (ex m) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 5 => semVal (kcell (c, k)) 0) ∗ bigSep Finset.univ fun k : Fin 5 => roundState ER (ex m) (kcell (c, k)) 0)
      ⊢ (|={Set.univ}=> bigSep Finset.univ fun k => iprop(∃ κ : ℕ, cellInv ER (ex m) κ (kcell (c, k))) : sProp 𝕄) from by
        rw [← bigSep_sep']
        exact (bigSep_mono fun k _ => (Rounds.body_intro ER (ex m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

def records (K : Dev nD × Fin 5 → ℕ) : sProp 𝕄 :=
  iprop((bigSep Finset.univ fun ck : Dev nD × Fin 5 => cellInv ER (ex m) (K ck) (kcell ck))
    ∗ bigSep Finset.univ fun ck : Dev nD × Fin 5 => reached ER (kcell ck) 0)

instance records_persistent (K : Dev nD × Fin 5 → ℕ) : BI.Persistent (records m K) := by unfold records; infer_instance

theorem inv_at (K : Dev nD × Fin 5 → ℕ) (ck : Dev nD × Fin 5) :
    (bigSep Finset.univ fun ck : Dev nD × Fin 5 => (cellInv ER (ex m) (K ck) (kcell ck) : sProp 𝕄)) ⊢ cellInv ER (ex m) (K ck) (kcell ck) :=
  bigSep_elim (Finset.mem_univ ck)
omit [FloatOps F] in
theorem reached_at (ck : Dev nD × Fin 5) :
    (bigSep Finset.univ fun ck : Dev nD × Fin 5 => (reached ER (kcell ck) 0 : sProp 𝕄)) ⊢ reached ER (kcell ck) 0 :=
  bigSep_elim (Finset.mem_univ ck)

/-- What stays with device `c`: its positions, and the tokens of the duties IT pays. -/
def payToks (c : Dev nD) : sProp 𝕄 :=
  iprop(dutyTok ER (barCell (peer c)) 0 () ∗ dutyTok ER (rcv0Cell (peer c)) 0 () ∗ dutyTok ER (rcv1Cell (peer c)) 0 () ∗ dutyTok ER (snd0Cell c) 0 () ∗ dutyTok ER (snd1Cell c) 0 ())
def linear (c : Dev nD) : sProp 𝕄 :=
  iprop((atPos ER (barCell c) 0 ∅ 0 ∗ atPos ER (snd0Cell c) 0 ∅ 0 ∗ atPos ER (rcv0Cell c) 0 ∅ 0 ∗ atPos ER (snd1Cell c) 0 ∅ 0 ∗ atPos ER (rcv1Cell c) 0 ∅ 0) ∗ payToks c)

theorem ghost_intro (K : Dev nD × Fin 5 → ℕ) (c : Dev nD) : iprop(records m K ∗ linear c) ⊢ G' m c := by
  unfold records linear payToks G' ghost invs
  iintro ⟨⟨#HI, #HR⟩, ⟨HaB, HaS0, HaR0, HaS1, HaR1⟩, HtBP, HtR0P, HtR1P, HtS0, HtS1⟩
  iexists K
  isplitr
  · isplitr; · iapply (inv_at m K (c, 0)); iexact HI
    isplitr; · iapply (inv_at m K (c, 1)); iexact HI
    isplitr; · iapply (inv_at m K (c, 2)); iexact HI
    isplitr; · iapply (inv_at m K (c, 3)); iexact HI
    isplitr; · iapply (inv_at m K (c, 4)); iexact HI
    isplitr; · iapply (inv_at m K (peer c, 0)); iexact HI
    isplitr; · iapply (inv_at m K (peer c, 2)); iexact HI
    iapply (inv_at m K (peer c, 4)); iexact HI
  isplitl [HaB]; · iexact HaB
  isplitl [HaS0]; · iexact HaS0
  isplitl [HaR0]; · iexact HaR0
  isplitl [HaS1]; · iexact HaS1
  isplitl [HaR1]; · iexact HaR1
  isplitr; · iapply (reached_at (F := F) (peer c, 0)); iexact HR
  isplitr; · iapply (reached_at (F := F) (peer c, 2)); iexact HR
  isplitr; · iapply (reached_at (F := F) (peer c, 4)); iexact HR
  isplitr; · iapply (reached_at (F := F) (c, 1)); iexact HR
  isplitr; · iapply (reached_at (F := F) (c, 2)); iexact HR
  isplitr; · iapply (reached_at (F := F) (c, 3)); iexact HR
  isplitr; · iapply (reached_at (F := F) (c, 4)); iexact HR
  isplitl [HtBP]; · iexact HtBP
  isplitl [HtR0P]; · iexact HtR0P
  isplitl [HtR1P]; · iexact HtR1P
  isplitl [HtS0]; · iexact HtS0
  iexact HtS1

omit [FloatOps F] in
/-- The tokens dealt across: a device's barrier token and its two receive tokens go to its peer. -/
theorem toks_around : (bigSep Finset.univ fun c : Dev nD => (toks c : sProp 𝕄)) ⊢ bigSep Finset.univ fun c : Dev nD => payToks c := by
  unfold toks payToks
  rw [bigSep_sep', bigSep_sep', bigSep_sep', bigSep_sep', bigSep_sep', bigSep_sep', bigSep_sep', bigSep_sep',
    bigSep_univ_equiv swap (fun c : Dev nD => (dutyTok ER (barCell c) 0 () : sProp 𝕄)),
    bigSep_univ_equiv swap (fun c : Dev nD => (dutyTok ER (rcv0Cell c) 0 () : sProp 𝕄)),
    bigSep_univ_equiv swap (fun c : Dev nD => (dutyTok ER (rcv1Cell c) 0 () : sProp 𝕄))]
  iintro ⟨H1, H2, H3, H4, H5⟩
  isplitl [H1]; · iexact H1
  isplitl [H3]; · iexact H3
  isplitl [H5]; · iexact H5
  isplitl [H2]; · iexact H2
  iexact H4

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (ex m) κ (kcell (c, k))))
          ∗ (bigSep Finset.univ fun k => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × Fin 5 => iprop(∃ κ : ℕ, cellInv ER (ex m) κ (kcell ck))),
    bigSep_congr (s := Finset.univ) (fun (c : Dev nD) _ => bigSep_sep' Finset.univ (fun k : Fin 5 => (atPos ER (kcell (c, k)) 0 ∅ 0 : sProp 𝕄)) (fun k => reached ER (kcell (c, k)) 0)),
    bigSep_sep', ← bigSep_univ_prod (fun ck : Dev nD × Fin 5 => (reached ER (kcell ck) 0 : sProp 𝕄))]
  iintro ⟨HI, ⟨Hat, #HR⟩, Htok⟩
  ihave HK := (BI.bigSep_exists_pi Finset.univ (fun (ck : Dev nD × Fin 5) (κ : ℕ) => (cellInv ER (ex m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply ((Entails.of_eq (bigSep_sep' Finset.univ (fun c : Dev nD => bigSep Finset.univ fun k : Fin 5 => (atPos ER (kcell (c, k)) 0 ∅ 0 : sProp 𝕄)) payToks).symm).trans
      (bigSep_mono fun c _ => show _ ⊢ linear c from Entails.of_eq (by unfold linear; rw [bigSep_fin5])))
    isplitl [Hat]; · iexact Hat
    iexact Htk

/-- The global step: own AND unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

end Cert.KernelIdeal.Proto

end
-- ==== Proof.Launch2.lean ====
/-
  The launch theorem applied. What each device sorts out of its launch holdings (the exchange's ghost state, its
  three credit tokens, the level facts) is what its body starts from; the five scratch buffers enter the invariant
  before the one grid point and leave it after, with the four own semaphores back at zero; every staging cell sits
  at the bottom level, so the pipeline's own waits are always allowed. The run then ends with every window's array
  at what the proof data say.
-/
import proofs.«900377_g7700000000000378_dist_mla_v7x_xyz2x2x2_y_b2_s256_d1024_dc64_bf16_1_alg».proof.Proof.Launch1

set_option maxRecDepth 16384

noncomputable section

namespace Cert.KernelIdeal.Proto

open Cert.KernelIdeal Cert.KernelIdeal.Gen Cert.KernelIdeal.KOut

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  icases Hc with ⟨H1, HN0, HN1⟩
  imodintro
  unfold start G'
  isplitl
  · isplitl [HG]; · iexact HG
    isplitl [H1]; · iexact H1
    isplitl [HN0]; · iexact HN0
    isplitl [HN1]; · iexact HN1
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ scratch
  iintro ⟨Hs, -, ⟨%f0, H0⟩, ⟨%f1, H1⟩, ⟨%f2, H2⟩, ⟨%f3, H3⟩, ⟨%f4, H4⟩⟩
  isplitl [Hs]; · iexact Hs
  isplitl [H0]; · iexists f0; rw [csPts_eq]; iexact H0
  isplitl [H1]; · iexists f1; rw [crPts_eq]; iexact H1
  isplitl [H2]; · iexists f2; rw [wsPts_eq]; iexact H2
  isplitl [H3]; · iexists f3; rw [wrPts_eq]; iexact H3
  iexists f4; rw [pwPts_eq]; iexact H4

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ c from rfl, scopedRest0_eq, ownSems0_eq]
  unfold Φ₁ scratch
  iintro ⟨⟨⟨%f0, H0⟩, ⟨%f1, H1⟩, ⟨%f2, H2⟩, ⟨%f3, H3⟩, ⟨%f4, H4⟩⟩, HS0, HR0, HS1, HR1⟩
  isplitr; · iempintro
  isplitl [HS0 HR0 HS1 HR1]
  · isplitl [HS0]; · iexact HS0
    isplitl [HR0]; · iexact HR0
    isplitl [HS1] <;> iassumption
  isplitl [H0]; · iexists f0; rw [← csPts_eq]; iexact H0
  isplitl [H1]; · iexists f1; rw [← crPts_eq]; iexact H1
  isplitl [H2]; · iexists f2; rw [← wsPts_eq]; iexact H2
  isplitl [H3]; · iexists f3; rw [← wrPts_eq]; iexact H3
  iexists f4; rw [← pwPts_eq]; iexact H4

theorem waits (c : Dev nD) : (levAts L lv : sProp 𝕄) ⊢ Pipeline.cellsWaits cfgs (dats m ρ) () 0 c :=
  Pipeline.cellsWaits_intro cfgs (dats m ρ) () 0 c fun w s t =>
    mayWait_low c _ (by fin_cases w <;> fin_cases s <;> decide) (by fin_cases w <;> fin_cases s <;> decide) _ (by
      rcases t with ⟨_ | _, ht⟩
      · exact Or.inl rfl
      · exact Or.inr rfl)

/-- Every window's array after the run. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- From any memory with zero counters, given the body obligation: every weakly fair execution of the eight devices
    terminates and every window's array ends at what the proof data say. -/
theorem run_arrays (hbody : ∀ c, BodyObligation (dats (F := F) m ρ 0 c) (defs₀ (F := F)) 𝒱₀ () Set.univ) :
    θ_run defs (onTc (τ := τ) (main (F := F))) (s₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := hbody) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_ex m) $$ HX with HG
      imodintro
      isplitl [HP] <;> iassumption)
    (hglob := glob m)
    (hA := fun _ _ => rfl) (hpf := fun _ k => k.elim0)
    (X := start m) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

end Cert.KernelIdeal.Proto

end
-- ==== Proof.Launch3.lean ====
/-
  The run read back. The eight argument arrays are staged by input windows and never written, so they end as they
  began. The result window's block is the whole result array and is written back at the one grid point, so the
  result array ends as exactly what the body left in its staging buffer: the device's result block.
-/
import proofs.«900377_g7700000000000378_dist_mla_v7x_xyz2x2x2_y_b2_s256_d1024_dc64_bf16_1_alg».proof.Proof.Launch2

set_option maxRecDepth 16384

noncomputable section

namespace Cert.KernelIdeal.Proto

open Cert.KernelIdeal Cert.KernelIdeal.Gen Cert.KernelIdeal.KOut

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The result array after the run: the one write-back overwrites all of it with the device's result block. -/
theorem out_eq (c : Dev nD) : (dats m ρ 0 c).arrAt 8 cfg0.N = outOf m c := by
  have h1 := (dats m ρ 0 c).arrAt_succ 8 t0_0
  rw [if_pos (flush0_8 t0_0)] at h1
  have h2 := congrArg (((cfg0.win 8).blk t0_0).view.read (Elt F)) h1
  rw [View.read_write_univ] at h2
  have h3 : View.read (Elt F) ((cfg0.win 8).blk t0_0).view ((dats m ρ 0 c).arrAt 8 (↑t0_0 + 1)) = (dats m ρ 0 c).arrAt 8 (↑t0_0 + 1) :=
    Memref.read_access_unit_zero (Elt F) main_v1 (by funext a; fin_cases a <;> rfl) _ _
  exact (h3.symm.trans h2).trans rfl

/-- From any memory with zero counters, given the body obligation: every weakly fair execution of the eight devices
    terminates, each device's result array ends holding its result block, and its argument arrays end unchanged. -/
theorem run_main_of_body (hbody : ∀ c, BodyObligation (dats (F := F) m ρ 0 c) (defs₀ (F := F)) 𝒱₀ () Set.univ) :
    θ_run defs (onTc (τ := τ) (main (F := F))) ⟨m, fun _ => 0, ρ⟩ (fun r => ∀ c : Dev nD,
      r.2.mem ((c.tc : Thread nD τ).loc main_v1) = outOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c =>
    ⟨(h c 8).trans (out_eq m ρ c),
      (h c 0).trans ((dats m ρ 0 c).arrAt_in 0 rfl _),
      (h c 1).trans ((dats m ρ 0 c).arrAt_in 1 rfl _),
      (h c 2).trans ((dats m ρ 0 c).arrAt_in 2 rfl _),
      (h c 3).trans ((dats m ρ 0 c).arrAt_in 3 rfl _),
      (h c 4).trans ((dats m ρ 0 c).arrAt_in 4 rfl _),
      (h c 5).trans ((dats m ρ 0 c).arrAt_in 5 rfl _),
      (h c 6).trans ((dats m ρ 0 c).arrAt_in 6 rfl _),
      (h c 7).trans ((dats m ρ 0 c).arrAt_in 7 rfl _)⟩) (run_arrays m ρ hbody)

end Cert.KernelIdeal.Proto

end
-- ==== Proof.BodyOb.lean ====
/-
  The body's statement handed to the launch theorem. At the one grid point the pipeline gives the body the
  invariant (the exchange's ghost state, the credit, the five scratch buffers), what the device still owes, and
  the nine staged blocks: the eight inputs as fetched — each the whole argument block — and the result buffer at
  whatever it held. The body returns the scratch buffers, its four semaphores at zero, nothing owed, the inputs
  untouched and the result block.
-/
import proofs.«900377_g7700000000000378_dist_mla_v7x_xyz2x2x2_y_b2_s256_d1024_dc64_bf16_1_alg».proof.Proof.BodyStmt
import proofs.«900377_g7700000000000378_dist_mla_v7x_xyz2x2x2_y_b2_s256_d1024_dc64_bf16_1_alg».proof.Proof.Launch3

set_option maxRecDepth 16384

noncomputable section

namespace Cert.KernelIdeal.Proto

open Cert.KernelIdeal Cert.KernelIdeal.Gen Cert.KernelIdeal.KOut

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- At the one point every input window has just been fetched, whole: its staging buffer holds its argument block. -/
theorem before_0 (c : Dev nD) (d) : (dats m ρ 0 c).before 0 t0_0 d = xB m c := by
  unfold Dat.before; rw [if_pos (fetch0_0 t0_0)]; rfl
theorem before_1 (c : Dev nD) (d) : (dats m ρ 0 c).before 1 t0_0 d = wdB m c := by
  unfold Dat.before; rw [if_pos (fetch0_1 t0_0)]; rfl
theorem before_2 (c : Dev nD) (d) : (dats m ρ 0 c).before 2 t0_0 d = wukB m c := by
  unfold Dat.before; rw [if_pos (fetch0_2 t0_0)]; rfl
theorem before_3 (c : Dev nD) (d) : (dats m ρ 0 c).before 3 t0_0 d = wuvB m c := by
  unfold Dat.before; rw [if_pos (fetch0_3 t0_0)]; rfl
theorem before_4 (c : Dev nD) (d) : (dats m ρ 0 c).before 4 t0_0 d = wqB m c := by
  unfold Dat.before; rw [if_pos (fetch0_4 t0_0)]; rfl
theorem before_5 (c : Dev nD) (d) : (dats m ρ 0 c).before 5 t0_0 d = wqrB m c := by
  unfold Dat.before; rw [if_pos (fetch0_5 t0_0)]; rfl
theorem before_6 (c : Dev nD) (d) : (dats m ρ 0 c).before 6 t0_0 d = wkrB m c := by
  unfold Dat.before; rw [if_pos (fetch0_6 t0_0)]; rfl
theorem before_7 (c : Dev nD) (d) : (dats m ρ 0 c).before 7 t0_0 d = woB m c := by
  unfold Dat.before; rw [if_pos (fetch0_7 t0_0)]; rfl

/-- What the pipeline hands the body at the one point. -/
def bodyPre' (c : Dev nD) : sProp 𝕄 :=
  iprop(Φ₀ m c ∗ (dats m ρ 0 c).owesAt () t0_0.castSucc
    ∗ (∃ d, stg c cc0_stg0_0 ((dats m ρ 0 c).before (0 : Fin 9) t0_0 d))
    ∗ (∃ d, stg c cc0_stg1_0 ((dats m ρ 0 c).before (1 : Fin 9) t0_0 d))
    ∗ (∃ d, stg c cc0_stg2_0 ((dats m ρ 0 c).before (2 : Fin 9) t0_0 d))
    ∗ (∃ d, stg c cc0_stg3_0 ((dats m ρ 0 c).before (3 : Fin 9) t0_0 d))
    ∗ (∃ d, stg c cc0_stg4_0 ((dats m ρ 0 c).before (4 : Fin 9) t0_0 d))
    ∗ (∃ d, stg c cc0_stg5_0 ((dats m ρ 0 c).before (5 : Fin 9) t0_0 d))
    ∗ (∃ d, stg c cc0_stg6_0 ((dats m ρ 0 c).before (6 : Fin 9) t0_0 d))
    ∗ (∃ d, stg c cc0_stg7_0 ((dats m ρ 0 c).before (7 : Fin 9) t0_0 d))
    ∗ (∃ d, stg c cc0_stg8_0 ((dats m ρ 0 c).before (8 : Fin 9) t0_0 d)))

/-- What it takes back. -/
def bodyPost' (c : Dev nD) : sProp 𝕄 :=
  iprop(Φ₁ c ∗ (dats m ρ 0 c).owesAt () t0_0.succ
    ∗ stg c cc0_stg0_0 (xB m c) ∗ stg c cc0_stg1_0 (wdB m c) ∗ stg c cc0_stg2_0 (wukB m c) ∗ stg c cc0_stg3_0 (wuvB m c)
    ∗ stg c cc0_stg4_0 (wqB m c) ∗ stg c cc0_stg5_0 (wqrB m c) ∗ stg c cc0_stg6_0 (wkrB m c) ∗ stg c cc0_stg7_0 (woB m c)
    ∗ stg c cc0_stg8_0 (outOf m c))

/-- The body's stated post is what the pipeline takes back. -/
theorem post_of (c : Dev nD) : BodyPost m c ⊢ bodyPost' m ρ c := by
  unfold BodyPost bodyPost' Φ₁ Dat.owesAt Pipeline.owesWithin
  rw [View.set_whole, View.set_whole, View.set_whole, View.set_whole, View.set_whole, View.set_whole, View.set_whole, View.set_whole, View.set_whole]
  rw [show (dats m ρ 0 c).owed t0_0.succ = 0 from rfl]
  iintro ⟨Hscr, HS0, HR0, HS1, HR1, ⟨%W', HO⟩, P0, P1, P2, P3, P4, P5, P6, P7, P8⟩
  isplitl [Hscr HS0 HR0 HS1 HR1]
  · isplitl [Hscr]; · iexact Hscr
    isplitl [HS0]; · iexact HS0
    isplitl [HR0]; · iexact HR0
    isplitl [HS1] <;> iassumption
  isplitl [HO]
  · iexists W'; isplitr; · ipureintro; exact fun _ _ => Or.inl trivial
    iexact HO
  isplitl [P0]
  · iexists _; isplitr; · (ipureintro; rfl)
    iexact P0
  isplitl [P1]
  · iexists _; isplitr; · (ipureintro; rfl)
    iexact P1
  isplitl [P2]
  · iexists _; isplitr; · (ipureintro; rfl)
    iexact P2
  isplitl [P3]
  · iexists _; isplitr; · (ipureintro; rfl)
    iexact P3
  isplitl [P4]
  · iexists _; isplitr; · (ipureintro; rfl)
    iexact P4
  isplitl [P5]
  · iexists _; isplitr; · (ipureintro; rfl)
    iexact P5
  isplitl [P6]
  · iexists _; isplitr; · (ipureintro; rfl)
    iexact P6
  isplitl [P7]
  · iexists _; isplitr; · (ipureintro; rfl)
    iexact P7
  iexists _; isplitr; · (ipureintro; rfl)
  iexact P8

/-- The library's body obligation on device c, from the body's statement. -/
theorem body_obligation_of (h : SoundBody (F := F) m) (c : Dev nD) :
    BodyObligation (dats (F := F) m ρ 0 c) (defs₀ (F := F)) 𝒱₀ () Set.univ := fun t => by
  rw [fin_N0 t]
  rw [bigSep_W0, bigSep_W0]
  simp only [owns_whole_eq]
  show bodyPre' m ρ c ⊢ wp frame (wpE (defs₀ (F := F)) 𝒱₀ c none) Set.univ
          (cc0_body (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_stg4_0) (Memref.isWhole_whole _) (Memref.whole cc0_stg5_0) (Memref.isWhole_whole _)
            (Memref.whole cc0_stg6_0) (Memref.isWhole_whole _) (Memref.whole cc0_stg7_0) (Memref.isWhole_whole _)
            (Memref.whole cc0_stg8_0) (Memref.isWhole_whole _)
            (Memref.whole cc0_scratch0) (Memref.isWhole_whole _) (Memref.whole cc0_scratch1) (Memref.isWhole_whole _)
            (Memref.whole cc0_scratch2) (Memref.isWhole_whole _) (Memref.whole cc0_scratch3) (Memref.isWhole_whole _)
            (Memref.whole cc0_scratch4) (Memref.isWhole_whole _) cc0_scratch5 cc0_scratch6) (fun _ => bodyPost' m ρ c)
  unfold bodyPre' Φ₀ start scratch Dat.owesAt Pipeline.owesWithin
  rw [show (dats m ρ 0 c).owed t0_0.castSucc = O₀ c from rfl]
  iintro ⟨⟨⟨⟨%K, Hg⟩, Hc1, Hc2, Hc3, Hlev⟩, ⟨%f0, H0⟩, ⟨%f1, H1⟩, ⟨%f2, H2⟩, ⟨%f3, H3⟩, ⟨%f4, H4⟩⟩, ⟨%W, %hW, HO⟩,
    ⟨%d0, %g0, %e0, Hs0⟩, ⟨%d1, %g1, %e1, Hs1⟩, ⟨%d2, %g2, %e2, Hs2⟩, ⟨%d3, %g3, %e3, Hs3⟩, ⟨%d4, %g4, %e4, Hs4⟩,
    ⟨%d5, %g5, %e5, Hs5⟩, ⟨%d6, %g6, %e6, Hs6⟩, ⟨%d7, %g7, %e7, Hs7⟩, ⟨%d8, %g8, %e8, Hs8⟩⟩
  have e0' : g0 = xB m c := e0.trans (before_0 m ρ c d0)
  have e1' : g1 = wdB m c := e1.trans (before_1 m ρ c d1)
  have e2' : g2 = wukB m c := e2.trans (before_2 m ρ c d2)
  have e3' : g3 = wuvB m c := e3.trans (before_3 m ρ c d3)
  have e4' : g4 = wqB m c := e4.trans (before_4 m ρ c d4)
  have e5' : g5 = wqrB m c := e5.trans (before_5 m ρ c d5)
  have e6' : g6 = wkrB m c := e6.trans (before_6 m ρ c d6)
  have e7' : g7 = woB m c := e7.trans (before_7 m ρ c d7)
  subst e0' e1' e2' e3' e4' e5' e6' e7'
  iapply (wp_mono frame (wpE (defs₀ (F := F)) 𝒱₀ c none) Set.univ (fun _ => post_of m ρ c))
  iapply (h K c W f0 f1 f2 f3 f4 g8)
  unfold BodyPre
  rw [View.set_whole, View.set_whole, View.set_whole, View.set_whole, View.set_whole, View.set_whole, View.set_whole, View.set_whole, View.set_whole]
  isplitl [Hg]; · iexact Hg
  isplitl [Hc1]; · iexact Hc1
  isplitl [Hc2]; · iexact Hc2
  isplitl [Hc3]; · iexact Hc3
  isplitl [Hlev]; · iexact Hlev
  isplitl [H0]; · iexact H0
  isplitl [H1]; · iexact H1
  isplitl [H2]; · iexact H2
  isplitl [H3]; · iexact H3
  isplitl [H4]; · iexact H4
  isplitl [HO]; · iexact HO
  isplitl [Hs0]; · iexact Hs0
  isplitl [Hs1]; · iexact Hs1
  isplitl [Hs2]; · iexact Hs2
  isplitl [Hs3]; · iexact Hs3
  isplitl [Hs4]; · iexact Hs4
  isplitl [Hs5]; · iexact Hs5
  isplitl [Hs6]; · iexact Hs6
  isplitl [Hs7]; · iexact Hs7
  iexact Hs8

/-- From any memory with zero counters, given the body's statement: every weakly fair execution of the eight devices
    terminates, each device's result array ends holding its result block, and its argument arrays end unchanged. -/
theorem run_main_of_sound (h : SoundBody (F := F) m) :
    θ_run defs (onTc (τ := τ) (main (F := F))) ⟨m, fun _ => 0, ρ⟩ (fun r => ∀ c : Dev nD,
      r.2.mem ((c.tc : Thread nD τ).loc main_v1) = outOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  run_main_of_body m ρ (body_obligation_of m ρ h)

end Cert.KernelIdeal.Proto

end
-- ==== Proof.WKOut.lean ====
/-
  What one device's kernel leaves in its result block, as ONE pure term of what the body reads: its own argument
  blocks and the two buffers that arrive from its peer (the peer's half latent and the peer's up-projection rows).

  The up-projection rows a device sends are its Wuk block and its Wuv block side by side (`wcat`); the projection
  operand is Wq, Wqr and Wkr side by side (`projw`) — each the block the stores leave, later store first.
-/
import proofs.«900377_g7700000000000378_dist_mla_v7x_xyz2x2x2_y_b2_s256_d1024_dc64_bf16_1_alg».proof.Proof.Gen.Kernel.Skeleton
import Idealize.ShloMosaic.Lib.Pipeline.Value

noncomputable section

namespace Cert.Kernel.KOut

open Cert.Kernel Cert.Kernel.Gen Idealize.ShloMosaic

variable {F : FTy → Type} [FloatOps F]

/-- [Wuk | Wuv], 64 × 2048: columns below 1024 from the Wuk block, the others from the Wuv block. -/
def wcat (wuk wuv : Vec F S64x1024 .f32) : Vec F S64x2048 .bf16 :=
  View.canon [(⟨Rect.unit (s := S64x2048) ![0, 1024] S64x1024.size inb_S64x2048_S64x1024_0_1024, k0_pay2 wuv⟩ : View.Piece (Elt F) S64x2048 .bf16),
    ⟨Rect.unit (s := S64x2048) ![0, 0] S64x1024.size inb_S64x2048_S64x1024_0_0, k0_pay1 wuk⟩]

/-- [Wq | Wqr | Wkr], 1024 × 1568: columns below 1024 from Wq, below 1536 from Wqr, the last 32 from Wkr. -/
def projw (wq : Vec F S1024x1024 .f32) (wqr : Vec F S1024x512 .f32) (wkr : Vec F S1024x32 .f32) : Vec F S1024x1568 .bf16 :=
  View.canon [(⟨Rect.unit (s := S1024x1568) ![0, 1536] S1024x32.size inb_S1024x1568_S1024x32_0_1536, k0_pay8 wkr⟩ : View.Piece (Elt F) S1024x1568 .bf16),
    ⟨Rect.unit (s := S1024x1568) ![0, 1024] S1024x512.size inb_S1024x1568_S1024x512_0_1024, k0_pay7 wqr⟩,
    ⟨Rect.unit (s := S1024x1568) ![0, 0] S1024x1024.size inb_S1024x1568_S1024x1024_0_0, k0_pay6 (k0_pay5 wq)⟩]

/-- The result block of a device holding `x`, its blocks `wdkv`, `wuk`, `wuv`, and `wq`, `wqr`, `wkr`, `wo`, once
    `crecv` (the peer's half latent) and `wrecv` (the peer's [Wuk | Wuv]) have arrived. -/
def kout (x : Vec F S2x256x1024 .f32) (wdkv : Vec F S1024x64 .f32) (wuk wuv : Vec F S64x1024 .f32)
    (wq : Vec F S1024x1024 .f32) (wqr : Vec F S1024x512 .f32) (wkr : Vec F S1024x32 .f32) (wo : Vec F S1024x1024 .f32)
    (crecv : Vec F S64x512 .bf16) (wrecv : Vec F S64x2048 .bf16) : FVec F S2x256x1024 .f32 :=
  k0_pay18 (k0_pay10 (k0_pay3 x) (projw wq wqr wkr)) (k0_pay13 (k0_pay3 x) (projw wq wqr wkr)) (k0_pay14 (k0_pay3 x) (projw wq wqr wkr))
    (k0_pay16 (k0_pay4 x wdkv) crecv (wcat wuk wuv) wrecv) (k0_pay17 (k0_pay4 x wdkv) crecv (wcat wuk wuv) wrecv) wo

end Cert.Kernel.KOut

end
-- ==== Proof.WProto1.lean ====
/-
  The exchange between a device and its peer — the device that differs from it in the middle mesh coordinate —
  as rounds of semaphore cells. Each device has five cells, each with one round of one duty:
  its barrier cell (one unit, paid by the peer's entry signal, which hands over the peer's two landing buffers and
  the word that the peer's two receive cells are at round 0), and, for each of the two copies (the half latent,
  and the up-projection rows), a send cell (paid by the device's own copy once its source is read; the source
  buffer comes back) and a receive cell (paid by the peer's copy once it has landed; the landing buffer comes
  back holding the peer's rows).
-/
import proofs.«900377_g7700000000000378_dist_mla_v7x_xyz2x2x2_y_b2_s256_d1024_dc64_bf16_1_alg».proof.Proof.Gen.Kernel
import proofs.«900377_g7700000000000378_dist_mla_v7x_xyz2x2x2_y_b2_s256_d1024_dc64_bf16_1_alg».proof.Proof.Gen.Kernel.Skeleton
import proofs.«900377_g7700000000000378_dist_mla_v7x_xyz2x2x2_y_b2_s256_d1024_dc64_bf16_1_alg».proof.Proof.Gen.Kernel.Launch
import proofs.«900377_g7700000000000378_dist_mla_v7x_xyz2x2x2_y_b2_s256_d1024_dc64_bf16_1_alg».proof.Proof.Gen.Kernel.Points
import proofs.«900377_g7700000000000378_dist_mla_v7x_xyz2x2x2_y_b2_s256_d1024_dc64_bf16_1_alg».proof.Proof.Gen.Kernel.Frame
import proofs.«900377_g7700000000000378_dist_mla_v7x_xyz2x2x2_y_b2_s256_d1024_dc64_bf16_1_alg».proof.Proof.WKOut
import Idealize.ShloMosaic.Lib.Pipeline.Launch
import Idealize.ShloMosaic.Lib.Pipeline.Kit
import Idealize.ShloMosaic.Lib.Tactic

set_option maxRecDepth 16384

noncomputable section

namespace Cert.Kernel.Proto

open Cert.Kernel Cert.Kernel.Gen Cert.Kernel.KOut

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy and the exchange's -/

abbrev UB : Type := URounds (GSem nD τ sig) Unit
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The peer -/

/-- The device with the other middle coordinate: `c` is at (c / 4, c / 2 % 2, c % 2). -/
def peer (c : Dev nD) : Dev nD := ⟨(4 * (c.val / 4) + (c.val % 2) + 2) - 2 * ((c.val / 2) % 2), by have h : c.val < 8 := c.isLt; show _ < 8; omega⟩

theorem peer_peer (c : Dev nD) : peer (peer c) = c := by revert c; decide
theorem peer_ne (c : Dev nD) : peer c ≠ c := by revert c; decide

theorem dev1_eq (c : Dev nD) : (⟨k0_dev1 c, k0_dev1_lt c⟩ : Dev nD) = peer c := Fin.ext (k0_dev1_eq c)
theorem dev2_eq (c : Dev nD) : (⟨k0_dev2 c, k0_dev2_lt c⟩ : Dev nD) = peer c := Fin.ext (k0_dev2_eq c)
theorem dev3_eq (c : Dev nD) : (⟨k0_dev3 c, k0_dev3_lt c⟩ : Dev nD) = peer c := Fin.ext (k0_dev3_eq c)

def swap : Dev nD ≃ Dev nD := ⟨peer, peer, peer_peer, peer_peer⟩

/-! ## The memrefs and cells -/

abbrev csM : Memref sig .tc .vmem S64x512 .bf16 := Memref.whole cc0_scratch0
abbrev crM : Memref sig .tc .vmem S64x512 .bf16 := Memref.whole cc0_scratch1
abbrev wsM : Memref sig .tc .vmem S64x2048 .bf16 := Memref.whole cc0_scratch2
abbrev wrM : Memref sig .tc .vmem S64x2048 .bf16 := Memref.whole cc0_scratch3
abbrev pwM : Memref sig .tc .vmem S1024x1568 .bf16 := Memref.whole cc0_scratch4

abbrev barS : Sem sig := (SemArray.scalar (sig.barrier 0 rfl) : Sems sig S_).sem
abbrev sS0 : DmaSem sig := ((cc0_scratch5.slice (Rect.unit (s := S2) ![0] S1.size inb_S2_S1_0)).squeeze S_ squeezes_S1_S_).sem
abbrev sS1 : DmaSem sig := ((cc0_scratch5.slice (Rect.unit (s := S2) ![1] S1.size inb_S2_S1_1)).squeeze S_ squeezes_S1_S_).sem
abbrev sR0 : DmaSem sig := ((cc0_scratch6.slice (Rect.unit (s := S2) ![0] S1.size inb_S2_S1_0)).squeeze S_ squeezes_S1_S_).sem
abbrev sR1 : DmaSem sig := ((cc0_scratch6.slice (Rect.unit (s := S2) ![1] S1.size inb_S2_S1_1)).squeeze S_ squeezes_S1_S_).sem

theorem sS0_eq : sS0 = (9 : DmaSem sig) := by decide
theorem sS1_eq : sS1 = (10 : DmaSem sig) := by decide
theorem sR0_eq : sR0 = (11 : DmaSem sig) := by decide
theorem sR1_eq : sR1 = (12 : DmaSem sig) := by decide

/-- All five of a device's cells, as this proof indexes them: barrier, send 0, receive 0, send 1, receive 1. -/
abbrev csem : Fin 5 → SemLoc sig := fun | 0 => .reg barS | 1 => .dma sS0 | 2 => .dma sR0 | 3 => .dma sS1 | 4 => .dma sR1
/-- The kernel's own (scoped) semaphores, as the launch theorem indexes them. -/
abbrev osem : Fin 4 → SemLoc sig := fun | 0 => .dma sS0 | 1 => .dma sR0 | 2 => .dma sS1 | 3 => .dma sR1
abbrev kcell (ck : Dev nD × Fin 5) : GSem nD τ sig := ((ck.1 : Thread nD τ), csem ck.2)

abbrev barCell (c : Dev nD) : GSem nD τ sig := ((c : Thread nD τ), .reg barS)
abbrev snd0Cell (c : Dev nD) : GSem nD τ sig := ((c : Thread nD τ), .dma sS0)
abbrev rcv0Cell (c : Dev nD) : GSem nD τ sig := ((c : Thread nD τ), .dma sR0)
abbrev snd1Cell (c : Dev nD) : GSem nD τ sig := ((c : Thread nD τ), .dma sS1)
abbrev rcv1Cell (c : Dev nD) : GSem nD τ sig := ((c : Thread nD τ), .dma sR1)

abbrev N0 : ℕ := (crM : Memref sig .tc .vmem S64x512 .bf16).view.dmaCredit
abbrev N1 : ℕ := (wrM : Memref sig .tc .vmem S64x2048 .bf16).view.dmaCredit
theorem N0_pos : 0 < N0 := View.dmaCredit_pos _ (by decide)
theorem N1_pos : 0 < N1 := View.dmaCredit_pos _ (by decide)

theorem csem_injective : Function.Injective csem := by decide

end Cert.Kernel.Proto

end
-- ==== Proof.WProto2.lean ====
/-
  The exchange's schedule: what each of a device's five cells is paid, by whom, and what the payment hands the
  device; what a device owes its peer at launch; and the levels that order the waits (a barrier cell below the
  receive cells, everything else at the bottom), so that no wait can be part of a cycle.
-/
import proofs.«900377_g7700000000000378_dist_mla_v7x_xyz2x2x2_y_b2_s256_d1024_dc64_bf16_1_alg».proof.Proof.WProto1

set_option maxRecDepth 16384

noncomputable section

namespace Cert.Kernel.Proto

open Cert.Kernel Cert.Kernel.Gen Cert.Kernel.KOut

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Contents: a device's argument blocks as it finds them staged, and what it sends -/

def xB (c : Dev nD) : Vec F S2x256x1024 .f32 := (win0_0.blk (0 : Fin 1)).view.read (Elt F) (m ((c : Thread nD τ).loc main_arg0))
def wdB (c : Dev nD) : Vec F S1024x64 .f32 := (win0_1.blk (0 : Fin 1)).view.read (Elt F) (m ((c : Thread nD τ).loc main_arg1))
def wukB (c : Dev nD) : Vec F S64x1024 .f32 := (win0_2.blk (0 : Fin 1)).view.read (Elt F) (m ((c : Thread nD τ).loc main_arg2))
def wuvB (c : Dev nD) : Vec F S64x1024 .f32 := (win0_3.blk (0 : Fin 1)).view.read (Elt F) (m ((c : Thread nD τ).loc main_arg3))
def wqB (c : Dev nD) : Vec F S1024x1024 .f32 := (win0_4.blk (0 : Fin 1)).view.read (Elt F) (m ((c : Thread nD τ).loc main_arg4))
def wqrB (c : Dev nD) : Vec F S1024x512 .f32 := (win0_5.blk (0 : Fin 1)).view.read (Elt F) (m ((c : Thread nD τ).loc main_arg5))
def wkrB (c : Dev nD) : Vec F S1024x32 .f32 := (win0_6.blk (0 : Fin 1)).view.read (Elt F) (m ((c : Thread nD τ).loc main_arg6))
def woB (c : Dev nD) : Vec F S1024x1024 .f32 := (win0_7.blk (0 : Fin 1)).view.read (Elt F) (m ((c : Thread nD τ).loc main_arg7))

/-- The half latent device `c` computes and sends. -/
def csOf (c : Dev nD) : Vec F S64x512 .bf16 := k0_pay4 (xB m c) (wdB m c)
/-- The up-projection rows device `c` holds and sends: its Wuk block and its Wuv block side by side. -/
def wsOf (c : Dev nD) : Vec F S64x2048 .bf16 := wcat (wukB m c) (wuvB m c)
/-- The result block device `c` ends with. -/
def outOf (c : Dev nD) : Vec F S2x256x1024 .f32 :=
  kout (xB m c) (wdB m c) (wukB m c) (wuvB m c) (wqB m c) (wqrB m c) (wkrB m c) (woB m c) (csOf m (peer c)) (wsOf m (peer c))

/-! ## Ownership of the four exchanged buffers -/

def csPts (c : Dev nD) (f : Buf (Elt F) ((csM : Memref sig .tc .vmem S64x512 .bf16).view.loc (c : Thread nD τ))) : sProp 𝕄 :=
  (csM : Memref sig .tc .vmem S64x512 .bf16).view.loc (c : Thread nD τ) ↦[(csM : Memref sig .tc .vmem S64x512 .bf16).view.set]{fullShare} f
def crPts (c : Dev nD) (f : Buf (Elt F) ((crM : Memref sig .tc .vmem S64x512 .bf16).view.loc (c : Thread nD τ))) : sProp 𝕄 :=
  (crM : Memref sig .tc .vmem S64x512 .bf16).view.loc (c : Thread nD τ) ↦[(crM : Memref sig .tc .vmem S64x512 .bf16).view.set]{fullShare} f
def wsPts (c : Dev nD) (f : Buf (Elt F) ((wsM : Memref sig .tc .vmem S64x2048 .bf16).view.loc (c : Thread nD τ))) : sProp 𝕄 :=
  (wsM : Memref sig .tc .vmem S64x2048 .bf16).view.loc (c : Thread nD τ) ↦[(wsM : Memref sig .tc .vmem S64x2048 .bf16).view.set]{fullShare} f
def wrPts (c : Dev nD) (f : Buf (Elt F) ((wrM : Memref sig .tc .vmem S64x2048 .bf16).view.loc (c : Thread nD τ))) : sProp 𝕄 :=
  (wrM : Memref sig .tc .vmem S64x2048 .bf16).view.loc (c : Thread nD τ) ↦[(wrM : Memref sig .tc .vmem S64x2048 .bf16).view.set]{fullShare} f

instance csPts_storable (c : Dev nD) (f) : BI.Storable (upEmb : UEmb _ 𝕄) (csPts (F := F) c f) := by unfold csPts; infer_instance
instance crPts_storable (c : Dev nD) (f) : BI.Storable (upEmb : UEmb _ 𝕄) (crPts (F := F) c f) := by unfold crPts; infer_instance
instance wsPts_storable (c : Dev nD) (f) : BI.Storable (upEmb : UEmb _ 𝕄) (wsPts (F := F) c f) := by unfold wsPts; infer_instance
instance wrPts_storable (c : Dev nD) (f) : BI.Storable (upEmb : UEmb _ 𝕄) (wrPts (F := F) c f) := by unfold wrPts; infer_instance

theorem csPts_eq (c : Dev nD) (f : Buf (Elt F) ((c : Thread nD τ).loc cc0_scratch0)) : csPts c f = (((c : Thread nD τ).loc cc0_scratch0) ↦{fullShare} f : sProp 𝕄) := by unfold csPts; rw [View.set_whole]
theorem crPts_eq (c : Dev nD) (f : Buf (Elt F) ((c : Thread nD τ).loc cc0_scratch1)) : crPts c f = (((c : Thread nD τ).loc cc0_scratch1) ↦{fullShare} f : sProp 𝕄) := by unfold crPts; rw [View.set_whole]
theorem wsPts_eq (c : Dev nD) (f : Buf (Elt F) ((c : Thread nD τ).loc cc0_scratch2)) : wsPts c f = (((c : Thread nD τ).loc cc0_scratch2) ↦{fullShare} f : sProp 𝕄) := by unfold wsPts; rw [View.set_whole]
theorem wrPts_eq (c : Dev nD) (f : Buf (Elt F) ((c : Thread nD τ).loc cc0_scratch3)) : wrPts c f = (((c : Thread nD τ).loc cc0_scratch3) ↦{fullShare} f : sProp 𝕄) := by unfold wrPts; rw [View.set_whole]

/-! ## The schedule -/

/-- What the peer's entry signal hands device `c`: the peer's two landing buffers, and that the peer's two receive
    cells are at round 0 — what the two copies into the peer need. -/
def barPay (c : Dev nD) : sProp 𝕄 :=
  iprop((∃ f, crPts (peer c) f) ∗ (∃ f, wrPts (peer c) f) ∗ reached ER (rcv0Cell (peer c)) 0 ∗ reached ER (rcv1Cell (peer c)) 0)

abbrev IsEx (g : GSem nD τ sig) : Prop :=
  g.1.2 = .tc ∧ (g.2 = .reg barS ∨ g.2 = .dma sS0 ∨ g.2 = .dma sR0 ∨ g.2 = .dma sS1 ∨ g.2 = .dma sR1)

/-- One round, round 0, one duty per cell. -/
def ex : Rounds.Schedule (GSem nD τ sig) Unit 𝕄 where
  duties g r := if r = 0 ∧ IsEx g then {()} else ∅
  unitless _ := False
  amount g _ _ := if g.2 = .reg barS then 1 else if (g.2 = .dma sS0 ∨ g.2 = .dma sR0) then N0 else N1
  payload g _ _ :=
    if g.2 = .reg barS then barPay g.1.1
    else if g.2 = .dma sS0 then csPts g.1.1 (csOf m g.1.1)
    else if g.2 = .dma sR0 then crPts g.1.1 (csOf m (peer g.1.1))
    else if g.2 = .dma sS1 then wsPts g.1.1 (wsOf m g.1.1)
    else if g.2 = .dma sR1 then wrPts g.1.1 (wsOf m (peer g.1.1))
    else iprop(emp)
  amount_pos g _ _ _ := by
    by_cases h : g.2 = .reg barS
    · rw [if_pos h]; exact Nat.one_pos
    · rw [if_neg h]; split
      · exact N0_pos
      · exact N1_pos

instance ex_payload_storable (g : GSem nD τ sig) (r : ℕ) (d : Unit) :
    BI.Storable (upEmb : UEmb _ 𝕄) ((ex (F := F) m).payload g r d) := by
  show BI.Storable upEmb (if g.2 = .reg barS then barPay g.1.1
    else if g.2 = .dma sS0 then csPts g.1.1 (csOf m g.1.1)
    else if g.2 = .dma sR0 then crPts g.1.1 (csOf m (peer g.1.1))
    else if g.2 = .dma sS1 then wsPts g.1.1 (wsOf m g.1.1)
    else if g.2 = .dma sR1 then wrPts g.1.1 (wsOf m (peer g.1.1))
    else iprop(emp))
  unfold barPay
  (repeat' split) <;> infer_instance

section Sched
variable (c : Dev nD)

theorem s0_ne_bar : (SemLoc.dma sS0 : SemLoc sig) ≠ .reg barS := fun h => by cases h
theorem r0_ne_bar : (SemLoc.dma sR0 : SemLoc sig) ≠ .reg barS := fun h => by cases h
theorem s1_ne_bar : (SemLoc.dma sS1 : SemLoc sig) ≠ .reg barS := fun h => by cases h
theorem r1_ne_bar : (SemLoc.dma sR1 : SemLoc sig) ≠ .reg barS := fun h => by cases h
theorem r0_ne_s0 : (SemLoc.dma sR0 : SemLoc sig) ≠ .dma sS0 := by decide
theorem s1_ne_s0 : (SemLoc.dma sS1 : SemLoc sig) ≠ .dma sS0 := by decide
theorem r1_ne_s0 : (SemLoc.dma sR1 : SemLoc sig) ≠ .dma sS0 := by decide
theorem s1_ne_r0 : (SemLoc.dma sS1 : SemLoc sig) ≠ .dma sR0 := by decide
theorem r1_ne_r0 : (SemLoc.dma sR1 : SemLoc sig) ≠ .dma sR0 := by decide
theorem r1_ne_s1 : (SemLoc.dma sR1 : SemLoc sig) ≠ .dma sS1 := by decide

theorem duties_cell (k : Fin 5) : (ex (F := F) m).duties (kcell (c, k)) 0 = {()} := by
  dsimp only [ex]; refine if_pos ⟨rfl, rfl, ?_⟩
  fin_cases k
  · exact .inl rfl
  · exact .inr (.inl rfl)
  · exact .inr (.inr (.inl rfl))
  · exact .inr (.inr (.inr (.inl rfl)))
  · exact .inr (.inr (.inr (.inr rfl)))
theorem duties_bar : (ex (F := F) m).duties (barCell c) 0 = {()} := duties_cell m c 0
theorem duties_snd0 : (ex (F := F) m).duties (snd0Cell c) 0 = {()} := duties_cell m c 1
theorem duties_rcv0 : (ex (F := F) m).duties (rcv0Cell c) 0 = {()} := duties_cell m c 2
theorem duties_snd1 : (ex (F := F) m).duties (snd1Cell c) 0 = {()} := duties_cell m c 3
theorem duties_rcv1 : (ex (F := F) m).duties (rcv1Cell c) 0 = {()} := duties_cell m c 4
theorem duties_later (g : GSem nD τ sig) : ∀ r, 1 ≤ r → (ex (F := F) m).duties g r = ∅ :=
  fun r hr => by dsimp only [ex]; rw [if_neg fun h => by omega]

theorem amount_bar (d : Unit) : (ex (F := F) m).amount (barCell c) 0 d = 1 := by dsimp only [ex]; exact if_pos rfl
theorem amount_snd0 (d : Unit) : (ex (F := F) m).amount (snd0Cell c) 0 d = N0 := by
  dsimp only [ex]; rw [if_neg s0_ne_bar]; exact if_pos (.inl rfl)
theorem amount_rcv0 (d : Unit) : (ex (F := F) m).amount (rcv0Cell c) 0 d = N0 := by
  dsimp only [ex]; rw [if_neg r0_ne_bar]; exact if_pos (.inr rfl)
theorem amount_snd1 (d : Unit) : (ex (F := F) m).amount (snd1Cell c) 0 d = N1 := by
  dsimp only [ex]; rw [if_neg s1_ne_bar]; exact if_neg (fun h => h.elim s1_ne_s0 s1_ne_r0)
theorem amount_rcv1 (d : Unit) : (ex (F := F) m).amount (rcv1Cell c) 0 d = N1 := by
  dsimp only [ex]; rw [if_neg r1_ne_bar]; exact if_neg (fun h => h.elim r1_ne_s0 r1_ne_r0)

theorem expect_bar : (ex (F := F) m).expect (barCell c) 0 = 1 := by
  unfold Schedule.expect Schedule.amountOf; rw [duties_bar, Finset.sum_singleton, amount_bar]
theorem expect_snd0 : (ex (F := F) m).expect (snd0Cell c) 0 = N0 := by
  unfold Schedule.expect Schedule.amountOf; rw [duties_snd0, Finset.sum_singleton, amount_snd0]
theorem expect_rcv0 : (ex (F := F) m).expect (rcv0Cell c) 0 = N0 := by
  unfold Schedule.expect Schedule.amountOf; rw [duties_rcv0, Finset.sum_singleton, amount_rcv0]
theorem expect_snd1 : (ex (F := F) m).expect (snd1Cell c) 0 = N1 := by
  unfold Schedule.expect Schedule.amountOf; rw [duties_snd1, Finset.sum_singleton, amount_snd1]
theorem expect_rcv1 : (ex (F := F) m).expect (rcv1Cell c) 0 = N1 := by
  unfold Schedule.expect Schedule.amountOf; rw [duties_rcv1, Finset.sum_singleton, amount_rcv1]

theorem payload_bar (d : Unit) : (ex (F := F) m).payload (barCell c) 0 d = barPay c := by dsimp only [ex]; rw [if_pos rfl]
theorem payload_snd0 (d : Unit) : (ex (F := F) m).payload (snd0Cell c) 0 d = csPts c (csOf m c) := by
  dsimp only [ex]; rw [if_neg s0_ne_bar, if_pos rfl]
theorem payload_rcv0 (d : Unit) : (ex (F := F) m).payload (rcv0Cell c) 0 d = crPts c (csOf m (peer c)) := by
  dsimp only [ex]; rw [if_neg r0_ne_bar, if_neg r0_ne_s0, if_pos rfl]
theorem payload_snd1 (d : Unit) : (ex (F := F) m).payload (snd1Cell c) 0 d = wsPts c (wsOf m c) := by
  dsimp only [ex]; rw [if_neg s1_ne_bar, if_neg s1_ne_s0, if_neg s1_ne_r0, if_pos rfl]
theorem payload_rcv1 (d : Unit) : (ex (F := F) m).payload (rcv1Cell c) 0 d = wrPts c (wsOf m (peer c)) := by
  dsimp only [ex]; rw [if_neg r1_ne_bar, if_neg r1_ne_s0, if_neg r1_ne_r0, if_neg r1_ne_s1, if_pos rfl]

theorem rest_bar : bigSep ((ex (F := F) m).duties (barCell c) 0 \ ∅) (fun d => (ex (F := F) m).payload (barCell c) 0 d) = barPay c := by
  rw [Finset.sdiff_empty, duties_bar, bigSep_singleton, payload_bar]
theorem rest_snd0 : bigSep ((ex (F := F) m).duties (snd0Cell c) 0 \ ∅) (fun d => (ex (F := F) m).payload (snd0Cell c) 0 d) = csPts c (csOf m c) := by
  rw [Finset.sdiff_empty, duties_snd0, bigSep_singleton, payload_snd0]
theorem rest_rcv0 : bigSep ((ex (F := F) m).duties (rcv0Cell c) 0 \ ∅) (fun d => (ex (F := F) m).payload (rcv0Cell c) 0 d) = crPts c (csOf m (peer c)) := by
  rw [Finset.sdiff_empty, duties_rcv0, bigSep_singleton, payload_rcv0]
theorem rest_snd1 : bigSep ((ex (F := F) m).duties (snd1Cell c) 0 \ ∅) (fun d => (ex (F := F) m).payload (snd1Cell c) 0 d) = wsPts c (wsOf m c) := by
  rw [Finset.sdiff_empty, duties_snd1, bigSep_singleton, payload_snd1]
theorem rest_rcv1 : bigSep ((ex (F := F) m).duties (rcv1Cell c) 0 \ ∅) (fun d => (ex (F := F) m).payload (rcv1Cell c) 0 d) = wrPts c (wsOf m (peer c)) := by
  rw [Finset.sdiff_empty, duties_rcv1, bigSep_singleton, payload_rcv1]

end Sched

/-! ## What each device owes at launch; the levels -/

/-- After its entry signal a device still owes its peer's two receive cells their copies' credit. -/
def O₁ (c : Dev nD) : CellTallies nD τ sig Unit := tallyAt (rcv0Cell (peer c)) () N0 + tallyAt (rcv1Cell (peer c)) () N1
/-- At launch it owes the peer's barrier cell one unit besides. -/
def O₀ (c : Dev nD) : CellTallies nD τ sig Unit := O₁ c + tallyAt (barCell (peer c)) () 1

def L (g : GSem nD τ sig) : Finset Unit := if g.1.2 = .tc then {()} else ∅
/-- Barrier cells at 1, receive cells at 2, everything else (staging, send) at 0. -/
def lv (g : GSem nD τ sig) (_ : Unit) : ℕ := if g.2 = .reg barS then 1 else if (g.2 = .dma sR0 ∨ g.2 = .dma sR1) then 2 else 0

theorem L_of_ne (g : GSem nD τ sig) (h : g.1.2 ≠ .tc) : L g = ∅ := if_neg h
theorem L_tc (c : Dev nD) (sm : SemLoc sig) : L ((c : Thread nD τ), sm) = {()} := if_pos rfl

theorem O₁_pos {c : Dev nD} {g : GSem nD τ sig} {u : Unit} (h : 0 < O₁ c g u) :
    g = rcv0Cell (peer c) ∨ g = rcv1Cell (peer c) := by
  unfold O₁ at h
  rw [Pi.add_apply, Finsupp.add_apply, tallyAt_apply, tallyAt_apply] at h
  by_contra hn
  rw [not_or] at hn
  rw [if_neg (fun h' => hn.1 h'.1), if_neg (fun h' => hn.2 h'.1)] at h
  exact Nat.lt_irrefl 0 h

theorem O₀_pos {c : Dev nD} {g : GSem nD τ sig} {u : Unit} (h : 0 < O₀ c g u) :
    g = rcv0Cell (peer c) ∨ g = rcv1Cell (peer c) ∨ g = barCell (peer c) := by
  unfold O₀ at h
  rw [Pi.add_apply, Finsupp.add_apply, tallyAt_apply] at h
  by_cases hb : g = barCell (peer c) ∧ u = ()
  · exact .inr (.inr hb.1)
  · rw [if_neg hb, Nat.add_zero] at h
    rcases O₁_pos h with h | h
    · exact .inl h
    · exact .inr (.inl h)

theorem lv_rcv0 (c : Dev nD) (u : Unit) : lv (rcv0Cell c) u = 2 := by dsimp only [lv]; rw [if_neg r0_ne_bar, if_pos (.inl rfl)]
theorem lv_rcv1 (c : Dev nD) (u : Unit) : lv (rcv1Cell c) u = 2 := by dsimp only [lv]; rw [if_neg r1_ne_bar, if_pos (.inr rfl)]
theorem lv_bar (c : Dev nD) (u : Unit) : lv (barCell c) u = 1 := by dsimp only [lv]; rw [if_pos rfl]

/-- A wait on a staging, send or other bottom-level DMA cell, owing everything or nothing. -/
theorem mayWait_low (c : Dev nD) (q : DmaSem sig) (hq0 : SemLoc.dma q ≠ .dma sR0) (hq1 : SemLoc.dma q ≠ .dma sR1) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with rfl | rfl | rfl <;> exact Finset.mem_singleton_self _)
      (fun p hp => by rw [Finset.mem_singleton.mp hp]; dsimp only [lv]; rw [if_neg (fun h => by cases h), if_neg (fun h => h.elim hq0 hq1)])
      (fun g u hg => by
        rcases O₀_pos hg with rfl | rfl | rfl
        · rw [lv_rcv0]; decide
        · rw [lv_rcv1]; decide
        · rw [lv_bar]; decide)
  · rw [MayWait_zero]; iintro -; iempintro

/-- At its barrier wait a device owes its peer's receive credit only: receive cells, above its barrier cell. -/
theorem mayWait_bar (c : Dev nD) :
    (levAts L lv : sProp 𝕄) ⊢ MayWait (c : Thread nD τ) (.reg barS) () (O₁ c) :=
  MayOwe.of_cut (L := L) (lev := lv) 1 (fun p hp => by rw [Finset.mem_singleton.mp hp, L_tc]; exact Finset.mem_singleton_self _)
    (fun g u hg => by rcases O₁_pos hg with rfl | rfl <;> exact Finset.mem_singleton_self _)
    (fun p hp => by rw [Finset.mem_singleton.mp hp]; exact le_of_eq (lv_bar c _))
    (fun g u hg => by
      rcases O₁_pos hg with rfl | rfl
      · rw [lv_rcv0]; decide
      · rw [lv_rcv1]; decide)

end Cert.Kernel.Proto

end
-- ==== Proof.WProto3.lean ====
/-
  The proof data of the one grid point: what each staging buffer holds after the body, the invariant before and
  after the point (the ghost state of the exchange, the five scratch buffers, the four own semaphores), and
  what the device owes before (everything) and after (nothing).
-/
import proofs.«900377_g7700000000000378_dist_mla_v7x_xyz2x2x2_y_b2_s256_d1024_dc64_bf16_1_alg».proof.Proof.WProto2

set_option maxRecDepth 16384

noncomputable section

namespace Cert.Kernel.Proto

open Cert.Kernel Cert.Kernel.Gen Cert.Kernel.KOut

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

def pwPts (c : Dev nD) (f : Buf (Elt F) ((pwM : Memref sig .tc .vmem S1024x1568 .bf16).view.loc (c : Thread nD τ))) : sProp 𝕄 :=
  (pwM : Memref sig .tc .vmem S1024x1568 .bf16).view.loc (c : Thread nD τ) ↦[(pwM : Memref sig .tc .vmem S1024x1568 .bf16).view.set]{fullShare} f
theorem pwPts_eq (c : Dev nD) (f : Buf (Elt F) ((c : Thread nD τ).loc cc0_scratch4)) : pwPts c f = (((c : Thread nD τ).loc cc0_scratch4) ↦{fullShare} f : sProp 𝕄) := by unfold pwPts; rw [View.set_whole]

/-- The cells' invariants device `c`'s body opens, under the names `K` the launch allocated them at: its own five,
    and its peer's barrier and two receive cells. -/
def invs (K : Dev nD × Fin 5 → ℕ) (c : Dev nD) : sProp 𝕄 :=
  iprop(cellInv ER (ex m) (K (c, 0)) (barCell c) ∗ cellInv ER (ex m) (K (c, 1)) (snd0Cell c) ∗ cellInv ER (ex m) (K (c, 2)) (rcv0Cell c)
    ∗ cellInv ER (ex m) (K (c, 3)) (snd1Cell c) ∗ cellInv ER (ex m) (K (c, 4)) (rcv1Cell c)
    ∗ cellInv ER (ex m) (K (peer c, 0)) (barCell (peer c)) ∗ cellInv ER (ex m) (K (peer c, 2)) (rcv0Cell (peer c))
    ∗ cellInv ER (ex m) (K (peer c, 4)) (rcv1Cell (peer c)))

instance invs_persistent (K : Dev nD × Fin 5 → ℕ) (c : Dev nD) : BI.Persistent (invs m K c) := by unfold invs; infer_instance

/-- The exchange's ghost state device `c` starts from: the invariants; its positions at round 0 of its five cells;
    the reached-marks of the cells it pays and of its own send and receive cells; the five duty tokens it pays with. -/
def ghost (K : Dev nD × Fin 5 → ℕ) (c : Dev nD) : sProp 𝕄 :=
  iprop(invs m K c
    ∗ atPos ER (barCell c) 0 ∅ 0 ∗ atPos ER (snd0Cell c) 0 ∅ 0 ∗ atPos ER (rcv0Cell c) 0 ∅ 0 ∗ atPos ER (snd1Cell c) 0 ∅ 0 ∗ atPos ER (rcv1Cell c) 0 ∅ 0
    ∗ reached ER (barCell (peer c)) 0 ∗ reached ER (rcv0Cell (peer c)) 0 ∗ reached ER (rcv1Cell (peer c)) 0
    ∗ reached ER (snd0Cell c) 0 ∗ reached ER (rcv0Cell c) 0 ∗ reached ER (snd1Cell c) 0 ∗ reached ER (rcv1Cell c) 0
    ∗ dutyTok ER (barCell (peer c)) 0 () ∗ dutyTok ER (rcv0Cell (peer c)) 0 () ∗ dutyTok ER (rcv1Cell (peer c)) 0 ()
    ∗ dutyTok ER (snd0Cell c) 0 () ∗ dutyTok ER (snd1Cell c) 0 ())

/-- What device `c`'s body starts from: that at some names, its three credit tokens and the level facts. -/
def start (c : Dev nD) : sProp 𝕄 :=
  iprop((∃ K, ghost m K c) ∗ cred (tallyAt (barCell c) () 1) ∗ cred (tallyAt (rcv0Cell c) () N0) ∗ cred (tallyAt (rcv1Cell c) () N1) ∗ levAts L lv)

def scratch (c : Dev nD) : sProp 𝕄 :=
  iprop((∃ f, csPts c f) ∗ (∃ f, crPts c f) ∗ (∃ f, wsPts c f) ∗ (∃ f, wrPts c f) ∗ (∃ f, pwPts c f))

def Φ₀ (c : Dev nD) : sProp 𝕄 := iprop(start m c ∗ scratch c)
/-- After the point: the scratch buffers, and the four own cells at zero, closed. -/
def Φ₁ (c : Dev nD) : sProp 𝕄 :=
  iprop(scratch c ∗ semVal (snd0Cell c) 0 ∗ semVal (rcv0Cell c) 0 ∗ semVal (snd1Cell c) 0 ∗ semVal (rcv1Cell c) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xB m c
    | ⟨1, _⟩ => wdB m c
    | ⟨2, _⟩ => wukB m c
    | ⟨3, _⟩ => wuvB m c
    | ⟨4, _⟩ => wqB m c
    | ⟨5, _⟩ => wqrB m c
    | ⟨6, _⟩ => wkrB m c
    | ⟨7, _⟩ => woB m c
    | ⟨8, _⟩ => outOf m c
  Φ t := match t with
    | ⟨0, _⟩ => Φ₀ m c
    | ⟨_ + 1, _⟩ => Φ₁ c
  q _ := fullShare
  owed t := match t with
    | ⟨0, _⟩ => O₀ c
    | ⟨_ + 1, _⟩ => 0

abbrev 𝒱₀ : Variants := Variants.none

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

end Cert.Kernel.Proto

end
-- ==== Proof.WBodyStmt.lean ====
/-
  What the body of the one grid point is proved to do, stated once: from the exchange's ghost state, the launch
  credit, the five scratch buffers at any contents, everything still owed, and the nine staged blocks, it runs
  to the scratch buffers at some contents, the four own semaphores back at zero, nothing owed, the eight input
  blocks as they were and the result block holding the device's result.
-/
import proofs.«900377_g7700000000000378_dist_mla_v7x_xyz2x2x2_y_b2_s256_d1024_dc64_bf16_1_alg».proof.Proof.WProto3

set_option maxRecDepth 16384

noncomputable section

namespace Cert.Kernel.Proto

open Cert.Kernel Cert.Kernel.Gen Cert.Kernel.KOut

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

def BodyPre (K : Dev nD × Fin 5 → ℕ) (c : Dev nD) (W : Waits sig Unit)
    (f0 : Buf (Elt F) ((c : Thread nD τ).loc cc0_scratch0)) (f1 : Buf (Elt F) ((c : Thread nD τ).loc cc0_scratch1))
    (f2 : Buf (Elt F) ((c : Thread nD τ).loc cc0_scratch2)) (f3 : Buf (Elt F) ((c : Thread nD τ).loc cc0_scratch3))
    (f4 : Buf (Elt F) ((c : Thread nD τ).loc cc0_scratch4)) (g8 : Buf (Elt F) ((c : Thread nD τ).loc cc0_stg8_0)) : sProp 𝕄 :=
  iprop(ghost m K c ∗ cred (tallyAt (barCell c) () 1) ∗ cred (tallyAt (rcv0Cell c) () N0) ∗ cred (tallyAt (rcv1Cell c) () N1) ∗ levAts L lv
        ∗ csPts c f0 ∗ crPts c f1 ∗ wsPts c f2 ∗ wrPts c f3 ∗ pwPts c f4
        ∗ owes (c : Thread nD τ) (O₀ c) W
        ∗ ((Memref.whole cc0_stg0_0 : Memref sig .tc .vmem S2x256x1024 .f32).view.loc (c : Thread nD τ) ↦[(Memref.whole cc0_stg0_0 : Memref sig .tc .vmem S2x256x1024 .f32).view.set]{fullShare} xB m c)
        ∗ ((Memref.whole cc0_stg1_0 : Memref sig .tc .vmem S1024x64 .f32).view.loc (c : Thread nD τ) ↦[(Memref.whole cc0_stg1_0 : Memref sig .tc .vmem S1024x64 .f32).view.set]{fullShare} wdB m c)
        ∗ ((Memref.whole cc0_stg2_0 : Memref sig .tc .vmem S64x1024 .f32).view.loc (c : Thread nD τ) ↦[(Memref.whole cc0_stg2_0 : Memref sig .tc .vmem S64x1024 .f32).view.set]{fullShare} wukB m c)
        ∗ ((Memref.whole cc0_stg3_0 : Memref sig .tc .vmem S64x1024 .f32).view.loc (c : Thread nD τ) ↦[(Memref.whole cc0_stg3_0 : Memref sig .tc .vmem S64x1024 .f32).view.set]{fullShare} wuvB m c)
        ∗ ((Memref.whole cc0_stg4_0 : Memref sig .tc .vmem S1024x1024 .f32).view.loc (c : Thread nD τ) ↦[(Memref.whole cc0_stg4_0 : Memref sig .tc .vmem S1024x1024 .f32).view.set]{fullShare} wqB m c)
        ∗ ((Memref.whole cc0_stg5_0 : Memref sig .tc .vmem S1024x512 .f32).view.loc (c : Thread nD τ) ↦[(Memref.whole cc0_stg5_0 : Memref sig .tc .vmem S1024x512 .f32).view.set]{fullShare} wqrB m c)
        ∗ ((Memref.whole cc0_stg6_0 : Memref sig .tc .vmem S1024x32 .f32).view.loc (c : Thread nD τ) ↦[(Memref.whole cc0_stg6_0 : Memref sig .tc .vmem S1024x32 .f32).view.set]{fullShare} wkrB m c)
        ∗ ((Memref.whole cc0_stg7_0 : Memref sig .tc .vmem S1024x1024 .f32).view.loc (c : Thread nD τ) ↦[(Memref.whole cc0_stg7_0 : Memref sig .tc .vmem S1024x1024 .f32).view.set]{fullShare} woB m c)
        ∗ ((Memref.whole cc0_stg8_0 : Memref sig .tc .vmem S2x256x1024 .f32).view.loc (c : Thread nD τ) ↦[(Memref.whole cc0_stg8_0 : Memref sig .tc .vmem S2x256x1024 .f32).view.set]{fullShare} g8))

def BodyPost (c : Dev nD) : sProp 𝕄 :=
  iprop(scratch c ∗ semVal (snd0Cell c) 0 ∗ semVal (rcv0Cell c) 0 ∗ semVal (snd1Cell c) 0 ∗ semVal (rcv1Cell c) 0
        ∗ (∃ W' : Waits sig Unit, owes (c : Thread nD τ) 0 W')
        ∗ ((Memref.whole cc0_stg0_0 : Memref sig .tc .vmem S2x256x1024 .f32).view.loc (c : Thread nD τ) ↦[(Memref.whole cc0_stg0_0 : Memref sig .tc .vmem S2x256x1024 .f32).view.set]{fullShare} xB m c)
        ∗ ((Memref.whole cc0_stg1_0 : Memref sig .tc .vmem S1024x64 .f32).view.loc (c : Thread nD τ) ↦[(Memref.whole cc0_stg1_0 : Memref sig .tc .vmem S1024x64 .f32).view.set]{fullShare} wdB m c)
        ∗ ((Memref.whole cc0_stg2_0 : Memref sig .tc .vmem S64x1024 .f32).view.loc (c : Thread nD τ) ↦[(Memref.whole cc0_stg2_0 : Memref sig .tc .vmem S64x1024 .f32).view.set]{fullShare} wukB m c)
        ∗ ((Memref.whole cc0_stg3_0 : Memref sig .tc .vmem S64x1024 .f32).view.loc (c : Thread nD τ) ↦[(Memref.whole cc0_stg3_0 : Memref sig .tc .vmem S64x1024 .f32).view.set]{fullShare} wuvB m c)
        ∗ ((Memref.whole cc0_stg4_0 : Memref sig .tc .vmem S1024x1024 .f32).view.loc (c : Thread nD τ) ↦[(Memref.whole cc0_stg4_0 : Memref sig .tc .vmem S1024x1024 .f32).view.set]{fullShare} wqB m c)
        ∗ ((Memref.whole cc0_stg5_0 : Memref sig .tc .vmem S1024x512 .f32).view.loc (c : Thread nD τ) ↦[(Memref.whole cc0_stg5_0 : Memref sig .tc .vmem S1024x512 .f32).view.set]{fullShare} wqrB m c)
        ∗ ((Memref.whole cc0_stg6_0 : Memref sig .tc .vmem S1024x32 .f32).view.loc (c : Thread nD τ) ↦[(Memref.whole cc0_stg6_0 : Memref sig .tc .vmem S1024x32 .f32).view.set]{fullShare} wkrB m c)
        ∗ ((Memref.whole cc0_stg7_0 : Memref sig .tc .vmem S1024x1024 .f32).view.loc (c : Thread nD τ) ↦[(Memref.whole cc0_stg7_0 : Memref sig .tc .vmem S1024x1024 .f32).view.set]{fullShare} woB m c)
        ∗ ((Memref.whole cc0_stg8_0 : Memref sig .tc .vmem S2x256x1024 .f32).view.loc (c : Thread nD τ) ↦[(Memref.whole cc0_stg8_0 : Memref sig .tc .vmem S2x256x1024 .f32).view.set]{fullShare} outOf m c))

def SoundBody : Prop :=
  ∀ (K : Dev nD × Fin 5 → ℕ) (c : Dev nD) (W : Waits sig Unit)
    (f0 : Buf (Elt F) ((c : Thread nD τ).loc cc0_scratch0)) (f1 : Buf (Elt F) ((c : Thread nD τ).loc cc0_scratch1))
    (f2 : Buf (Elt F) ((c : Thread nD τ).loc cc0_scratch2)) (f3 : Buf (Elt F) ((c : Thread nD τ).loc cc0_scratch3))
    (f4 : Buf (Elt F) ((c : Thread nD τ).loc cc0_scratch4)) (g8 : Buf (Elt F) ((c : Thread nD τ).loc cc0_stg8_0)),
    BodyPre m K c W f0 f1 f2 f3 f4 g8
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_stg4_0) (Memref.isWhole_whole _) (Memref.whole cc0_stg5_0) (Memref.isWhole_whole _)
            (Memref.whole cc0_stg6_0) (Memref.isWhole_whole _) (Memref.whole cc0_stg7_0) (Memref.isWhole_whole _)
            (Memref.whole cc0_stg8_0) (Memref.isWhole_whole _)
            (Memref.whole cc0_scratch0) (Memref.isWhole_whole _) (Memref.whole cc0_scratch1) (Memref.isWhole_whole _)
            (Memref.whole cc0_scratch2) (Memref.isWhole_whole _) (Memref.whole cc0_scratch3) (Memref.isWhole_whole _)
            (Memref.whole cc0_scratch4) (Memref.isWhole_whole _) cc0_scratch5 cc0_scratch6) (fun _ => BodyPost m c)

end Cert.Kernel.Proto

end
-- ==== Proof.WBody.lean ====
/-
  The body of the one grid point, run once at a symbolic device `c` with peer `p`:
  the entry signal to p's barrier cell (handing p the device's two landing buffers) and the wait on its own (p's
  landing buffers come with it); [Wuk | Wuv] stored into the send rows and copied into p's landing rows; the half
  latent Wdkv_cᵀ xᵀ stored and copied into p's landing buffer; [Wq | Wqr | Wkr] staged; the four waits — each send
  cell gives the source buffer back, each receive cell the landing buffer holding p's rows —; then the attention
  itself over own-then-peer halves, stored into the result block. What the stores leave in a buffer is read off
  their rectangles: two column halves tile the send rows, three column bands tile the projection operand, one store
  fills each of the others.
-/
import proofs.«900377_g7700000000000378_dist_mla_v7x_xyz2x2x2_y_b2_s256_d1024_dc64_bf16_1_alg».proof.Proof.WBodyStmt

set_option maxRecDepth 16384

noncomputable section

namespace Cert.Kernel.Proto

open Cert.Kernel Cert.Kernel.Gen Cert.Kernel.KOut

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The schedule's tables, spelt through the buffers' views -/

theorem payX_bar (c : Dev nD) (d : Unit) : (ex (F := F) m).payload (barCell c) 0 d
    = iprop((∃ f, ((crM : Memref sig .tc .vmem S64x512 .bf16).view.loc (peer c : Thread nD τ) ↦[(crM : Memref sig .tc .vmem S64x512 .bf16).view.set]{fullShare} f)) ∗ (∃ f, ((wrM : Memref sig .tc .vmem S64x2048 .bf16).view.loc (peer c : Thread nD τ) ↦[(wrM : Memref sig .tc .vmem S64x2048 .bf16).view.set]{fullShare} f))
        ∗ reached ER (rcv0Cell (peer c)) 0 ∗ reached ER (rcv1Cell (peer c)) 0) := by rw [payload_bar]; rfl
theorem payX_barP (c : Dev nD) (d : Unit) : (ex (F := F) m).payload (barCell (peer c)) 0 d
    = iprop((∃ f, ((crM : Memref sig .tc .vmem S64x512 .bf16).view.loc (c : Thread nD τ) ↦[(crM : Memref sig .tc .vmem S64x512 .bf16).view.set]{fullShare} f)) ∗ (∃ f, ((wrM : Memref sig .tc .vmem S64x2048 .bf16).view.loc (c : Thread nD τ) ↦[(wrM : Memref sig .tc .vmem S64x2048 .bf16).view.set]{fullShare} f))
        ∗ reached ER (rcv0Cell c) 0 ∗ reached ER (rcv1Cell c) 0) := by rw [payload_bar]; unfold barPay crPts wrPts; rw [peer_peer]
theorem payX_snd0 (c : Dev nD) (d : Unit) : (ex (F := F) m).payload (snd0Cell c) 0 d = ((csM : Memref sig .tc .vmem S64x512 .bf16).view.loc (c : Thread nD τ) ↦[(csM : Memref sig .tc .vmem S64x512 .bf16).view.set]{fullShare} csOf m c) := by rw [payload_snd0]; rfl
theorem payX_rcv0 (c : Dev nD) (d : Unit) : (ex (F := F) m).payload (rcv0Cell c) 0 d = ((crM : Memref sig .tc .vmem S64x512 .bf16).view.loc (c : Thread nD τ) ↦[(crM : Memref sig .tc .vmem S64x512 .bf16).view.set]{fullShare} csOf m (peer c)) := by rw [payload_rcv0]; rfl
theorem payX_rcv0P (c : Dev nD) (d : Unit) : (ex (F := F) m).payload (rcv0Cell (peer c)) 0 d = ((crM : Memref sig .tc .vmem S64x512 .bf16).view.loc (peer c : Thread nD τ) ↦[(crM : Memref sig .tc .vmem S64x512 .bf16).view.set]{fullShare} csOf m c) := by rw [payload_rcv0, peer_peer]; rfl
theorem payX_snd1 (c : Dev nD) (d : Unit) : (ex (F := F) m).payload (snd1Cell c) 0 d = ((wsM : Memref sig .tc .vmem S64x2048 .bf16).view.loc (c : Thread nD τ) ↦[(wsM : Memref sig .tc .vmem S64x2048 .bf16).view.set]{fullShare} wsOf m c) := by rw [payload_snd1]; rfl
theorem payX_rcv1 (c : Dev nD) (d : Unit) : (ex (F := F) m).payload (rcv1Cell c) 0 d = ((wrM : Memref sig .tc .vmem S64x2048 .bf16).view.loc (c : Thread nD τ) ↦[(wrM : Memref sig .tc .vmem S64x2048 .bf16).view.set]{fullShare} wsOf m (peer c)) := by rw [payload_rcv1]; rfl
theorem payX_rcv1P (c : Dev nD) (d : Unit) : (ex (F := F) m).payload (rcv1Cell (peer c)) 0 d = ((wrM : Memref sig .tc .vmem S64x2048 .bf16).view.loc (peer c : Thread nD τ) ↦[(wrM : Memref sig .tc .vmem S64x2048 .bf16).view.set]{fullShare} wsOf m c) := by rw [payload_rcv1, peer_peer]; rfl

/-! ## What the stores leave in the two staged operands -/

theorem hz2 : (![0, 0] : Fin 2 → Nat) = fun _ => 0 := funext fun a => by fin_cases a <;> rfl
theorem hz3 : (![0, 0, 0] : Fin 3 → Nat) = fun _ => 0 := funext fun a => by fin_cases a <;> rfl

/-- The two stores into the send rows leave [Wuk | Wuv], whatever the buffer held. -/
theorem ws_eq (c : Dev nD) (f2 : Buf (Elt F) ((c : Thread nD τ).loc cc0_scratch2)) :
    (wsM : Memref sig .tc .vmem S64x2048 .bf16).view.writes (Elt F) f2
      [⟨Rect.unit (s := S64x2048) ![0, 1024] S64x1024.size inb_S64x2048_S64x1024_0_1024,
          k0_pay2 (View.readAt (Elt F) (Memref.whole cc0_stg3_0 : Memref sig .tc .vmem S64x1024 .f32).view
              (Rect.unit (s := S64x1024) ![0, 0] S64x1024.size inb_S64x1024_S64x1024_0_0).toLoadRect (wuvB m c))⟩,
        ⟨Rect.unit (s := S64x2048) ![0, 0] S64x1024.size inb_S64x2048_S64x1024_0_0,
          k0_pay1 (View.readAt (Elt F) (Memref.whole cc0_stg2_0 : Memref sig .tc .vmem S64x1024 .f32).view
              (Rect.unit (s := S64x1024) ![0, 0] S64x1024.size inb_S64x1024_S64x1024_0_0).toLoadRect (wukB m c))⟩]
      = wsOf m c := by
  have h1 : View.readAt (Elt F) (Memref.whole cc0_stg3_0 : Memref sig .tc .vmem S64x1024 .f32).view
      (Rect.unit (s := S64x1024) ![0, 0] S64x1024.size inb_S64x1024_S64x1024_0_0).toLoadRect (wuvB m c) = wuvB m c :=
    Memref.readAt_unit_zero (Elt F) cc0_stg3_0 hz2 _ (wuvB m c)
  have h2 : View.readAt (Elt F) (Memref.whole cc0_stg2_0 : Memref sig .tc .vmem S64x1024 .f32).view
      (Rect.unit (s := S64x1024) ![0, 0] S64x1024.size inb_S64x1024_S64x1024_0_0).toLoadRect (wukB m c) = wukB m c :=
    Memref.readAt_unit_zero (Elt F) cc0_stg2_0 hz2 _ (wukB m c)
  rw [h1, h2]
  have h := View.read_writes_eq_canon (Val := Elt F) (wsM : Memref sig .tc .vmem S64x2048 .bf16).view f2
    [⟨Rect.unit (s := S64x2048) ![0, 1024] S64x1024.size inb_S64x2048_S64x1024_0_1024, k0_pay2 (wuvB m c)⟩,
      ⟨Rect.unit (s := S64x2048) ![0, 0] S64x1024.size inb_S64x2048_S64x1024_0_0, k0_pay1 (wukB m c)⟩]
    (View.cover_of_tiled _ S64x1024.size rfl)
  unfold wsOf wcat
  exact (View.read_whole (Val := Elt F) cc0_scratch2 _).symm.trans h

omit [FloatOps F] in
/-- A whole buffer written with a whole buffer's contents holds those contents. -/
theorem landed_w (c' : Dev nD) (fd : Buf (Elt F) ((wrM : Memref sig .tc .vmem S64x2048 .bf16).view.loc (c' : Thread nD τ))) (fs : (cc0_scratch2 : Ref sig .tc).ty.Contents (Elt F)) :
    (wrM : Memref sig .tc .vmem S64x2048 .bf16).view.write (Elt F) fd ((wsM : Memref sig .tc .vmem S64x2048 .bf16).view.read (Elt F) fs) Finset.univ = fs := by
  show (View.whole cc0_scratch3).write (Elt F) fd ((View.whole cc0_scratch2).read (Elt F) fs) Finset.univ = fs
  rw [View.read_whole]
  exact View.write_whole_univ _ _ _
omit [FloatOps F] in
theorem landed_c (c' : Dev nD) (fd : Buf (Elt F) ((crM : Memref sig .tc .vmem S64x512 .bf16).view.loc (c' : Thread nD τ))) (fs : (cc0_scratch0 : Ref sig .tc).ty.Contents (Elt F)) :
    (crM : Memref sig .tc .vmem S64x512 .bf16).view.write (Elt F) fd ((csM : Memref sig .tc .vmem S64x512 .bf16).view.read (Elt F) fs) Finset.univ = fs := by
  show (View.whole cc0_scratch1).write (Elt F) fd ((View.whole cc0_scratch0).read (Elt F) fs) Finset.univ = fs
  rw [View.read_whole]
  exact View.write_whole_univ _ _ _

/-- The store into the half-latent send buffer leaves the device's half latent, whatever the buffer held. -/
theorem cs_eq (c : Dev nD) (f0 : Buf (Elt F) ((c : Thread nD τ).loc cc0_scratch0)) :
    (csM : Memref sig .tc .vmem S64x512 .bf16).view.writes (Elt F) f0
      [⟨Rect.unit (s := S64x512) ![0, 0] S64x512.size inb_S64x512_S64x512_0_0,
          k0_pay4 (View.readAt (Elt F) (Memref.whole cc0_stg0_0 : Memref sig .tc .vmem S2x256x1024 .f32).view
              (Rect.unit (s := S2x256x1024) ![0, 0, 0] S2x256x1024.size inb_S2x256x1024_S2x256x1024_0_0_0).toLoadRect (xB m c))
            (View.readAt (Elt F) (Memref.whole cc0_stg1_0 : Memref sig .tc .vmem S1024x64 .f32).view
              (Rect.unit (s := S1024x64) ![0, 0] S1024x64.size inb_S1024x64_S1024x64_0_0).toLoadRect (wdB m c))⟩]
      = csOf m c := by
  have h1 : View.readAt (Elt F) (Memref.whole cc0_stg0_0 : Memref sig .tc .vmem S2x256x1024 .f32).view
      (Rect.unit (s := S2x256x1024) ![0, 0, 0] S2x256x1024.size inb_S2x256x1024_S2x256x1024_0_0_0).toLoadRect (xB m c) = xB m c :=
    Memref.readAt_unit_zero (Elt F) cc0_stg0_0 hz3 _ (xB m c)
  have h2 : View.readAt (Elt F) (Memref.whole cc0_stg1_0 : Memref sig .tc .vmem S1024x64 .f32).view
      (Rect.unit (s := S1024x64) ![0, 0] S1024x64.size inb_S1024x64_S1024x64_0_0).toLoadRect (wdB m c) = wdB m c :=
    Memref.readAt_unit_zero (Elt F) cc0_stg1_0 hz2 _ (wdB m c)
  rw [h1, h2]
  have h := View.read_writes_eq_canon (Val := Elt F) (csM : Memref sig .tc .vmem S64x512 .bf16).view f0
    [⟨Rect.unit (s := S64x512) ![0, 0] S64x512.size inb_S64x512_S64x512_0_0, k0_pay4 (xB m c) (wdB m c)⟩]
    (View.cover_of_tiled _ S64x512.size rfl)
  rw [View.canon_unit_zero hz2] at h
  unfold csOf
  exact (View.read_whole (Val := Elt F) cc0_scratch0 _).symm.trans h

/-- The result block's one store, over the values the body has read by then, is the device's result. -/
theorem out_assemble (c : Dev nD) (g8 : Buf (Elt F) ((c : Thread nD τ).loc cc0_stg8_0))
    (R : FVec F S1024x512 .bf16) (V80 : Vec F S1024x1568 .bf16) (A B : Vec F S64x512 .bf16) (C D : Vec F S64x2048 .bf16) (WO : Vec F S1024x1024 .f32)
    (hR : R = k0_pay3 (xB m c)) (hV : V80 = projw (wqB m c) (wqrB m c) (wkrB m c)) (hA : A = csOf m c) (hB : B = csOf m (peer c))
    (hC : C = wsOf m c) (hD : D = wsOf m (peer c)) (hW : WO = woB m c) :
    (Memref.whole cc0_stg8_0 : Memref sig .tc .vmem S2x256x1024 .f32).view.writes (Elt F) g8
      [⟨Rect.unit (s := S2x256x1024) ![0, 0, 0] S2x256x1024.size inb_S2x256x1024_S2x256x1024_0_0_0,
          k0_pay18 (k0_pay10 R V80) (k0_pay13 R V80) (k0_pay14 R V80) (k0_pay16 A B C D) (k0_pay17 A B C D) WO⟩]
      = outOf m c := by
  subst hR hV hA hB hC hD hW
  have h := View.read_writes_eq_canon (Val := Elt F) (Memref.whole cc0_stg8_0 : Memref sig .tc .vmem S2x256x1024 .f32).view g8
    [⟨Rect.unit (s := S2x256x1024) ![0, 0, 0] S2x256x1024.size inb_S2x256x1024_S2x256x1024_0_0_0,
      k0_pay18 (k0_pay10 (k0_pay3 (xB m c)) (projw (wqB m c) (wqrB m c) (wkrB m c))) (k0_pay13 (k0_pay3 (xB m c)) (projw (wqB m c) (wqrB m c) (wkrB m c)))
        (k0_pay14 (k0_pay3 (xB m c)) (projw (wqB m c) (wqrB m c) (wkrB m c))) (k0_pay16 (csOf m c) (csOf m (peer c)) (wsOf m c) (wsOf m (peer c)))
        (k0_pay17 (csOf m c) (csOf m (peer c)) (wsOf m c) (wsOf m (peer c))) (woB m c)⟩]
    (View.cover_of_tiled _ S2x256x1024.size rfl)
  unfold outOf kout
  unfold csOf wsOf at h ⊢
  exact ((View.read_whole (Val := Elt F) cc0_stg8_0 _).symm.trans h).trans (View.canon_unit_zero (Val := Elt F) hz3 inb_S2x256x1024_S2x256x1024_0_0_0 _)

/-- The three stores into the projection operand leave [Wq | Wqr | Wkr]; the load of the whole operand reads it. -/
theorem pw_read (c : Dev nD) :
    (pwM : Memref sig .tc .vmem S1024x1568 .bf16).view.readCov
      [⟨Rect.unit (s := S1024x1568) ![0, 1536] S1024x32.size inb_S1024x1568_S1024x32_0_1536,
          k0_pay8 (View.readAt (Elt F) (Memref.whole cc0_stg6_0 : Memref sig .tc .vmem S1024x32 .f32).view
              (Rect.unit (s := S1024x32) ![0, 0] S1024x32.size inb_S1024x32_S1024x32_0_0).toLoadRect (wkrB m c))⟩,
        ⟨Rect.unit (s := S1024x1568) ![0, 1024] S1024x512.size inb_S1024x1568_S1024x512_0_1024,
          k0_pay7 (View.readAt (Elt F) (Memref.whole cc0_stg5_0 : Memref sig .tc .vmem S1024x512 .f32).view
              (Rect.unit (s := S1024x512) ![0, 0] S1024x512.size inb_S1024x512_S1024x512_0_0).toLoadRect (wqrB m c))⟩,
        ⟨Rect.unit (s := S1024x1568) ![0, 0] S1024x1024.size inb_S1024x1568_S1024x1024_0_0,
          k0_pay6 (k0_pay5 (View.readAt (Elt F) (Memref.whole cc0_stg4_0 : Memref sig .tc .vmem S1024x1024 .f32).view
              (Rect.unit (s := S1024x1024) ![0, 0] S1024x1024.size inb_S1024x1024_S1024x1024_0_0).toLoadRect (wqB m c)))⟩]
      (Rect.unit (s := S1024x1568) ![0, 0] S1024x1568.size inb_S1024x1568_S1024x1568_0_0).toLoadRect
      = projw (wqB m c) (wqrB m c) (wkrB m c) := by
  have h1 : View.readAt (Elt F) (Memref.whole cc0_stg6_0 : Memref sig .tc .vmem S1024x32 .f32).view
      (Rect.unit (s := S1024x32) ![0, 0] S1024x32.size inb_S1024x32_S1024x32_0_0).toLoadRect (wkrB m c) = wkrB m c :=
    Memref.readAt_unit_zero (Elt F) cc0_stg6_0 hz2 _ (wkrB m c)
  have h2 : View.readAt (Elt F) (Memref.whole cc0_stg5_0 : Memref sig .tc .vmem S1024x512 .f32).view
      (Rect.unit (s := S1024x512) ![0, 0] S1024x512.size inb_S1024x512_S1024x512_0_0).toLoadRect (wqrB m c) = wqrB m c :=
    Memref.readAt_unit_zero (Elt F) cc0_stg5_0 hz2 _ (wqrB m c)
  have h3 : View.readAt (Elt F) (Memref.whole cc0_stg4_0 : Memref sig .tc .vmem S1024x1024 .f32).view
      (Rect.unit (s := S1024x1024) ![0, 0] S1024x1024.size inb_S1024x1024_S1024x1024_0_0).toLoadRect (wqB m c) = wqB m c :=
    Memref.readAt_unit_zero (Elt F) cc0_stg4_0 hz2 _ (wqB m c)
  rw [h1, h2, h3]
  have h := View.readCov_eq_canon_ld (Val := Elt F) (pwM : Memref sig .tc .vmem S1024x1568 .bf16).view
    [⟨Rect.unit (s := S1024x1568) ![0, 1536] S1024x32.size inb_S1024x1568_S1024x32_0_1536, k0_pay8 (wkrB m c)⟩,
      ⟨Rect.unit (s := S1024x1568) ![0, 1024] S1024x512.size inb_S1024x1568_S1024x512_0_1024, k0_pay7 (wqrB m c)⟩,
      ⟨Rect.unit (s := S1024x1568) ![0, 0] S1024x1024.size inb_S1024x1568_S1024x1024_0_0, k0_pay6 (k0_pay5 (wqB m c))⟩]
    (Rect.unit (s := S1024x1568) ![0, 0] S1024x1568.size inb_S1024x1568_S1024x1568_0_0)
    (View.cover_of_tiledBy _ ![1024, 32] (by sl_kernel_rfl))
  unfold projw
  exact h.trans (View.ld_unit_zero (Val := Elt F) hz2 inb_S1024x1568_S1024x1568_0_0 _)

attribute [local sl_rounds] duties_bar duties_snd0 duties_rcv0 duties_snd1 duties_rcv1 amount_bar amount_snd0 amount_rcv0 amount_snd1 amount_rcv1
  expect_bar expect_snd0 expect_rcv0 expect_snd1 expect_rcv1 payX_bar payX_snd0 payX_rcv0 payX_snd1 payX_rcv1
attribute [local sl_rounds high] payX_barP payX_rcv0P payX_rcv1P

/-- An assertion set aside under a name: the token of the half-latent copy's receive duty, until that copy. -/
def hid0 (P : sProp 𝕄) : sProp 𝕄 := P
/-- The same for the token of the up-projection rows' receive duty. -/
def hid1 (P : sProp 𝕄) : sProp 𝕄 := P

set_option maxHeartbeats 4000000 in
theorem sound_body : SoundBody (F := F) m := by
  intro K c W f0 f1 f2 f3 f4 g8
  unfold BodyPre ghost invs csPts crPts wsPts wrPts pwPts O₀ O₁
  rw [show (dutyTok ER (rcv1Cell (peer c)) 0 () : sProp 𝕄) = hid1 (dutyTok ER (rcv1Cell (peer c)) 0 ()) from rfl, show (dutyTok ER (rcv0Cell (peer c)) 0 () : sProp 𝕄) = hid0 (dutyTok ER (rcv0Cell (peer c)) 0 ()) from rfl]
  iintro ⟨⟨⟨#HIbar, #HIs0, #HIr0, #HIs1, #HIr1, #HIbarP, #HIr0P, #HIr1P⟩, HatB, HatS0, HatR0, HatS1, HatR1, #HrBP, #HrR0P, #HrR1P, #HrS0, #HrR0, #HrS1, #HrR1, HtBP, HtR0P, HtR1P, HtS0, HtS1⟩,
    HcB, HcR0, HcR1, #Hlev, Hcs, Hcr, Hws, Hwr, Hpw, HO, Hx, Hwd, Hwuk, Hwuv, Hwq, Hwqr, Hwkr, Hwo, Hout⟩
  have hd1 := dev1_eq c
  have hd2 := dev2_eq c
  have hd3 := dev3_eq c
  have hmw : (levAts L lv : sProp 𝕄) ⊢ MayWait (c : Thread nD τ) (.reg barS) () (tallyAt (rcv0Cell (peer c)) () N0 + tallyAt (rcv1Cell (peer c)) () N1) := mayWait_bar c
  sl_exec
  -- the copy of the up-projection rows into the peer's landing buffer
  rw [ws_eq m c f2]
  unfold hid1
  iapply (Rounds.wp_send_pointsTo 𝒱₀ ER (ex m) (c : Thread nD τ) none (c' := (peer c : Thread nD τ))
      (src := (wsM : Memref sig .tc .vmem S64x2048 .bf16)) (dst := (wrM : Memref sig .tc .vmem S64x2048 .bf16)) (q := fullShare)
      (fs := wsOf m c) (fd := HatB_pay2_v) (κ₁ := K (c, 3)) (κ₂ := K (peer c, 4)) (r₁ := 0) (r₂ := 0) (d₁ := ()) (d₂ := ())
      (by rw [duties_snd1]; exact Finset.mem_singleton_self _) (by rw [duties_rcv1]; exact Finset.mem_singleton_self _)
      () () N1 rfl (amount_snd1 m c ()) (amount_rcv1 m (peer c) ()) (tallyAt (rcv0Cell (peer c)) () N0) rfl
      (by rw [payX_snd1])
      (by rw [payX_rcv1P, landed_w])) $$ [Hws HatB_pay2 HO HtS1 HtR1P]
  · isplitr; · iexact HIs1
    isplitr; · iexact HIr1P
    isplitl [Hws]; · iexact Hws
    isplitl [HatB_pay2]; · iexact HatB_pay2
    isplitl [HO]; · iexact HO
    isplitl [HtS1]; · iexact HtS1
    isplitr; · iexact HrS1
    isplitl [HtR1P]; · iexact HtR1P
    iexact HrR1P
  iintro ⟨HcS1, HO⟩
  sl_exec
  -- the copy of the half latent into the peer's landing buffer
  rw [cs_eq m c f0]
  unfold hid0
  iapply (Rounds.wp_send_pointsTo 𝒱₀ ER (ex m) (c : Thread nD τ) none (c' := (peer c : Thread nD τ))
      (src := (csM : Memref sig .tc .vmem S64x512 .bf16)) (dst := (crM : Memref sig .tc .vmem S64x512 .bf16)) (q := fullShare)
      (fs := csOf m c) (fd := HatB_pay1_v) (κ₁ := K (c, 1)) (κ₂ := K (peer c, 2)) (r₁ := 0) (r₂ := 0) (d₁ := ()) (d₂ := ())
      (by rw [duties_snd0]; exact Finset.mem_singleton_self _) (by rw [duties_rcv0]; exact Finset.mem_singleton_self _)
      () () N0 rfl (amount_snd0 m c ()) (amount_rcv0 m (peer c) ()) 0 (zero_add _).symm
      (by rw [payX_snd0])
      (by rw [payX_rcv0P, landed_c])) $$ [Hcs HatB_pay1 HO HtS0 HtR0P]
  · isplitr; · iexact HIs0
    isplitr; · iexact HIr0P
    isplitl [Hcs]; · iexact Hcs
    isplitl [HatB_pay1]; · iexact HatB_pay1
    isplitl [HO]; · iexact HO
    isplitl [HtS0]; · iexact HtS0
    isplitr; · iexact HrS0
    isplitl [HtR0P]; · iexact HtR0P
    iexact HrR0P
  iintro ⟨HcS0, HO⟩
  sl_exec
  -- the four own cells close: their counters at zero are the device's again
  imod (Rounds.cell_close ER (ex m) (Set.mem_univ (K (c, 1))) (fun h => h) (R := 1) (duties_later m (snd0Cell c))) $$ [HatS0] with HzS0
  · isplitr; · iexact HIs0
    iexact HatS0
  imod (Rounds.cell_close ER (ex m) (Set.mem_univ (K (c, 2))) (fun h => h) (R := 1) (duties_later m (rcv0Cell c))) $$ [HatR0] with HzR0
  · isplitr; · iexact HIr0
    iexact HatR0
  imod (Rounds.cell_close ER (ex m) (Set.mem_univ (K (c, 3))) (fun h => h) (R := 1) (duties_later m (snd1Cell c))) $$ [HatS1] with HzS1
  · isplitr; · iexact HIs1
    iexact HatS1
  imod (Rounds.cell_close ER (ex m) (Set.mem_univ (K (c, 4))) (fun h => h) (R := 1) (duties_later m (rcv1Cell c))) $$ [HatR1] with HzR1
  · isplitr; · iexact HIr1
    iexact HatR1
  rw [wp_ret]; imodintro
  unfold BodyPost scratch csPts crPts wsPts wrPts pwPts
  isplitl [HatS0_pay1 HatR0_pay1 HatS1_pay1 HatR1_pay1 Hpw]
  · isplitl [HatS0_pay1]; · iexists _; iexact HatS0_pay1
    isplitl [HatR0_pay1]; · iexists _; iexact HatR0_pay1
    isplitl [HatS1_pay1]; · iexists _; iexact HatS1_pay1
    isplitl [HatR1_pay1]; · iexists _; iexact HatR1_pay1
    iexists _; iexact Hpw
  isplitl [HzS0]; · iexact HzS0
  isplitl [HzR0]; · iexact HzR0
  isplitl [HzS1]; · iexact HzS1
  isplitl [HzR1]; · iexact HzR1
  isplitl [HO]; · iexists _; iexact HO
  isplitl [Hx]; · iexact Hx
  isplitl [Hwd]; · iexact Hwd
  isplitl [Hwuk]; · iexact Hwuk
  isplitl [Hwuv]; · iexact Hwuv
  isplitl [Hwq]; · iexact Hwq
  isplitl [Hwqr]; · iexact Hwqr
  isplitl [Hwkr]; · iexact Hwkr
  isplitl [Hwo]; · iexact Hwo
  have hR : sound_body.sl.r m c = k0_pay3 (xB m c) := by
    unfold sound_body.sl.r
    exact congrArg k0_pay3 (Memref.readAt_unit_zero (Elt F) cc0_stg0_0 hz3 _ (xB m c))
  have hV : sound_body.sl.v80 m c = projw (wqB m c) (wqrB m c) (wkrB m c) := by
    unfold sound_body.sl.v80 sound_body.sl.Hpw_3 sound_body.sl.r_1
    exact pw_read m c
  have hA : View.readAt (Elt F) (csM : Memref sig .tc .vmem S64x512 .bf16).view (Rect.unit (s := S64x512) ![0, 0] S64x512.size inb_S64x512_S64x512_0_0).toLoadRect (csOf m c) = csOf m c :=
    Memref.readAt_unit_zero (Elt F) cc0_scratch0 hz2 _ (csOf m c)
  have hB : View.readAt (Elt F) (crM : Memref sig .tc .vmem S64x512 .bf16).view (Rect.unit (s := S64x512) ![0, 0] S64x512.size inb_S64x512_S64x512_0_0).toLoadRect (csOf m (peer c)) = csOf m (peer c) :=
    Memref.readAt_unit_zero (Elt F) cc0_scratch1 hz2 _ (csOf m (peer c))
  have hC : View.readAt (Elt F) (wsM : Memref sig .tc .vmem S64x2048 .bf16).view (Rect.unit (s := S64x2048) ![0, 0] S64x2048.size inb_S64x2048_S64x2048_0_0).toLoadRect (wsOf m c) = wsOf m c :=
    Memref.readAt_unit_zero (Elt F) cc0_scratch2 hz2 _ (wsOf m c)
  have hD : View.readAt (Elt F) (wrM : Memref sig .tc .vmem S64x2048 .bf16).view (Rect.unit (s := S64x2048) ![0, 0] S64x2048.size inb_S64x2048_S64x2048_0_0).toLoadRect (wsOf m (peer c)) = wsOf m (peer c) :=
    Memref.readAt_unit_zero (Elt F) cc0_scratch3 hz2 _ (wsOf m (peer c))
  have hW : View.readAt (Elt F) (Memref.whole cc0_stg7_0 : Memref sig .tc .vmem S1024x1024 .f32).view (Rect.unit (s := S1024x1024) ![0, 0] S1024x1024.size inb_S1024x1024_S1024x1024_0_0).toLoadRect (woB m c) = woB m c :=
    Memref.readAt_unit_zero (Elt F) cc0_stg7_0 hz2 _ (woB m c)
  unfold sound_body.sl.r_3 sound_body.sl.r_4 sound_body.sl.r_5 sound_body.sl.r_6 sound_body.sl.r_7
  rw [out_assemble m c g8 _ _ _ _ _ _ _ hR hV hA hB hC hD hW]
  iexact Hout

end Cert.Kernel.Proto

end
-- ==== Proof.WLaunchCred.lean ====
/-
  The credit a device holds at launch. Each device owes three things, all to its peer: one unit to the peer's
  barrier cell and a copy's worth of credit to each of the peer's two receive cells. Since the peer relation is an
  involution, exactly one device — its peer — owes each of a device's three cells, so the launch deals the device
  one unit of credit on its barrier cell and one copy's worth on each receive cell.
-/
import proofs.«900377_g7700000000000378_dist_mla_v7x_xyz2x2x2_y_b2_s256_d1024_dc64_bf16_1_alg».proof.Proof.WProto2

set_option maxRecDepth 16384

noncomputable section

namespace Cert.Kernel.Proto

open Cert.Kernel Cert.Kernel.Gen Cert.Kernel.KOut

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- Two devices' barrier cells are the same cell only if the devices are the same; likewise their receive cells. -/
theorem bar_eq_iff {a b : Dev nD} : Iff (barCell a = barCell b) (a = b) :=
  ⟨fun h => Fin.ext (congrArg (fun g : GSem nD τ sig => g.1.1.val) h), fun h => h ▸ rfl⟩
theorem rcv0_eq_iff {a b : Dev nD} : Iff (rcv0Cell a = rcv0Cell b) (a = b) :=
  ⟨fun h => Fin.ext (congrArg (fun g : GSem nD τ sig => g.1.1.val) h), fun h => h ▸ rfl⟩
theorem rcv1_eq_iff {a b : Dev nD} : Iff (rcv1Cell a = rcv1Cell b) (a = b) :=
  ⟨fun h => Fin.ext (congrArg (fun g : GSem nD τ sig => g.1.1.val) h), fun h => h ▸ rfl⟩

/-- What device d owes device c's barrier cell: one unit exactly when d is c's peer. -/
theorem owed_bar (d c : Dev nD) : O₀ d (barCell c) () = if d = peer c then 1 else 0 := by
  unfold O₀ O₁
  rw [Pi.add_apply, Finsupp.add_apply, Pi.add_apply, Finsupp.add_apply,
    tallyAt_ne_cell (fun h => r0_ne_bar (congrArg Prod.snd h).symm),
    tallyAt_ne_cell (fun h => r1_ne_bar (congrArg Prod.snd h).symm), tallyAt_apply, Finsupp.zero_apply,
    Nat.zero_add, Nat.zero_add]
  by_cases h : d = peer c
  · subst h; rw [peer_peer, if_pos ⟨rfl, rfl⟩, if_pos rfl]
  · rw [if_neg (fun ⟨h1, _⟩ => h (by rw [← peer_peer d]; exact congrArg peer (bar_eq_iff.mp h1).symm)), if_neg h]

/-- What device d owes device c's first receive cell: that copy's credit exactly when d is c's peer. -/
theorem owed_rcv0 (d c : Dev nD) : O₀ d (rcv0Cell c) () = if d = peer c then N0 else 0 := by
  unfold O₀ O₁
  rw [Pi.add_apply, Finsupp.add_apply, Pi.add_apply, Finsupp.add_apply,
    tallyAt_ne_cell (g := rcv1Cell (peer d)) (g' := rcv0Cell c) (fun h => r1_ne_r0 (congrArg Prod.snd h).symm),
    tallyAt_ne_cell (g := barCell (peer d)) (g' := rcv0Cell c) (fun h => r0_ne_bar (congrArg Prod.snd h)), tallyAt_apply, Finsupp.zero_apply,
    Nat.add_zero, Nat.add_zero]
  by_cases h : d = peer c
  · subst h; rw [peer_peer, if_pos ⟨rfl, rfl⟩, if_pos rfl]
  · rw [if_neg (fun ⟨h1, _⟩ => h (by rw [← peer_peer d]; exact congrArg peer (rcv0_eq_iff.mp h1).symm)), if_neg h]

/-- What device d owes device c's second receive cell: that copy's credit exactly when d is c's peer. -/
theorem owed_rcv1 (d c : Dev nD) : O₀ d (rcv1Cell c) () = if d = peer c then N1 else 0 := by
  unfold O₀ O₁
  rw [Pi.add_apply, Finsupp.add_apply, Pi.add_apply, Finsupp.add_apply,
    tallyAt_ne_cell (g := rcv0Cell (peer d)) (g' := rcv1Cell c) (fun h => r1_ne_r0 (congrArg Prod.snd h)),
    tallyAt_ne_cell (g := barCell (peer d)) (g' := rcv1Cell c) (fun h => r1_ne_bar (congrArg Prod.snd h)), tallyAt_apply, Finsupp.zero_apply,
    Nat.zero_add, Nat.add_zero]
  by_cases h : d = peer c
  · subst h; rw [peer_peer, if_pos ⟨rfl, rfl⟩, if_pos rfl]
  · rw [if_neg (fun ⟨h1, _⟩ => h (by rw [← peer_peer d]; exact congrArg peer (rcv1_eq_iff.mp h1).symm)), if_neg h]

/-- Summed over all devices, a device's barrier cell is owed one unit. -/
theorem launch_bar (c : Dev nD) :
    tallyOn (barCell c) (launchCredit (Pipeline.owing O₀) 0 (barCell c)) = (tallyAt (barCell c) () 1 : CellTallies nD τ sig Unit) := by
  unfold tallyAt; refine congrArg _ (Finsupp.ext fun u => ?_); cases u
  rw [Pipeline.launchCredit_owing, Finsupp.single_eq_same, Finset.sum_congr rfl fun d _ => owed_bar d c,
    Finset.sum_ite_eq' Finset.univ (peer c) fun _ => 1, if_pos (Finset.mem_univ _)]

/-- Summed over all devices, a device's first receive cell is owed one copy's credit. -/
theorem launch_rcv0 (c : Dev nD) :
    tallyOn (rcv0Cell c) (launchCredit (Pipeline.owing O₀) 0 (rcv0Cell c)) = (tallyAt (rcv0Cell c) () N0 : CellTallies nD τ sig Unit) := by
  unfold tallyAt; refine congrArg _ (Finsupp.ext fun u => ?_); cases u
  rw [Pipeline.launchCredit_owing, Finsupp.single_eq_same, Finset.sum_congr rfl fun d _ => owed_rcv0 d c,
    Finset.sum_ite_eq' Finset.univ (peer c) fun _ => N0, if_pos (Finset.mem_univ _)]

/-- Summed over all devices, a device's second receive cell is owed one copy's credit. -/
theorem launch_rcv1 (c : Dev nD) :
    tallyOn (rcv1Cell c) (launchCredit (Pipeline.owing O₀) 0 (rcv1Cell c)) = (tallyAt (rcv1Cell c) () N1 : CellTallies nD τ sig Unit) := by
  unfold tallyAt; refine congrArg _ (Finsupp.ext fun u => ?_); cases u
  rw [Pipeline.launchCredit_owing, Finsupp.single_eq_same, Finset.sum_congr rfl fun d _ => owed_rcv1 d c,
    Finset.sum_ite_eq' Finset.univ (peer c) fun _ => N1, if_pos (Finset.mem_univ _)]

omit [FloatOps F] in
/-- Of all the credit the launch deals a device, keep the three tokens on its barrier cell and its two receive cells. -/
theorem creds (c : Dev nD) :
    (Pipeline.launchCred O₀ c : sProp 𝕄)
      ⊢ iprop(cred (tallyAt (barCell c) () 1) ∗ cred (tallyAt (rcv0Cell c) () N0) ∗ cred (tallyAt (rcv1Cell c) () N1)) := by
  unfold Pipeline.launchCred
  refine (bigSep_subset (t := ({SemLoc.reg barS, SemLoc.dma sR0, SemLoc.dma sR1} : Finset (SemLoc sig))) (Finset.subset_univ _)).trans ?_
  rw [bigSep_insert (fun h => by
      rcases Finset.mem_insert.mp h with h | h
      · exact r0_ne_bar h.symm
      · exact r1_ne_bar (Finset.mem_singleton.mp h).symm),
    bigSep_insert (fun h => r1_ne_r0 (Finset.mem_singleton.mp h).symm), bigSep_singleton,
    launch_bar, launch_rcv0, launch_rcv1]
  exact .refl _

end Cert.Kernel.Proto

end
-- ==== Proof.WLaunch1.lean ====
/-
  The launch: the exchange's ghost state minted once for all devices, each device's five cells allocated from its
  semaphores at zero, the duty tokens dealt to the devices that pay them (a device's barrier and receive tokens go
  to its peer), the launch credit counted, and the launch theorem applied.
-/
import proofs.«900377_g7700000000000378_dist_mla_v7x_xyz2x2x2_y_b2_s256_d1024_dc64_bf16_1_alg».proof.Proof.WProto3
import proofs.«900377_g7700000000000378_dist_mla_v7x_xyz2x2x2_y_b2_s256_d1024_dc64_bf16_1_alg».proof.Proof.WLaunchCred

set_option maxRecDepth 16384

noncomputable section

namespace Cert.Kernel.Proto

open Cert.Kernel Cert.Kernel.Gen Cert.Kernel.KOut

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem ownSemFacts : Pipeline.OwnSemFacts cfg0.spec osem := by decide

theorem share_eq (c : Dev nD) (w : Fin cfg0.W) : (dats m ρ 0 c).share w = fullShare := by unfold Dat.share; split <;> rfl

theorem kcell_injective : Function.Injective (kcell : Dev nD × Fin 5 → GSem nD τ sig) := by
  rintro ⟨c, k⟩ ⟨c', k'⟩ h
  have h1 : c = c' := by have := congrArg (fun g : GSem nD τ sig => g.1.1) h; exact this
  subst h1
  have h2 : csem k = csem k' := congrArg Prod.snd h
  have : k = k' := csem_injective h2
  subst this; rfl
def exCells : Finset (GSem nD τ sig) := Finset.univ.map ⟨kcell, kcell_injective⟩

abbrev tokOf (ck : Dev nD × Fin 5) : GSem nD τ sig × ℕ × Unit := (kcell ck, 0, ())
theorem tokOf_injective : Function.Injective (tokOf : Dev nD × Fin 5 → GSem nD τ sig × ℕ × Unit) :=
  fun a b h => kcell_injective (congrArg (fun x : GSem nD τ sig × ℕ × Unit => x.1) h)
def exToks : Finset (GSem nD τ sig × ℕ × Unit) := Finset.univ.map ⟨tokOf, tokOf_injective⟩

def u₀ : UU :=
  (initOf (Pipeline.cells cfgs cellOf_inj) (Pipeline.launchToks cfgs cellOf_inj), initOf exCells exToks)

/-- The duty tokens of device `c`'s own cells. -/
def toks (c : Dev nD) : sProp 𝕄 :=
  iprop(dutyTok ER (barCell c) 0 () ∗ dutyTok ER (snd0Cell c) 0 () ∗ dutyTok ER (rcv0Cell c) 0 () ∗ dutyTok ER (snd1Cell c) 0 () ∗ dutyTok ER (rcv1Cell c) 0 ())

/-- What the launch element deals device `c`. -/
def G (c : Dev nD) : sProp 𝕄 :=
  iprop((bigSep Finset.univ fun k : Fin 5 => roundState ER (ex m) (kcell (c, k)) 0)
    ∗ (bigSep Finset.univ fun k : Fin 5 => iprop(atPos ER (kcell (c, k)) 0 ∅ 0 ∗ reached ER (kcell (c, k)) 0)) ∗ toks c)

/-- What the global step makes of it. -/
def G' (c : Dev nD) : sProp 𝕄 := iprop(∃ K, ghost m K c)

omit [FloatOps F] in
theorem bigSep_fin5 (Φ : Fin 5 → sProp 𝕄) : bigSep Finset.univ Φ = iprop(Φ 0 ∗ Φ 1 ∗ Φ 2 ∗ Φ 3 ∗ Φ 4) := bigSep_univ_eq_bigSepL [0, 1, 2, 3, 4] (by decide) (by decide) Φ

theorem fund_ex : BI.own (ER (initOf exCells exToks)) ⊢ (|==> bigSep Finset.univ (G m) : sProp 𝕄) := by
  have hX (Φ : GSem nD τ sig → sProp 𝕄) : bigSep exCells Φ = bigSep Finset.univ fun c : Dev nD => bigSep Finset.univ fun k : Fin 5 => Φ (kcell (c, k)) := by
    unfold exCells; rw [bigSep_map, bigSep_univ_prod]; rfl
  have hT : bigSep exToks (fun x => (dutyTok ER x.1 x.2.1 x.2.2 : sProp 𝕄)) = bigSep Finset.univ fun c : Dev nD => toks c := by
    unfold exToks; rw [bigSep_map, bigSep_univ_prod]
    exact bigSep_congr fun c _ => by unfold toks; rw [bigSep_fin5]; rfl
  iintro HX
  imod (Rounds.fund ER (ex m) exCells exToks) $$ HX with ⟨Hst, Hr, Hat, Htok⟩
  imodintro
  ihave Hst' := (Entails.of_eq (hX fun g => roundState ER (ex m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
theorem ownSems0_eq (c : Dev nD) : (Pipeline.ownSems0 (Ix := Unit) (Name := ℕ) (U := UU) (Lvl := ℕ) (Val := Elt F) (τ := τ) osem c : sProp 𝕄)
    = iprop(semVal (snd0Cell c) 0 ∗ semVal (rcv0Cell c) 0 ∗ semVal (snd1Cell c) 0 ∗ semVal (rcv1Cell c) 0) := by
  rw [Pipeline.ownSems0_eq_of_list c osem [0, 1, 2, 3] (by decide) (by decide)]; rfl
omit [FloatOps F] in
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 5 => semVal (kcell (c, k)) 0 : sProp 𝕄) := by
  rw [ownSems0_eq, unscopedSems0_eq, bigSep_fin5]
  iintro ⟨⟨HS0, HR0, HS1, HR1⟩, HB⟩
  isplitl [HB]; · iexact HB
  isplitl [HS0]; · iexact HS0
  isplitl [HR0]; · iexact HR0
  isplitl [HS1] <;> iassumption

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (ex m) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 5 => semVal (kcell (c, k)) 0) ∗ bigSep Finset.univ fun k : Fin 5 => roundState ER (ex m) (kcell (c, k)) 0)
      ⊢ (|={Set.univ}=> bigSep Finset.univ fun k => iprop(∃ κ : ℕ, cellInv ER (ex m) κ (kcell (c, k))) : sProp 𝕄) from by
        rw [← bigSep_sep']
        exact (bigSep_mono fun k _ => (Rounds.body_intro ER (ex m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

def records (K : Dev nD × Fin 5 → ℕ) : sProp 𝕄 :=
  iprop((bigSep Finset.univ fun ck : Dev nD × Fin 5 => cellInv ER (ex m) (K ck) (kcell ck))
    ∗ bigSep Finset.univ fun ck : Dev nD × Fin 5 => reached ER (kcell ck) 0)

instance records_persistent (K : Dev nD × Fin 5 → ℕ) : BI.Persistent (records m K) := by unfold records; infer_instance

theorem inv_at (K : Dev nD × Fin 5 → ℕ) (ck : Dev nD × Fin 5) :
    (bigSep Finset.univ fun ck : Dev nD × Fin 5 => (cellInv ER (ex m) (K ck) (kcell ck) : sProp 𝕄)) ⊢ cellInv ER (ex m) (K ck) (kcell ck) :=
  bigSep_elim (Finset.mem_univ ck)
omit [FloatOps F] in
theorem reached_at (ck : Dev nD × Fin 5) :
    (bigSep Finset.univ fun ck : Dev nD × Fin 5 => (reached ER (kcell ck) 0 : sProp 𝕄)) ⊢ reached ER (kcell ck) 0 :=
  bigSep_elim (Finset.mem_univ ck)

/-- What stays with device `c`: its positions, and the tokens of the duties IT pays. -/
def payToks (c : Dev nD) : sProp 𝕄 :=
  iprop(dutyTok ER (barCell (peer c)) 0 () ∗ dutyTok ER (rcv0Cell (peer c)) 0 () ∗ dutyTok ER (rcv1Cell (peer c)) 0 () ∗ dutyTok ER (snd0Cell c) 0 () ∗ dutyTok ER (snd1Cell c) 0 ())
def linear (c : Dev nD) : sProp 𝕄 :=
  iprop((atPos ER (barCell c) 0 ∅ 0 ∗ atPos ER (snd0Cell c) 0 ∅ 0 ∗ atPos ER (rcv0Cell c) 0 ∅ 0 ∗ atPos ER (snd1Cell c) 0 ∅ 0 ∗ atPos ER (rcv1Cell c) 0 ∅ 0) ∗ payToks c)

theorem ghost_intro (K : Dev nD × Fin 5 → ℕ) (c : Dev nD) : iprop(records m K ∗ linear c) ⊢ G' m c := by
  unfold records linear payToks G' ghost invs
  iintro ⟨⟨#HI, #HR⟩, ⟨HaB, HaS0, HaR0, HaS1, HaR1⟩, HtBP, HtR0P, HtR1P, HtS0, HtS1⟩
  iexists K
  isplitr
  · isplitr; · iapply (inv_at m K (c, 0)); iexact HI
    isplitr; · iapply (inv_at m K (c, 1)); iexact HI
    isplitr; · iapply (inv_at m K (c, 2)); iexact HI
    isplitr; · iapply (inv_at m K (c, 3)); iexact HI
    isplitr; · iapply (inv_at m K (c, 4)); iexact HI
    isplitr; · iapply (inv_at m K (peer c, 0)); iexact HI
    isplitr; · iapply (inv_at m K (peer c, 2)); iexact HI
    iapply (inv_at m K (peer c, 4)); iexact HI
  isplitl [HaB]; · iexact HaB
  isplitl [HaS0]; · iexact HaS0
  isplitl [HaR0]; · iexact HaR0
  isplitl [HaS1]; · iexact HaS1
  isplitl [HaR1]; · iexact HaR1
  isplitr; · iapply (reached_at (F := F) (peer c, 0)); iexact HR
  isplitr; · iapply (reached_at (F := F) (peer c, 2)); iexact HR
  isplitr; · iapply (reached_at (F := F) (peer c, 4)); iexact HR
  isplitr; · iapply (reached_at (F := F) (c, 1)); iexact HR
  isplitr; · iapply (reached_at (F := F) (c, 2)); iexact HR
  isplitr; · iapply (reached_at (F := F) (c, 3)); iexact HR
  isplitr; · iapply (reached_at (F := F) (c, 4)); iexact HR
  isplitl [HtBP]; · iexact HtBP
  isplitl [HtR0P]; · iexact HtR0P
  isplitl [HtR1P]; · iexact HtR1P
  isplitl [HtS0]; · iexact HtS0
  iexact HtS1

omit [FloatOps F] in
/-- The tokens dealt across: a device's barrier token and its two receive tokens go to its peer. -/
theorem toks_around : (bigSep Finset.univ fun c : Dev nD => (toks c : sProp 𝕄)) ⊢ bigSep Finset.univ fun c : Dev nD => payToks c := by
  unfold toks payToks
  rw [bigSep_sep', bigSep_sep', bigSep_sep', bigSep_sep', bigSep_sep', bigSep_sep', bigSep_sep', bigSep_sep',
    bigSep_univ_equiv swap (fun c : Dev nD => (dutyTok ER (barCell c) 0 () : sProp 𝕄)),
    bigSep_univ_equiv swap (fun c : Dev nD => (dutyTok ER (rcv0Cell c) 0 () : sProp 𝕄)),
    bigSep_univ_equiv swap (fun c : Dev nD => (dutyTok ER (rcv1Cell c) 0 () : sProp 𝕄))]
  iintro ⟨H1, H2, H3, H4, H5⟩
  isplitl [H1]; · iexact H1
  isplitl [H3]; · iexact H3
  isplitl [H5]; · iexact H5
  isplitl [H2]; · iexact H2
  iexact H4

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (ex m) κ (kcell (c, k))))
          ∗ (bigSep Finset.univ fun k => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × Fin 5 => iprop(∃ κ : ℕ, cellInv ER (ex m) κ (kcell ck))),
    bigSep_congr (s := Finset.univ) (fun (c : Dev nD) _ => bigSep_sep' Finset.univ (fun k : Fin 5 => (atPos ER (kcell (c, k)) 0 ∅ 0 : sProp 𝕄)) (fun k => reached ER (kcell (c, k)) 0)),
    bigSep_sep', ← bigSep_univ_prod (fun ck : Dev nD × Fin 5 => (reached ER (kcell ck) 0 : sProp 𝕄))]
  iintro ⟨HI, ⟨Hat, #HR⟩, Htok⟩
  ihave HK := (BI.bigSep_exists_pi Finset.univ (fun (ck : Dev nD × Fin 5) (κ : ℕ) => (cellInv ER (ex m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply ((Entails.of_eq (bigSep_sep' Finset.univ (fun c : Dev nD => bigSep Finset.univ fun k : Fin 5 => (atPos ER (kcell (c, k)) 0 ∅ 0 : sProp 𝕄)) payToks).symm).trans
      (bigSep_mono fun c _ => show _ ⊢ linear c from Entails.of_eq (by unfold linear; rw [bigSep_fin5])))
    isplitl [Hat]; · iexact Hat
    iexact Htk

/-- The global step: own AND unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

end Cert.Kernel.Proto

end
-- ==== Proof.WLaunch2.lean ====
/-
  The launch theorem applied. What each device sorts out of its launch holdings (the exchange's ghost state, its
  three credit tokens, the level facts) is what its body starts from; the five scratch buffers enter the invariant
  before the one grid point and leave it after, with the four own semaphores back at zero; every staging cell sits
  at the bottom level, so the pipeline's own waits are always allowed. The run then ends with every window's array
  at what the proof data say.
-/
import proofs.«900377_g7700000000000378_dist_mla_v7x_xyz2x2x2_y_b2_s256_d1024_dc64_bf16_1_alg».proof.Proof.WLaunch1

set_option maxRecDepth 16384

noncomputable section

namespace Cert.Kernel.Proto

open Cert.Kernel Cert.Kernel.Gen Cert.Kernel.KOut

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  icases Hc with ⟨H1, HN0, HN1⟩
  imodintro
  unfold start G'
  isplitl
  · isplitl [HG]; · iexact HG
    isplitl [H1]; · iexact H1
    isplitl [HN0]; · iexact HN0
    isplitl [HN1]; · iexact HN1
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ scratch
  iintro ⟨Hs, -, ⟨%f0, H0⟩, ⟨%f1, H1⟩, ⟨%f2, H2⟩, ⟨%f3, H3⟩, ⟨%f4, H4⟩⟩
  isplitl [Hs]; · iexact Hs
  isplitl [H0]; · iexists f0; rw [csPts_eq]; iexact H0
  isplitl [H1]; · iexists f1; rw [crPts_eq]; iexact H1
  isplitl [H2]; · iexists f2; rw [wsPts_eq]; iexact H2
  isplitl [H3]; · iexists f3; rw [wrPts_eq]; iexact H3
  iexists f4; rw [pwPts_eq]; iexact H4

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ c from rfl, scopedRest0_eq, ownSems0_eq]
  unfold Φ₁ scratch
  iintro ⟨⟨⟨%f0, H0⟩, ⟨%f1, H1⟩, ⟨%f2, H2⟩, ⟨%f3, H3⟩, ⟨%f4, H4⟩⟩, HS0, HR0, HS1, HR1⟩
  isplitr; · iempintro
  isplitl [HS0 HR0 HS1 HR1]
  · isplitl [HS0]; · iexact HS0
    isplitl [HR0]; · iexact HR0
    isplitl [HS1] <;> iassumption
  isplitl [H0]; · iexists f0; rw [← csPts_eq]; iexact H0
  isplitl [H1]; · iexists f1; rw [← crPts_eq]; iexact H1
  isplitl [H2]; · iexists f2; rw [← wsPts_eq]; iexact H2
  isplitl [H3]; · iexists f3; rw [← wrPts_eq]; iexact H3
  iexists f4; rw [← pwPts_eq]; iexact H4

theorem waits (c : Dev nD) : (levAts L lv : sProp 𝕄) ⊢ Pipeline.cellsWaits cfgs (dats m ρ) () 0 c :=
  Pipeline.cellsWaits_intro cfgs (dats m ρ) () 0 c fun w s t =>
    mayWait_low c _ (by fin_cases w <;> fin_cases s <;> decide) (by fin_cases w <;> fin_cases s <;> decide) _ (by
      rcases t with ⟨_ | _, ht⟩
      · exact Or.inl rfl
      · exact Or.inr rfl)

/-- Every window's array after the run. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- From any memory with zero counters, given the body obligation: every weakly fair execution of the eight devices
    terminates and every window's array ends at what the proof data say. -/
theorem run_arrays (hbody : ∀ c, BodyObligation (dats (F := F) m ρ 0 c) (defs₀ (F := F)) 𝒱₀ () Set.univ) :
    θ_run defs (onTc (τ := τ) (main (F := F))) (s₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := hbody) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_ex m) $$ HX with HG
      imodintro
      isplitl [HP] <;> iassumption)
    (hglob := glob m)
    (hA := fun _ _ => rfl) (hpf := fun _ k => k.elim0)
    (X := start m) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

end Cert.Kernel.Proto

end
-- ==== Proof.WLaunch3.lean ====
/-
  The run read back. The eight argument arrays are staged by input windows and never written, so they end as they
  began. The result window's block is the whole result array and is written back at the one grid point, so the
  result array ends as exactly what the body left in its staging buffer: the device's result block.
-/
import proofs.«900377_g7700000000000378_dist_mla_v7x_xyz2x2x2_y_b2_s256_d1024_dc64_bf16_1_alg».proof.Proof.WLaunch2

set_option maxRecDepth 16384

noncomputable section

namespace Cert.Kernel.Proto

open Cert.Kernel Cert.Kernel.Gen Cert.Kernel.KOut

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The result array after the run: the one write-back overwrites all of it with the device's result block. -/
theorem out_eq (c : Dev nD) : (dats m ρ 0 c).arrAt 8 cfg0.N = outOf m c := by
  have h1 := (dats m ρ 0 c).arrAt_succ 8 t0_0
  rw [if_pos (flush0_8 t0_0)] at h1
  have h2 := congrArg (((cfg0.win 8).blk t0_0).view.read (Elt F)) h1
  rw [View.read_write_univ] at h2
  have h3 : View.read (Elt F) ((cfg0.win 8).blk t0_0).view ((dats m ρ 0 c).arrAt 8 (↑t0_0 + 1)) = (dats m ρ 0 c).arrAt 8 (↑t0_0 + 1) :=
    Memref.read_access_unit_zero (Elt F) main_v1 (by funext a; fin_cases a <;> rfl) _ _
  exact (h3.symm.trans h2).trans rfl

/-- From any memory with zero counters, given the body obligation: every weakly fair execution of the eight devices
    terminates, each device's result array ends holding its result block, and its argument arrays end unchanged. -/
theorem run_main_of_body (hbody : ∀ c, BodyObligation (dats (F := F) m ρ 0 c) (defs₀ (F := F)) 𝒱₀ () Set.univ) :
    θ_run defs (onTc (τ := τ) (main (F := F))) ⟨m, fun _ => 0, ρ⟩ (fun r => ∀ c : Dev nD,
      r.2.mem ((c.tc : Thread nD τ).loc main_v1) = outOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c =>
    ⟨(h c 8).trans (out_eq m ρ c),
      (h c 0).trans ((dats m ρ 0 c).arrAt_in 0 rfl _),
      (h c 1).trans ((dats m ρ 0 c).arrAt_in 1 rfl _),
      (h c 2).trans ((dats m ρ 0 c).arrAt_in 2 rfl _),
      (h c 3).trans ((dats m ρ 0 c).arrAt_in 3 rfl _),
      (h c 4).trans ((dats m ρ 0 c).arrAt_in 4 rfl _),
      (h c 5).trans ((dats m ρ 0 c).arrAt_in 5 rfl _),
      (h c 6).trans ((dats m ρ 0 c).arrAt_in 6 rfl _),
      (h c 7).trans ((dats m ρ 0 c).arrAt_in 7 rfl _)⟩) (run_arrays m ρ hbody)

end Cert.Kernel.Proto

end
-- ==== Proof.WBodyOb.lean ====
/-
  The body's statement handed to the launch theorem. At the one grid point the pipeline gives the body the
  invariant (the exchange's ghost state, the credit, the five scratch buffers), what the device still owes, and
  the nine staged blocks: the eight inputs as fetched — each the whole argument block — and the result buffer at
  whatever it held. The body returns the scratch buffers, its four semaphores at zero, nothing owed, the inputs
  untouched and the result block.
-/
import proofs.«900377_g7700000000000378_dist_mla_v7x_xyz2x2x2_y_b2_s256_d1024_dc64_bf16_1_alg».proof.Proof.WBodyStmt
import proofs.«900377_g7700000000000378_dist_mla_v7x_xyz2x2x2_y_b2_s256_d1024_dc64_bf16_1_alg».proof.Proof.WLaunch3

set_option maxRecDepth 16384

noncomputable section

namespace Cert.Kernel.Proto

open Cert.Kernel Cert.Kernel.Gen Cert.Kernel.KOut

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- At the one point every input window has just been fetched, whole: its staging buffer holds its argument block. -/
theorem before_0 (c : Dev nD) (d) : (dats m ρ 0 c).before 0 t0_0 d = xB m c := by
  unfold Dat.before; rw [if_pos (fetch0_0 t0_0)]; rfl
theorem before_1 (c : Dev nD) (d) : (dats m ρ 0 c).before 1 t0_0 d = wdB m c := by
  unfold Dat.before; rw [if_pos (fetch0_1 t0_0)]; rfl
theorem before_2 (c : Dev nD) (d) : (dats m ρ 0 c).before 2 t0_0 d = wukB m c := by
  unfold Dat.before; rw [if_pos (fetch0_2 t0_0)]; rfl
theorem before_3 (c : Dev nD) (d) : (dats m ρ 0 c).before 3 t0_0 d = wuvB m c := by
  unfold Dat.before; rw [if_pos (fetch0_3 t0_0)]; rfl
theorem before_4 (c : Dev nD) (d) : (dats m ρ 0 c).before 4 t0_0 d = wqB m c := by
  unfold Dat.before; rw [if_pos (fetch0_4 t0_0)]; rfl
theorem before_5 (c : Dev nD) (d) : (dats m ρ 0 c).before 5 t0_0 d = wqrB m c := by
  unfold Dat.before; rw [if_pos (fetch0_5 t0_0)]; rfl
theorem before_6 (c : Dev nD) (d) : (dats m ρ 0 c).before 6 t0_0 d = wkrB m c := by
  unfold Dat.before; rw [if_pos (fetch0_6 t0_0)]; rfl
theorem before_7 (c : Dev nD) (d) : (dats m ρ 0 c).before 7 t0_0 d = woB m c := by
  unfold Dat.before; rw [if_pos (fetch0_7 t0_0)]; rfl

/-- What the pipeline hands the body at the one point. -/
def bodyPre' (c : Dev nD) : sProp 𝕄 :=
  iprop(Φ₀ m c ∗ (dats m ρ 0 c).owesAt () t0_0.castSucc
    ∗ (∃ d, stg c cc0_stg0_0 ((dats m ρ 0 c).before (0 : Fin 9) t0_0 d))
    ∗ (∃ d, stg c cc0_stg1_0 ((dats m ρ 0 c).before (1 : Fin 9) t0_0 d))
    ∗ (∃ d, stg c cc0_stg2_0 ((dats m ρ 0 c).before (2 : Fin 9) t0_0 d))
    ∗ (∃ d, stg c cc0_stg3_0 ((dats m ρ 0 c).before (3 : Fin 9) t0_0 d))
    ∗ (∃ d, stg c cc0_stg4_0 ((dats m ρ 0 c).before (4 : Fin 9) t0_0 d))
    ∗ (∃ d, stg c cc0_stg5_0 ((dats m ρ 0 c).before (5 : Fin 9) t0_0 d))
    ∗ (∃ d, stg c cc0_stg6_0 ((dats m ρ 0 c).before (6 : Fin 9) t0_0 d))
    ∗ (∃ d, stg c cc0_stg7_0 ((dats m ρ 0 c).before (7 : Fin 9) t0_0 d))
    ∗ (∃ d, stg c cc0_stg8_0 ((dats m ρ 0 c).before (8 : Fin 9) t0_0 d)))

/-- What it takes back. -/
def bodyPost' (c : Dev nD) : sProp 𝕄 :=
  iprop(Φ₁ c ∗ (dats m ρ 0 c).owesAt () t0_0.succ
    ∗ stg c cc0_stg0_0 (xB m c) ∗ stg c cc0_stg1_0 (wdB m c) ∗ stg c cc0_stg2_0 (wukB m c) ∗ stg c cc0_stg3_0 (wuvB m c)
    ∗ stg c cc0_stg4_0 (wqB m c) ∗ stg c cc0_stg5_0 (wqrB m c) ∗ stg c cc0_stg6_0 (wkrB m c) ∗ stg c cc0_stg7_0 (woB m c)
    ∗ stg c cc0_stg8_0 (outOf m c))

/-- The body's stated post is what the pipeline takes back. -/
theorem post_of (c : Dev nD) : BodyPost m c ⊢ bodyPost' m ρ c := by
  unfold BodyPost bodyPost' Φ₁ Dat.owesAt Pipeline.owesWithin
  rw [View.set_whole, View.set_whole, View.set_whole, View.set_whole, View.set_whole, View.set_whole, View.set_whole, View.set_whole, View.set_whole]
  rw [show (dats m ρ 0 c).owed t0_0.succ = 0 from rfl]
  iintro ⟨Hscr, HS0, HR0, HS1, HR1, ⟨%W', HO⟩, P0, P1, P2, P3, P4, P5, P6, P7, P8⟩
  isplitl [Hscr HS0 HR0 HS1 HR1]
  · isplitl [Hscr]; · iexact Hscr
    isplitl [HS0]; · iexact HS0
    isplitl [HR0]; · iexact HR0
    isplitl [HS1] <;> iassumption
  isplitl [HO]
  · iexists W'; isplitr; · ipureintro; exact fun _ _ => Or.inl trivial
    iexact HO
  isplitl [P0]
  · iexists _; isplitr; · (ipureintro; rfl)
    iexact P0
  isplitl [P1]
  · iexists _; isplitr; · (ipureintro; rfl)
    iexact P1
  isplitl [P2]
  · iexists _; isplitr; · (ipureintro; rfl)
    iexact P2
  isplitl [P3]
  · iexists _; isplitr; · (ipureintro; rfl)
    iexact P3
  isplitl [P4]
  · iexists _; isplitr; · (ipureintro; rfl)
    iexact P4
  isplitl [P5]
  · iexists _; isplitr; · (ipureintro; rfl)
    iexact P5
  isplitl [P6]
  · iexists _; isplitr; · (ipureintro; rfl)
    iexact P6
  isplitl [P7]
  · iexists _; isplitr; · (ipureintro; rfl)
    iexact P7
  iexists _; isplitr; · (ipureintro; rfl)
  iexact P8

/-- The library's body obligation on device c, from the body's statement. -/
theorem body_obligation_of (h : SoundBody (F := F) m) (c : Dev nD) :
    BodyObligation (dats (F := F) m ρ 0 c) (defs₀ (F := F)) 𝒱₀ () Set.univ := fun t => by
  rw [fin_N0 t]
  rw [bigSep_W0, bigSep_W0]
  simp only [owns_whole_eq]
  show bodyPre' m ρ c ⊢ wp frame (wpE (defs₀ (F := F)) 𝒱₀ c none) Set.univ
          (cc0_body (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_stg4_0) (Memref.isWhole_whole _) (Memref.whole cc0_stg5_0) (Memref.isWhole_whole _)
            (Memref.whole cc0_stg6_0) (Memref.isWhole_whole _) (Memref.whole cc0_stg7_0) (Memref.isWhole_whole _)
            (Memref.whole cc0_stg8_0) (Memref.isWhole_whole _)
            (Memref.whole cc0_scratch0) (Memref.isWhole_whole _) (Memref.whole cc0_scratch1) (Memref.isWhole_whole _)
            (Memref.whole cc0_scratch2) (Memref.isWhole_whole _) (Memref.whole cc0_scratch3) (Memref.isWhole_whole _)
            (Memref.whole cc0_scratch4) (Memref.isWhole_whole _) cc0_scratch5 cc0_scratch6) (fun _ => bodyPost' m ρ c)
  unfold bodyPre' Φ₀ start scratch Dat.owesAt Pipeline.owesWithin
  rw [show (dats m ρ 0 c).owed t0_0.castSucc = O₀ c from rfl]
  iintro ⟨⟨⟨⟨%K, Hg⟩, Hc1, Hc2, Hc3, Hlev⟩, ⟨%f0, H0⟩, ⟨%f1, H1⟩, ⟨%f2, H2⟩, ⟨%f3, H3⟩, ⟨%f4, H4⟩⟩, ⟨%W, %hW, HO⟩,
    ⟨%d0, %g0, %e0, Hs0⟩, ⟨%d1, %g1, %e1, Hs1⟩, ⟨%d2, %g2, %e2, Hs2⟩, ⟨%d3, %g3, %e3, Hs3⟩, ⟨%d4, %g4, %e4, Hs4⟩,
    ⟨%d5, %g5, %e5, Hs5⟩, ⟨%d6, %g6, %e6, Hs6⟩, ⟨%d7, %g7, %e7, Hs7⟩, ⟨%d8, %g8, %e8, Hs8⟩⟩
  have e0' : g0 = xB m c := e0.trans (before_0 m ρ c d0)
  have e1' : g1 = wdB m c := e1.trans (before_1 m ρ c d1)
  have e2' : g2 = wukB m c := e2.trans (before_2 m ρ c d2)
  have e3' : g3 = wuvB m c := e3.trans (before_3 m ρ c d3)
  have e4' : g4 = wqB m c := e4.trans (before_4 m ρ c d4)
  have e5' : g5 = wqrB m c := e5.trans (before_5 m ρ c d5)
  have e6' : g6 = wkrB m c := e6.trans (before_6 m ρ c d6)
  have e7' : g7 = woB m c := e7.trans (before_7 m ρ c d7)
  subst e0' e1' e2' e3' e4' e5' e6' e7'
  iapply (wp_mono frame (wpE (defs₀ (F := F)) 𝒱₀ c none) Set.univ (fun _ => post_of m ρ c))
  iapply (h K c W f0 f1 f2 f3 f4 g8)
  unfold BodyPre
  rw [View.set_whole, View.set_whole, View.set_whole, View.set_whole, View.set_whole, View.set_whole, View.set_whole, View.set_whole, View.set_whole]
  isplitl [Hg]; · iexact Hg
  isplitl [Hc1]; · iexact Hc1
  isplitl [Hc2]; · iexact Hc2
  isplitl [Hc3]; · iexact Hc3
  isplitl [Hlev]; · iexact Hlev
  isplitl [H0]; · iexact H0
  isplitl [H1]; · iexact H1
  isplitl [H2]; · iexact H2
  isplitl [H3]; · iexact H3
  isplitl [H4]; · iexact H4
  isplitl [HO]; · iexact HO
  isplitl [Hs0]; · iexact Hs0
  isplitl [Hs1]; · iexact Hs1
  isplitl [Hs2]; · iexact Hs2
  isplitl [Hs3]; · iexact Hs3
  isplitl [Hs4]; · iexact Hs4
  isplitl [Hs5]; · iexact Hs5
  isplitl [Hs6]; · iexact Hs6
  isplitl [Hs7]; · iexact Hs7
  iexact Hs8

/-- From any memory with zero counters, given the body's statement: every weakly fair execution of the eight devices
    terminates, each device's result array ends holding its result block, and its argument arrays end unchanged. -/
theorem run_main_of_sound (h : SoundBody (F := F) m) :
    θ_run defs (onTc (τ := τ) (main (F := F))) ⟨m, fun _ => 0, ρ⟩ (fun r => ∀ c : Dev nD,
      r.2.mem ((c.tc : Thread nD τ).loc main_v1) = outOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  run_main_of_body m ρ (body_obligation_of m ρ h)

end Cert.Kernel.Proto

end
-- ==== Proof.lean ====
/-
  Multi-head latent attention on a mesh of eight devices against the one-device reference.

  A device at (x, y, z) holds the y-th half of the 128 latent lanes of Wdkv, Wuk, Wuv and everything else whole; it
  computes its half latent, exchanges it and its up-projection rows with its peer at (x, 1 - y, z) — an entry
  handshake on the barrier semaphore, then two remote copies each with a send and a receive semaphore —, and from
  its own half followed by its peer's computes keys, values, scaled queries, scores, their exponentials (no maximum
  subtracted), the row sums' reciprocals, the averaged values and the output projection.

  The run of every device (Proof/Body.lean: one body at a symbolic device; Proof/Launch*.lean: the launch) ends with
  the argument arrays unchanged and the result block at one pure term of the device's blocks and its peer's
  (Proof/KOut.lean). That term, index by index, is the two-halves arrangement of Proof/Spec.lean (Proof/Ker*.lean);
  the reference's result is the reference arrangement (Proof/Ref*.lean); for finite inputs the two arrangements are
  one function (Proof/AttnMath.lean): the contraction over own-then-peer halves is a reordering of the contraction
  over all 128 lanes, the scale distributes over the finite score sums, softmax is invariant under subtracting the
  row maximum, and the reciprocal of the finite positive row sum factors out of the value average. Finiteness is the
  precondition, read at the device and at its peer (Proof/GlueFin.lean); a device's blocks are the halves its middle
  mesh coordinate names (Proof/Glue.lean). The word-level program's frame is the same run at the word-level instance
  (Proof/W*.lean). Proof/Assemble.lean puts the five conjuncts together.
-/
import proofs.«900377_g7700000000000378_dist_mla_v7x_xyz2x2x2_y_b2_s256_d1024_dc64_bf16_1_alg».proof.Defs
import proofs.«900377_g7700000000000378_dist_mla_v7x_xyz2x2x2_y_b2_s256_d1024_dc64_bf16_1_alg».proof.Proof.Gen.Kernel
import proofs.«900377_g7700000000000378_dist_mla_v7x_xyz2x2x2_y_b2_s256_d1024_dc64_bf16_1_alg».proof.Proof.Gen.Kernel.Skeleton
import proofs.«900377_g7700000000000378_dist_mla_v7x_xyz2x2x2_y_b2_s256_d1024_dc64_bf16_1_alg».proof.Proof.Gen.Kernel.Launch
import proofs.«900377_g7700000000000378_dist_mla_v7x_xyz2x2x2_y_b2_s256_d1024_dc64_bf16_1_alg».proof.Proof.Gen.Kernel.Points
import proofs.«900377_g7700000000000378_dist_mla_v7x_xyz2x2x2_y_b2_s256_d1024_dc64_bf16_1_alg».proof.Proof.Gen.Kernel.Frame
import proofs.«900377_g7700000000000378_dist_mla_v7x_xyz2x2x2_y_b2_s256_d1024_dc64_bf16_1_alg».proof.Proof.Gen.KernelIdeal
import proofs.«900377_g7700000000000378_dist_mla_v7x_xyz2x2x2_y_b2_s256_d1024_dc64_bf16_1_alg».proof.Proof.Gen.KernelIdeal.Skeleton
import proofs.«900377_g7700000000000378_dist_mla_v7x_xyz2x2x2_y_b2_s256_d1024_dc64_bf16_1_alg».proof.Proof.Gen.KernelIdeal.Launch
import proofs.«900377_g7700000000000378_dist_mla_v7x_xyz2x2x2_y_b2_s256_d1024_dc64_bf16_1_alg».proof.Proof.Gen.KernelIdeal.Points
import proofs.«900377_g7700000000000378_dist_mla_v7x_xyz2x2x2_y_b2_s256_d1024_dc64_bf16_1_alg».proof.Proof.Gen.KernelIdeal.Frame
import proofs.«900377_g7700000000000378_dist_mla_v7x_xyz2x2x2_y_b2_s256_d1024_dc64_bf16_1_alg».proof.Proof.Gen.ReferenceIdeal
import proofs.«900377_g7700000000000378_dist_mla_v7x_xyz2x2x2_y_b2_s256_d1024_dc64_bf16_1_alg».proof.Proof.Gen.ReferenceIdeal.Run
import proofs.«900377_g7700000000000378_dist_mla_v7x_xyz2x2x2_y_b2_s256_d1024_dc64_bf16_1_alg».proof.Proof.Gen.ReferenceIdeal.Read
import proofs.«900377_g7700000000000378_dist_mla_v7x_xyz2x2x2_y_b2_s256_d1024_dc64_bf16_1_alg».proof.Proof.Gen.Pre_finite_inputs_Kernel
import proofs.«900377_g7700000000000378_dist_mla_v7x_xyz2x2x2_y_b2_s256_d1024_dc64_bf16_1_alg».proof.Proof.Gen.Pre_finite_inputs_ReferenceIdeal
import proofs.«900377_g7700000000000378_dist_mla_v7x_xyz2x2x2_y_b2_s256_d1024_dc64_bf16_1_alg».proof.Proof.Assemble
import proofs.«900377_g7700000000000378_dist_mla_v7x_xyz2x2x2_y_b2_s256_d1024_dc64_bf16_1_alg».proof.Proof.KerSide
import proofs.«900377_g7700000000000378_dist_mla_v7x_xyz2x2x2_y_b2_s256_d1024_dc64_bf16_1_alg».proof.Proof.Body
import proofs.«900377_g7700000000000378_dist_mla_v7x_xyz2x2x2_y_b2_s256_d1024_dc64_bf16_1_alg».proof.Proof.BodyOb
import proofs.«900377_g7700000000000378_dist_mla_v7x_xyz2x2x2_y_b2_s256_d1024_dc64_bf16_1_alg».proof.Proof.WBody
import proofs.«900377_g7700000000000378_dist_mla_v7x_xyz2x2x2_y_b2_s256_d1024_dc64_bf16_1_alg».proof.Proof.WBodyOb
import Idealize.ShloMosaic.Adequacy
import Idealize.ShloMosaic.Init

noncomputable section

namespace Cert.Proof

open Idealize.ShloMosaic Idealize.SL.Sem

theorem claim : Cert.Claim :=
  Cert.Proof.Assemble.claim_of_runs
    (fun m ρ => Cert.Kernel.Proto.run_main_of_sound m ρ (Cert.Kernel.Proto.sound_body m))
    (fun m ρ => Cert.KernelIdeal.Proto.run_main_of_sound m ρ (Cert.KernelIdeal.Proto.sound_body m))
    Cert.KernelIdeal.KerValue.ker_eq

end Cert.Proof

end
